-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x512 : Shape := ⟨3, ![2048, 4, 512]⟩
abbrev S2048x2048 : Shape := ⟨2, ![2048, 2048]⟩
abbrev S512x512 : Shape := ⟨2, ![512, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S2048x4x512 : S_.BroadcastsInDim S2048x4x512 (![] : Fin 0 → Fin S2048x4x512.rank)
  reducesTo_S2048x4x512_S_d0_1_2 : S2048x4x512.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S512x512 : S_.BroadcastsInDim S512x512 (![] : Fin 0 → Fin S512x512.rank)
  reducesTo_S512x512_S_d0_1 : S512x512.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512 .f32) (main_arg13 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S2048 .f32) (main_arg8 : FVec F S512x2048 .f32) (main_arg9 : FVec F S512 .f32) (main_arg10 : FVec F S512 .f32) (main_arg11 : FVec F S512 .f32) (main_arg12 : FVec F S512 .f32) (main_arg13 : FVec F S512 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S512x2048 .f32 := Host.absf main_arg8
  let main_cst_14 : FVec F S_ .f32 := constant S_ .f32 0x7F800000#32
  let main_v40 : FVec F S512x2048 .f32 := broadcastInDim S512x2048 ![] bcast_S_S512x2048 main_cst_14
  let main_v41 : IVec S512x2048 1 := cmpf .olt main_v39 main_v40
  let main_c_15 : IVec S_ 1 := constantI S_ 1 1#1
  let main_v42 : IVec S_ 1 := (fun x v => Host.reduce IntOp.andi x v reducesTo_S512x2048_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_v48 main_v49 main_v50

def fn_part1 {F : FTy → Type} [FloatOps F] (main_arg4 : FVec F S512x512 .f32) (main_arg5 : FVec F S512x512 .f32) (main_arg6 : FVec F S2048x512 .f32) (main_arg7 : FVec F S2048 .f32) (main_arg8 : FVec F S512x2048 .f32) (main_arg9 : FVec F S512 .f32) (main_arg10 : FVec F S512 .f32) (main_arg11 : FVec F S512 .f32) (main_arg12 : FVec F S512 .f32) (main_arg13 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2048x4x512 .f32) (main_arg1 : FVec F S2048x2048 .f32) (main_arg2 : FVec F S512x512 .f32) (main_arg3 : FVec F S512x512 .f32) (main_arg4 : FVec F S512x512 .f32) (main_arg5 : FVec F S512x512 .f32) (main_arg6 : FVec F S2048x512 .f32) (main_arg7 : FVec F S2048 .f32) (main_arg8 : FVec F S512x2048 .f32) (main_arg9 : FVec F S512 .f32) (main_arg10 : FVec F S512 .f32) (main_arg11 : FVec F S512 .f32) (main_arg12 : FVec F S512 .f32) (main_arg13 : FVec F S512 .f32) : IVec S_ 1 :=
  let main_v0 : FVec F S2048x4x512 .f32 := Host.absf main_arg0
  let main_cst : FVec F S_ .f32 := constant S_ .f32 0x7F800000#32
  let main_v1 : FVec F S2048x4x512 .f32 := broadcastInDim S2048x4x512 ![] bcast_S_S2048x4x512 main_cst
  let main_v2 : IVec S2048x4x512 1 := cmpf .olt main_v0 main_v1
  let main_c : IVec S_ 1 := constantI S_ 1 1#1
  let main_v3 : IVec S_ 1 := (fun x v => Host.reduce IntOp.andi x v reducesTo_S2048x4x512_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_v13 main_v16
-- ==== Kernel.lean ====
abbrev S2048x4x512 : Shape := ⟨3, ![2048, 4, 512]⟩
abbrev S2048x2048 : Shape := ⟨2, ![2048, 2048]⟩
abbrev S512x512 : Shape := ⟨2, ![512, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S8192x512 : Shape := ⟨2, ![8192, 512]⟩
abbrev S1024x512 : Shape := ⟨2, ![1024, 512]⟩
abbrev S2048x4x8x64 : Shape := ⟨4, ![2048, 4, 8, 64]⟩
abbrev S4x8x2048x64 : Shape := ⟨4, ![4, 8, 2048, 64]⟩
abbrev S32x2048x64 : Shape := ⟨3, ![32, 2048, 64]⟩
abbrev S1x2048x64 : Shape := ⟨3, ![1, 2048, 64]⟩
abbrev S1x512x64 : Shape := ⟨3, ![1, 512, 64]⟩
abbrev S1x2048x1 : Shape := ⟨3, ![1, 2048, 1]⟩
abbrev S1x2048x512 : Shape := ⟨3, ![1, 2048, 512]⟩
abbrev S1x2048 : Shape := ⟨2, ![1, 2048]⟩
abbrev S1x512 : Shape := ⟨2, ![1, 512]⟩
abbrev S512x1 : Shape := ⟨2, ![512, 1]⟩

abbrev nBuf : Space → Nat
  | .hbm => 45
  | .vmem => 38
  | .smem => 0
  | _ => 0

abbrev bufTy : (tb : Table) → Fin (tcTables nBuf tb) → BufTy
  | .hbm, ⟨0, _⟩ => ⟨S2048x4x512, .f32⟩
  | .hbm, ⟨1, _⟩ => ⟨S2048x2048, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S2048x512, .f32⟩
  | .hbm, ⟨7, _⟩ => ⟨S2048, .f32⟩
  | .hbm, ⟨8, _⟩ => ⟨S512x2048, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S8192x512, .f32⟩
  | .hbm, ⟨15, _⟩ => ⟨S512x512, .bf16⟩
  | .hbm, ⟨16, _⟩ => ⟨S512x512, .bf16⟩
  | .hbm, ⟨17, _⟩ => ⟨S512x512, .bf16⟩
  | .hbm, ⟨18, _⟩ => ⟨S512x512, .bf16⟩
  | .hbm, ⟨19, _⟩ => ⟨S2048x512, .bf16⟩
  | .hbm, ⟨20, _⟩ => ⟨S512x2048, .bf16⟩
  | .hbm, ⟨21, _⟩ => ⟨S8192x512, .bf16⟩
  | .hbm, ⟨22, _⟩ => ⟨S8192x512, .bf16⟩
  | .hbm, ⟨23, _⟩ => ⟨S8192x512, .bf16⟩
  | .hbm, ⟨24, _⟩ => ⟨S2048x4x8x64, .bf16⟩
  | .hbm, ⟨25, _⟩ => ⟨S4x8x2048x64, .bf16⟩
  | .hbm, ⟨26, _⟩ => ⟨S32x2048x64, .bf16⟩
  | .hbm, ⟨27, _⟩ => ⟨S2048x4x8x64, .bf16⟩
  | .hbm, ⟨28, _⟩ => ⟨S4x8x2048x64, .bf16⟩
  | .hbm, ⟨29, _⟩ => ⟨S32x2048x64, .bf16⟩
  | .hbm, ⟨30, _⟩ => ⟨S2048x4x8x64, .bf16⟩
  | .hbm, ⟨31, _⟩ => ⟨S4x8x2048x64, .bf16⟩
  | .hbm, ⟨32, _⟩ => ⟨S32x2048x64, .bf16⟩
  | .hbm, ⟨33, _⟩ => ⟨S32x2048x64, .bf16⟩
  | .hbm, ⟨34, _⟩ => ⟨S4x8x2048x64, .bf16⟩
  | .hbm, ⟨35, _⟩ => ⟨S2048x4x8x64, .bf16⟩
  | .hbm, ⟨36, _⟩ => ⟨S8192x512, .bf16⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x2048, .f32⟩
  | .hbm, ⟨42, _⟩ => ⟨S1x512, .f32⟩
  | .hbm, ⟨43, _⟩ => ⟨S8192x512, .f32⟩
  | .hbm, ⟨44, _⟩ => ⟨S2048x4x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S2048x2048, .f32⟩
  | .local _ .vmem, ⟨18, _⟩ => ⟨S1x2048x64, .bf16⟩
  | .local _ .vmem, ⟨19, _⟩ => ⟨S1x2048x64, .bf16⟩
  | .local _ .vmem, ⟨20, _⟩ => ⟨S1x2048x1, .f32⟩
  | .local _ .vmem, ⟨21, _⟩ => ⟨S1x2048x1, .f32⟩
  | .local _ .vmem, ⟨22, _⟩ => ⟨S1x2048x64, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S1x512, .f32⟩
  | .local _ .vmem, ⟨29, _⟩ => ⟨S1x512, .f32⟩
  | .local _ .vmem, ⟨30, _⟩ => ⟨S2048x512, .bf16⟩
  | .local _ .vmem, ⟨31, _⟩ => ⟨S1x2048, .f32⟩
  | .local _ .vmem, ⟨32, _⟩ => ⟨S512x2048, .bf16⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S512x512, .f32⟩
  | .local _ .vmem, ⟨37, _⟩ => ⟨S512x512, .f32⟩
  | _, _ => ⟨S2048x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg11_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem11_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 4], ![false, false]⟩

def k1_mult1 (i : grid1.Coords) : BitVec 32 :=
  let arg1 : BitVec 32 := BitVec.ofNat 32 (i 1).val
  let c512_i32 : BitVec 32 := 512#32
  let v9 : BitVec 32 := Scalar.muli arg1 c512_i32
  v9
def k1_off1 (i : grid1.Coords) : Fin 2 → Nat :=
  let c0_9 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  ![0, v11.toNat]
def k1_cond2 (i : grid1.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_35 : BitVec 32 := 0#32
  let v50 : BitVec 1 := Scalar.cmpi .ne v49 c0_i32_35
  v50

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x2048 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S512x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  shapeCasts_S2048x4x512_S8192x512 : S2048x4x512.ShapeCasts S8192x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  shapeCasts_S8192x512_S2048x4x8x64 : S8192x512.ShapeCasts S2048x4x8x64
  transposes_S2048x4x8x64_S4x8x2048x64_1_2_0_3 : S2048x4x8x64.Transposes [1, 2, 0, 3] S4x8x2048x64
  shapeCasts_S4x8x2048x64_S32x2048x64 : S4x8x2048x64.ShapeCasts S32x2048x64
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  h_S2048x512 : 0 < S2048x512.numel
  shapeCasts_S2048x512_S1x2048x512 : S2048x512.ShapeCasts S1x2048x512
  reduces_S1x2048x512_S1x2048 : S1x2048x512.Reduces [2] S1x2048
  shapeCasts_S1x2048_S1x2048x1 : S1x2048.ShapeCasts S1x2048x1
  broadcasts_S1x2048x1_S1x2048x512 : S1x2048x1.Broadcasts S1x2048x512
  broadcasts_S1x2048x1_S1x2048x64 : S1x2048x1.Broadcasts S1x2048x64
  packedbf16_S1x2048x64_S1x2048x64_0_0_0 : (Rect.unit (s := S1x2048x64) ![0, 0, 0] S1x2048x64.size inb_S1x2048x64_S1x2048x64_0_0_0).PackedRows (EltTy.packing .bf16)
  shapeCasts_S32x2048x64_S4x8x2048x64 : S32x2048x64.ShapeCasts S4x8x2048x64
  transposes_S4x8x2048x64_S2048x4x8x64_2_0_1_3 : S4x8x2048x64.Transposes [2, 0, 1, 3] S2048x4x8x64
  shapeCasts_S2048x4x8x64_S8192x512 : S2048x4x8x64.ShapeCasts S8192x512
  shapeCasts_S512_S1x512 : S512.ShapeCasts S1x512
  shapeCasts_S2048_S1x2048 : S2048.ShapeCasts S1x2048
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x512_S2048x512_0_0 : ∀ a, (![0, 0] : Fin 2 → Nat) a + S2048x512.size a ≤ S2048x512.size a
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8192x512_S2048x4x512 : S8192x512.ShapeCasts S2048x4x512
  dot_S1024x512_S512x512_S1024x512_1_1_0_0_n_n_wf : DotDims.WF S1024x512 S512x512 S1024x512 [1] [1] [0] [0] [] []
  dot_S1x2048x64_S1x512x64_S1x2048x512_2_2_1_1_0_0_wf : DotDims.WF S1x2048x64 S1x512x64 S1x2048x512 [2] [2] [1] [1] [0] [0]
  dot_S1x2048x512_S1x512x64_S1x2048x64_2_1_1_2_0_0_wf : DotDims.WF S1x2048x512 S1x512x64 S1x2048x64 [2] [1] [1] [2] [0] [0]
  dot_S512x512_S512x512_S512x512_1_1_0_0_n_n_wf : DotDims.WF S512x512 S512x512 S512x512 [1] [1] [0] [0] [] []
  dot_S512x512_S2048x512_S512x2048_1_1_0_0_n_n_wf : DotDims.WF S512x512 S2048x512 S512x2048 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S2048x512.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S32x2048x64.size a
  hwx1_0 : ∀ i : grid1.Coords, EltTy.bits .bf16 = 32 ∨ (Rect.block (s := S32x2048x64) S1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x2048x64.size a
  hwx1_1 : ∀ i : grid1.Coords, EltTy.bits .bf16 = 32 ∨ (Rect.block (s := S32x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S32x2048x64.size a
  hwx1_2 : ∀ i : grid1.Coords, EltTy.bits .bf16 = 32 ∨ (Rect.block (s := S32x2048x64) S1x512x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .f32 = 32 ∨ (Rect.block (s := S2048x2048) S2048x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x64.size a ≤ S32x2048x64.size a
  hwx1_4 : ∀ i : grid1.Coords, EltTy.bits .bf16 = 32 ∨ (Rect.block (s := S32x2048x64) S1x2048x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x512.size a
  hwx2_0 : ∀ i : grid2.Coords, EltTy.bits .bf16 = 32 ∨ (Rect.block (s := S8192x512) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x512.size a
  hwx2_2 : ∀ i : grid2.Coords, EltTy.bits .f32 = 32 ∨ (Rect.block (s := S8192x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x512.size a ≤ S2048x512.size a
  hwx2_5 : ∀ i : grid2.Coords, EltTy.bits .bf16 = 32 ∨ (Rect.block (s := S2048x512) S2048x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x2048.size a ≤ S512x2048.size a
  hwx2_7 : ∀ i : grid2.Coords, EltTy.bits .bf16 = 32 ∨ (Rect.block (s := S512x2048) S512x2048.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x512.size a ≤ S1x512.size a
  hwx2_9 : ∀ i : grid2.Coords, EltTy.bits .f32 = 32 ∨ (Rect.block (s := S1x512) S1x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x512.size a ≤ S1x512.size a
  hwx2_10 : ∀ i : grid2.Coords, EltTy.bits .f32 = 32 ∨ (Rect.block (s := S1x512) S1x512.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S512x512.size a ≤ S8192x512.size a
  hwx2_11 : ∀ i : grid2.Coords, EltTy.bits .f32 = 32 ∨ (Rect.block (s := S8192x512) S512x512.size (cc2_transform_11 i) (hinb2_11 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1x2048x64_S1x512x64_S1x2048x512_2_2_1_1_0_0 : DotDims S1x2048x64 S1x512x64 S1x2048x512 where
  lhsContracting := [2]
  rhsContracting := [2]
  lhsNonContracting := [1]
  rhsNonContracting := [1]
  lhsBatch := [0]
  rhsBatch := [0]
  wf := dot_S1x2048x64_S1x512x64_S1x2048x512_2_2_1_1_0_0_wf
def dot_S1x2048x512_S1x512x64_S1x2048x64_2_1_1_2_0_0 : DotDims S1x2048x512 S1x512x64 S1x2048x64 where
  lhsContracting := [2]
  rhsContracting := [1]
  lhsNonContracting := [1]
  rhsNonContracting := [2]
  lhsBatch := [0]
  rhsBatch := [0]
  wf := dot_S1x2048x512_S1x512x64_S1x2048x64_2_1_1_2_0_0_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v20) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S2048x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S512x2048.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v26) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23) S1x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v24) S1x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v27) S512x512.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S2048x4x512 : Shape := ⟨3, ![2048, 4, 512]⟩
abbrev S2048x2048 : Shape := ⟨2, ![2048, 2048]⟩
abbrev S512x512 : Shape := ⟨2, ![512, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S2048x32x64 : Shape := ⟨3, ![2048, 32, 64]⟩
abbrev S32x2048x64 : Shape := ⟨3, ![32, 2048, 64]⟩
abbrev S32x2048x2048 : Shape := ⟨3, ![32, 2048, 2048]⟩
abbrev S1x2048x2048 : Shape := ⟨3, ![1, 2048, 2048]⟩
abbrev S_ : Shape := ⟨0, ![]⟩
abbrev S32x2048 : Shape := ⟨2, ![32, 2048]⟩
abbrev S32x2048x1 : Shape := ⟨3, ![32, 2048, 1]⟩
abbrev S2048x4 : Shape := ⟨2, ![2048, 4]⟩
abbrev S2048x4x1 : Shape := ⟨3, ![2048, 4, 1]⟩
abbrev S1x1x512 : Shape := ⟨3, ![1, 1, 512]⟩
abbrev S2048x4x2048 : Shape := ⟨3, ![2048, 4, 2048]⟩
abbrev S1x1x2048 : Shape := ⟨3, ![1, 1, 2048]⟩

abbrev nBuf : Space → Nat
  | .hbm => 119
  | .vmem => 0
  | .smem => 0
  | _ => 0

abbrev bufTy : (tb : Table) → Fin (tcTables nBuf tb) → BufTy
  | .hbm, ⟨0, _⟩ => ⟨S2048x4x512, .f32⟩
  | .hbm, ⟨1, _⟩ => ⟨S2048x2048, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S2048x512, .f32⟩
  | .hbm, ⟨7, _⟩ => ⟨S2048, .f32⟩
  | .hbm, ⟨8, _⟩ => ⟨S512x2048, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S2048x4x512, .f32⟩
  | .hbm, ⟨15, _⟩ => ⟨S2048x32x64, .f32⟩
  | .hbm, ⟨16, _⟩ => ⟨S32x2048x64, .f32⟩
  | .hbm, ⟨17, _⟩ => ⟨S2048x4x512, .f32⟩
  | .hbm, ⟨18, _⟩ => ⟨S2048x32x64, .f32⟩
  | .hbm, ⟨19, _⟩ => ⟨S32x2048x64, .f32⟩
  | .hbm, ⟨20, _⟩ => ⟨S2048x4x512, .f32⟩
  | .hbm, ⟨21, _⟩ => ⟨S2048x32x64, .f32⟩
  | .hbm, ⟨22, _⟩ => ⟨S32x2048x64, .f32⟩
  | .hbm, ⟨23, _⟩ => ⟨S32x2048x2048, .f32⟩
  | .hbm, ⟨24, _⟩ => ⟨S1x2048x2048, .f32⟩
  | .hbm, ⟨25, _⟩ => ⟨S32x2048x2048, .f32⟩
  | .hbm, ⟨26, _⟩ => ⟨S32x2048x2048, .f32⟩
  | .hbm, ⟨27, _⟩ => ⟨S_, .f32⟩
  | .hbm, ⟨28, _⟩ => ⟨S32x2048x2048, .f32⟩
  | .hbm, ⟨29, _⟩ => ⟨S32x2048x2048, .f32⟩
  | .hbm, ⟨30, _⟩ => ⟨S_, .f32⟩
  | .hbm, ⟨31, _⟩ => ⟨S32x2048, .f32⟩
  | .hbm, ⟨32, _⟩ => ⟨S_, .f32⟩
  | .hbm, ⟨33, _⟩ => ⟨S32x2048, .f32⟩
  | .hbm, ⟨34, _⟩ => ⟨S32x2048, .f32⟩
  | .hbm, ⟨35, _⟩ => ⟨S32x2048x1, .f32⟩
  | .hbm, ⟨36, _⟩ => ⟨S32x2048x2048, .f32⟩
  | .hbm, ⟨37, _⟩ => ⟨S32x2048x2048, .f32⟩
  | .hbm, ⟨38, _⟩ => ⟨S32x2048x2048, .f32⟩
  | .hbm, ⟨39, _⟩ => ⟨S_, .f32⟩
  | .hbm, ⟨40, _⟩ => ⟨S32x2048, .f32⟩
  | .hbm, ⟨41, _⟩ => ⟨S32x2048x1, .f32⟩
  | .hbm, ⟨42, _⟩ => ⟨S32x2048x2048, .f32⟩
  | .hbm, ⟨43, _⟩ => ⟨S32x2048x2048, .f32⟩
  | .hbm, ⟨44, _⟩ => ⟨S32x2048x64, .f32⟩
  | .hbm, ⟨45, _⟩ => ⟨S2048x32x64, .f32⟩
  | .hbm, ⟨46, _⟩ => ⟨S2048x4x512, .f32⟩
  | .hbm, ⟨47, _⟩ => ⟨S2048x4x512, .f32⟩
  | .hbm, ⟨48, _⟩ => ⟨S2048x4x512, .f32⟩
  | .hbm, ⟨49, _⟩ => ⟨S_, .f32⟩
  | .hbm, ⟨50, _⟩ => ⟨S2048x4, .f32⟩
  | .hbm, ⟨51, _⟩ => ⟨S2048x4x1, .f32⟩
  | .hbm, ⟨52, _⟩ => ⟨S_, .f32⟩
  | .hbm, ⟨53, _⟩ => ⟨S2048x4x1, .f32⟩
  | .hbm, ⟨54, _⟩ => ⟨S2048x4x1, .f32⟩
  | .hbm, ⟨55, _⟩ => ⟨S2048x4x512, .f32⟩
  | .hbm, ⟨56, _⟩ => ⟨S2048x4x512, .f32⟩
  | .hbm, ⟨57, _⟩ => ⟨S2048x4x512, .f32⟩
  | .hbm, ⟨58, _⟩ => ⟨S_, .f32⟩
  | .hbm, ⟨59, _⟩ => ⟨S2048x4, .f32⟩
  | .hbm, ⟨60, _⟩ => ⟨S2048x4x1, .f32⟩
  | .hbm, ⟨61, _⟩ => ⟨S_, .f32⟩
  | .hbm, ⟨62, _⟩ => ⟨S2048x4x1, .f32⟩
  | .hbm, ⟨63, _⟩ => ⟨S2048x4x1, .f32⟩
  | .hbm, ⟨64, _⟩ => ⟨S2048x4x512, .f32⟩
  | .hbm, ⟨65, _⟩ => ⟨S2048x4x512, .f32⟩
  | .hbm, ⟨66, _⟩ => ⟨S_, .f32⟩
  | .hbm, ⟨67, _⟩ => ⟨S2048x4x1, .f32⟩
  | .hbm, ⟨68, _⟩ => ⟨S2048x4x1, .f32⟩
  | .hbm, ⟨69, _⟩ => ⟨S2048x4x1, .f32⟩
  | .hbm, ⟨70, _⟩ => ⟨S2048x4x512, .f32⟩
  | .hbm, ⟨71, _⟩ => ⟨S2048x4x512, .f32⟩
  | .hbm, ⟨72, _⟩ => ⟨S1x1x512, .f32⟩
  | .hbm, ⟨73, _⟩ => ⟨S2048x4x512, .f32⟩
  | .hbm, ⟨74, _⟩ => ⟨S2048x4x512, .f32⟩
  | .hbm, ⟨75, _⟩ => ⟨S1x1x512, .f32⟩
  | .hbm, ⟨76, _⟩ => ⟨S2048x4x512, .f32⟩
  | .hbm, ⟨77, _⟩ => ⟨S2048x4x512, .f32⟩
  | .hbm, ⟨78, _⟩ => ⟨S2048x4x2048, .f32⟩
  | .hbm, ⟨79, _⟩ => ⟨S1x1x2048, .f32⟩
  | .hbm, ⟨80, _⟩ => ⟨S2048x4x2048, .f32⟩
  | .hbm, ⟨81, _⟩ => ⟨S2048x4x2048, .f32⟩
  | .hbm, ⟨82, _⟩ => ⟨S_, .f32⟩
  | .hbm, ⟨83, _⟩ => ⟨S2048x4x2048, .f32⟩
  | .hbm, ⟨84, _⟩ => ⟨S2048x4x2048, .f32⟩
  | .hbm, ⟨85, _⟩ => ⟨S2048x4x512, .f32⟩
  | .hbm, ⟨86, _⟩ => ⟨S1x1x512, .f32⟩
  | .hbm, ⟨87, _⟩ => ⟨S2048x4x512, .f32⟩
  | .hbm, ⟨88, _⟩ => ⟨S2048x4x512, .f32⟩
  | .hbm, ⟨89, _⟩ => ⟨S2048x4x512, .f32⟩
  | .hbm, ⟨90, _⟩ => ⟨S_, .f32⟩
  | .hbm, ⟨91, _⟩ => ⟨S2048x4, .f32⟩
  | .hbm, ⟨92, _⟩ => ⟨S2048x4x1, .f32⟩
  | .hbm, ⟨93, _⟩ => ⟨S_, .f32⟩
  | .hbm, ⟨94, _⟩ => ⟨S2048x4x1, .f32⟩
  | .hbm, ⟨95, _⟩ => ⟨S2048x4x1, .f32⟩
  | .hbm, ⟨96, _⟩ => ⟨S2048x4x512, .f32⟩
  | .hbm, ⟨97, _⟩ => ⟨S2048x4x512, .f32⟩
  | .hbm, ⟨98, _⟩ => ⟨S2048x4x512, .f32⟩
  | .hbm, ⟨99, _⟩ => ⟨S_, .f32⟩
  | .hbm, ⟨100, _⟩ => ⟨S2048x4, .f32⟩
  | .hbm, ⟨101, _⟩ => ⟨S2048x4x1, .f32⟩
  | .hbm, ⟨102, _⟩ => ⟨S_, .f32⟩
  | .hbm, ⟨103, _⟩ => ⟨S2048x4x1, .f32⟩
  | .hbm, ⟨104, _⟩ => ⟨S2048x4x1, .f32⟩
  | .hbm, ⟨105, _⟩ => ⟨S2048x4x512, .f32⟩
  | .hbm, ⟨106, _⟩ => ⟨S2048x4x512, .f32⟩
  | .hbm, ⟨107, _⟩ => ⟨S_, .f32⟩
  | .hbm, ⟨108, _⟩ => ⟨S2048x4x1, .f32⟩
  | .hbm, ⟨109, _⟩ => ⟨S2048x4x1, .f32⟩
  | .hbm, ⟨110, _⟩ => ⟨S2048x4x1, .f32⟩
  | .hbm, ⟨111, _⟩ => ⟨S2048x4x512, .f32⟩
  | .hbm, ⟨112, _⟩ => ⟨S2048x4x512, .f32⟩
  | .hbm, ⟨113, _⟩ => ⟨S1x1x512, .f32⟩
  | .hbm, ⟨114, _⟩ => ⟨S2048x4x512, .f32⟩
  | .hbm, ⟨115, _⟩ => ⟨S2048x4x512, .f32⟩
  | .hbm, ⟨116, _⟩ => ⟨S1x1x512, .f32⟩
  | .hbm, ⟨117, _⟩ => ⟨S2048x4x512, .f32⟩
  | .hbm, ⟨118, _⟩ => ⟨S2048x4x512, .f32⟩
  | _, _ => ⟨S2048x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_cst : Ref sig .tc := ⟨.hbm, 82, rfl⟩
abbrev main_call0_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  shapeCasts_S2048x4x512_S2048x32x64 : S2048x4x512.ShapeCasts S2048x32x64
  transposes_S2048x32x64_S32x2048x64_1_0_2 : S2048x32x64.Transposes [1, 0, 2] S32x2048x64
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x64_S2048x32x64_1_0_2 : S32x2048x64.Transposes [1, 0, 2] S2048x32x64
  shapeCasts_S2048x32x64_S2048x4x512 : S2048x32x64.ShapeCasts S2048x4x512
  reducesTo_S2048x4x512_S2048x4_d2 : S2048x4x512.ReducesTo [2] S2048x4
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x512_0_1_2 : S2048x4x1.BroadcastsInDim S2048x4x512 (![0, 1, 2] : Fin 3 → Fin S2048x4x512.rank)
  bcast_S512_S1x1x512_2 : S512.BroadcastsInDim S1x1x512 (![2] : Fin 1 → Fin S1x1x512.rank)
  bcast_S1x1x512_S2048x4x512_0_1_2 : S1x1x512.BroadcastsInDim S2048x4x512 (![0, 1, 2] : Fin 3 → Fin S2048x4x512.rank)
  bcast_S2048_S1x1x2048_2 : S2048.BroadcastsInDim S1x1x2048 (![2] : Fin 1 → Fin S1x1x2048.rank)
  bcast_S1x1x2048_S2048x4x2048_0_1_2 : S1x1x2048.BroadcastsInDim S2048x4x2048 (![0, 1, 2] : Fin 3 → Fin S2048x4x2048.rank)
  bcast_S_S2048x4x2048 : S_.BroadcastsInDim S2048x4x2048 (![] : Fin 0 → Fin S2048x4x2048.rank)
  dot_S2048x4x512_S512x512_S2048x4x512_2_1_01_0_n_n_wf : DotDims.WF S2048x4x512 S512x512 S2048x4x512 [2] [1] [0, 1] [0] [] []
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]
  dot_S2048x4x512_S2048x512_S2048x4x2048_2_1_01_0_n_n_wf : DotDims.WF S2048x4x512 S2048x512 S2048x4x2048 [2] [1] [0, 1] [0] [] []
  dot_S2048x4x2048_S512x2048_S2048x4x512_2_1_01_0_n_n_wf : DotDims.WF S2048x4x2048 S512x2048 S2048x4x512 [2] [1] [0, 1] [0] [] []

variable [Facts₀]

def dot_S2048x4x512_S512x512_S2048x4x512_2_1_01_0_n_n : DotDims S2048x4x512 S512x512 S2048x4x512 where
  lhsContracting := [2]
  rhsContracting := [1]
  lhsNonContracting := [0, 1]
  rhsNonContracting := [0]
  lhsBatch := []
  rhsBatch := []
  wf := dot_S2048x4x512_S512x512_S2048x4x512_2_1_01_0_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf
def dot_S2048x4x512_S2048x512_S2048x4x2048_2_1_01_0_n_n : DotDims S2048x4x512 S2048x512 S2048x4x2048 where
  lhsContracting := [2]
  rhsContracting := [1]
  lhsNonContracting := [0, 1]
  rhsNonContracting := [0]
  lhsBatch := []
  rhsBatch := []
  wf := dot_S2048x4x512_S2048x512_S2048x4x2048_2_1_01_0_n_n_wf
def dot_S2048x4x2048_S512x2048_S2048x4x512_2_1_01_0_n_n : DotDims S2048x4x2048 S512x2048 S2048x4x512 where
  lhsContracting := [2]
  rhsContracting := [1]
  lhsNonContracting := [0, 1]
  rhsNonContracting := [0]
  lhsBatch := []
  rhsBatch := []
  wf := dot_S2048x4x2048_S512x2048_S2048x4x512_2_1_01_0_n_n_wf

class Facts : Prop extends Facts₀ where

variable [Facts]
-- ==== Proof.ProjBodyBits.lean ====
/-
  The projection region (three products of one row block of the activations with the three weight matrices): what
  one grid point does to its staging buffers, for any float instance. The row block and the three weights are read, never
  written; each of the three output buffers is stored whole, once, with a product that depends only on the row block and
  one weight. So after the body each input buffer still holds its block and each output buffer holds that product.
-/
import proofs.«159339_j34729105555459_2_alg».proof.Proof.Gen.Kernel.Launch
import proofs.«159339_j34729105555459_2_alg».proof.Proof.Gen.Kernel.Skeleton
import proofs.«159339_j34729105555459_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index does not move is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0

/-! ## What the body leaves in each output buffer -/

/-- The first output buffer after the body: the product of the row block with the first weight. -/
def out0_4 (x0 : Vec F S1024x512 .f32) (x1 : Vec F S512x512 .bf16) : Vec F S1024x512 .bf16 :=
  View.canon [⟨rRows, k0_pay2 (View.ld x0 rRows) (View.ld x1 rWeight)⟩]
/-- The second: with the second weight. -/
def out0_5 (x0 : Vec F S1024x512 .f32) (x2 : Vec F S512x512 .bf16) : Vec F S1024x512 .bf16 :=
  View.canon [⟨rRows, k0_pay3 (View.ld x0 rRows) (View.ld x2 rWeight)⟩]
/-- The third: with the third weight. -/
def out0_6 (x0 : Vec F S1024x512 .f32) (x3 : Vec F S512x512 .bf16) : Vec F S1024x512 .bf16 :=
  View.canon [⟨rRows, k0_pay4 (View.ld x0 rRows) (View.ld x3 rWeight)⟩]

/-- One whole-buffer store covers the buffer. -/
theorem cover0 (p0 : Vec F S1024x512 .bf16) (y : S1024x512.Idx) :
    ∃ pc ∈ ([⟨rRows, p0⟩] : List (View.Piece (Elt F) S1024x512 .bf16)), y ∈ pc.1.set :=
  View.cover_of_tiled [⟨rRows, p0⟩] S1024x512.size (by rfl) y

/-! ## The body's triple -/

set_option maxHeartbeats 4000000 in
/-- The body on whole staging buffers, the inputs' at read contents `x0 … x3` and the outputs' at anything, runs to the
    continuation with the inputs' as they were and each output's at its product. -/
theorem sound_kernel0 (c : Dev nD) (E : Set ℕ) (i : grid0.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x0 : Vec F S1024x512 .f32) (x1 x2 x3 : Vec F S512x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The region's proof data on core `c`: the arrays as the region finds them; after the body at a point each input buffer at
    its block and each output buffer at its product of the input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.PostBodyBits.lean ====
/-
  The output-projection / feed-forward region: what one grid point does to its staging buffers, for any float instance. Eleven
  buffers are read and never written (a row block of the attention output and of the activations, four weight matrices, five
  rows of biases and scales); the one output buffer is stored whole, once, with a value that is a function of those eleven. So
  after the body each input buffer still holds its block and the output buffer holds that value.
-/
import proofs.«159339_j34729105555459_2_alg».proof.Proof.Gen.Kernel.Launch
import proofs.«159339_j34729105555459_2_alg».proof.Proof.Gen.Kernel.Skeleton
import proofs.«159339_j34729105555459_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rSq : Rect S512x512 := Rect.unit (s := S512x512) ![0, 0] S512x512.size inb_S512x512_S512x512_0_0
abbrev rRow : Rect S1x512 := Rect.unit (s := S1x512) ![0, 0] S1x512.size inb_S1x512_S1x512_0_0
abbrev rUp : Rect S2048x512 := Rect.unit (s := S2048x512) ![0, 0] S2048x512.size inb_S2048x512_S2048x512_0_0
abbrev rUpBias : Rect S1x2048 := Rect.unit (s := S1x2048) ![0, 0] S1x2048.size inb_S1x2048_S1x2048_0_0
abbrev rDown : Rect S512x2048 := Rect.unit (s := S512x2048) ![0, 0] S512x2048.size inb_S512x2048_S512x2048_0_0

/-! ## What the body leaves in the output buffer -/

/-- The output buffer after the body, as a function of the eleven input buffers' contents. -/
def out2_11 (x0 : Vec F S512x512 .bf16) (x1 : Vec F S512x512 .bf16) (x2 : Vec F S512x512 .f32) (x3 : Vec F S1x512 .f32) (x4 : Vec F S1x512 .f32) (x5 : Vec F S2048x512 .bf16) (x6 : Vec F S1x2048 .f32) (x7 : Vec F S512x2048 .bf16) (x8 : Vec F S1x512 .f32) (x9 : Vec F S1x512 .f32) (x10 : Vec F S1x512 .f32) : Vec F S512x512 .f32 :=
  View.canon [⟨rSq, k2_pay3 (k2_pay1 (View.ld x0 rSq) (View.ld x1 rSq) (View.ld x2 rSq) (View.ld x3 rRow) (View.ld x4 rRow)) (k2_pay2 (View.ld x0 rSq) (View.ld x1 rSq) (View.ld x2 rSq) (View.ld x3 rRow) (View.ld x4 rRow) (View.ld x5 rUp)) (View.ld x6 rUpBias) (View.ld x7 rDown) (View.ld x8 rRow) (View.ld x9 rRow) (View.ld x10 rRow)⟩]

/-- One whole-buffer store covers the buffer. -/
theorem cover2 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

/-! ## The body's triple -/

set_option maxHeartbeats 8000000 in
/-- The body on whole staging buffers, the inputs' at read contents and the output's at anything, runs to the continuation
    with the inputs' as they were and the output's at its value. -/
theorem sound_kernel2 (c : Dev nD) (E : Set ℕ) (i : grid2.Coords)
    (arg1 : Memref sig .tc .vmem S512x512 .bf16) (harg1 : arg1.IsWhole) (arg2 : Memref sig .tc .vmem S512x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2048x512 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole)
    (x0 : Vec F S512x512 .bf16) (x1 : Vec F S512x512 .bf16) (x2 : Vec F S512x512 .f32) (x3 : Vec F S1x512 .f32) (x4 : Vec F S1x512 .f32) (x5 : Vec F S2048x512 .bf16) (x6 : Vec F S1x2048 .f32) (x7 : Vec F S512x2048 .bf16) (x8 : Vec F S1x512 .f32) (x9 : Vec F S1x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out2_11 x0 x1 x2 x3 x4 x5 x6 x7 x8 x9 x10)) -∗ K ⟨⟩))
      ⊢ wp frame (wpE (defs₀ (F := F)) Variants.none c none) E (cc2__post_kernel i arg1 harg1 arg2 harg2 arg3 harg3 arg4 harg4 arg5 harg5 arg6 harg6 arg7 harg7 arg8 harg8 arg9 harg9 arg10 harg10 arg11 harg11 arg12 harg12) K := by
  simp only [cc2__post_kernel_eq_skeleton]; unfold cc2__post_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover2 _)

/-! ## The pipeline's proof data -/

/-- The region's proof data on core `c`: the arrays as the region finds them; after the body at a point each input buffer at
    its block and the output buffer at its value of the input blocks; nothing carried, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.RunBits.lean ====
/-
  The whole program as a run of seven segments — four stretches of host operations and the three kernel regions between
  them — for any float instance. The contents of every buffer at each segment boundary are a fold from the launch memory:
  a host stretch applies its operations; a region leaves each of its arrays at what its write-backs add up to and every
  other buffer as it found it. No stretch and no region writes an argument, so the fold at an argument's buffer walks back to
  the launch memory; and the last boundary's contents are what the final state holds, buffer by buffer.
-/
import proofs.«159339_j34729105555459_2_alg».proof.Proof.Gen.Kernel.Launch
import proofs.«159339_j34729105555459_2_alg».proof.Proof.Gen.Kernel.Skeleton
import proofs.«159339_j34729105555459_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«159339_j34729105555459_2_alg».proof.Proof.Gen.Kernel.Regions
import proofs.«159339_j34729105555459_2_alg».proof.Proof.ProjBodyBits
import proofs.«159339_j34729105555459_2_alg».proof.Proof.PostBodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the assembly needs of the attention region's half: proof data at any region-entry contents whose arrays are those
    contents, at full shares, owing nothing, with the body obligation, and an invariant that starts from and ends in the
    plain "scoped rest and generator register". -/
structure AttnHalf (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  A_eq : ∀ V c w, (dat V c).A w = V c (Pipeline.arrRef spec1 w)
  share : ∀ V c w, (dat V c).q w = fullShare
  owed : ∀ V c t, (dat V c).owed t = 0
  recorded : ∀ V c t, (dat V c).recorded t = Set.univ
  body : ∀ V c, BodyObligation (dat V c) (defs₀ (F := F)) Variants.none () Set.univ
  hin : ∀ V c, Pipeline.ΦA (U := UR sig nD τ) (Val := Elt F) spec1 c ⊢ (dat V c).Φ 0
  hout : ∀ V c, (dat V c).Φ (Fin.last cfg1.N) ⊢ Pipeline.ΦA (U := UR sig nD τ) (Val := Elt F) spec1 c

variable (A : AttnHalf F)
variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (A.dat (V3 m ρ) c).arrAt w cfg1.N
theorem W4_arr (c : Dev nD) (w : Fin cfg1.W) :
    W4 A m ρ c (Proc.devRef .tc (Pipeline.arrRef spec1 w)) = (A.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 A m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 A m ρ c b
theorem hF1 (c : Dev nD) (w : Fin cfg1.W) : (A.dat (V3 m ρ) c).arrAt w cfg1.N = V4 A m ρ c (Pipeline.arrRef spec1 w) :=
  (W4_arr A m ρ c w).symm
theorem hrest1 (c : Dev nD) : ∀ b, b ∉ Finset.univ.image (Pipeline.arrRef spec1) → V4 A m ρ c b = V3 m ρ c b :=
  fun b hb => W4_of_ne A m ρ c b fun w e => hb (Finset.mem_image.mpr ⟨w, Finset.mem_univ _, e⟩)

/-- After the third host stretch (the last region's entry). -/
abbrev W5 : Dev nD → Valuation τ sig (Elt F) := fun c => StableHlo.after hostOps2 (W4 A m ρ c)
abbrev V5 : (c : Dev nD) → (b : Ref sig .tc) → Buf (Elt F) ((c : Thread nD τ).loc b) := fun c b => W5 A m ρ c b
/-- At the last region's exit. -/
def W6 (c : Dev nD) : Valuation τ sig (Elt F) :=
  Pipeline.withArrays spec2 c (W5 A m ρ c) fun w => (dat2 (V5 A m ρ) c).arrAt w cfg2.N
theorem W6_arr (c : Dev nD) (w : Fin cfg2.W) :
    W6 A m ρ c (Proc.devRef .tc (Pipeline.arrRef spec2 w)) = (dat2 (V5 A m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 A m ρ c (Proc.devRef .tc b) = W5 A m ρ c (Proc.devRef .tc b) := by
  unfold W6; exact Pipeline.withArrays_of_ne spec2 c _ _ b hb
abbrev V6 : (c : Dev nD) → (b : Ref sig .tc) → Buf (Elt F) ((c : Thread nD τ).loc b) := fun c b => W6 A m ρ c b
theorem hF2 (c : Dev nD) (w : Fin cfg2.W) : (dat2 (V5 A m ρ) c).arrAt w cfg2.N = V6 A m ρ c (Pipeline.arrRef spec2 w) :=
  (W6_arr A m ρ c w).symm
theorem hrest2 (c : Dev nD) : ∀ b, b ∉ Finset.univ.image (Pipeline.arrRef spec2) → V6 A m ρ c b = V5 A m ρ c b :=
  fun b hb => W6_of_ne A m ρ c b fun w e => hb (Finset.mem_image.mpr ⟨w, Finset.mem_univ _, e⟩)

/-- After the last host stretch: what the program ends with. -/
abbrev W7 : Dev nD → Valuation τ sig (Elt F) := fun c => StableHlo.after hostOps3 (W6 A m ρ c)

/-! ## The arguments end as launched -/

theorem W7_main_arg0 (c : Dev nD) : W7 A m ρ c (Proc.devRef .tc main_arg0) = m ((c : Thread nD τ).loc main_arg0) :=
  calc W7 A m ρ c (Proc.devRef .tc main_arg0)
    _ = W6 A m ρ c (Proc.devRef .tc main_arg0) := StableHlo.after_of_writes_sub hostOps3 _ hostOps3_writes (by decide)
    _ = W5 A m ρ c (Proc.devRef .tc main_arg0) := W6_of_ne A m ρ c main_arg0 (by decide)
    _ = W4 A m ρ c (Proc.devRef .tc main_arg0) := StableHlo.after_of_writes_sub hostOps2 _ hostOps2_writes (by decide)
    _ = W3 m ρ c (Proc.devRef .tc main_arg0) := W4_of_ne A m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 A m ρ c (Proc.devRef .tc main_arg1) = m ((c : Thread nD τ).loc main_arg1) :=
  calc W7 A m ρ c (Proc.devRef .tc main_arg1)
    _ = W6 A m ρ c (Proc.devRef .tc main_arg1) := StableHlo.after_of_writes_sub hostOps3 _ hostOps3_writes (by decide)
    _ = W5 A m ρ c (Proc.devRef .tc main_arg1) := W6_of_ne A m ρ c main_arg1 (by decide)
    _ = W4 A m ρ c (Proc.devRef .tc main_arg1) := StableHlo.after_of_writes_sub hostOps2 _ hostOps2_writes (by decide)
    _ = W3 m ρ c (Proc.devRef .tc main_arg1) := (W4_arr A m ρ c 3).trans (((A.dat (V3 m ρ) c).arrAt_in 3 rfl _).trans (A.A_eq (V3 m ρ) c 3))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 A m ρ c (Proc.devRef .tc main_arg2) = m ((c : Thread nD τ).loc main_arg2) :=
  calc W7 A m ρ c (Proc.devRef .tc main_arg2)
    _ = W6 A m ρ c (Proc.devRef .tc main_arg2) := StableHlo.after_of_writes_sub hostOps3 _ hostOps3_writes (by decide)
    _ = W5 A m ρ c (Proc.devRef .tc main_arg2) := W6_of_ne A m ρ c main_arg2 (by decide)
    _ = W4 A m ρ c (Proc.devRef .tc main_arg2) := StableHlo.after_of_writes_sub hostOps2 _ hostOps2_writes (by decide)
    _ = W3 m ρ c (Proc.devRef .tc main_arg2) := W4_of_ne A m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 A m ρ c (Proc.devRef .tc main_arg3) = m ((c : Thread nD τ).loc main_arg3) :=
  calc W7 A m ρ c (Proc.devRef .tc main_arg3)
    _ = W6 A m ρ c (Proc.devRef .tc main_arg3) := StableHlo.after_of_writes_sub hostOps3 _ hostOps3_writes (by decide)
    _ = W5 A m ρ c (Proc.devRef .tc main_arg3) := W6_of_ne A m ρ c main_arg3 (by decide)
    _ = W4 A m ρ c (Proc.devRef .tc main_arg3) := StableHlo.after_of_writes_sub hostOps2 _ hostOps2_writes (by decide)
    _ = W3 m ρ c (Proc.devRef .tc main_arg3) := W4_of_ne A m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 A m ρ c (Proc.devRef .tc main_arg4) = m ((c : Thread nD τ).loc main_arg4) :=
  calc W7 A m ρ c (Proc.devRef .tc main_arg4)
    _ = W6 A m ρ c (Proc.devRef .tc main_arg4) := StableHlo.after_of_writes_sub hostOps3 _ hostOps3_writes (by decide)
    _ = W5 A m ρ c (Proc.devRef .tc main_arg4) := W6_of_ne A m ρ c main_arg4 (by decide)
    _ = W4 A m ρ c (Proc.devRef .tc main_arg4) := StableHlo.after_of_writes_sub hostOps2 _ hostOps2_writes (by decide)
    _ = W3 m ρ c (Proc.devRef .tc main_arg4) := W4_of_ne A m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 A m ρ c (Proc.devRef .tc main_arg5) = m ((c : Thread nD τ).loc main_arg5) :=
  calc W7 A m ρ c (Proc.devRef .tc main_arg5)
    _ = W6 A m ρ c (Proc.devRef .tc main_arg5) := StableHlo.after_of_writes_sub hostOps3 _ hostOps3_writes (by decide)
    _ = W5 A m ρ c (Proc.devRef .tc main_arg5) := W6_of_ne A m ρ c main_arg5 (by decide)
    _ = W4 A m ρ c (Proc.devRef .tc main_arg5) := StableHlo.after_of_writes_sub hostOps2 _ hostOps2_writes (by decide)
    _ = W3 m ρ c (Proc.devRef .tc main_arg5) := W4_of_ne A m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 A m ρ c (Proc.devRef .tc main_arg6) = m ((c : Thread nD τ).loc main_arg6) :=
  calc W7 A m ρ c (Proc.devRef .tc main_arg6)
    _ = W6 A m ρ c (Proc.devRef .tc main_arg6) := StableHlo.after_of_writes_sub hostOps3 _ hostOps3_writes (by decide)
    _ = W5 A m ρ c (Proc.devRef .tc main_arg6) := W6_of_ne A m ρ c main_arg6 (by decide)
    _ = W4 A m ρ c (Proc.devRef .tc main_arg6) := StableHlo.after_of_writes_sub hostOps2 _ hostOps2_writes (by decide)
    _ = W3 m ρ c (Proc.devRef .tc main_arg6) := W4_of_ne A m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 A m ρ c (Proc.devRef .tc main_arg7) = m ((c : Thread nD τ).loc main_arg7) :=
  calc W7 A m ρ c (Proc.devRef .tc main_arg7)
    _ = W6 A m ρ c (Proc.devRef .tc main_arg7) := StableHlo.after_of_writes_sub hostOps3 _ hostOps3_writes (by decide)
    _ = W5 A m ρ c (Proc.devRef .tc main_arg7) := W6_of_ne A m ρ c main_arg7 (by decide)
    _ = W4 A m ρ c (Proc.devRef .tc main_arg7) := StableHlo.after_of_writes_sub hostOps2 _ hostOps2_writes (by decide)
    _ = W3 m ρ c (Proc.devRef .tc main_arg7) := W4_of_ne A m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 A m ρ c (Proc.devRef .tc main_arg8) = m ((c : Thread nD τ).loc main_arg8) :=
  calc W7 A m ρ c (Proc.devRef .tc main_arg8)
    _ = W6 A m ρ c (Proc.devRef .tc main_arg8) := StableHlo.after_of_writes_sub hostOps3 _ hostOps3_writes (by decide)
    _ = W5 A m ρ c (Proc.devRef .tc main_arg8) := W6_of_ne A m ρ c main_arg8 (by decide)
    _ = W4 A m ρ c (Proc.devRef .tc main_arg8) := StableHlo.after_of_writes_sub hostOps2 _ hostOps2_writes (by decide)
    _ = W3 m ρ c (Proc.devRef .tc main_arg8) := W4_of_ne A m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 A m ρ c (Proc.devRef .tc main_arg9) = m ((c : Thread nD τ).loc main_arg9) :=
  calc W7 A m ρ c (Proc.devRef .tc main_arg9)
    _ = W6 A m ρ c (Proc.devRef .tc main_arg9) := StableHlo.after_of_writes_sub hostOps3 _ hostOps3_writes (by decide)
    _ = W5 A m ρ c (Proc.devRef .tc main_arg9) := W6_of_ne A m ρ c main_arg9 (by decide)
    _ = W4 A m ρ c (Proc.devRef .tc main_arg9) := StableHlo.after_of_writes_sub hostOps2 _ hostOps2_writes (by decide)
    _ = W3 m ρ c (Proc.devRef .tc main_arg9) := W4_of_ne A m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 A m ρ c (Proc.devRef .tc main_arg10) = m ((c : Thread nD τ).loc main_arg10) :=
  calc W7 A m ρ c (Proc.devRef .tc main_arg10)
    _ = W6 A m ρ c (Proc.devRef .tc main_arg10) := StableHlo.after_of_writes_sub hostOps3 _ hostOps3_writes (by decide)
    _ = W5 A m ρ c (Proc.devRef .tc main_arg10) := W6_of_ne A m ρ c main_arg10 (by decide)
    _ = W4 A m ρ c (Proc.devRef .tc main_arg10) := StableHlo.after_of_writes_sub hostOps2 _ hostOps2_writes (by decide)
    _ = W3 m ρ c (Proc.devRef .tc main_arg10) := W4_of_ne A m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 A m ρ c (Proc.devRef .tc main_arg11) = m ((c : Thread nD τ).loc main_arg11) :=
  calc W7 A m ρ c (Proc.devRef .tc main_arg11)
    _ = W6 A m ρ c (Proc.devRef .tc main_arg11) := StableHlo.after_of_writes_sub hostOps3 _ hostOps3_writes (by decide)
    _ = W5 A m ρ c (Proc.devRef .tc main_arg11) := W6_of_ne A m ρ c main_arg11 (by decide)
    _ = W4 A m ρ c (Proc.devRef .tc main_arg11) := StableHlo.after_of_writes_sub hostOps2 _ hostOps2_writes (by decide)
    _ = W3 m ρ c (Proc.devRef .tc main_arg11) := W4_of_ne A m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W7_main_arg12 (c : Dev nD) : W7 A m ρ c (Proc.devRef .tc main_arg12) = m ((c : Thread nD τ).loc main_arg12) :=
  calc W7 A m ρ c (Proc.devRef .tc main_arg12)
    _ = W6 A m ρ c (Proc.devRef .tc main_arg12) := StableHlo.after_of_writes_sub hostOps3 _ hostOps3_writes (by decide)
    _ = W5 A m ρ c (Proc.devRef .tc main_arg12) := W6_of_ne A m ρ c main_arg12 (by decide)
    _ = W4 A m ρ c (Proc.devRef .tc main_arg12) := StableHlo.after_of_writes_sub hostOps2 _ hostOps2_writes (by decide)
    _ = W3 m ρ c (Proc.devRef .tc main_arg12) := W4_of_ne A m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W7_main_arg13 (c : Dev nD) : W7 A m ρ c (Proc.devRef .tc main_arg13) = m ((c : Thread nD τ).loc main_arg13) :=
  calc W7 A m ρ c (Proc.devRef .tc main_arg13)
    _ = W6 A m ρ c (Proc.devRef .tc main_arg13) := StableHlo.after_of_writes_sub hostOps3 _ hostOps3_writes (by decide)
    _ = W5 A m ρ c (Proc.devRef .tc main_arg13) := W6_of_ne A m ρ c main_arg13 (by decide)
    _ = W4 A m ρ c (Proc.devRef .tc main_arg13) := StableHlo.after_of_writes_sub hostOps2 _ hostOps2_writes (by decide)
    _ = W3 m ρ c (Proc.devRef .tc main_arg13) := W4_of_ne A m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => A.dat (V3 m ρ) c
  | ⟨2, _⟩ => fun c => dat2 (V5 A m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 A m ρ c) ∗ ∃ r, prngReg c r)

/-! ## The regions as segments -/

set_option backward.isDefEq.respectTransparency.types false in
/-- Region 0 over the thread state: entered from every unscoped buffer at the contents before it, left at the contents after
    it. Its arrays are split out of the unscoped buffers and put back at what the pipeline leaves; the generator register goes
    into the region's invariant and comes out; nothing is owed; the kernel has no semaphore of its own. -/
def reg0 : Pipeline.RegionSeg (pcfgs (F := F)) adm (pdats A m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats A m ρ) launch0.win launch0.arr_whole c
      ((pdats A m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats A m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats A m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats A m ρ) ((pdats A m ρ 0 c).share_full fun _ => rfl)
      (V1 m ρ c) (V2 m ρ c) ((pdats A m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at what the pipeline leaves; the generator register goes
    into the region's invariant and comes out; nothing is owed; the kernel has no semaphore of its own. -/
def reg1 : Pipeline.RegionSeg (pcfgs (F := F)) adm (pdats A m ρ) () defs₀ 𝒱₀ L lv 1 where
  win := launch1.win.to₀
  block_pos := launch1.block_pos
  stage_whole := launch1.stage_whole
  K := PEmpty
  osem k := k.elim
  ho := Pipeline.OwnSemFacts.none _
  hbody c := (A.body (V3 m ρ) c).loose
  hwaits := Pipeline.hwaits_of_owed_zero _ _ _ _ L lv 1 fun c t => A.owed (V3 m ρ) c t
  pre c := iprop(StableHlo.held (c : Thread nD τ) (Pipeline.ucRefs τ sig) (W3 m ρ c) ∗ R c)
  post c := iprop(StableHlo.held (c : Thread nD τ) (Pipeline.ucRefs τ sig) (W4 A m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats A m ρ) launch1.win launch1.arr_whole c
      ((pdats A m ρ 1 c).share_full fun w => A.share (V3 m ρ) c w) (V3 m ρ c) fun w => A.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats A m ρ 1 c).owed 0 = 0 from A.owed (V3 m ρ) c 0]
      icases HO with ⟨%W, HO⟩; iexists W; isplitr
      · ipureintro; exact fun x _ => Or.inl (by rw [show (pdats A m ρ 1 c).recorded 0 = Set.univ from A.recorded (V3 m ρ) c 0]; trivial)
      iexact HO
    isplitl [Hp]; · iexact Hp
    iexact Hrest
  hin c := by
    refine BIBase.Entails.trans ?_ (A.hin (V3 m ρ) c)
    unfold Pipeline.ΦA
    iintro ⟨Hp, -, Hr⟩
    isplitl [Hr]; · iexact Hr
    iexact Hp
  hout c := by
    refine BIBase.Entails.trans (A.hout (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats A m ρ) ((pdats A m ρ 1 c).share_full fun w => A.share (V3 m ρ) c w)
      (V3 m ρ c) (V4 A m ρ c) ((pdats A m ρ 1 c).arrAt · cfg1.N) (hF1 A m ρ c) (hrest1 A m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats A m ρ 1 c).owed (Fin.last _) = 0 from A.owed (V3 m ρ) c _]
    icases HO with ⟨%W, -, HO⟩; iexists W; iexact HO

set_option backward.isDefEq.respectTransparency.types false in
/-- Region 2 over the thread state: entered from every unscoped buffer at the contents before it, left at the contents after
    it. Its arrays are split out of the unscoped buffers and put back at what the pipeline leaves; the generator register goes
    into the region's invariant and comes out; nothing is owed; the kernel has no semaphore of its own. -/
def reg2 : Pipeline.RegionSeg (pcfgs (F := F)) adm (pdats A m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 A m ρ) c).loose
  hwaits := Pipeline.hwaits_of_owed_zero _ _ _ _ L lv 2 fun _ _ => rfl
  pre c := iprop(StableHlo.held (c : Thread nD τ) (Pipeline.ucRefs τ sig) (W5 A m ρ c) ∗ R c)
  post c := iprop(StableHlo.held (c : Thread nD τ) (Pipeline.ucRefs τ sig) (W6 A m ρ c) ∗ R c)
  X c := iprop(∃ r, prngReg c r)
  Y c := iprop(∃ r, prngReg c r)
  Z c := Pipeline.unscopedRest (Ix := Unit) (Name := ℕ) (U := UR sig nD τ) (Lvl := ℕ) spec2 c (V5 A m ρ c)
  hentry c := by
    rw [Pipeline.ownSems0_none]
    have hsplit := Pipeline.arrays_of_unscopedBufs (p := 2) (pcfgs (F := F)) adm (pdats A m ρ) launch2.win launch2.arr_whole c
      ((pdats A m ρ 2 c).share_full fun _ => rfl) (V5 A m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats A m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats A m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats A m ρ) ((pdats A m ρ 2 c).share_full fun _ => rfl)
      (V5 A m ρ c) (V6 A m ρ c) ((pdats A m ρ 2 c).arrAt · cfg2.N) (hF2 A m ρ c) (hrest2 A m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats A m ρ) () defs₀ 𝒱₀ L lv) :=
  [ .host (hseg hostOps0 hostOps0_sub hostOps0_fresh (W0 m ρ)),
    .region (reg0 A m ρ),
    .host (hseg hostOps1 hostOps1_sub hostOps1_fresh (W2 m ρ)),
    .region (reg1 A m ρ),
    .host (hseg hostOps2 hostOps2_sub hostOps2_fresh (W4 A m ρ)),
    .region (reg2 A m ρ),
    .host (hseg hostOps3 hostOps3_sub hostOps3_fresh (W6 A m ρ)) ]

set_option backward.isDefEq.respectTransparency.types false in
/-- THE RUN. From any memory with zero counters, every weakly fair execution of the program terminates, nothing faulting,
    and the final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 A m ρ c b) := by
  refine Pipeline.θ_run_regions_kit_dev (pcfgs (F := F)) adm (pdats A m ρ) () cellOf_inj emb₁ defs₀ 𝒱₀ L lv m ρ main
    (fun _ => segs A m ρ)
    (fun c Q => by
      rewrite [main_chain c, Pipeline.Seg.run_eq_chain,
        show (segs A m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ A m ρ)
    (hch := fun c => ⟨.rfl, .rfl, .rfl, .rfl, .rfl, .rfl, .rfl, by
      show iprop(StableHlo.held (c : Thread nD τ) (Pipeline.ucRefs τ sig) (W7 A m ρ c) ∗ R c)
        ⊢ iprop(Tₙ A m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 A m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 A m ρ c) s')
      isplitl [Hh] <;> iassumption)
    (hQ := fun s h c => h c)

include A in
/-- THE FRAME: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W7_main_arg0 A m ρ c),
     (h c _ (mem_uc main_arg1 (by decide))).trans (W7_main_arg1 A m ρ c),
     (h c _ (mem_uc main_arg2 (by decide))).trans (W7_main_arg2 A m ρ c),
     (h c _ (mem_uc main_arg3 (by decide))).trans (W7_main_arg3 A m ρ c),
     (h c _ (mem_uc main_arg4 (by decide))).trans (W7_main_arg4 A m ρ c),
     (h c _ (mem_uc main_arg5 (by decide))).trans (W7_main_arg5 A m ρ c),
     (h c _ (mem_uc main_arg6 (by decide))).trans (W7_main_arg6 A m ρ c),
     (h c _ (mem_uc main_arg7 (by decide))).trans (W7_main_arg7 A m ρ c),
     (h c _ (mem_uc main_arg8 (by decide))).trans (W7_main_arg8 A m ρ c),
     (h c _ (mem_uc main_arg9 (by decide))).trans (W7_main_arg9 A m ρ c),
     (h c _ (mem_uc main_arg10 (by decide))).trans (W7_main_arg10 A m ρ c),
     (h c _ (mem_uc main_arg11 (by decide))).trans (W7_main_arg11 A m ρ c),
     (h c _ (mem_uc main_arg12 (by decide))).trans (W7_main_arg12 A m ρ c),
     (h c _ (mem_uc main_arg13 (by decide))).trans (W7_main_arg13 A m ρ c)⟩) (run_all A m ρ)

end Cert.Kernel.Hand

end
-- ==== Proof.AttnFrameBits.lean ====
/-
  The attention region: one grid point handles one head and one tile of 512 keys, and the four key tiles of a head are
  visited in order. Three scratch buffers are carried from one key tile to the next: the running row maximum, the
  running denominator and the running numerator of the softmax. What the three kinds of point (first, middle, last key
  tile of a head) share is collected here: the windows' blocks, the two branch conditions in closed form over the grid,
  where the output window is idle, and the scratch buffers as memrefs.
-/
import proofs.«159339_j34729105555459_2_alg».proof.Proof.Gen.Kernel.Launch
import proofs.«159339_j34729105555459_2_alg».proof.Proof.Gen.Kernel.Skeleton
import proofs.«159339_j34729105555459_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the query block
    moves only with the head, the mask never, and a block that does not move is kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch (reset the running statistics): taken at the first key tile of a head. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (normalise and store the head's output): taken at the last key tile of a head. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from a head's last key tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At a head's last key tile it is live. -/
theorem liveAt1_4 : ∀ t : Fin cfg1.N, cond1_1 (grid1.coords t) → cfg1.idle 4 (grid1.coords t) = false := by decide +kernel

/-! ## The staging and scratch memrefs -/

/-- One staging buffer of the output window, through which its contents are stated. -/
abbrev VO1_4 : View sig .tc .vmem S1x2048x64 .bf16 := (Memref.whole cc1_stg4_0 : Memref sig .tc .vmem S1x2048x64 .bf16).view
/-- Each window's current staging memref at point `t`, and its wholeness. -/
abbrev ms1_0 (t : Fin cfg1.N) : Memref sig .tc .vmem S1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x64 .bf16 := win1_4.stage (cfg1.slots t 4)
abbrev hs1_4 (t : Fin cfg1.N) : (ms1_4 t).IsWhole := hstage1_4 ((cfg1.slots t 4).cast nbuf1_4)
/-- The three scratch buffers: running maximum, running denominator, running numerator. -/
abbrev scM1_0 : Memref sig .tc .vmem S1x2048x1 .f32 := Memref.whole cc1_scratch0
abbrev scM1_1 : Memref sig .tc .vmem S1x2048x1 .f32 := Memref.whole cc1_scratch1
abbrev scM1_2 : Memref sig .tc .vmem S1x2048x64 .f32 := Memref.whole cc1_scratch2
abbrev VS1_0 : View sig .tc .vmem S1x2048x1 .f32 := scM1_0.view
abbrev VS1_1 : View sig .tc .vmem S1x2048x1 .f32 := scM1_1.view
abbrev VS1_2 : View sig .tc .vmem S1x2048x64 .f32 := scM1_2.view

/-- The other scoped buffers of the core, never touched by this region. -/
abbrev rest1 (c : Dev nD) : sProp 𝕄 := Pipeline.scopedRestBut spec1 c [cc1_scratch0, cc1_scratch1, cc1_scratch2]

/-- What the region is entered with, the three scratch buffers split out as memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 c) ∗ (∃ r, prngReg c r)) := by
  unfold Pipeline.ΦA; rw [scopedRest1_split]; simp only [scM1_0, scM1_1, scM1_2, owns_whole]; try rfl

end Cert.Kernel.Hand

end
-- ==== Proof.AttnRunFirstBits.lean ====
/-
  The attention body at the first key tile of a head, run whole. The three scratch buffers are first stored whole with
  the starting statistics (a large negative finite maximum, denominator 0, numerator 0), whatever they held; the common update follows; the
  output buffer is not touched. The pieces each scratch buffer ends with are what the run finds.
-/
import proofs.«159339_j34729105555459_2_alg».proof.Proof.AttnFrameBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer (none) and in the three scratch buffers at a head's FIRST key
    tile, with the triple: inputs at their contents and handed back, the output buffer at `xi4` handed back untouched, the
    scratch buffers at anything and returned with their pieces written. -/
noncomputable def kernelRun1_first (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) :
    Σ' (L4 : List (View.Piece (Elt F) S1x2048x64 .bf16)) (LS0 : List (View.Piece (Elt F) S1x2048x1 .f32)) (LS1 : List (View.Piece (Elt F) S1x2048x1 .f32)), { LS2 : List (View.Piece (Elt F) S1x2048x64 .f32) //
      ∀ (xi4 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.AttnRunMiddleBits.lean ====
/-
  The attention body at a middle key tile of a head, run whole: only the common update of the three running statistics
  from what the previous key tile left; the output buffer is not touched.
-/
import proofs.«159339_j34729105555459_2_alg».proof.Proof.AttnRunFirstBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a MIDDLE key tile, with the triple: the scratch buffers at what the previous key
    tile left (`xs0`, `xs1`, `xs2`) and returned with their pieces written; the output buffer handed back untouched. -/
noncomputable def kernelRun1_middle (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    Σ' (L4 : List (View.Piece (Elt F) S1x2048x64 .bf16)) (LS0 : List (View.Piece (Elt F) S1x2048x1 .f32)) (LS1 : List (View.Piece (Elt F) S1x2048x1 .f32)), { LS2 : List (View.Piece (Elt F) S1x2048x64 .f32) //
      ∀ (xi4 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.AttnRunLastBits.lean ====
/-
  The attention body at the last key tile of a head, run whole: the common update of the three running statistics, then
  the numerator divided by the denominator is stored whole into the output buffer.
-/
import proofs.«159339_j34729105555459_2_alg».proof.Proof.AttnRunMiddleBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a head's LAST key tile, with the triple: the scratch buffers at what the previous
    key tile left and returned with their pieces written; the output buffer at anything and returned with its piece written. -/
noncomputable def kernelRun1_last (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    Σ' (L4 : List (View.Piece (Elt F) S1x2048x64 .bf16)) (LS0 : List (View.Piece (Elt F) S1x2048x1 .f32)) (LS1 : List (View.Piece (Elt F) S1x2048x1 .f32)), { LS2 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.AttnBodyBits.lean ====
/-
  The attention region, for any float instance: what one grid point does to the staging buffers and to the three scratch
  buffers (running row maximum, running denominator, running numerator of the softmax over the keys), and the proof
  data built from it. A head's four key tiles are visited in order. At the first the scratch is reset and then updated;
  at the second and third it is updated from what the previous tile left; at the fourth it is updated and the numerator
  divided by the denominator is stored into the output buffer, which is written back only there.
-/
import proofs.«159339_j34729105555459_2_alg».proof.Proof.AttnRunLastBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output buffer and in the scratch buffers -/

/-- At a head's first key tile nothing is stored into the output buffer: a placeholder nothing consults, since the window is neither
    written back there nor read at the next point. -/
def out1_first_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x64 .bf16 :=
  VO1_4.read (Elt F) (VO1_4.writes (Elt F) VO1_4.junk (kernelRun1_first c i arg2 harg2 arg3 harg3 arg4 harg4 arg5 harg5 arg6 harg6 arg7 harg7 arg8 harg8 arg9 harg9 hc0 hc1 x0 x1 x2 x3).1)

/-- At a head's first key tile the stores into scratch buffer 0 cover it. -/
theorem scover1_first_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) (y : S1x2048x1.Idx) :
    ∃ pc ∈ (kernelRun1_first c i arg2 harg2 arg3 harg3 arg4 harg4 arg5 harg5 arg6 harg6 arg7 harg7 arg8 harg8 arg9 harg9 hc0 hc1 x0 x1 x2 x3).2.1, y ∈ pc.1.set :=
  View.cover_of_tiledL (kernelRun1_first c i arg2 harg2 arg3 harg3 arg4 harg4 arg5 harg5 arg6 harg6 arg7 harg7 arg8 harg8 arg9 harg9 hc0 hc1 x0 x1 x2 x3).2.1 S1x2048x1.size (by sl_kernel_rfl) y

/-- What the body leaves in scratch buffer 0 at a head's first key tile: its pieces read back. -/
def sout1_first_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x1 .f32 :=
  VS1_0.read (Elt F) (VS1_0.writes (Elt F) VS1_0.junk (kernelRun1_first c i arg2 harg2 arg3 harg3 arg4 harg4 arg5 harg5 arg6 harg6 arg7 harg7 arg8 harg8 arg9 harg9 hc0 hc1 x0 x1 x2 x3).2.1)

/-- At a head's first key tile the stores into scratch buffer 1 cover it. -/
theorem scover1_first_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) (y : S1x2048x1.Idx) :
    ∃ pc ∈ (kernelRun1_first c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_first c i arg2 harg2 arg3 harg3 arg4 harg4 arg5 harg5 arg6 harg6 arg7 harg7 arg8 harg8 arg9 harg9 hc0 hc1 x0 x1 x2 x3).2.2.1 S1x2048x1.size (by sl_kernel_rfl) y

/-- What the body leaves in scratch buffer 1 at a head's first key tile: its pieces read back. -/
def sout1_first_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x1 .f32 :=
  VS1_1.read (Elt F) (VS1_1.writes (Elt F) VS1_1.junk (kernelRun1_first c i arg2 harg2 arg3 harg3 arg4 harg4 arg5 harg5 arg6 harg6 arg7 harg7 arg8 harg8 arg9 harg9 hc0 hc1 x0 x1 x2 x3).2.2.1)

/-- At a head's first key tile the stores into scratch buffer 2 cover it. -/
theorem scover1_first_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) (y : S1x2048x64.Idx) :
    ∃ pc ∈ (kernelRun1_first c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_first c i arg2 harg2 arg3 harg3 arg4 harg4 arg5 harg5 arg6 harg6 arg7 harg7 arg8 harg8 arg9 harg9 hc0 hc1 x0 x1 x2 x3).2.2.2.1 S1x2048x64.size (by sl_kernel_rfl) y

/-- What the body leaves in scratch buffer 2 at a head's first key tile: its pieces read back. -/
def sout1_first_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x64 .f32 :=
  VS1_2.read (Elt F) (VS1_2.writes (Elt F) VS1_2.junk (kernelRun1_first c i arg2 harg2 arg3 harg3 arg4 harg4 arg5 harg5 arg6 harg6 arg7 harg7 arg8 harg8 arg9 harg9 hc0 hc1 x0 x1 x2 x3).2.2.2.1)

/-- At a middle key tile nothing is stored into the output buffer: a placeholder nothing consults, since the window is neither
    written back there nor read at the next point. -/
def out1_middle_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .bf16 :=
  VO1_4.read (Elt F) (VO1_4.writes (Elt F) VO1_4.junk (kernelRun1_middle c i arg2 harg2 arg3 harg3 arg4 harg4 arg5 harg5 arg6 harg6 arg7 harg7 arg8 harg8 arg9 harg9 hc0 hc1 x0 x1 x2 x3 xs0 xs1 xs2).1)

/-- At a middle key tile the stores into scratch buffer 0 cover it. -/
theorem scover1_middle_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_middle c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_middle c i arg2 harg2 arg3 harg3 arg4 harg4 arg5 harg5 arg6 harg6 arg7 harg7 arg8 harg8 arg9 harg9 hc0 hc1 x0 x1 x2 x3 xs0 xs1 xs2).2.1 S1x2048x1.size (by sl_kernel_rfl) y

/-- What the body leaves in scratch buffer 0 at a middle key tile: its pieces read back. -/
def sout1_middle_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_0.read (Elt F) (VS1_0.writes (Elt F) VS1_0.junk (kernelRun1_middle c i arg2 harg2 arg3 harg3 arg4 harg4 arg5 harg5 arg6 harg6 arg7 harg7 arg8 harg8 arg9 harg9 hc0 hc1 x0 x1 x2 x3 xs0 xs1 xs2).2.1)

/-- At a middle key tile the stores into scratch buffer 1 cover it. -/
theorem scover1_middle_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_middle c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_middle c i arg2 harg2 arg3 harg3 arg4 harg4 arg5 harg5 arg6 harg6 arg7 harg7 arg8 harg8 arg9 harg9 hc0 hc1 x0 x1 x2 x3 xs0 xs1 xs2).2.2.1 S1x2048x1.size (by sl_kernel_rfl) y

/-- What the body leaves in scratch buffer 1 at a middle key tile: its pieces read back. -/
def sout1_middle_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_1.read (Elt F) (VS1_1.writes (Elt F) VS1_1.junk (kernelRun1_middle c i arg2 harg2 arg3 harg3 arg4 harg4 arg5 harg5 arg6 harg6 arg7 harg7 arg8 harg8 arg9 harg9 hc0 hc1 x0 x1 x2 x3 xs0 xs1 xs2).2.2.1)

/-- At a middle key tile the stores into scratch buffer 2 cover it. -/
theorem scover1_middle_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x64.Idx) :
    ∃ pc ∈ (kernelRun1_middle c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_middle c i arg2 harg2 arg3 harg3 arg4 harg4 arg5 harg5 arg6 harg6 arg7 harg7 arg8 harg8 arg9 harg9 hc0 hc1 x0 x1 x2 x3 xs0 xs1 xs2).2.2.2.1 S1x2048x64.size (by sl_kernel_rfl) y

/-- What the body leaves in scratch buffer 2 at a middle key tile: its pieces read back. -/
def sout1_middle_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .f32 :=
  VS1_2.read (Elt F) (VS1_2.writes (Elt F) VS1_2.junk (kernelRun1_middle c i arg2 harg2 arg3 harg3 arg4 harg4 arg5 harg5 arg6 harg6 arg7 harg7 arg8 harg8 arg9 harg9 hc0 hc1 x0 x1 x2 x3 xs0 xs1 xs2).2.2.2.1)

/-- At a head's last key tile the one store into the output buffer covers it. -/
theorem cover1_last_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x64.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).1 S1x2048x64.size (by sl_kernel_rfl) y

/-- What the body leaves in the output buffer at a head's last key tile: its piece read back. -/
def out1_last_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .bf16 :=
  VO1_4.read (Elt F) (VO1_4.writes (Elt F) VO1_4.junk (kernelRun1_last c i arg2 harg2 arg3 harg3 arg4 harg4 arg5 harg5 arg6 harg6 arg7 harg7 arg8 harg8 arg9 harg9 hc0 hc1 x0 x1 x2 x3 xs0 xs1 xs2).1)

/-- At a head's last key tile the stores into scratch buffer 0 cover it. -/
theorem scover1_last_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).2.1 S1x2048x1.size (by sl_kernel_rfl) y

/-- What the body leaves in scratch buffer 0 at a head's last key tile: its pieces read back. -/
def sout1_last_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_0.read (Elt F) (VS1_0.writes (Elt F) VS1_0.junk (kernelRun1_last c i arg2 harg2 arg3 harg3 arg4 harg4 arg5 harg5 arg6 harg6 arg7 harg7 arg8 harg8 arg9 harg9 hc0 hc1 x0 x1 x2 x3 xs0 xs1 xs2).2.1)

/-- At a head's last key tile the stores into scratch buffer 1 cover it. -/
theorem scover1_last_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).2.2.1 S1x2048x1.size (by sl_kernel_rfl) y

/-- What the body leaves in scratch buffer 1 at a head's last key tile: its pieces read back. -/
def sout1_last_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_1.read (Elt F) (VS1_1.writes (Elt F) VS1_1.junk (kernelRun1_last c i arg2 harg2 arg3 harg3 arg4 harg4 arg5 harg5 arg6 harg6 arg7 harg7 arg8 harg8 arg9 harg9 hc0 hc1 x0 x1 x2 x3 xs0 xs1 xs2).2.2.1)

/-- At a head's last key tile the stores into scratch buffer 2 cover it. -/
theorem scover1_last_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x64.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).2.2.2.1 S1x2048x64.size (by sl_kernel_rfl) y

/-- What the body leaves in scratch buffer 2 at a head's last key tile: its pieces read back. -/
def sout1_last_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .f32 :=
  VS1_2.read (Elt F) (VS1_2.writes (Elt F) VS1_2.junk (kernelRun1_last c i arg2 harg2 arg3 harg3 arg4 harg4 arg5 harg5 arg6 harg6 arg7 harg7 arg8 harg8 arg9 harg9 hc0 hc1 x0 x1 x2 x3 xs0 xs1 xs2).2.2.2.1)

/-! ## The three cases at a grid point -/

/-- The output buffer and the three scratch buffers after the body at point `t`, a head's first key tile. -/
def atFirst1 (c : Dev nD) (t : Fin cfg1.N) (h0 : t.val % 4 = 0) (h1 : ¬t.val % 4 = 3) : Vec F S1x2048x64 .bf16 × Vec F S1x2048x1 .f32 × Vec F S1x2048x1 .f32 × Vec F S1x2048x64 .f32 :=
  (out1_first_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_first_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_first_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_first_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

/-- The output buffer and the three scratch buffers after the body at point `t`, a middle key tile, over the scratch contents `p` the point before left. -/
def atMiddle1 (c : Dev nD) (t : Fin cfg1.N) (h0 : ¬t.val % 4 = 0) (h1 : ¬t.val % 4 = 3) (p : Vec F S1x2048x1 .f32 × Vec F S1x2048x1 .f32 × Vec F S1x2048x64 .f32) : Vec F S1x2048x64 .bf16 × Vec F S1x2048x1 .f32 × Vec F S1x2048x1 .f32 × Vec F S1x2048x64 .f32 :=
  (out1_middle_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2, sout1_middle_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2, sout1_middle_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2, sout1_middle_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2)

/-- The output buffer and the three scratch buffers after the body at point `t`, a head's last key tile, over the scratch contents `p` the point before left. -/
def atLast1 (c : Dev nD) (t : Fin cfg1.N) (h0 : ¬t.val % 4 = 0) (h1 : t.val % 4 = 3) (p : Vec F S1x2048x1 .f32 × Vec F S1x2048x1 .f32 × Vec F S1x2048x64 .f32) : Vec F S1x2048x64 .bf16 × Vec F S1x2048x1 .f32 × Vec F S1x2048x1 .f32 × Vec F S1x2048x64 .f32 :=
  (out1_last_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2, sout1_last_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2, sout1_last_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2, sout1_last_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2)

/-! ## What the buffers hold after each point -/

/-- The accumulation over the grid: the output buffer and the three scratch buffers after the body at position `n`. A
    head's first key tile starts from nothing; every other point continues from what the point before left in the scratch. -/
def outsAt1 (c : Dev nD) : (n : ℕ) → n < cfg1.N → Vec F S1x2048x64 .bf16 × Vec F S1x2048x1 .f32 × Vec F S1x2048x1 .f32 × Vec F S1x2048x64 .f32
  | 0, hn => atFirst1 V c ⟨0, hn⟩ (Nat.zero_mod _) (show ¬(0 : ℕ) % 4 = 3 from by decide)
  | n + 1, hn =>
    if h0 : (n + 1) % 4 = 0 then
      if h1 : (n + 1) % 4 = 3 then
        False.elim (by omega)
      else atFirst1 V c ⟨n + 1, hn⟩ h0 h1
    else
      if h1 : (n + 1) % 4 = 3 then atLast1 V c ⟨n + 1, hn⟩ h0 h1 (outsAt1 c n (Nat.lt_of_succ_lt hn)).2
      else atMiddle1 V c ⟨n + 1, hn⟩ h0 h1 (outsAt1 c n (Nat.lt_of_succ_lt hn)).2

/-- At a head's first key tile. -/
theorem outsAt1_first (c : Dev nD) (t : Fin cfg1.N) (h0 : t.val % 4 = 0) (h1 : ¬t.val % 4 = 3) :
    outsAt1 V c t.val t.isLt = atFirst1 V c t h0 h1 := by
  obtain ⟨n, hn⟩ := t
  cases n with
  | zero => exact rfl
  | succ n => exact (dif_pos h0).trans ((dif_neg h1).trans rfl)

/-- At a middle key tile: over what the point before left. -/
theorem outsAt1_middle (c : Dev nD) (t : Fin cfg1.N) (h0 : ¬t.val % 4 = 0) (h1 : ¬t.val % 4 = 3) :
    outsAt1 V c t.val t.isLt = atMiddle1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At a head's last key tile: over what the point before left. -/
theorem outsAt1_last (c : Dev nD) (t : Fin cfg1.N) (h0 : ¬t.val % 4 = 0) (h1 : t.val % 4 = 3) :
    outsAt1 V c t.val t.isLt = atLast1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry every scoped buffer at anything; afterwards the three scratch buffers at what
    the point before left in them, the other scoped buffers untouched, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ rest1 c) ∗ (∃ r, prngReg c r)) := by
  cases n with
  | zero => exact absurd rfl hz
  | succ n => rfl

/-! ## The pipeline's proof data -/

/-- The region's proof data on core `c`: the arrays as the region finds them; after the body at a point each input buffer at
    its block and the output buffer at `outsAt1`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' buffers hold their blocks; the point's position among its head's four key tiles
    says which case it is in; the invariant hands the body the three scratch buffers at what the point before left (at
    anything at the very first point) and takes them back at this point's contents; away from a head's last key tile the
    output buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_first V c t h0 h1]
    unfold atFirst1 sout1_first_0 sout1_first_1 sout1_first_2; (try dsimp only)
    by_cases hz : t.val = 0
    · rw [PhiS1_castSucc V c t, PhiS1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_first c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_first_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_first_1 c _ _ _ _ _ _ _ _ _ _ _ _ _ _ _ _ _ _ _ _ _ _ _)
            unfold owns; iexists _; isplitr
            swap; · iexact HS2
            ipureintro; exact View.read_writes_of_cover _ _ _ _ _ (scover1_first_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_first c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_first_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_first_1 c _ _ _ _ _ _ _ _ _ _ _ _ _ _ _ _ _ _ _ _ _ _ _)
            unfold owns; iexists _; isplitr
            swap; · iexact HS2
            ipureintro; exact View.read_writes_of_cover _ _ _ _ _ (scover1_first_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_last V c t h0 h1]
      unfold atLast1 out1_last_4 sout1_last_0 sout1_last_1 sout1_last_2; (try dsimp only)
      rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_last c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_last_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_last_1 c _ _ _ _ _ _ _ _ _ _ _ _ _ _ _ _ _ _ _ _ _ _ _ _ _ _)
            unfold owns; iexists _; isplitr
            swap; · iexact HS2
            ipureintro; exact View.read_writes_of_cover _ _ _ _ _ (scover1_last_2 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_last_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_middle V c t h0 h1]
      unfold atMiddle1 sout1_middle_0 sout1_middle_1 sout1_middle_2; (try dsimp only)
      rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_middle c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_middle_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_middle_1 c _ _ _ _ _ _ _ _ _ _ _ _ _ _ _ _ _ _ _ _ _ _ _ _ _ _)
            unfold owns; iexists _; isplitr
            swap; · iexact HS2
            ipureintro; exact View.read_writes_of_cover _ _ _ _ _ (scover1_middle_2 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.FramesBits.lean ====
/-
  The program's frame: it runs to the end, nothing faulting, and every argument array ends as launched. The attention region's
  half fills the assembly's last slot: its proof data read their arrays off the region-entry contents, hold full shares and owe
  nothing, and its invariant starts from and ends in the plain "scoped rest and generator register".
-/
import proofs.«159339_j34729105555459_2_alg».proof.Proof.RunBits
import proofs.«159339_j34729105555459_2_alg».proof.Proof.AttnBodyBits

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

/-- The attention region's half, as the assembly takes it. -/
def attnHalf : AttnHalf F where
  dat := fun V c => dat1 V c
  A_eq := fun V c w => A_eq1 V c w
  share := fun _ _ _ => rfl
  owed := fun _ _ _ => rfl
  recorded := fun _ _ _ => rfl
  body := fun V c => body_obligation1 V c
  hin := fun V c => hin1 V c
  hout := fun V c => hout1 V c

end Cert.Kernel.Hand

end
-- ==== Proof.ProjBodyIdeal.lean ====
/-
  The projection region (three products of one row block of the activations with the three weight matrices): what
  one grid point does to its staging buffers, for any float instance. The row block and the three weights are read, never
  written; each of the three output buffers is stored whole, once, with a product that depends only on the row block and
  one weight. So after the body each input buffer still holds its block and each output buffer holds that product.
-/
import proofs.«159339_j34729105555459_2_alg».proof.Proof.Gen.KernelIdeal.Launch
import proofs.«159339_j34729105555459_2_alg».proof.Proof.Gen.KernelIdeal.Skeleton
import proofs.«159339_j34729105555459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index does not move is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0

/-! ## What the body leaves in each output buffer -/

/-- The first output buffer after the body: the product of the row block with the first weight. -/
def out0_4 (x0 : Vec F S1024x512 .f32) (x1 : Vec F S512x512 .bf16) : Vec F S1024x512 .bf16 :=
  View.canon [⟨rRows, k0_pay2 (View.ld x0 rRows) (View.ld x1 rWeight)⟩]
/-- The second: with the second weight. -/
def out0_5 (x0 : Vec F S1024x512 .f32) (x2 : Vec F S512x512 .bf16) : Vec F S1024x512 .bf16 :=
  View.canon [⟨rRows, k0_pay3 (View.ld x0 rRows) (View.ld x2 rWeight)⟩]
/-- The third: with the third weight. -/
def out0_6 (x0 : Vec F S1024x512 .f32) (x3 : Vec F S512x512 .bf16) : Vec F S1024x512 .bf16 :=
  View.canon [⟨rRows, k0_pay4 (View.ld x0 rRows) (View.ld x3 rWeight)⟩]

/-- One whole-buffer store covers the buffer. -/
theorem cover0 (p0 : Vec F S1024x512 .bf16) (y : S1024x512.Idx) :
    ∃ pc ∈ ([⟨rRows, p0⟩] : List (View.Piece (Elt F) S1024x512 .bf16)), y ∈ pc.1.set :=
  View.cover_of_tiled [⟨rRows, p0⟩] S1024x512.size (by rfl) y

/-! ## The body's triple -/

set_option maxHeartbeats 4000000 in
/-- The body on whole staging buffers, the inputs' at read contents `x0 … x3` and the outputs' at anything, runs to the
    continuation with the inputs' as they were and each output's at its product. -/
theorem sound_kernel0 (c : Dev nD) (E : Set ℕ) (i : grid0.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x0 : Vec F S1024x512 .f32) (x1 x2 x3 : Vec F S512x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The region's proof data on core `c`: the arrays as the region finds them; after the body at a point each input buffer at
    its block and each output buffer at its product of the input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.PostBodyIdeal.lean ====
/-
  The output-projection / feed-forward region: what one grid point does to its staging buffers, for any float instance. Eleven
  buffers are read and never written (a row block of the attention output and of the activations, four weight matrices, five
  rows of biases and scales); the one output buffer is stored whole, once, with a value that is a function of those eleven. So
  after the body each input buffer still holds its block and the output buffer holds that value.
-/
import proofs.«159339_j34729105555459_2_alg».proof.Proof.Gen.KernelIdeal.Launch
import proofs.«159339_j34729105555459_2_alg».proof.Proof.Gen.KernelIdeal.Skeleton
import proofs.«159339_j34729105555459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rSq : Rect S512x512 := Rect.unit (s := S512x512) ![0, 0] S512x512.size inb_S512x512_S512x512_0_0
abbrev rRow : Rect S1x512 := Rect.unit (s := S1x512) ![0, 0] S1x512.size inb_S1x512_S1x512_0_0
abbrev rUp : Rect S2048x512 := Rect.unit (s := S2048x512) ![0, 0] S2048x512.size inb_S2048x512_S2048x512_0_0
abbrev rUpBias : Rect S1x2048 := Rect.unit (s := S1x2048) ![0, 0] S1x2048.size inb_S1x2048_S1x2048_0_0
abbrev rDown : Rect S512x2048 := Rect.unit (s := S512x2048) ![0, 0] S512x2048.size inb_S512x2048_S512x2048_0_0

/-! ## What the body leaves in the output buffer -/

/-- The output buffer after the body, as a function of the eleven input buffers' contents. -/
def out2_11 (x0 : Vec F S512x512 .bf16) (x1 : Vec F S512x512 .bf16) (x2 : Vec F S512x512 .f32) (x3 : Vec F S1x512 .f32) (x4 : Vec F S1x512 .f32) (x5 : Vec F S2048x512 .bf16) (x6 : Vec F S1x2048 .f32) (x7 : Vec F S512x2048 .bf16) (x8 : Vec F S1x512 .f32) (x9 : Vec F S1x512 .f32) (x10 : Vec F S1x512 .f32) : Vec F S512x512 .f32 :=
  View.canon [⟨rSq, k2_pay3 (k2_pay1 (View.ld x0 rSq) (View.ld x1 rSq) (View.ld x2 rSq) (View.ld x3 rRow) (View.ld x4 rRow)) (k2_pay2 (View.ld x0 rSq) (View.ld x1 rSq) (View.ld x2 rSq) (View.ld x3 rRow) (View.ld x4 rRow) (View.ld x5 rUp)) (View.ld x6 rUpBias) (View.ld x7 rDown) (View.ld x8 rRow) (View.ld x9 rRow) (View.ld x10 rRow)⟩]

/-- One whole-buffer store covers the buffer. -/
theorem cover2 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

/-! ## The body's triple -/

set_option maxHeartbeats 8000000 in
/-- The body on whole staging buffers, the inputs' at read contents and the output's at anything, runs to the continuation
    with the inputs' as they were and the output's at its value. -/
theorem sound_kernel2 (c : Dev nD) (E : Set ℕ) (i : grid2.Coords)
    (arg1 : Memref sig .tc .vmem S512x512 .bf16) (harg1 : arg1.IsWhole) (arg2 : Memref sig .tc .vmem S512x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2048x512 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .f32) (harg12 : arg12.IsWhole)
    (x0 : Vec F S512x512 .bf16) (x1 : Vec F S512x512 .bf16) (x2 : Vec F S512x512 .f32) (x3 : Vec F S1x512 .f32) (x4 : Vec F S1x512 .f32) (x5 : Vec F S2048x512 .bf16) (x6 : Vec F S1x2048 .f32) (x7 : Vec F S512x2048 .bf16) (x8 : Vec F S1x512 .f32) (x9 : Vec F S1x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out2_11 x0 x1 x2 x3 x4 x5 x6 x7 x8 x9 x10)) -∗ K ⟨⟩))
      ⊢ wp frame (wpE (defs₀ (F := F)) Variants.none c none) E (cc2__post_kernel i arg1 harg1 arg2 harg2 arg3 harg3 arg4 harg4 arg5 harg5 arg6 harg6 arg7 harg7 arg8 harg8 arg9 harg9 arg10 harg10 arg11 harg11 arg12 harg12) K := by
  simp only [cc2__post_kernel_eq_skeleton]; unfold cc2__post_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover2 _)

/-! ## The pipeline's proof data -/

/-- The region's proof data on core `c`: the arrays as the region finds them; after the body at a point each input buffer at
    its block and the output buffer at its value of the input blocks; nothing carried, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RunIdeal.lean ====
/-
  The whole program as a run of seven segments — four stretches of host operations and the three kernel regions between
  them — for any float instance. The contents of every buffer at each segment boundary are a fold from the launch memory:
  a host stretch applies its operations; a region leaves each of its arrays at what its write-backs add up to and every
  other buffer as it found it. No stretch and no region writes an argument, so the fold at an argument's buffer walks back to
  the launch memory; and the last boundary's contents are what the final state holds, buffer by buffer.
-/
import proofs.«159339_j34729105555459_2_alg».proof.Proof.Gen.KernelIdeal.Launch
import proofs.«159339_j34729105555459_2_alg».proof.Proof.Gen.KernelIdeal.Skeleton
import proofs.«159339_j34729105555459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«159339_j34729105555459_2_alg».proof.Proof.Gen.KernelIdeal.Regions
import proofs.«159339_j34729105555459_2_alg».proof.Proof.ProjBodyIdeal
import proofs.«159339_j34729105555459_2_alg».proof.Proof.PostBodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the assembly needs of the attention region's half: proof data at any region-entry contents whose arrays are those
    contents, at full shares, owing nothing, with the body obligation, and an invariant that starts from and ends in the
    plain "scoped rest and generator register". -/
structure AttnHalf (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  A_eq : ∀ V c w, (dat V c).A w = V c (Pipeline.arrRef spec1 w)
  share : ∀ V c w, (dat V c).q w = fullShare
  owed : ∀ V c t, (dat V c).owed t = 0
  recorded : ∀ V c t, (dat V c).recorded t = Set.univ
  body : ∀ V c, BodyObligation (dat V c) (defs₀ (F := F)) Variants.none () Set.univ
  hin : ∀ V c, Pipeline.ΦA (U := UR sig nD τ) (Val := Elt F) spec1 c ⊢ (dat V c).Φ 0
  hout : ∀ V c, (dat V c).Φ (Fin.last cfg1.N) ⊢ Pipeline.ΦA (U := UR sig nD τ) (Val := Elt F) spec1 c

variable (A : AttnHalf F)
variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (A.dat (V3 m ρ) c).arrAt w cfg1.N
theorem W4_arr (c : Dev nD) (w : Fin cfg1.W) :
    W4 A m ρ c (Proc.devRef .tc (Pipeline.arrRef spec1 w)) = (A.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 A m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 A m ρ c b
theorem hF1 (c : Dev nD) (w : Fin cfg1.W) : (A.dat (V3 m ρ) c).arrAt w cfg1.N = V4 A m ρ c (Pipeline.arrRef spec1 w) :=
  (W4_arr A m ρ c w).symm
theorem hrest1 (c : Dev nD) : ∀ b, b ∉ Finset.univ.image (Pipeline.arrRef spec1) → V4 A m ρ c b = V3 m ρ c b :=
  fun b hb => W4_of_ne A m ρ c b fun w e => hb (Finset.mem_image.mpr ⟨w, Finset.mem_univ _, e⟩)

/-- After the third host stretch (the last region's entry). -/
abbrev W5 : Dev nD → Valuation τ sig (Elt F) := fun c => StableHlo.after hostOps2 (W4 A m ρ c)
abbrev V5 : (c : Dev nD) → (b : Ref sig .tc) → Buf (Elt F) ((c : Thread nD τ).loc b) := fun c b => W5 A m ρ c b
/-- At the last region's exit. -/
def W6 (c : Dev nD) : Valuation τ sig (Elt F) :=
  Pipeline.withArrays spec2 c (W5 A m ρ c) fun w => (dat2 (V5 A m ρ) c).arrAt w cfg2.N
theorem W6_arr (c : Dev nD) (w : Fin cfg2.W) :
    W6 A m ρ c (Proc.devRef .tc (Pipeline.arrRef spec2 w)) = (dat2 (V5 A m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 A m ρ c (Proc.devRef .tc b) = W5 A m ρ c (Proc.devRef .tc b) := by
  unfold W6; exact Pipeline.withArrays_of_ne spec2 c _ _ b hb
abbrev V6 : (c : Dev nD) → (b : Ref sig .tc) → Buf (Elt F) ((c : Thread nD τ).loc b) := fun c b => W6 A m ρ c b
theorem hF2 (c : Dev nD) (w : Fin cfg2.W) : (dat2 (V5 A m ρ) c).arrAt w cfg2.N = V6 A m ρ c (Pipeline.arrRef spec2 w) :=
  (W6_arr A m ρ c w).symm
theorem hrest2 (c : Dev nD) : ∀ b, b ∉ Finset.univ.image (Pipeline.arrRef spec2) → V6 A m ρ c b = V5 A m ρ c b :=
  fun b hb => W6_of_ne A m ρ c b fun w e => hb (Finset.mem_image.mpr ⟨w, Finset.mem_univ _, e⟩)

/-- After the last host stretch: what the program ends with. -/
abbrev W7 : Dev nD → Valuation τ sig (Elt F) := fun c => StableHlo.after hostOps3 (W6 A m ρ c)

/-! ## The arguments end as launched -/

theorem W7_main_arg0 (c : Dev nD) : W7 A m ρ c (Proc.devRef .tc main_arg0) = m ((c : Thread nD τ).loc main_arg0) :=
  calc W7 A m ρ c (Proc.devRef .tc main_arg0)
    _ = W6 A m ρ c (Proc.devRef .tc main_arg0) := StableHlo.after_of_writes_sub hostOps3 _ hostOps3_writes (by decide)
    _ = W5 A m ρ c (Proc.devRef .tc main_arg0) := W6_of_ne A m ρ c main_arg0 (by decide)
    _ = W4 A m ρ c (Proc.devRef .tc main_arg0) := StableHlo.after_of_writes_sub hostOps2 _ hostOps2_writes (by decide)
    _ = W3 m ρ c (Proc.devRef .tc main_arg0) := W4_of_ne A m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 A m ρ c (Proc.devRef .tc main_arg1) = m ((c : Thread nD τ).loc main_arg1) :=
  calc W7 A m ρ c (Proc.devRef .tc main_arg1)
    _ = W6 A m ρ c (Proc.devRef .tc main_arg1) := StableHlo.after_of_writes_sub hostOps3 _ hostOps3_writes (by decide)
    _ = W5 A m ρ c (Proc.devRef .tc main_arg1) := W6_of_ne A m ρ c main_arg1 (by decide)
    _ = W4 A m ρ c (Proc.devRef .tc main_arg1) := StableHlo.after_of_writes_sub hostOps2 _ hostOps2_writes (by decide)
    _ = W3 m ρ c (Proc.devRef .tc main_arg1) := (W4_arr A m ρ c 3).trans (((A.dat (V3 m ρ) c).arrAt_in 3 rfl _).trans (A.A_eq (V3 m ρ) c 3))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 A m ρ c (Proc.devRef .tc main_arg2) = m ((c : Thread nD τ).loc main_arg2) :=
  calc W7 A m ρ c (Proc.devRef .tc main_arg2)
    _ = W6 A m ρ c (Proc.devRef .tc main_arg2) := StableHlo.after_of_writes_sub hostOps3 _ hostOps3_writes (by decide)
    _ = W5 A m ρ c (Proc.devRef .tc main_arg2) := W6_of_ne A m ρ c main_arg2 (by decide)
    _ = W4 A m ρ c (Proc.devRef .tc main_arg2) := StableHlo.after_of_writes_sub hostOps2 _ hostOps2_writes (by decide)
    _ = W3 m ρ c (Proc.devRef .tc main_arg2) := W4_of_ne A m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 A m ρ c (Proc.devRef .tc main_arg3) = m ((c : Thread nD τ).loc main_arg3) :=
  calc W7 A m ρ c (Proc.devRef .tc main_arg3)
    _ = W6 A m ρ c (Proc.devRef .tc main_arg3) := StableHlo.after_of_writes_sub hostOps3 _ hostOps3_writes (by decide)
    _ = W5 A m ρ c (Proc.devRef .tc main_arg3) := W6_of_ne A m ρ c main_arg3 (by decide)
    _ = W4 A m ρ c (Proc.devRef .tc main_arg3) := StableHlo.after_of_writes_sub hostOps2 _ hostOps2_writes (by decide)
    _ = W3 m ρ c (Proc.devRef .tc main_arg3) := W4_of_ne A m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 A m ρ c (Proc.devRef .tc main_arg4) = m ((c : Thread nD τ).loc main_arg4) :=
  calc W7 A m ρ c (Proc.devRef .tc main_arg4)
    _ = W6 A m ρ c (Proc.devRef .tc main_arg4) := StableHlo.after_of_writes_sub hostOps3 _ hostOps3_writes (by decide)
    _ = W5 A m ρ c (Proc.devRef .tc main_arg4) := W6_of_ne A m ρ c main_arg4 (by decide)
    _ = W4 A m ρ c (Proc.devRef .tc main_arg4) := StableHlo.after_of_writes_sub hostOps2 _ hostOps2_writes (by decide)
    _ = W3 m ρ c (Proc.devRef .tc main_arg4) := W4_of_ne A m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 A m ρ c (Proc.devRef .tc main_arg5) = m ((c : Thread nD τ).loc main_arg5) :=
  calc W7 A m ρ c (Proc.devRef .tc main_arg5)
    _ = W6 A m ρ c (Proc.devRef .tc main_arg5) := StableHlo.after_of_writes_sub hostOps3 _ hostOps3_writes (by decide)
    _ = W5 A m ρ c (Proc.devRef .tc main_arg5) := W6_of_ne A m ρ c main_arg5 (by decide)
    _ = W4 A m ρ c (Proc.devRef .tc main_arg5) := StableHlo.after_of_writes_sub hostOps2 _ hostOps2_writes (by decide)
    _ = W3 m ρ c (Proc.devRef .tc main_arg5) := W4_of_ne A m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 A m ρ c (Proc.devRef .tc main_arg6) = m ((c : Thread nD τ).loc main_arg6) :=
  calc W7 A m ρ c (Proc.devRef .tc main_arg6)
    _ = W6 A m ρ c (Proc.devRef .tc main_arg6) := StableHlo.after_of_writes_sub hostOps3 _ hostOps3_writes (by decide)
    _ = W5 A m ρ c (Proc.devRef .tc main_arg6) := W6_of_ne A m ρ c main_arg6 (by decide)
    _ = W4 A m ρ c (Proc.devRef .tc main_arg6) := StableHlo.after_of_writes_sub hostOps2 _ hostOps2_writes (by decide)
    _ = W3 m ρ c (Proc.devRef .tc main_arg6) := W4_of_ne A m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 A m ρ c (Proc.devRef .tc main_arg7) = m ((c : Thread nD τ).loc main_arg7) :=
  calc W7 A m ρ c (Proc.devRef .tc main_arg7)
    _ = W6 A m ρ c (Proc.devRef .tc main_arg7) := StableHlo.after_of_writes_sub hostOps3 _ hostOps3_writes (by decide)
    _ = W5 A m ρ c (Proc.devRef .tc main_arg7) := W6_of_ne A m ρ c main_arg7 (by decide)
    _ = W4 A m ρ c (Proc.devRef .tc main_arg7) := StableHlo.after_of_writes_sub hostOps2 _ hostOps2_writes (by decide)
    _ = W3 m ρ c (Proc.devRef .tc main_arg7) := W4_of_ne A m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 A m ρ c (Proc.devRef .tc main_arg8) = m ((c : Thread nD τ).loc main_arg8) :=
  calc W7 A m ρ c (Proc.devRef .tc main_arg8)
    _ = W6 A m ρ c (Proc.devRef .tc main_arg8) := StableHlo.after_of_writes_sub hostOps3 _ hostOps3_writes (by decide)
    _ = W5 A m ρ c (Proc.devRef .tc main_arg8) := W6_of_ne A m ρ c main_arg8 (by decide)
    _ = W4 A m ρ c (Proc.devRef .tc main_arg8) := StableHlo.after_of_writes_sub hostOps2 _ hostOps2_writes (by decide)
    _ = W3 m ρ c (Proc.devRef .tc main_arg8) := W4_of_ne A m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 A m ρ c (Proc.devRef .tc main_arg9) = m ((c : Thread nD τ).loc main_arg9) :=
  calc W7 A m ρ c (Proc.devRef .tc main_arg9)
    _ = W6 A m ρ c (Proc.devRef .tc main_arg9) := StableHlo.after_of_writes_sub hostOps3 _ hostOps3_writes (by decide)
    _ = W5 A m ρ c (Proc.devRef .tc main_arg9) := W6_of_ne A m ρ c main_arg9 (by decide)
    _ = W4 A m ρ c (Proc.devRef .tc main_arg9) := StableHlo.after_of_writes_sub hostOps2 _ hostOps2_writes (by decide)
    _ = W3 m ρ c (Proc.devRef .tc main_arg9) := W4_of_ne A m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 A m ρ c (Proc.devRef .tc main_arg10) = m ((c : Thread nD τ).loc main_arg10) :=
  calc W7 A m ρ c (Proc.devRef .tc main_arg10)
    _ = W6 A m ρ c (Proc.devRef .tc main_arg10) := StableHlo.after_of_writes_sub hostOps3 _ hostOps3_writes (by decide)
    _ = W5 A m ρ c (Proc.devRef .tc main_arg10) := W6_of_ne A m ρ c main_arg10 (by decide)
    _ = W4 A m ρ c (Proc.devRef .tc main_arg10) := StableHlo.after_of_writes_sub hostOps2 _ hostOps2_writes (by decide)
    _ = W3 m ρ c (Proc.devRef .tc main_arg10) := W4_of_ne A m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 A m ρ c (Proc.devRef .tc main_arg11) = m ((c : Thread nD τ).loc main_arg11) :=
  calc W7 A m ρ c (Proc.devRef .tc main_arg11)
    _ = W6 A m ρ c (Proc.devRef .tc main_arg11) := StableHlo.after_of_writes_sub hostOps3 _ hostOps3_writes (by decide)
    _ = W5 A m ρ c (Proc.devRef .tc main_arg11) := W6_of_ne A m ρ c main_arg11 (by decide)
    _ = W4 A m ρ c (Proc.devRef .tc main_arg11) := StableHlo.after_of_writes_sub hostOps2 _ hostOps2_writes (by decide)
    _ = W3 m ρ c (Proc.devRef .tc main_arg11) := W4_of_ne A m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W7_main_arg12 (c : Dev nD) : W7 A m ρ c (Proc.devRef .tc main_arg12) = m ((c : Thread nD τ).loc main_arg12) :=
  calc W7 A m ρ c (Proc.devRef .tc main_arg12)
    _ = W6 A m ρ c (Proc.devRef .tc main_arg12) := StableHlo.after_of_writes_sub hostOps3 _ hostOps3_writes (by decide)
    _ = W5 A m ρ c (Proc.devRef .tc main_arg12) := W6_of_ne A m ρ c main_arg12 (by decide)
    _ = W4 A m ρ c (Proc.devRef .tc main_arg12) := StableHlo.after_of_writes_sub hostOps2 _ hostOps2_writes (by decide)
    _ = W3 m ρ c (Proc.devRef .tc main_arg12) := W4_of_ne A m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W7_main_arg13 (c : Dev nD) : W7 A m ρ c (Proc.devRef .tc main_arg13) = m ((c : Thread nD τ).loc main_arg13) :=
  calc W7 A m ρ c (Proc.devRef .tc main_arg13)
    _ = W6 A m ρ c (Proc.devRef .tc main_arg13) := StableHlo.after_of_writes_sub hostOps3 _ hostOps3_writes (by decide)
    _ = W5 A m ρ c (Proc.devRef .tc main_arg13) := W6_of_ne A m ρ c main_arg13 (by decide)
    _ = W4 A m ρ c (Proc.devRef .tc main_arg13) := StableHlo.after_of_writes_sub hostOps2 _ hostOps2_writes (by decide)
    _ = W3 m ρ c (Proc.devRef .tc main_arg13) := W4_of_ne A m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => A.dat (V3 m ρ) c
  | ⟨2, _⟩ => fun c => dat2 (V5 A m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 A m ρ c) ∗ ∃ r, prngReg c r)

/-! ## The regions as segments -/

set_option backward.isDefEq.respectTransparency.types false in
/-- Region 0 over the thread state: entered from every unscoped buffer at the contents before it, left at the contents after
    it. Its arrays are split out of the unscoped buffers and put back at what the pipeline leaves; the generator register goes
    into the region's invariant and comes out; nothing is owed; the kernel has no semaphore of its own. -/
def reg0 : Pipeline.RegionSeg (pcfgs (F := F)) adm (pdats A m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats A m ρ) launch0.win launch0.arr_whole c
      ((pdats A m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats A m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats A m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats A m ρ) ((pdats A m ρ 0 c).share_full fun _ => rfl)
      (V1 m ρ c) (V2 m ρ c) ((pdats A m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at what the pipeline leaves; the generator register goes
    into the region's invariant and comes out; nothing is owed; the kernel has no semaphore of its own. -/
def reg1 : Pipeline.RegionSeg (pcfgs (F := F)) adm (pdats A m ρ) () defs₀ 𝒱₀ L lv 1 where
  win := launch1.win.to₀
  block_pos := launch1.block_pos
  stage_whole := launch1.stage_whole
  K := PEmpty
  osem k := k.elim
  ho := Pipeline.OwnSemFacts.none _
  hbody c := (A.body (V3 m ρ) c).loose
  hwaits := Pipeline.hwaits_of_owed_zero _ _ _ _ L lv 1 fun c t => A.owed (V3 m ρ) c t
  pre c := iprop(StableHlo.held (c : Thread nD τ) (Pipeline.ucRefs τ sig) (W3 m ρ c) ∗ R c)
  post c := iprop(StableHlo.held (c : Thread nD τ) (Pipeline.ucRefs τ sig) (W4 A m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats A m ρ) launch1.win launch1.arr_whole c
      ((pdats A m ρ 1 c).share_full fun w => A.share (V3 m ρ) c w) (V3 m ρ c) fun w => A.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats A m ρ 1 c).owed 0 = 0 from A.owed (V3 m ρ) c 0]
      icases HO with ⟨%W, HO⟩; iexists W; isplitr
      · ipureintro; exact fun x _ => Or.inl (by rw [show (pdats A m ρ 1 c).recorded 0 = Set.univ from A.recorded (V3 m ρ) c 0]; trivial)
      iexact HO
    isplitl [Hp]; · iexact Hp
    iexact Hrest
  hin c := by
    refine BIBase.Entails.trans ?_ (A.hin (V3 m ρ) c)
    unfold Pipeline.ΦA
    iintro ⟨Hp, -, Hr⟩
    isplitl [Hr]; · iexact Hr
    iexact Hp
  hout c := by
    refine BIBase.Entails.trans (A.hout (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats A m ρ) ((pdats A m ρ 1 c).share_full fun w => A.share (V3 m ρ) c w)
      (V3 m ρ c) (V4 A m ρ c) ((pdats A m ρ 1 c).arrAt · cfg1.N) (hF1 A m ρ c) (hrest1 A m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats A m ρ 1 c).owed (Fin.last _) = 0 from A.owed (V3 m ρ) c _]
    icases HO with ⟨%W, -, HO⟩; iexists W; iexact HO

set_option backward.isDefEq.respectTransparency.types false in
/-- Region 2 over the thread state: entered from every unscoped buffer at the contents before it, left at the contents after
    it. Its arrays are split out of the unscoped buffers and put back at what the pipeline leaves; the generator register goes
    into the region's invariant and comes out; nothing is owed; the kernel has no semaphore of its own. -/
def reg2 : Pipeline.RegionSeg (pcfgs (F := F)) adm (pdats A m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 A m ρ) c).loose
  hwaits := Pipeline.hwaits_of_owed_zero _ _ _ _ L lv 2 fun _ _ => rfl
  pre c := iprop(StableHlo.held (c : Thread nD τ) (Pipeline.ucRefs τ sig) (W5 A m ρ c) ∗ R c)
  post c := iprop(StableHlo.held (c : Thread nD τ) (Pipeline.ucRefs τ sig) (W6 A m ρ c) ∗ R c)
  X c := iprop(∃ r, prngReg c r)
  Y c := iprop(∃ r, prngReg c r)
  Z c := Pipeline.unscopedRest (Ix := Unit) (Name := ℕ) (U := UR sig nD τ) (Lvl := ℕ) spec2 c (V5 A m ρ c)
  hentry c := by
    rw [Pipeline.ownSems0_none]
    have hsplit := Pipeline.arrays_of_unscopedBufs (p := 2) (pcfgs (F := F)) adm (pdats A m ρ) launch2.win launch2.arr_whole c
      ((pdats A m ρ 2 c).share_full fun _ => rfl) (V5 A m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats A m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats A m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats A m ρ) ((pdats A m ρ 2 c).share_full fun _ => rfl)
      (V5 A m ρ c) (V6 A m ρ c) ((pdats A m ρ 2 c).arrAt · cfg2.N) (hF2 A m ρ c) (hrest2 A m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats A m ρ) () defs₀ 𝒱₀ L lv) :=
  [ .host (hseg hostOps0 hostOps0_sub hostOps0_fresh (W0 m ρ)),
    .region (reg0 A m ρ),
    .host (hseg hostOps1 hostOps1_sub hostOps1_fresh (W2 m ρ)),
    .region (reg1 A m ρ),
    .host (hseg hostOps2 hostOps2_sub hostOps2_fresh (W4 A m ρ)),
    .region (reg2 A m ρ),
    .host (hseg hostOps3 hostOps3_sub hostOps3_fresh (W6 A m ρ)) ]

set_option backward.isDefEq.respectTransparency.types false in
/-- THE RUN. From any memory with zero counters, every weakly fair execution of the program terminates, nothing faulting,
    and the final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 A m ρ c b) := by
  refine Pipeline.θ_run_regions_kit_dev (pcfgs (F := F)) adm (pdats A m ρ) () cellOf_inj emb₁ defs₀ 𝒱₀ L lv m ρ main
    (fun _ => segs A m ρ)
    (fun c Q => by
      rewrite [main_chain c, Pipeline.Seg.run_eq_chain,
        show (segs A m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ A m ρ)
    (hch := fun c => ⟨.rfl, .rfl, .rfl, .rfl, .rfl, .rfl, .rfl, by
      show iprop(StableHlo.held (c : Thread nD τ) (Pipeline.ucRefs τ sig) (W7 A m ρ c) ∗ R c)
        ⊢ iprop(Tₙ A m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 A m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 A m ρ c) s')
      isplitl [Hh] <;> iassumption)
    (hQ := fun s h c => h c)

include A in
/-- THE FRAME: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W7_main_arg0 A m ρ c),
     (h c _ (mem_uc main_arg1 (by decide))).trans (W7_main_arg1 A m ρ c),
     (h c _ (mem_uc main_arg2 (by decide))).trans (W7_main_arg2 A m ρ c),
     (h c _ (mem_uc main_arg3 (by decide))).trans (W7_main_arg3 A m ρ c),
     (h c _ (mem_uc main_arg4 (by decide))).trans (W7_main_arg4 A m ρ c),
     (h c _ (mem_uc main_arg5 (by decide))).trans (W7_main_arg5 A m ρ c),
     (h c _ (mem_uc main_arg6 (by decide))).trans (W7_main_arg6 A m ρ c),
     (h c _ (mem_uc main_arg7 (by decide))).trans (W7_main_arg7 A m ρ c),
     (h c _ (mem_uc main_arg8 (by decide))).trans (W7_main_arg8 A m ρ c),
     (h c _ (mem_uc main_arg9 (by decide))).trans (W7_main_arg9 A m ρ c),
     (h c _ (mem_uc main_arg10 (by decide))).trans (W7_main_arg10 A m ρ c),
     (h c _ (mem_uc main_arg11 (by decide))).trans (W7_main_arg11 A m ρ c),
     (h c _ (mem_uc main_arg12 (by decide))).trans (W7_main_arg12 A m ρ c),
     (h c _ (mem_uc main_arg13 (by decide))).trans (W7_main_arg13 A m ρ c)⟩) (run_all A m ρ)

end Cert.KernelIdeal.Hand

end
-- ==== Proof.AttnFrame.lean ====
/-
  The attention region: one grid point handles one head and one tile of 512 keys, and the four key tiles of a head are
  visited in order. Three scratch buffers are carried from one key tile to the next: the running row maximum, the
  running denominator and the running numerator of the softmax. What the three kinds of point (first, middle, last key
  tile of a head) share is collected here: the windows' blocks, the two branch conditions in closed form over the grid,
  where the output window is idle, and the scratch buffers as memrefs.
-/
import proofs.«159339_j34729105555459_2_alg».proof.Proof.Gen.KernelIdeal.Launch
import proofs.«159339_j34729105555459_2_alg».proof.Proof.Gen.KernelIdeal.Skeleton
import proofs.«159339_j34729105555459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the query block
    moves only with the head, the mask never, and a block that does not move is kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch (reset the running statistics): taken at the first key tile of a head. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (normalise and store the head's output): taken at the last key tile of a head. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from a head's last key tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At a head's last key tile it is live. -/
theorem liveAt1_4 : ∀ t : Fin cfg1.N, cond1_1 (grid1.coords t) → cfg1.idle 4 (grid1.coords t) = false := by decide +kernel

/-! ## The staging and scratch memrefs -/

/-- One staging buffer of the output window, through which its contents are stated. -/
abbrev VO1_4 : View sig .tc .vmem S1x2048x64 .bf16 := (Memref.whole cc1_stg4_0 : Memref sig .tc .vmem S1x2048x64 .bf16).view
/-- Each window's current staging memref at point `t`, and its wholeness. -/
abbrev ms1_0 (t : Fin cfg1.N) : Memref sig .tc .vmem S1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x64 .bf16 := win1_4.stage (cfg1.slots t 4)
abbrev hs1_4 (t : Fin cfg1.N) : (ms1_4 t).IsWhole := hstage1_4 ((cfg1.slots t 4).cast nbuf1_4)
/-- The three scratch buffers: running maximum, running denominator, running numerator. -/
abbrev scM1_0 : Memref sig .tc .vmem S1x2048x1 .f32 := Memref.whole cc1_scratch0
abbrev scM1_1 : Memref sig .tc .vmem S1x2048x1 .f32 := Memref.whole cc1_scratch1
abbrev scM1_2 : Memref sig .tc .vmem S1x2048x64 .f32 := Memref.whole cc1_scratch2
abbrev VS1_0 : View sig .tc .vmem S1x2048x1 .f32 := scM1_0.view
abbrev VS1_1 : View sig .tc .vmem S1x2048x1 .f32 := scM1_1.view
abbrev VS1_2 : View sig .tc .vmem S1x2048x64 .f32 := scM1_2.view

/-- The other scoped buffers of the core, never touched by this region. -/
abbrev rest1 (c : Dev nD) : sProp 𝕄 := Pipeline.scopedRestBut spec1 c [cc1_scratch0, cc1_scratch1, cc1_scratch2]

/-- What the region is entered with, the three scratch buffers split out as memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 c) ∗ (∃ r, prngReg c r)) := by
  unfold Pipeline.ΦA; rw [scopedRest1_split]; simp only [scM1_0, scM1_1, scM1_2, owns_whole]; try rfl

end Cert.KernelIdeal.Hand

end
-- ==== Proof.AttnRunFirst.lean ====
/-
  The attention body at the first key tile of a head, run whole. The three scratch buffers are first stored whole with
  the starting statistics (a large negative finite maximum, denominator 0, numerator 0), whatever they held; the common update follows; the
  output buffer is not touched. The pieces each scratch buffer ends with are what the run finds.
-/
import proofs.«159339_j34729105555459_2_alg».proof.Proof.AttnFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer (none) and in the three scratch buffers at a head's FIRST key
    tile, with the triple: inputs at their contents and handed back, the output buffer at `xi4` handed back untouched, the
    scratch buffers at anything and returned with their pieces written. -/
noncomputable def kernelRun1_first (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) :
    Σ' (L4 : List (View.Piece (Elt F) S1x2048x64 .bf16)) (LS0 : List (View.Piece (Elt F) S1x2048x1 .f32)) (LS1 : List (View.Piece (Elt F) S1x2048x1 .f32)), { LS2 : List (View.Piece (Elt F) S1x2048x64 .f32) //
      ∀ (xi4 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.AttnRunMiddle.lean ====
/-
  The attention body at a middle key tile of a head, run whole: only the common update of the three running statistics
  from what the previous key tile left; the output buffer is not touched.
-/
import proofs.«159339_j34729105555459_2_alg».proof.Proof.AttnRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a MIDDLE key tile, with the triple: the scratch buffers at what the previous key
    tile left (`xs0`, `xs1`, `xs2`) and returned with their pieces written; the output buffer handed back untouched. -/
noncomputable def kernelRun1_middle (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    Σ' (L4 : List (View.Piece (Elt F) S1x2048x64 .bf16)) (LS0 : List (View.Piece (Elt F) S1x2048x1 .f32)) (LS1 : List (View.Piece (Elt F) S1x2048x1 .f32)), { LS2 : List (View.Piece (Elt F) S1x2048x64 .f32) //
      ∀ (xi4 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.AttnRunLast.lean ====
/-
  The attention body at the last key tile of a head, run whole: the common update of the three running statistics, then
  the numerator divided by the denominator is stored whole into the output buffer.
-/
import proofs.«159339_j34729105555459_2_alg».proof.Proof.AttnRunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a head's LAST key tile, with the triple: the scratch buffers at what the previous
    key tile left and returned with their pieces written; the output buffer at anything and returned with its piece written. -/
noncomputable def kernelRun1_last (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    Σ' (L4 : List (View.Piece (Elt F) S1x2048x64 .bf16)) (LS0 : List (View.Piece (Elt F) S1x2048x1 .f32)) (LS1 : List (View.Piece (Elt F) S1x2048x1 .f32)), { LS2 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.AttnBodyIdeal.lean ====
/-
  The attention region, for any float instance: what one grid point does to the staging buffers and to the three scratch
  buffers (running row maximum, running denominator, running numerator of the softmax over the keys), and the proof
  data built from it. A head's four key tiles are visited in order. At the first the scratch is reset and then updated;
  at the second and third it is updated from what the previous tile left; at the fourth it is updated and the numerator
  divided by the denominator is stored into the output buffer, which is written back only there.
-/
import proofs.«159339_j34729105555459_2_alg».proof.Proof.AttnRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output buffer and in the scratch buffers -/

/-- At a head's first key tile nothing is stored into the output buffer: a placeholder nothing consults, since the window is neither
    written back there nor read at the next point. -/
def out1_first_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x64 .bf16 :=
  VO1_4.read (Elt F) (VO1_4.writes (Elt F) VO1_4.junk (kernelRun1_first c i arg2 harg2 arg3 harg3 arg4 harg4 arg5 harg5 arg6 harg6 arg7 harg7 arg8 harg8 arg9 harg9 hc0 hc1 x0 x1 x2 x3).1)

/-- At a head's first key tile the stores into scratch buffer 0 cover it. -/
theorem scover1_first_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) (y : S1x2048x1.Idx) :
    ∃ pc ∈ (kernelRun1_first c i arg2 harg2 arg3 harg3 arg4 harg4 arg5 harg5 arg6 harg6 arg7 harg7 arg8 harg8 arg9 harg9 hc0 hc1 x0 x1 x2 x3).2.1, y ∈ pc.1.set :=
  View.cover_of_tiledL (kernelRun1_first c i arg2 harg2 arg3 harg3 arg4 harg4 arg5 harg5 arg6 harg6 arg7 harg7 arg8 harg8 arg9 harg9 hc0 hc1 x0 x1 x2 x3).2.1 S1x2048x1.size (by sl_kernel_rfl) y

/-- What the body leaves in scratch buffer 0 at a head's first key tile: its pieces read back. -/
def sout1_first_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x1 .f32 :=
  VS1_0.read (Elt F) (VS1_0.writes (Elt F) VS1_0.junk (kernelRun1_first c i arg2 harg2 arg3 harg3 arg4 harg4 arg5 harg5 arg6 harg6 arg7 harg7 arg8 harg8 arg9 harg9 hc0 hc1 x0 x1 x2 x3).2.1)

/-- At a head's first key tile the stores into scratch buffer 1 cover it. -/
theorem scover1_first_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) (y : S1x2048x1.Idx) :
    ∃ pc ∈ (kernelRun1_first c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_first c i arg2 harg2 arg3 harg3 arg4 harg4 arg5 harg5 arg6 harg6 arg7 harg7 arg8 harg8 arg9 harg9 hc0 hc1 x0 x1 x2 x3).2.2.1 S1x2048x1.size (by sl_kernel_rfl) y

/-- What the body leaves in scratch buffer 1 at a head's first key tile: its pieces read back. -/
def sout1_first_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x1 .f32 :=
  VS1_1.read (Elt F) (VS1_1.writes (Elt F) VS1_1.junk (kernelRun1_first c i arg2 harg2 arg3 harg3 arg4 harg4 arg5 harg5 arg6 harg6 arg7 harg7 arg8 harg8 arg9 harg9 hc0 hc1 x0 x1 x2 x3).2.2.1)

/-- At a head's first key tile the stores into scratch buffer 2 cover it. -/
theorem scover1_first_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) (y : S1x2048x64.Idx) :
    ∃ pc ∈ (kernelRun1_first c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_first c i arg2 harg2 arg3 harg3 arg4 harg4 arg5 harg5 arg6 harg6 arg7 harg7 arg8 harg8 arg9 harg9 hc0 hc1 x0 x1 x2 x3).2.2.2.1 S1x2048x64.size (by sl_kernel_rfl) y

/-- What the body leaves in scratch buffer 2 at a head's first key tile: its pieces read back. -/
def sout1_first_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) : Vec F S1x2048x64 .f32 :=
  VS1_2.read (Elt F) (VS1_2.writes (Elt F) VS1_2.junk (kernelRun1_first c i arg2 harg2 arg3 harg3 arg4 harg4 arg5 harg5 arg6 harg6 arg7 harg7 arg8 harg8 arg9 harg9 hc0 hc1 x0 x1 x2 x3).2.2.2.1)

/-- At a middle key tile nothing is stored into the output buffer: a placeholder nothing consults, since the window is neither
    written back there nor read at the next point. -/
def out1_middle_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .bf16 :=
  VO1_4.read (Elt F) (VO1_4.writes (Elt F) VO1_4.junk (kernelRun1_middle c i arg2 harg2 arg3 harg3 arg4 harg4 arg5 harg5 arg6 harg6 arg7 harg7 arg8 harg8 arg9 harg9 hc0 hc1 x0 x1 x2 x3 xs0 xs1 xs2).1)

/-- At a middle key tile the stores into scratch buffer 0 cover it. -/
theorem scover1_middle_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_middle c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_middle c i arg2 harg2 arg3 harg3 arg4 harg4 arg5 harg5 arg6 harg6 arg7 harg7 arg8 harg8 arg9 harg9 hc0 hc1 x0 x1 x2 x3 xs0 xs1 xs2).2.1 S1x2048x1.size (by sl_kernel_rfl) y

/-- What the body leaves in scratch buffer 0 at a middle key tile: its pieces read back. -/
def sout1_middle_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_0.read (Elt F) (VS1_0.writes (Elt F) VS1_0.junk (kernelRun1_middle c i arg2 harg2 arg3 harg3 arg4 harg4 arg5 harg5 arg6 harg6 arg7 harg7 arg8 harg8 arg9 harg9 hc0 hc1 x0 x1 x2 x3 xs0 xs1 xs2).2.1)

/-- At a middle key tile the stores into scratch buffer 1 cover it. -/
theorem scover1_middle_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_middle c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_middle c i arg2 harg2 arg3 harg3 arg4 harg4 arg5 harg5 arg6 harg6 arg7 harg7 arg8 harg8 arg9 harg9 hc0 hc1 x0 x1 x2 x3 xs0 xs1 xs2).2.2.1 S1x2048x1.size (by sl_kernel_rfl) y

/-- What the body leaves in scratch buffer 1 at a middle key tile: its pieces read back. -/
def sout1_middle_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_1.read (Elt F) (VS1_1.writes (Elt F) VS1_1.junk (kernelRun1_middle c i arg2 harg2 arg3 harg3 arg4 harg4 arg5 harg5 arg6 harg6 arg7 harg7 arg8 harg8 arg9 harg9 hc0 hc1 x0 x1 x2 x3 xs0 xs1 xs2).2.2.1)

/-- At a middle key tile the stores into scratch buffer 2 cover it. -/
theorem scover1_middle_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x64.Idx) :
    ∃ pc ∈ (kernelRun1_middle c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_middle c i arg2 harg2 arg3 harg3 arg4 harg4 arg5 harg5 arg6 harg6 arg7 harg7 arg8 harg8 arg9 harg9 hc0 hc1 x0 x1 x2 x3 xs0 xs1 xs2).2.2.2.1 S1x2048x64.size (by sl_kernel_rfl) y

/-- What the body leaves in scratch buffer 2 at a middle key tile: its pieces read back. -/
def sout1_middle_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .f32 :=
  VS1_2.read (Elt F) (VS1_2.writes (Elt F) VS1_2.junk (kernelRun1_middle c i arg2 harg2 arg3 harg3 arg4 harg4 arg5 harg5 arg6 harg6 arg7 harg7 arg8 harg8 arg9 harg9 hc0 hc1 x0 x1 x2 x3 xs0 xs1 xs2).2.2.2.1)

/-- At a head's last key tile the one store into the output buffer covers it. -/
theorem cover1_last_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x64.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).1 S1x2048x64.size (by sl_kernel_rfl) y

/-- What the body leaves in the output buffer at a head's last key tile: its piece read back. -/
def out1_last_4 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .bf16 :=
  VO1_4.read (Elt F) (VO1_4.writes (Elt F) VO1_4.junk (kernelRun1_last c i arg2 harg2 arg3 harg3 arg4 harg4 arg5 harg5 arg6 harg6 arg7 harg7 arg8 harg8 arg9 harg9 hc0 hc1 x0 x1 x2 x3 xs0 xs1 xs2).1)

/-- At a head's last key tile the stores into scratch buffer 0 cover it. -/
theorem scover1_last_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).2.1 S1x2048x1.size (by sl_kernel_rfl) y

/-- What the body leaves in scratch buffer 0 at a head's last key tile: its pieces read back. -/
def sout1_last_0 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_0.read (Elt F) (VS1_0.writes (Elt F) VS1_0.junk (kernelRun1_last c i arg2 harg2 arg3 harg3 arg4 harg4 arg5 harg5 arg6 harg6 arg7 harg7 arg8 harg8 arg9 harg9 hc0 hc1 x0 x1 x2 x3 xs0 xs1 xs2).2.1)

/-- At a head's last key tile the stores into scratch buffer 1 cover it. -/
theorem scover1_last_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x1.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).2.2.1 S1x2048x1.size (by sl_kernel_rfl) y

/-- What the body leaves in scratch buffer 1 at a head's last key tile: its pieces read back. -/
def sout1_last_1 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x1 .f32 :=
  VS1_1.read (Elt F) (VS1_1.writes (Elt F) VS1_1.junk (kernelRun1_last c i arg2 harg2 arg3 harg3 arg4 harg4 arg5 harg5 arg6 harg6 arg7 harg7 arg8 harg8 arg9 harg9 hc0 hc1 x0 x1 x2 x3 xs0 xs1 xs2).2.2.1)

/-- At a head's last key tile the stores into scratch buffer 2 cover it. -/
theorem scover1_last_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) (y : S1x2048x64.Idx) :
    ∃ pc ∈ (kernelRun1_last c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_last c i arg2 harg2 arg3 harg3 arg4 harg4 arg5 harg5 arg6 harg6 arg7 harg7 arg8 harg8 arg9 harg9 hc0 hc1 x0 x1 x2 x3 xs0 xs1 xs2).2.2.2.1 S1x2048x64.size (by sl_kernel_rfl) y

/-- What the body leaves in scratch buffer 2 at a head's last key tile: its pieces read back. -/
def sout1_last_2 (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) : Vec F S1x2048x64 .f32 :=
  VS1_2.read (Elt F) (VS1_2.writes (Elt F) VS1_2.junk (kernelRun1_last c i arg2 harg2 arg3 harg3 arg4 harg4 arg5 harg5 arg6 harg6 arg7 harg7 arg8 harg8 arg9 harg9 hc0 hc1 x0 x1 x2 x3 xs0 xs1 xs2).2.2.2.1)

/-! ## The three cases at a grid point -/

/-- The output buffer and the three scratch buffers after the body at point `t`, a head's first key tile. -/
def atFirst1 (c : Dev nD) (t : Fin cfg1.N) (h0 : t.val % 4 = 0) (h1 : ¬t.val % 4 = 3) : Vec F S1x2048x64 .bf16 × Vec F S1x2048x1 .f32 × Vec F S1x2048x1 .f32 × Vec F S1x2048x64 .f32 :=
  (out1_first_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_first_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_first_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_first_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

/-- The output buffer and the three scratch buffers after the body at point `t`, a middle key tile, over the scratch contents `p` the point before left. -/
def atMiddle1 (c : Dev nD) (t : Fin cfg1.N) (h0 : ¬t.val % 4 = 0) (h1 : ¬t.val % 4 = 3) (p : Vec F S1x2048x1 .f32 × Vec F S1x2048x1 .f32 × Vec F S1x2048x64 .f32) : Vec F S1x2048x64 .bf16 × Vec F S1x2048x1 .f32 × Vec F S1x2048x1 .f32 × Vec F S1x2048x64 .f32 :=
  (out1_middle_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2, sout1_middle_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2, sout1_middle_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2, sout1_middle_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2)

/-- The output buffer and the three scratch buffers after the body at point `t`, a head's last key tile, over the scratch contents `p` the point before left. -/
def atLast1 (c : Dev nD) (t : Fin cfg1.N) (h0 : ¬t.val % 4 = 0) (h1 : t.val % 4 = 3) (p : Vec F S1x2048x1 .f32 × Vec F S1x2048x1 .f32 × Vec F S1x2048x64 .f32) : Vec F S1x2048x64 .bf16 × Vec F S1x2048x1 .f32 × Vec F S1x2048x1 .f32 × Vec F S1x2048x64 .f32 :=
  (out1_last_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2, sout1_last_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2, sout1_last_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2, sout1_last_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2)

/-! ## What the buffers hold after each point -/

/-- The accumulation over the grid: the output buffer and the three scratch buffers after the body at position `n`. A
    head's first key tile starts from nothing; every other point continues from what the point before left in the scratch. -/
def outsAt1 (c : Dev nD) : (n : ℕ) → n < cfg1.N → Vec F S1x2048x64 .bf16 × Vec F S1x2048x1 .f32 × Vec F S1x2048x1 .f32 × Vec F S1x2048x64 .f32
  | 0, hn => atFirst1 V c ⟨0, hn⟩ (Nat.zero_mod _) (show ¬(0 : ℕ) % 4 = 3 from by decide)
  | n + 1, hn =>
    if h0 : (n + 1) % 4 = 0 then
      if h1 : (n + 1) % 4 = 3 then
        False.elim (by omega)
      else atFirst1 V c ⟨n + 1, hn⟩ h0 h1
    else
      if h1 : (n + 1) % 4 = 3 then atLast1 V c ⟨n + 1, hn⟩ h0 h1 (outsAt1 c n (Nat.lt_of_succ_lt hn)).2
      else atMiddle1 V c ⟨n + 1, hn⟩ h0 h1 (outsAt1 c n (Nat.lt_of_succ_lt hn)).2

/-- At a head's first key tile. -/
theorem outsAt1_first (c : Dev nD) (t : Fin cfg1.N) (h0 : t.val % 4 = 0) (h1 : ¬t.val % 4 = 3) :
    outsAt1 V c t.val t.isLt = atFirst1 V c t h0 h1 := by
  obtain ⟨n, hn⟩ := t
  cases n with
  | zero => exact rfl
  | succ n => exact (dif_pos h0).trans ((dif_neg h1).trans rfl)

/-- At a middle key tile: over what the point before left. -/
theorem outsAt1_middle (c : Dev nD) (t : Fin cfg1.N) (h0 : ¬t.val % 4 = 0) (h1 : ¬t.val % 4 = 3) :
    outsAt1 V c t.val t.isLt = atMiddle1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At a head's last key tile: over what the point before left. -/
theorem outsAt1_last (c : Dev nD) (t : Fin cfg1.N) (h0 : ¬t.val % 4 = 0) (h1 : t.val % 4 = 3) :
    outsAt1 V c t.val t.isLt = atLast1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry every scoped buffer at anything; afterwards the three scratch buffers at what
    the point before left in them, the other scoped buffers untouched, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ rest1 c) ∗ (∃ r, prngReg c r)) := by
  cases n with
  | zero => exact absurd rfl hz
  | succ n => rfl

/-! ## The pipeline's proof data -/

/-- The region's proof data on core `c`: the arrays as the region finds them; after the body at a point each input buffer at
    its block and the output buffer at `outsAt1`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' buffers hold their blocks; the point's position among its head's four key tiles
    says which case it is in; the invariant hands the body the three scratch buffers at what the point before left (at
    anything at the very first point) and takes them back at this point's contents; away from a head's last key tile the
    output buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_first V c t h0 h1]
    unfold atFirst1 sout1_first_0 sout1_first_1 sout1_first_2; (try dsimp only)
    by_cases hz : t.val = 0
    · rw [PhiS1_castSucc V c t, PhiS1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_first c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_first_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_first_1 c _ _ _ _ _ _ _ _ _ _ _ _ _ _ _ _ _ _ _ _ _ _ _)
            unfold owns; iexists _; isplitr
            swap; · iexact HS2
            ipureintro; exact View.read_writes_of_cover _ _ _ _ _ (scover1_first_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_first c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_first_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_first_1 c _ _ _ _ _ _ _ _ _ _ _ _ _ _ _ _ _ _ _ _ _ _ _)
            unfold owns; iexists _; isplitr
            swap; · iexact HS2
            ipureintro; exact View.read_writes_of_cover _ _ _ _ _ (scover1_first_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_last V c t h0 h1]
      unfold atLast1 out1_last_4 sout1_last_0 sout1_last_1 sout1_last_2; (try dsimp only)
      rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_last c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_last_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_last_1 c _ _ _ _ _ _ _ _ _ _ _ _ _ _ _ _ _ _ _ _ _ _ _ _ _ _)
            unfold owns; iexists _; isplitr
            swap; · iexact HS2
            ipureintro; exact View.read_writes_of_cover _ _ _ _ _ (scover1_last_2 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_last_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_middle V c t h0 h1]
      unfold atMiddle1 sout1_middle_0 sout1_middle_1 sout1_middle_2; (try dsimp only)
      rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_middle c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover1_middle_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_middle_1 c _ _ _ _ _ _ _ _ _ _ _ _ _ _ _ _ _ _ _ _ _ _ _ _ _ _)
            unfold owns; iexists _; isplitr
            swap; · iexact HS2
            ipureintro; exact View.read_writes_of_cover _ _ _ _ _ (scover1_middle_2 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.FramesIdeal.lean ====
/-
  The program's frame: it runs to the end, nothing faulting, and every argument array ends as launched. The attention region's
  half fills the assembly's last slot: its proof data read their arrays off the region-entry contents, hold full shares and owe
  nothing, and its invariant starts from and ends in the plain "scoped rest and generator register".
-/
import proofs.«159339_j34729105555459_2_alg».proof.Proof.RunIdeal
import proofs.«159339_j34729105555459_2_alg».proof.Proof.AttnBodyIdeal

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The attention region's half, as the assembly takes it. -/
def attnHalf : AttnHalf F where
  dat := fun V c => dat1 V c
  A_eq := fun V c w => A_eq1 V c w
  share := fun _ _ _ => rfl
  owed := fun _ _ _ => rfl
  recorded := fun _ _ _ => rfl
  body := fun V c => body_obligation1 V c
  hin := fun V c => hin1 V c
  hout := fun V c => hout1 V c

end Cert.KernelIdeal.Hand

end
-- ==== Proof.ProjPayload.lean ====
/-
  The projection body's arithmetic at an index, over the exact extended reals: each stored value is the product of the row
  block with the transpose of one weight matrix — entry (p, e) is the sum over d of x(p, d) · w(e, d). The changes of float
  format on the way in and out are the identity there, and the accumulator the product starts from is zero.
-/
import proofs.«159339_j34729105555459_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjValue

open Cert.KernelIdeal Cert.KernelIdeal.Gen
open Idealize.ShloMosaic Idealize.ShloMosaic.ValueIdx

/-- The dimension record of the three products: rows × contraction against columns × contraction. -/
abbrev dProj := dot_S1024x512_S512x512_S1024x512_1_1_0_0_n_n

theorem lhs0 (i : S1024x512.Idx) (q : dProj.contr.Idx) : (dProj.lhsIdx i q 0).val = (i 0).val := by
  unfold DotDims.lhsIdx
  rw [dif_neg (show ¬(0 : Fin S1024x512.rank) ∈ dProj.lhsBatch by decide), dif_pos (show (0 : Fin S1024x512.rank) ∈ dProj.lhsNonContracting by decide)]
  rfl
theorem lhs1 (i : S1024x512.Idx) (q : dProj.contr.Idx) : (dProj.lhsIdx i q 1).val = (q ⟨0, by decide⟩).val :=
  dProj.lhsIdx_val_of_single rfl i q
theorem rhs0 (i : S1024x512.Idx) (q : dProj.contr.Idx) : (dProj.rhsIdx i q 0).val = (i 1).val := by
  unfold DotDims.rhsIdx
  rw [dif_neg (show ¬(0 : Fin S512x512.rank) ∈ dProj.rhsBatch by decide), dif_pos (show (0 : Fin S512x512.rank) ∈ dProj.rhsNonContracting by decide)]
  rfl
theorem rhs1 (i : S1024x512.Idx) (q : dProj.contr.Idx) : (dProj.rhsIdx i q 1).val = (q ⟨0, by decide⟩).val :=
  dProj.rhsIdx_val_of_single rfl i q

/-- The product into a zero accumulator, at entry (p, e): the sum over d of x(p, d) · w(e, d). -/
theorem prod_apply (x : FVec Ideal S1024x512 .bf16) (w : FVec Ideal S512x512 .bf16) (p : Fin 1024) (e : Fin 512) :
    matmul dProj none x w (constant S1024x512 .f32 0x00000000#32) (ix2 p e)
      = ∑ d : Fin 512, x (ix2 p d) * w (ix2 e d) := by
  simp only [matmul]
  rw [Ideal.matmul_constant_zero_apply, ← Equiv.sum_comp (contrEquiv1 dProj 512 rfl rfl).symm]
  refine Finset.sum_congr rfl fun k _ => ?_
  have hk := contrEquiv1_symm_val dProj 512 rfl rfl k
  have el : dProj.lhsIdx (ix2 p e) ((contrEquiv1 dProj 512 rfl rfl).symm k) = ix2 p k := funext fun a => Fin.ext (by
    match a with
    | ⟨0, _⟩ => exact lhs0 _ _
    | ⟨1, _⟩ => exact (lhs1 _ _).trans hk)
  have er : dProj.rhsIdx (ix2 p e) ((contrEquiv1 dProj 512 rfl rfl).symm k) = ix2 e k := funext fun a => Fin.ext (by
    match a with
    | ⟨0, _⟩ => exact rhs0 _ _
    | ⟨1, _⟩ => exact (rhs1 _ _).trans hk)
  rw [el, er]

/-- The row block on its way into the products: unchanged. -/
theorem pay1_apply (v0 : Vec Ideal S1024x512 .f32) (j : S1024x512.Idx) : k0_pay1 (F := Ideal) v0 j = v0 j := by
  unfold k0_pay1
  show (shapeCast S1024x512 v0 shapeCasts_S1024x512_S1024x512) j = v0 j
  rw [shapeCast_self]

/-- The first stored value at entry (p, e). -/
theorem pay2_apply (v0 : Vec Ideal S1024x512 .f32) (v3 : Vec Ideal S512x512 .bf16) (p : Fin 1024) (e : Fin 512) :
    k0_pay2 (F := Ideal) v0 v3 (ix2 p e) = ∑ d : Fin 512, v0 (ix2 p d) * v3 (ix2 e d) := by
  unfold k0_pay2
  show matmul dProj none (k0_pay1 v0) (shapeCast S512x512 v3 shapeCasts_S512x512_S512x512) (constant S1024x512 .f32 0x00000000#32) (ix2 p e) = _
  rw [prod_apply, shapeCast_self]
  exact Finset.sum_congr rfl fun d _ => by rw [pay1_apply]

/-- The second. -/
theorem pay3_apply (v0 : Vec Ideal S1024x512 .f32) (v5 : Vec Ideal S512x512 .bf16) (p : Fin 1024) (e : Fin 512) :
    k0_pay3 (F := Ideal) v0 v5 (ix2 p e) = ∑ d : Fin 512, v0 (ix2 p d) * v5 (ix2 e d) := by
  unfold k0_pay3
  show matmul dProj none (k0_pay1 v0) (shapeCast S512x512 v5 shapeCasts_S512x512_S512x512) (constant S1024x512 .f32 0x00000000#32) (ix2 p e) = _
  rw [prod_apply, shapeCast_self]
  exact Finset.sum_congr rfl fun d _ => by rw [pay1_apply]

/-- The third. -/
theorem pay4_apply (v0 : Vec Ideal S1024x512 .f32) (v7 : Vec Ideal S512x512 .bf16) (p : Fin 1024) (e : Fin 512) :
    k0_pay4 (F := Ideal) v0 v7 (ix2 p e) = ∑ d : Fin 512, v0 (ix2 p d) * v7 (ix2 e d) := by
  unfold k0_pay4
  show matmul dProj none (k0_pay1 v0) (shapeCast S512x512 v7 shapeCasts_S512x512_S512x512) (constant S1024x512 .f32 0x00000000#32) (ix2 p e) = _
  rw [prod_apply, shapeCast_self]
  exact Finset.sum_congr rfl fun d _ => by rw [pay1_apply]

end Cert.KernelIdeal.ProjValue

end
-- ==== Proof.ProjArrays.lean ====
/-
  The projection region's three output arrays after the region, each as one function of the arrays the region finds: entry
  (r, e) is the sum over d of rows(r, d) · weight(e, d). A grid point owns the 1024 consecutive rows of its block; what it
  writes back is that block of the whole product, because the row block it read is the same rows of the activations and the
  weight block is the whole weight; the eight row blocks tile the 8192 rows, so every entry of the array is written.
-/
import proofs.«159339_j34729105555459_2_alg».proof.Proof.ProjBodyIdeal
import proofs.«159339_j34729105555459_2_alg».proof.Proof.ProjPayload

set_option maxRecDepth 16384

noncomputable section

namespace Cert.KernelIdeal.ProjValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row `r` of an [8192, 512] array at column `d`, as an index (`i` gives the row). -/
abbrev rowIx (i : S8192x512.Idx) (d : Fin 512) : S8192x512.Idx := fun a => match a with
  | ⟨0, _⟩ => ⟨(i 0).val, (i 0).isLt⟩
  | ⟨1, _⟩ => ⟨d.val, d.isLt⟩
/-- Row `e` of a [512, 512] weight at column `d` (`i`'s second coordinate gives the weight's row). -/
abbrev colIx (i : S8192x512.Idx) (d : Fin 512) : S512x512.Idx := fun a => match a with
  | ⟨0, _⟩ => ⟨(i 1).val, (i 1).isLt⟩
  | ⟨1, _⟩ => ⟨d.val, d.isLt⟩

/-- The whole product: rows times the transposed weight. -/
def projG (a : S8192x512.Idx → EReal) (w : S512x512.Idx → EReal) : S8192x512.Idx → EReal :=
  fun i => ∑ d : Fin 512, a (rowIx i d) * w (colIx i d)

/-! ## Output window 4 -/

/-- The printed index maps, decided over the grid: the row block moves with this output's block, the weight's block stays. -/
theorem idx_facts4 : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_4.index t (0 : Fin 2) ≤ 7 :=
  (by decide +kernel : ∀ t : Fin grid0.N, _)

/-- Every row block is some point's. -/
theorem idx_onto4 : ∀ (q0 : Fin 8), ∃ t : Fin cfg0.N, win0_4.index t = ![q0.val, 0] :=
  (by decide +kernel : ∀ (q0 : Fin 8), ∃ t : Fin grid0.N, win0_4.index t = ![q0.val, 0])

/-- What point `t` writes back is block `t` of the whole product. -/
theorem flushed4_eq (c : Dev nD) (t : Fin cfg0.N) :
    (dat0 V c).flushed 4 t = ((cfg0.win 4).blk t).view.read (Elt Ideal) (projG (V c main_v0) (V c main_v1)) := by
  show (cfg0.win 4).cut (grid0.coords t) ((dat0 V c).after 4 t) = _
  rw [after0_4]
  unfold out0_4
  rw [View.canon_unit_zero hz2]
  simp only [View.ld_unit_zero (S := S1024x512) hz2, View.ld_unit_zero (S := S512x512) hz2]
  obtain ⟨e0, e1, e2, e3, e4, e5⟩ := idx_facts4 t
  funext j
  obtain ⟨p, e, rfl⟩ : ∃ (p : Fin 1024) (e : Fin 512), j = ix2 p e := ⟨j 0, j 1, eq_ix2 j⟩
  refine (pay2_apply _ _ p e).trans ?_
  rw [View.read_apply]
  unfold projG
  beta_reduce
  refine Finset.sum_congr (M := EReal) rfl fun d _ => ?_
  have h0 : ((cfg0.win 0).blk t).view.emb (ix2 p d) = rowIx (((cfg0.win 4).blk t).view.emb (ix2 p e)) d := by
    funext a; apply Fin.ext
    match a with
    | ⟨0, _⟩ => show win0_0.index t (0 : Fin 2) * 1024 + 1 * p.val = win0_4.index t (0 : Fin 2) * 1024 + 1 * p.val; omega
    | ⟨1, _⟩ => show win0_0.index t (1 : Fin 2) * 512 + 1 * d.val = d.val; omega
  have h1 : ((cfg0.win 1).blk t).view.emb (ix2 e d) = colIx (((cfg0.win 4).blk t).view.emb (ix2 p e)) d := by
    funext a; apply Fin.ext
    match a with
    | ⟨0, _⟩ => show win0_1.index t (0 : Fin 2) * 512 + 1 * e.val = win0_4.index t (1 : Fin 2) * 512 + 1 * e.val; omega
    | ⟨1, _⟩ => show win0_1.index t (1 : Fin 2) * 512 + 1 * d.val = d.val; omega
  refine congr (congrArg HMul.hMul ?_) ?_
  · show (V c main_v0) (((cfg0.win 0).blk t).view.emb (ix2 p d)) = _
    rw [h0]
  · show (V c (Pipeline.arrRef spec0 1)) (((cfg0.win 1).blk t).view.emb (ix2 e d)) = _
    rw [h1]

/-- An index of the array is in point `t`'s block iff each coordinate is in the block's range on its axis. -/
theorem mem_blk4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v7_0).slice (win0_4.rect t)).set ↔ _
  rw [View.set_slice_whole, Rect.mem_set_unit]
  exact Iff.rfl

/-- Every index of the array is in some point's block: the row blocks tile the rows. -/
theorem cover4 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  obtain ⟨t, ht⟩ := idx_onto4 ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE ARRAY after the region: the whole product of the rows with the transposed weight. -/
theorem final4 (c : Dev nD) : (dat0 V c).arrAt 4 cfg0.N = projG (V c main_v0) (V c main_v1) :=
  (dat0 V c).arrAt_eq_of_cover 4 _ (fun t _ => flushed4_eq V c t) cover4

/-! ## Output window 5 -/

/-- The printed index maps, decided over the grid: the row block moves with this output's block, the weight's block stays. -/
theorem idx_facts5 : ∀ t : Fin cfg0.N, win0_0.index t (0 : Fin 2) = win0_5.index t (0 : Fin 2)
    ∧ win0_0.index t (1 : Fin 2) = 0 ∧ win0_5.index t (1 : Fin 2) = 0
    ∧ win0_2.index t (0 : Fin 2) = 0 ∧ win0_2.index t (1 : Fin 2) = 0
    ∧ win0_5.index t (0 : Fin 2) ≤ 7 :=
  (by decide +kernel : ∀ t : Fin grid0.N, _)

/-- Every row block is some point's. -/
theorem idx_onto5 : ∀ (q0 : Fin 8), ∃ t : Fin cfg0.N, win0_5.index t = ![q0.val, 0] :=
  (by decide +kernel : ∀ (q0 : Fin 8), ∃ t : Fin grid0.N, win0_5.index t = ![q0.val, 0])

/-- What point `t` writes back is block `t` of the whole product. -/
theorem flushed5_eq (c : Dev nD) (t : Fin cfg0.N) :
    (dat0 V c).flushed 5 t = ((cfg0.win 5).blk t).view.read (Elt Ideal) (projG (V c main_v0) (V c main_v2)) := by
  show (cfg0.win 5).cut (grid0.coords t) ((dat0 V c).after 5 t) = _
  rw [after0_5]
  unfold out0_5
  rw [View.canon_unit_zero hz2]
  simp only [View.ld_unit_zero (S := S1024x512) hz2, View.ld_unit_zero (S := S512x512) hz2]
  obtain ⟨e0, e1, e2, e3, e4, e5⟩ := idx_facts5 t
  funext j
  obtain ⟨p, e, rfl⟩ : ∃ (p : Fin 1024) (e : Fin 512), j = ix2 p e := ⟨j 0, j 1, eq_ix2 j⟩
  refine (pay3_apply _ _ p e).trans ?_
  rw [View.read_apply]
  unfold projG
  beta_reduce
  refine Finset.sum_congr (M := EReal) rfl fun d _ => ?_
  have h0 : ((cfg0.win 0).blk t).view.emb (ix2 p d) = rowIx (((cfg0.win 5).blk t).view.emb (ix2 p e)) d := by
    funext a; apply Fin.ext
    match a with
    | ⟨0, _⟩ => show win0_0.index t (0 : Fin 2) * 1024 + 1 * p.val = win0_5.index t (0 : Fin 2) * 1024 + 1 * p.val; omega
    | ⟨1, _⟩ => show win0_0.index t (1 : Fin 2) * 512 + 1 * d.val = d.val; omega
  have h1 : ((cfg0.win 2).blk t).view.emb (ix2 e d) = colIx (((cfg0.win 5).blk t).view.emb (ix2 p e)) d := by
    funext a; apply Fin.ext
    match a with
    | ⟨0, _⟩ => show win0_2.index t (0 : Fin 2) * 512 + 1 * e.val = win0_5.index t (1 : Fin 2) * 512 + 1 * e.val; omega
    | ⟨1, _⟩ => show win0_2.index t (1 : Fin 2) * 512 + 1 * d.val = d.val; omega
  refine congr (congrArg HMul.hMul ?_) ?_
  · show (V c main_v0) (((cfg0.win 0).blk t).view.emb (ix2 p d)) = _
    rw [h0]
  · show (V c (Pipeline.arrRef spec0 2)) (((cfg0.win 2).blk t).view.emb (ix2 e d)) = _
    rw [h1]

/-- An index of the array is in point `t`'s block iff each coordinate is in the block's range on its axis. -/
theorem mem_blk5 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v7_1).slice (win0_5.rect t)).set ↔ _
  rw [View.set_slice_whole, Rect.mem_set_unit]
  exact Iff.rfl

/-- Every index of the array is in some point's block: the row blocks tile the rows. -/
theorem cover5 (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ := idx_onto5 ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- THE ARRAY after the region: the whole product of the rows with the transposed weight. -/
theorem final5 (c : Dev nD) : (dat0 V c).arrAt 5 cfg0.N = projG (V c main_v0) (V c main_v2) :=
  (dat0 V c).arrAt_eq_of_cover 5 _ (fun t _ => flushed5_eq V c t) cover5

/-! ## Output window 6 -/

/-- The printed index maps, decided over the grid: the row block moves with this output's block, the weight's block stays. -/
theorem idx_facts6 : ∀ t : Fin cfg0.N, win0_0.index t (0 : Fin 2) = win0_6.index t (0 : Fin 2)
    ∧ win0_0.index t (1 : Fin 2) = 0 ∧ win0_6.index t (1 : Fin 2) = 0
    ∧ win0_3.index t (0 : Fin 2) = 0 ∧ win0_3.index t (1 : Fin 2) = 0
    ∧ win0_6.index t (0 : Fin 2) ≤ 7 :=
  (by decide +kernel : ∀ t : Fin grid0.N, _)

/-- Every row block is some point's. -/
theorem idx_onto6 : ∀ (q0 : Fin 8), ∃ t : Fin cfg0.N, win0_6.index t = ![q0.val, 0] :=
  (by decide +kernel : ∀ (q0 : Fin 8), ∃ t : Fin grid0.N, win0_6.index t = ![q0.val, 0])

/-- What point `t` writes back is block `t` of the whole product. -/
theorem flushed6_eq (c : Dev nD) (t : Fin cfg0.N) :
    (dat0 V c).flushed 6 t = ((cfg0.win 6).blk t).view.read (Elt Ideal) (projG (V c main_v0) (V c main_v3)) := by
  show (cfg0.win 6).cut (grid0.coords t) ((dat0 V c).after 6 t) = _
  rw [after0_6]
  unfold out0_6
  rw [View.canon_unit_zero hz2]
  simp only [View.ld_unit_zero (S := S1024x512) hz2, View.ld_unit_zero (S := S512x512) hz2]
  obtain ⟨e0, e1, e2, e3, e4, e5⟩ := idx_facts6 t
  funext j
  obtain ⟨p, e, rfl⟩ : ∃ (p : Fin 1024) (e : Fin 512), j = ix2 p e := ⟨j 0, j 1, eq_ix2 j⟩
  refine (pay4_apply _ _ p e).trans ?_
  rw [View.read_apply]
  unfold projG
  beta_reduce
  refine Finset.sum_congr (M := EReal) rfl fun d _ => ?_
  have h0 : ((cfg0.win 0).blk t).view.emb (ix2 p d) = rowIx (((cfg0.win 6).blk t).view.emb (ix2 p e)) d := by
    funext a; apply Fin.ext
    match a with
    | ⟨0, _⟩ => show win0_0.index t (0 : Fin 2) * 1024 + 1 * p.val = win0_6.index t (0 : Fin 2) * 1024 + 1 * p.val; omega
    | ⟨1, _⟩ => show win0_0.index t (1 : Fin 2) * 512 + 1 * d.val = d.val; omega
  have h1 : ((cfg0.win 3).blk t).view.emb (ix2 e d) = colIx (((cfg0.win 6).blk t).view.emb (ix2 p e)) d := by
    funext a; apply Fin.ext
    match a with
    | ⟨0, _⟩ => show win0_3.index t (0 : Fin 2) * 512 + 1 * e.val = win0_6.index t (1 : Fin 2) * 512 + 1 * e.val; omega
    | ⟨1, _⟩ => show win0_3.index t (1 : Fin 2) * 512 + 1 * d.val = d.val; omega
  refine congr (congrArg HMul.hMul ?_) ?_
  · show (V c main_v0) (((cfg0.win 0).blk t).view.emb (ix2 p d)) = _
    rw [h0]
  · show (V c (Pipeline.arrRef spec0 3)) (((cfg0.win 3).blk t).view.emb (ix2 e d)) = _
    rw [h1]

/-- An index of the array is in point `t`'s block iff each coordinate is in the block's range on its axis. -/
theorem mem_blk6 (t : Fin cfg0.N) (i : S8192x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v7_2).slice (win0_6.rect t)).set ↔ _
  rw [View.set_slice_whole, Rect.mem_set_unit]
  exact Iff.rfl

/-- Every index of the array is in some point's block: the row blocks tile the rows. -/
theorem cover6 (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ := idx_onto6 ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- THE ARRAY after the region: the whole product of the rows with the transposed weight. -/
theorem final6 (c : Dev nD) : (dat0 V c).arrAt 6 cfg0.N = projG (V c main_v0) (V c main_v3) :=
  (dat0 V c).arrAt_eq_of_cover 6 _ (fun t _ => flushed6_eq V c t) cover6

end Cert.KernelIdeal.ProjValue

end
-- ==== Proof.HostReads.lean ====
/-
  The host stretches read back, at the exact-real instance: which entry of which earlier array each entry of a region's input
  array is. The first stretch flattens the activations' two leading axes (row r = 4·s + b) and changes the weights' float format
  (the identity here). The second takes each projection from rows r = 4·s + b and columns e = 64·h + k to head n = 8·b + h,
  position s, feature k. The third takes the attention output back the same way and gives the bias and scale vectors a leading
  unit axis. The last splits the rows again. No stretch and no region changes an array it only reads.
-/
import proofs.«159339_j34729105555459_2_alg».proof.Proof.RunIdeal
import proofs.«159339_j34729105555459_2_alg».proof.Proof.ProjArrays
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen Cert.KernelIdeal.Hand Cert.KernelIdeal.ProjValue
open Idealize.ShloMosaic Idealize.ShloMosaic.TcCoe Idealize.ShloMosaic.ValueIdx Idealize.ShloMosaic.StableHlo
open Idealize.SL.Sem
open Idealize.ShloMosaic.Pipeline (Dat)

variable (A : AttnHalf Ideal)
variable (m : (ℓ : Loc nD τ sig) → Buf (Elt Ideal) ℓ) (ρ : Dev nD → PrngReg)

/-! ## The first stretch -/

theorem V1_x (c : Dev nD) : (V1 m ρ c main_v0 : S8192x512.Idx → EReal)
    = shapeCast S8192x512 (m ((c : Thread nD τ).loc main_arg0)) shapeCasts_S2048x4x512_S8192x512 := by
  dsimp only [Hand.V1, Hand.W1, Hand.W0, hostOps0]; after_results; rfl

/-- Row r of the flattened activations is (r / 4, r % 4). -/
theorem V1_x_apply (c : Dev nD) (r : Fin 8192) (d : Fin 512) :
    (V1 m ρ c main_v0 : S8192x512.Idx → EReal) (ix2 r d)
      = m ((c : Thread nD τ).loc main_arg0) (ix3 ⟨r.val / 4, by have := r.isLt; omega⟩ ⟨r.val % 4, by omega⟩ d) := by
  rw [V1_x]
  exact shapeCast_apply _ _ _ _ (by
    show (S2048x4x512.rowMajor (ix3 ⟨r.val / 4, by have := r.isLt; omega⟩ ⟨r.val % 4, by omega⟩ d)).val = (S8192x512.rowMajor (ix2 r d)).val
    rw [Shape.rowMajor_val_three, Shape.rowMajor_val_two]
    show ((r.val / 4) * 4 + r.val % 4) * 512 + d.val = r.val * 512 + d.val
    omega)

theorem V1_wq (c : Dev nD) : (V1 m ρ c main_v1 : S512x512.Idx → EReal) = m ((c : Thread nD τ).loc main_arg2) := by
  dsimp only [Hand.V1, Hand.W1, Hand.W0, hostOps0]; after_results; rfl
theorem V1_wk (c : Dev nD) : (V1 m ρ c main_v2 : S512x512.Idx → EReal) = m ((c : Thread nD τ).loc main_arg3) := by
  dsimp only [Hand.V1, Hand.W1, Hand.W0, hostOps0]; after_results; rfl
theorem V1_wv (c : Dev nD) : (V1 m ρ c main_v3 : S512x512.Idx → EReal) = m ((c : Thread nD τ).loc main_arg4) := by
  dsimp only [Hand.V1, Hand.W1, Hand.W0, hostOps0]; after_results; rfl
theorem W1_wc (c : Dev nD) : (W1 m ρ c (Proc.devRef .tc main_v4) : S512x512.Idx → EReal) = m ((c : Thread nD τ).loc main_arg5) := by
  dsimp only [Hand.W1, Hand.W0, hostOps0]; after_results; rfl
theorem W1_w1 (c : Dev nD) : (W1 m ρ c (Proc.devRef .tc main_v5) : S2048x512.Idx → EReal) = m ((c : Thread nD τ).loc main_arg6) := by
  dsimp only [Hand.W1, Hand.W0, hostOps0]; after_results; rfl
theorem W1_w2 (c : Dev nD) : (W1 m ρ c (Proc.devRef .tc main_v6) : S512x2048.Idx → EReal) = m ((c : Thread nD τ).loc main_arg8) := by
  dsimp only [Hand.W1, Hand.W0, hostOps0]; after_results; rfl

/-! ## The projection region's outputs -/

theorem W2_q (c : Dev nD) : (W2 m ρ c (Proc.devRef .tc main_v7_0) : S8192x512.Idx → EReal) = projG (V1 m ρ c main_v0) (V1 m ρ c main_v1) :=
  (W2_arr m ρ c 4).trans (final4 (V1 m ρ) c)
theorem W2_k (c : Dev nD) : (W2 m ρ c (Proc.devRef .tc main_v7_1) : S8192x512.Idx → EReal) = projG (V1 m ρ c main_v0) (V1 m ρ c main_v2) :=
  (W2_arr m ρ c 5).trans (final5 (V1 m ρ) c)
theorem W2_v (c : Dev nD) : (W2 m ρ c (Proc.devRef .tc main_v7_2) : S8192x512.Idx → EReal) = projG (V1 m ρ c main_v0) (V1 m ρ c main_v3) :=
  (W2_arr m ρ c 6).trans (final6 (V1 m ρ) c)

/-! ## The second stretch: rows and columns to heads -/

/-- The relayout of one projection: head n, position s, feature k is row 4·s + n / 8, column 64·(n % 8) + k. -/
theorem heads_apply (y : S8192x512.Idx → EReal) (n : Fin 32) (s : Fin 2048) (k : Fin 64) :
    shapeCast S32x2048x64 (transpose S4x8x2048x64 [1, 2, 0, 3] (shapeCast S2048x4x8x64 y shapeCasts_S8192x512_S2048x4x8x64)
        transposes_S2048x4x8x64_S4x8x2048x64_1_2_0_3) shapeCasts_S4x8x2048x64_S32x2048x64 (ix3 n s k)
      = y (ix2 ⟨s.val * 4 + n.val / 8, by have := s.isLt; have := n.isLt; omega⟩ ⟨(n.val % 8) * 64 + k.val, by have := k.isLt; omega⟩) := by
  have hn := n.isLt; have hs := s.isLt; have hk := k.isLt
  rw [shapeCast_apply _ shapeCasts_S4x8x2048x64_S32x2048x64 (ix3 n s k) (ix4 ⟨n.val / 8, by omega⟩ ⟨n.val % 8, by omega⟩ s k) (by
    show (S4x8x2048x64.rowMajor (ix4 ⟨n.val / 8, by omega⟩ ⟨n.val % 8, by omega⟩ s k)).val = (S32x2048x64.rowMajor (ix3 n s k)).val
    rw [Shape.rowMajor_val_four, Shape.rowMajor_val_three]
    show (((n.val / 8) * 8 + n.val % 8) * 2048 + s.val) * 64 + k.val = (n.val * 2048 + s.val) * 64 + k.val
    omega)]
  rw [transpose_apply [1, 2, 0, 3] _ transposes_S2048x4x8x64_S4x8x2048x64_1_2_0_3 (ix4 ⟨n.val / 8, by omega⟩ ⟨n.val % 8, by omega⟩ s k)
    (ix4 s ⟨n.val / 8, by omega⟩ ⟨n.val % 8, by omega⟩ k) (fun b => match b with
      | ⟨0, _⟩ => rfl
      | ⟨1, _⟩ => rfl
      | ⟨2, _⟩ => rfl
      | ⟨3, _⟩ => rfl)]
  exact shapeCast_apply _ shapeCasts_S8192x512_S2048x4x8x64 _ _ (by
    show (S8192x512.rowMajor (ix2 ⟨s.val * 4 + n.val / 8, by omega⟩ ⟨(n.val % 8) * 64 + k.val, by omega⟩)).val
      = (S2048x4x8x64.rowMajor (ix4 s ⟨n.val / 8, by omega⟩ ⟨n.val % 8, by omega⟩ k)).val
    rw [Shape.rowMajor_val_two, Shape.rowMajor_val_four]
    show (s.val * 4 + n.val / 8) * 512 + ((n.val % 8) * 64 + k.val) = ((s.val * 4 + n.val / 8) * 8 + n.val % 8) * 64 + k.val
    omega)

theorem V3_q (c : Dev nD) : (V3 m ρ c main_v10 : S32x2048x64.Idx → EReal)
    = shapeCast S32x2048x64 (transpose S4x8x2048x64 [1, 2, 0, 3] (shapeCast S2048x4x8x64 (W2 m ρ c (Proc.devRef .tc main_v7_0)) shapeCasts_S8192x512_S2048x4x8x64)
        transposes_S2048x4x8x64_S4x8x2048x64_1_2_0_3) shapeCasts_S4x8x2048x64_S32x2048x64 := by
  dsimp only [Hand.V3, Hand.W3, hostOps1]; after_results; rfl
theorem V3_k (c : Dev nD) : (V3 m ρ c main_v13 : S32x2048x64.Idx → EReal)
    = shapeCast S32x2048x64 (transpose S4x8x2048x64 [1, 2, 0, 3] (shapeCast S2048x4x8x64 (W2 m ρ c (Proc.devRef .tc main_v7_1)) shapeCasts_S8192x512_S2048x4x8x64)
        transposes_S2048x4x8x64_S4x8x2048x64_1_2_0_3) shapeCasts_S4x8x2048x64_S32x2048x64 := by
  dsimp only [Hand.V3, Hand.W3, hostOps1]; after_results; rfl
theorem V3_v (c : Dev nD) : (V3 m ρ c main_v16 : S32x2048x64.Idx → EReal)
    = shapeCast S32x2048x64 (transpose S4x8x2048x64 [1, 2, 0, 3] (shapeCast S2048x4x8x64 (W2 m ρ c (Proc.devRef .tc main_v7_2)) shapeCasts_S8192x512_S2048x4x8x64)
        transposes_S2048x4x8x64_S4x8x2048x64_1_2_0_3) shapeCasts_S4x8x2048x64_S32x2048x64 := by
  dsimp only [Hand.V3, Hand.W3, hostOps1]; after_results; rfl

/-- The mask reaches the attention region as launched. -/
theorem V3_mask (c : Dev nD) : (V3 m ρ c main_arg1 : S2048x2048.Idx → EReal) = m ((c : Thread nD τ).loc main_arg1) :=
  calc (V3 m ρ c main_arg1 : S2048x2048.Idx → EReal)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The third stretch: heads back to rows and columns; the vectors get a leading unit axis -/

/-- The inverse relayout: row r, column e is head 8·(r % 4) + e / 64, position r / 4, feature e % 64. -/
theorem rows_apply (y : S32x2048x64.Idx → EReal) (r : Fin 8192) (e : Fin 512) :
    shapeCast S8192x512 (transpose S2048x4x8x64 [2, 0, 1, 3] (shapeCast S4x8x2048x64 y shapeCasts_S32x2048x64_S4x8x2048x64)
        transposes_S4x8x2048x64_S2048x4x8x64_2_0_1_3) shapeCasts_S2048x4x8x64_S8192x512 (ix2 r e)
      = y (ix3 ⟨(r.val % 4) * 8 + e.val / 64, by have := e.isLt; omega⟩ ⟨r.val / 4, by have := r.isLt; omega⟩ ⟨e.val % 64, by omega⟩) := by
  have hr := r.isLt; have he := e.isLt
  rw [shapeCast_apply _ shapeCasts_S2048x4x8x64_S8192x512 (ix2 r e) (ix4 ⟨r.val / 4, by omega⟩ ⟨r.val % 4, by omega⟩ ⟨e.val / 64, by omega⟩ ⟨e.val % 64, by omega⟩) (by
    show (S2048x4x8x64.rowMajor (ix4 ⟨r.val / 4, by omega⟩ ⟨r.val % 4, by omega⟩ ⟨e.val / 64, by omega⟩ ⟨e.val % 64, by omega⟩)).val = (S8192x512.rowMajor (ix2 r e)).val
    rw [Shape.rowMajor_val_four, Shape.rowMajor_val_two]
    show (((r.val / 4) * 4 + r.val % 4) * 8 + e.val / 64) * 64 + e.val % 64 = r.val * 512 + e.val
    omega)]
  rw [transpose_apply [2, 0, 1, 3] _ transposes_S4x8x2048x64_S2048x4x8x64_2_0_1_3 (ix4 ⟨r.val / 4, by omega⟩ ⟨r.val % 4, by omega⟩ ⟨e.val / 64, by omega⟩ ⟨e.val % 64, by omega⟩)
    (ix4 ⟨r.val % 4, by omega⟩ ⟨e.val / 64, by omega⟩ ⟨r.val / 4, by omega⟩ ⟨e.val % 64, by omega⟩) (fun b => match b with
      | ⟨0, _⟩ => rfl
      | ⟨1, _⟩ => rfl
      | ⟨2, _⟩ => rfl
      | ⟨3, _⟩ => rfl)]
  exact shapeCast_apply _ shapeCasts_S32x2048x64_S4x8x2048x64 _ _ (by
    show (S32x2048x64.rowMajor (ix3 ⟨(r.val % 4) * 8 + e.val / 64, by omega⟩ ⟨r.val / 4, by omega⟩ ⟨e.val % 64, by omega⟩)).val
      = (S4x8x2048x64.rowMajor (ix4 ⟨r.val % 4, by omega⟩ ⟨e.val / 64, by omega⟩ ⟨r.val / 4, by omega⟩ ⟨e.val % 64, by omega⟩)).val
    rw [Shape.rowMajor_val_three, Shape.rowMajor_val_four]
    show (((r.val % 4) * 8 + e.val / 64) * 2048 + r.val / 4) * 64 + e.val % 64 = (((r.val % 4) * 8 + e.val / 64) * 2048 + r.val / 4) * 64 + e.val % 64
    rfl)

theorem V5_u (c : Dev nD) : (V5 A m ρ c main_v20 : S8192x512.Idx → EReal)
    = shapeCast S8192x512 (transpose S2048x4x8x64 [2, 0, 1, 3] (shapeCast S4x8x2048x64 (W4 A m ρ c (Proc.devRef .tc main_v17)) shapeCasts_S32x2048x64_S4x8x2048x64)
        transposes_S4x8x2048x64_S2048x4x8x64_2_0_1_3) shapeCasts_S2048x4x8x64_S8192x512 := by
  dsimp only [Hand.V5, Hand.W5, hostOps2]; after_results; rfl

/-- An argument no stretch and no region before the last region writes reaches the third boundary as launched. -/
theorem W4_keep (c : Dev nD) (r : Ref sig .tc) (h0 : r ∉ hostOps0_W) (h1 : r ∉ hostOps1_W)
    (hs0 : ∀ w, Pipeline.arrRef spec0 w ≠ r) (hs1 : ∀ w, Pipeline.arrRef spec1 w ≠ r) :
    W4 A m ρ c (Proc.devRef .tc r) = m ((c : Thread nD τ).loc r) :=
  calc W4 A m ρ c (Proc.devRef .tc r)
    _ = W3 m ρ c (Proc.devRef .tc r) := W4_of_ne A m ρ c r hs1
    _ = W2 m ρ c (Proc.devRef .tc r) := StableHlo.after_of_writes_sub hostOps1 _ hostOps1_writes h1
    _ = W1 m ρ c (Proc.devRef .tc r) := W2_of_ne m ρ c r hs0
    _ = W0 m ρ c (Proc.devRef .tc r) := StableHlo.after_of_writes_sub hostOps0 _ hostOps0_writes h0
    _ = m ((c : Thread nD τ).loc r) := rfl

/-- An array the first stretch wrote and nothing since reaches the third boundary as the first stretch left it. -/
theorem W4_keep1 (c : Dev nD) (r : Ref sig .tc) (h1 : r ∉ hostOps1_W)
    (hs0 : ∀ w, Pipeline.arrRef spec0 w ≠ r) (hs1 : ∀ w, Pipeline.arrRef spec1 w ≠ r) :
    W4 A m ρ c (Proc.devRef .tc r) = W1 m ρ c (Proc.devRef .tc r) :=
  calc W4 A m ρ c (Proc.devRef .tc r)
    _ = W3 m ρ c (Proc.devRef .tc r) := W4_of_ne A m ρ c r hs1
    _ = W2 m ρ c (Proc.devRef .tc r) := StableHlo.after_of_writes_sub hostOps1 _ hostOps1_writes h1
    _ = W1 m ρ c (Proc.devRef .tc r) := W2_of_ne m ρ c r hs0

theorem V5_ln1w (c : Dev nD) : (V5 A m ρ c main_v21 : S1x512.Idx → EReal) = shapeCast S1x512 (W4 A m ρ c (Proc.devRef .tc main_arg10)) shapeCasts_S512_S1x512 := by
  dsimp only [Hand.V5, Hand.W5, hostOps2]; after_results; rfl
theorem V5_ln1b (c : Dev nD) : (V5 A m ρ c main_v22 : S1x512.Idx → EReal) = shapeCast S1x512 (W4 A m ρ c (Proc.devRef .tc main_arg11)) shapeCasts_S512_S1x512 := by
  dsimp only [Hand.V5, Hand.W5, hostOps2]; after_results; rfl
theorem V5_ln2w (c : Dev nD) : (V5 A m ρ c main_v23 : S1x512.Idx → EReal) = shapeCast S1x512 (W4 A m ρ c (Proc.devRef .tc main_arg12)) shapeCasts_S512_S1x512 := by
  dsimp only [Hand.V5, Hand.W5, hostOps2]; after_results; rfl
theorem V5_ln2b (c : Dev nD) : (V5 A m ρ c main_v24 : S1x512.Idx → EReal) = shapeCast S1x512 (W4 A m ρ c (Proc.devRef .tc main_arg13)) shapeCasts_S512_S1x512 := by
  dsimp only [Hand.V5, Hand.W5, hostOps2]; after_results; rfl
theorem V5_b1 (c : Dev nD) : (V5 A m ρ c main_v25 : S1x2048.Idx → EReal) = shapeCast S1x2048 (W4 A m ρ c (Proc.devRef .tc main_arg7)) shapeCasts_S2048_S1x2048 := by
  dsimp only [Hand.V5, Hand.W5, hostOps2]; after_results; rfl
theorem V5_b2 (c : Dev nD) : (V5 A m ρ c main_v26 : S1x512.Idx → EReal) = shapeCast S1x512 (W4 A m ρ c (Proc.devRef .tc main_arg9)) shapeCasts_S512_S1x512 := by
  dsimp only [Hand.V5, Hand.W5, hostOps2]; after_results; rfl

/-- A vector given a leading unit axis, at (0, e): the vector at e. -/
theorem unit_row_apply {n : ℕ} (y : (⟨1, ![n]⟩ : Shape).Idx → EReal) (h : (⟨1, ![n]⟩ : Shape).ShapeCasts ⟨2, ![1, n]⟩) (e : Fin n) :
    shapeCast ⟨2, ![1, n]⟩ y h (ix2 (0 : Fin 1) e) = y (ix1 e) :=
  shapeCast_apply y h _ _ (by
    rw [Shape.rowMajor_val_one, Shape.rowMajor_val_two]
    show e.val = 0 * n + e.val
    omega)

/-! ## The last stretch -/

theorem W7_out (c : Dev nD) : (W7 A m ρ c (Proc.devRef .tc main_v28) : S2048x4x512.Idx → EReal)
    = shapeCast S2048x4x512 (W6 A m ρ c (Proc.devRef .tc main_v27)) shapeCasts_S8192x512_S2048x4x512 := by
  dsimp only [Hand.W7, hostOps3]; after_results; rfl

/-- Entry (s, b, d) of the result is row 4·s + b of the last region's output. -/
theorem W7_out_apply (c : Dev nD) (s : Fin 2048) (b : Fin 4) (d : Fin 512) :
    (W7 A m ρ c (Proc.devRef .tc main_v28) : S2048x4x512.Idx → EReal) (ix3 s b d)
      = (W6 A m ρ c (Proc.devRef .tc main_v27) : S8192x512.Idx → EReal) (ix2 ⟨s.val * 4 + b.val, by have := s.isLt; have := b.isLt; omega⟩ d) := by
  rw [W7_out]
  exact shapeCast_apply _ _ _ _ (by
    show (S8192x512.rowMajor (ix2 ⟨s.val * 4 + b.val, by have := s.isLt; have := b.isLt; omega⟩ d)).val = (S2048x4x512.rowMajor (ix3 s b d)).val
    rw [Shape.rowMajor_val_two, Shape.rowMajor_val_three]
    show (s.val * 4 + b.val) * 512 + d.val = (s.val * 4 + b.val) * 512 + d.val
    rfl)

end Cert.KernelIdeal.HostReads

end
-- ==== Proof.PostSpec.lean ====
/-
  One row of the block's tail, as plain functions of extended reals. A row of the attention output is projected by the
  output matrix and added to the same row of the block's input; the sum is normalized along the row (LayerNorm); the
  normalized row goes through the two-layer feed-forward network (a rectified linear unit between the two matrices); the
  network's output is added back to the normalized row and the sum is normalized again.

  The normalization of a row `h` of length 512 with scale `g` and shift `β`: with `μ` the mean of `h` and `σ²` the mean of
  the squares of `h − μ`, entry `d` is `(h d − μ) · rsqrt(σ² + ε) · g d + β d`. The mean divides the row's sum by the
  constant 512 and `ε` is the constant 1e-5, both kept as the 32-bit words that encode them.
-/
import Idealize.ShloMosaic.PureOps.Ideal
import Idealize.ShloMosaic.Lib.ValueIdx

noncomputable section

open scoped BigOperators

namespace Cert.KernelIdeal.PostValue

open Idealize.ShloMosaic

/-- The mean of a row of 512 entries: its sum divided by 512. -/
def rowMean (h : Fin 512 → EReal) : EReal :=
  Ideal.div (∑ e : Fin 512, h e) (Ideal.ofBits .f32 0x44000000#32)

/-- The normalization of a row along its 512 entries, with scale `g` and shift `β`. -/
def layerNorm (h g β : Fin 512 → EReal) : Fin 512 → EReal := fun d =>
  (h d - rowMean h) * Ideal.rsqrt (rowMean (fun e => (h e - rowMean h) * (h e - rowMean h)) + Ideal.ofBits .f32 0x3727C5AC#32)
    * g d + β d

/-- The row after the first normalization: the input row plus the projected attention row, normalized. -/
def attnNormRow (urow xrow : Fin 512 → EReal) (wc : Fin 512 → Fin 512 → EReal) (ln1w ln1b : Fin 512 → EReal) :
    Fin 512 → EReal :=
  layerNorm (fun d => xrow d + ∑ k : Fin 512, urow k * wc d k) ln1w ln1b

/-- The feed-forward network on a row `v`: up to 2048 entries, rectified, down to 512 again. -/
def ffnRow (v : Fin 512 → EReal) (w1 : Fin 2048 → Fin 512 → EReal) (b1 : Fin 2048 → EReal)
    (w2 : Fin 512 → Fin 2048 → EReal) (b2 : Fin 512 → EReal) : Fin 512 → EReal := fun d =>
  (∑ a : Fin 2048, max ((∑ k : Fin 512, v k * w1 a k) + b1 a) (Ideal.ofBits .f32 0x00000000#32) * w2 d a) + b2 d

/-- One row of the block's tail. -/
def postRow (urow xrow : Fin 512 → EReal) (wc : Fin 512 → Fin 512 → EReal) (ln1w ln1b : Fin 512 → EReal)
    (w1 : Fin 2048 → Fin 512 → EReal) (b1 : Fin 2048 → EReal) (w2 : Fin 512 → Fin 2048 → EReal)
    (b2 ln2w ln2b : Fin 512 → EReal) : Fin 512 → EReal :=
  layerNorm (fun d => attnNormRow urow xrow wc ln1w ln1b d + ffnRow (attnNormRow urow xrow wc ln1w ln1b) w1 b1 w2 b2 d)
    ln2w ln2b

end Cert.KernelIdeal.PostValue
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.PostKernelOps.lean ====
/-
  The output-projection / feed-forward region's stored value, read one row at a time at the exact reals. The three
  payloads of the region are compositions of four blocks of operations on whole `[512, n]` tiles: the projection of the
  attention rows added to the input rows, the normalization of every row of a tile, the first feed-forward matrix, and the
  rest of the feed-forward network added back. Each block, read at entry `(p, d)`, depends on row `p` of its tile operands
  only, and is the corresponding function of that row.
-/
import proofs.«159339_j34729105555459_2_alg».proof.Proof.PostSpec
import proofs.«159339_j34729105555459_2_alg».proof.Proof.LibKeepdims
import proofs.«159339_j34729105555459_2_alg».proof.Proof.LibColumn
import proofs.«159339_j34729105555459_2_alg».proof.Proof.Gen.KernelIdeal.Skeleton
import Idealize.ShloMosaic.Lib.ValueLayout

noncomputable section

open scoped BigOperators

namespace Cert.KernelIdeal.PostValue

open Cert.KernelIdeal Cert.KernelIdeal.Gen
open Idealize.ShloMosaic Idealize.ShloMosaic.ValueIdx

section Blocks
variable {F : FTy → Type} [FloatOps F]

/-- The mean of every row of a `[512, 512]` tile, as a column. -/
def meanCol (h : FVec F S512x512 .f32) : FVec F S512x1 .f32 :=
  divf (shapeCast S512x1 (multiReduction .add [1] S512 h 0x00000000#32 reduces_S512x512_S512 (.inl rfl) rfl) shapeCasts_S512_S512x1)
    (broadcast S512x1 (Scalar.ofBits .f32 0x44000000#32))

/-- Every row of a `[512, 512]` tile normalized, with one row of scales and one of shifts. -/
def lnBlock (h : FVec F S512x512 .f32) (g β : Vec F S1x512 .f32) : FVec F S512x512 .f32 :=
  addf
    (mulf
      (mulf (subf h (broadcastTo S512x512 (meanCol h) broadcasts_S512x1_S512x512))
        (broadcastTo S512x512
          (rsqrt (addf
            (meanCol (mulf (subf h (broadcastTo S512x512 (meanCol h) broadcasts_S512x1_S512x512))
              (subf h (broadcastTo S512x512 (meanCol h) broadcasts_S512x1_S512x512))))
            (broadcast S512x1 (Scalar.ofBits .f32 0x3727C5AC#32))))
          broadcasts_S512x1_S512x512))
      (broadcastTo S512x512 (shapeCast S1x512 g shapeCasts_S1x512_S1x512) broadcasts_S1x512_S512x512))
    (broadcastTo S512x512 (shapeCast S1x512 β shapeCasts_S1x512_S1x512) broadcasts_S1x512_S512x512)

/-- The input rows plus the attention rows times the output matrix (its rows indexed by the output feature). -/
def projBlock (u wc : Vec F S512x512 .bf16) (x : Vec F S512x512 .f32) : FVec F S512x512 .f32 :=
  addf (shapeCast S512x512 x shapeCasts_S512x512_S512x512)
    (matmul dot_S512x512_S512x512_S512x512_1_1_0_0_n_n none
      (shapeCast S512x512 u shapeCasts_S512x512_S512x512 : FVec F S512x512 .bf16)
      (shapeCast S512x512 wc shapeCasts_S512x512_S512x512 : FVec F S512x512 .bf16)
      (constant S512x512 .f32 0x00000000#32))

/-- A tile of rows times the first feed-forward matrix. -/
def upBlock (v : FVec F S512x512 .f32) (w1 : Vec F S2048x512 .bf16) : FVec F S512x2048 .f32 :=
  matmul dot_S512x512_S2048x512_S512x2048_1_1_0_0_n_n none
    (truncf .bf16 v bitsLt_bf16_f32 : FVec F S512x512 .bf16)
    (shapeCast S2048x512 w1 shapeCasts_S2048x512_S2048x512 : FVec F S2048x512 .bf16)
    (constant S512x2048 .f32 0x00000000#32)

/-- The rest of the feed-forward network (bias, rectification, second matrix, bias) added to the rows it came from. -/
def ffnBlock (v : FVec F S512x512 .f32) (up : FVec F S512x2048 .f32) (b1 : Vec F S1x2048 .f32)
    (w2 : Vec F S512x2048 .bf16) (b2 : Vec F S1x512 .f32) : FVec F S512x512 .f32 :=
  addf v
    (addf
      (matmul dot_S512x2048_S512x2048_S512x512_1_1_0_0_n_n none
        (truncf .bf16
          (maximumf (addf up (broadcastTo S512x2048 (shapeCast S1x2048 b1 shapeCasts_S1x2048_S1x2048) broadcasts_S1x2048_S512x2048))
            (broadcast S512x2048 (Scalar.ofBits .f32 0x00000000#32)))
          bitsLt_bf16_f32 : FVec F S512x2048 .bf16)
        (shapeCast S512x2048 w2 shapeCasts_S512x2048_S512x2048 : FVec F S512x2048 .bf16)
        (constant S512x512 .f32 0x00000000#32))
      (broadcastTo S512x512 (shapeCast S1x512 b2 shapeCasts_S1x512_S1x512) broadcasts_S1x512_S512x512))

/-- The first payload is the normalization of the projection block. -/
theorem pay1_eq (v0 v2 : Vec F S512x512 .bf16) (v5 : Vec F S512x512 .f32) (v26 v30 : Vec F S1x512 .f32) :
    k2_pay1 v0 v2 v5 v26 v30 = lnBlock (projBlock v0 v2 v5) v26 v30 := rfl

/-- The second payload is the first feed-forward matrix applied to the first payload. -/
theorem pay2_eq (v0 v2 : Vec F S512x512 .bf16) (v5 : Vec F S512x512 .f32) (v26 v30 : Vec F S1x512 .f32)
    (v35 : Vec F S2048x512 .bf16) :
    k2_pay2 v0 v2 v5 v26 v30 v35 = upBlock (k2_pay1 v0 v2 v5 v26 v30) v35 := rfl

/-- The third payload is the normalization of the feed-forward block. -/
theorem pay3_eq (v33 : FVec F S512x512 .f32) (v37 : FVec F S512x2048 .f32) (v38 : Vec F S1x2048 .f32)
    (v45 : Vec F S512x2048 .bf16) (v48 v71 v75 : Vec F S1x512 .f32) :
    k2_pay3 v33 v37 v38 v45 v48 v71 v75 = lnBlock (ffnBlock v33 v37 v38 v45 v48) v71 v75 := rfl

end Blocks

/-! ## The three matrix products at an entry -/

theorem projDot_lhs0 (i : S512x512.Idx) (q : dot_S512x512_S512x512_S512x512_1_1_0_0_n_n.contr.Idx) : (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem projDot_rhs0 (i : S512x512.Idx) (q : dot_S512x512_S512x512_S512x512_1_1_0_0_n_n.contr.Idx) : (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
/-- A tile `[512, 512]` times the transpose of a tile `[512, 512]`, into zero: entry `(p, q)` is the sum over `k` of the
    products of row `p` of the first with row `q` of the second. -/
theorem projDot_apply (a : FVec Ideal S512x512 .bf16) (b : FVec Ideal S512x512 .bf16) (p : Fin 512) (q : Fin 512) :
    matmul dot_S512x512_S512x512_S512x512_1_1_0_0_n_n none a b (constant S512x512 .f32 0x00000000#32) (ix2 p q)
      = ∑ k : Fin 512, a (ix2 p k) * b (ix2 q k) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun ax => Fin.ext (by
    match ax with
    | ⟨0, _⟩ => exact projDot_lhs0 _ _
    | ⟨1, _⟩ => exact (dot_S512x512_S512x512_S512x512_1_1_0_0_n_n.lhsIdx_val_of_single rfl _ _).trans hk)
  have er : dot_S512x512_S512x512_S512x512_1_1_0_0_n_n.rhsIdx (ix2 p q) ((contrEquiv1 dot_S512x512_S512x512_S512x512_1_1_0_0_n_n 512 rfl rfl).symm k) = ix2 q k := funext fun ax => Fin.ext (by
    match ax with
    | ⟨0, _⟩ => exact projDot_rhs0 _ _
    | ⟨1, _⟩ => exact (dot_S512x512_S512x512_S512x512_1_1_0_0_n_n.rhsIdx_val_of_single rfl _ _).trans hk)
  rw [el, er]

theorem upDot_lhs0 (i : S512x2048.Idx) (q : dot_S512x512_S2048x512_S512x2048_1_1_0_0_n_n.contr.Idx) : (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem upDot_rhs0 (i : S512x2048.Idx) (q : dot_S512x512_S2048x512_S512x2048_1_1_0_0_n_n.contr.Idx) : (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- A tile `[512, 512]` times the transpose of a tile `[2048, 512]`, into zero: entry `(p, q)` is the sum over `k` of the
    products of row `p` of the first with row `q` of the second. -/
theorem upDot_apply (a : FVec Ideal S512x512 .bf16) (b : FVec Ideal S2048x512 .bf16) (p : Fin 512) (q : Fin 2048) :
    matmul dot_S512x512_S2048x512_S512x2048_1_1_0_0_n_n none a b (constant S512x2048 .f32 0x00000000#32) (ix2 p q)
      = ∑ k : Fin 512, a (ix2 p k) * b (ix2 q k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k := funext fun ax => Fin.ext (by
    match ax with
    | ⟨0, _⟩ => exact upDot_lhs0 _ _
    | ⟨1, _⟩ => exact (dot_S512x512_S2048x512_S512x2048_1_1_0_0_n_n.lhsIdx_val_of_single rfl _ _).trans hk)
  have er : dot_S512x512_S2048x512_S512x2048_1_1_0_0_n_n.rhsIdx (ix2 p q) ((contrEquiv1 dot_S512x512_S2048x512_S512x2048_1_1_0_0_n_n 512 rfl rfl).symm k) = ix2 q k := funext fun ax => Fin.ext (by
    match ax with
    | ⟨0, _⟩ => exact upDot_rhs0 _ _
    | ⟨1, _⟩ => exact (dot_S512x512_S2048x512_S512x2048_1_1_0_0_n_n.rhsIdx_val_of_single rfl _ _).trans hk)
  rw [el, er]

theorem downDot_lhs0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem downDot_rhs0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- A tile `[512, 2048]` times the transpose of a tile `[512, 2048]`, into zero: entry `(p, q)` is the sum over `k` of the
    products of row `p` of the first with row `q` of the second. -/
theorem downDot_apply (a : FVec Ideal S512x2048 .bf16) (b : FVec Ideal S512x2048 .bf16) (p : Fin 512) (q : Fin 512) :
    matmul dot_S512x2048_S512x2048_S512x512_1_1_0_0_n_n none a b (constant S512x512 .f32 0x00000000#32) (ix2 p q)
      = ∑ k : Fin 2048, a (ix2 p k) * b (ix2 q k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun ax => Fin.ext (by
    match ax with
    | ⟨0, _⟩ => exact downDot_lhs0 _ _
    | ⟨1, _⟩ => exact (dot_S512x2048_S512x2048_S512x512_1_1_0_0_n_n.lhsIdx_val_of_single rfl _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun ax => Fin.ext (by
    match ax with
    | ⟨0, _⟩ => exact downDot_rhs0 _ _
    | ⟨1, _⟩ => exact (dot_S512x2048_S512x2048_S512x512_1_1_0_0_n_n.rhsIdx_val_of_single rfl _ _).trans hk)
  rw [el, er]

/-! ## The blocks at an entry -/

/-- The column of row means, at row `p`, is the mean of row `p`. -/
theorem meanCol_apply (h : FVec Ideal S512x512 .f32) (p : Fin 512) (u : Fin 1) :
    meanCol h (ix2 p u) = rowMean (fun e => h (ix2 p e)) := by
  unfold meanCol rowMean
  show Ideal.div (shapeCast S512x1 (multiReduction .add [1] S512 h 0x00000000#32 reduces_S512x512_S512 (.inl rfl) rfl) shapeCasts_S512_S512x1 (ix2 p u))
      (Ideal.ofBits .f32 0x44000000#32) = _
  refine congrArg (fun s => Ideal.div s (Ideal.ofBits .f32 0x44000000#32)) ?_
  exact (Cert.LibColumn.shapeCast_a_a1_apply _ shapeCasts_S512_S512x1 p u).trans
    (Cert.LibKeepdims.sum_last2_apply h 0x00000000#32 reduces_S512x512_S512 (.inl rfl) rfl p)

/-- A row of scales or shifts spread over the tile reads, at `(p, d)`, its entry `d`. -/
theorem rowSpread_apply (g : Vec Ideal S1x512 .f32) (p d : Fin 512) :
    broadcastTo S512x512 (shapeCast S1x512 g shapeCasts_S1x512_S1x512) broadcasts_S1x512_S512x512 (ix2 p d) = g (ix2 (0 : Fin 1) d) := by
  rw [broadcastTo_1b_ab_apply, shapeCast_self]

/-- The normalized tile at `(p, d)` is the normalization of row `p` at `d`. -/
theorem lnBlock_apply (h : FVec Ideal S512x512 .f32) (g β : Vec Ideal S1x512 .f32) (p d : Fin 512) :
    lnBlock h g β (ix2 p d)
      = layerNorm (fun e => h (ix2 p e)) (fun e => g (ix2 (0 : Fin 1) e)) (fun e => β (ix2 (0 : Fin 1) e)) d := by
  have hm : ∀ e : Fin 512, broadcastTo S512x512 (meanCol h) broadcasts_S512x1_S512x512 (ix2 p e) = rowMean (fun e => h (ix2 p e)) :=
    fun e => (Cert.LibColumn.broadcastTo_a1_ab_apply _ broadcasts_S512x1_S512x512 p e).trans (meanCol_apply h p 0)
  have hv : broadcastTo S512x512
        (rsqrt (addf
          (meanCol (mulf (subf h (broadcastTo S512x512 (meanCol h) broadcasts_S512x1_S512x512))
            (subf h (broadcastTo S512x512 (meanCol h) broadcasts_S512x1_S512x512))))
          (broadcast S512x1 (Scalar.ofBits .f32 0x3727C5AC#32))))
        broadcasts_S512x1_S512x512 (ix2 p d)
      = Ideal.rsqrt (rowMean (fun e => (h (ix2 p e) - rowMean (fun e => h (ix2 p e))) * (h (ix2 p e) - rowMean (fun e => h (ix2 p e))))
          + Ideal.ofBits .f32 0x3727C5AC#32) := by
    refine (Cert.LibColumn.broadcastTo_a1_ab_apply _ broadcasts_S512x1_S512x512 p d).trans ?_
    show Ideal.rsqrt (meanCol (mulf (subf h (broadcastTo S512x512 (meanCol h) broadcasts_S512x1_S512x512))
            (subf h (broadcastTo S512x512 (meanCol h) broadcasts_S512x1_S512x512))) (ix2 p (0 : Fin 1))
          + Ideal.ofBits .f32 0x3727C5AC#32) = _
    rw [meanCol_apply]
    refine congrArg (fun s => Ideal.rsqrt (s + Ideal.ofBits .f32 0x3727C5AC#32)) (congrArg rowMean (funext fun e => ?_))
    show (h (ix2 p e) - broadcastTo S512x512 (meanCol h) broadcasts_S512x1_S512x512 (ix2 p e))
        * (h (ix2 p e) - broadcastTo S512x512 (meanCol h) broadcasts_S512x1_S512x512 (ix2 p e)) = _
    rw [hm e]
  show (h (ix2 p d) - broadcastTo S512x512 (meanCol h) broadcasts_S512x1_S512x512 (ix2 p d))
        * broadcastTo S512x512
            (rsqrt (addf
              (meanCol (mulf (subf h (broadcastTo S512x512 (meanCol h) broadcasts_S512x1_S512x512))
                (subf h (broadcastTo S512x512 (meanCol h) broadcasts_S512x1_S512x512))))
              (broadcast S512x1 (Scalar.ofBits .f32 0x3727C5AC#32))))
            broadcasts_S512x1_S512x512 (ix2 p d)
        * broadcastTo S512x512 (shapeCast S1x512 g shapeCasts_S1x512_S1x512) broadcasts_S1x512_S512x512 (ix2 p d)
      + broadcastTo S512x512 (shapeCast S1x512 β shapeCasts_S1x512_S1x512) broadcasts_S1x512_S512x512 (ix2 p d) = _
  rw [hm d, hv, rowSpread_apply, rowSpread_apply]
  rfl

/-- The projection block at `(p, d)`: the input row's entry plus the attention row against row `d` of the matrix. -/
theorem projBlock_apply (u wc : Vec Ideal S512x512 .bf16) (x : Vec Ideal S512x512 .f32) (p d : Fin 512) :
    projBlock u wc x (ix2 p d) = x (ix2 p d) + ∑ k : Fin 512, u (ix2 p k) * wc (ix2 d k) := by
  unfold projBlock
  show shapeCast S512x512 x shapeCasts_S512x512_S512x512 (ix2 p d)
      + matmul dot_S512x512_S512x512_S512x512_1_1_0_0_n_n none
          (shapeCast S512x512 u shapeCasts_S512x512_S512x512 : FVec Ideal S512x512 .bf16)
          (shapeCast S512x512 wc shapeCasts_S512x512_S512x512 : FVec Ideal S512x512 .bf16)
          (constant S512x512 .f32 0x00000000#32) (ix2 p d) = _
  rw [projDot_apply, shapeCast_self, shapeCast_self, shapeCast_self]

/-- The first feed-forward matrix at `(p, a)`: row `p` of the tile against row `a` of the matrix. -/
theorem upBlock_apply (v : FVec Ideal S512x512 .f32) (w1 : Vec Ideal S2048x512 .bf16) (p : Fin 512) (a : Fin 2048) :
    upBlock v w1 (ix2 p a) = ∑ k : Fin 512, v (ix2 p k) * w1 (ix2 a k) := by
  unfold upBlock
  rw [upDot_apply, shapeCast_self]
  rfl

/-- The feed-forward block at `(p, d)`. -/
theorem ffnBlock_apply (v : FVec Ideal S512x512 .f32) (up : FVec Ideal S512x2048 .f32) (b1 : Vec Ideal S1x2048 .f32)
    (w2 : Vec Ideal S512x2048 .bf16) (b2 : Vec Ideal S1x512 .f32) (p d : Fin 512) :
    ffnBlock v up b1 w2 b2 (ix2 p d)
      = v (ix2 p d) + ((∑ a : Fin 2048, max (up (ix2 p a) + b1 (ix2 (0 : Fin 1) a)) (Ideal.ofBits .f32 0x00000000#32) * w2 (ix2 d a))
          + b2 (ix2 (0 : Fin 1) d)) := by
  unfold ffnBlock
  show v (ix2 p d)
      + (matmul dot_S512x2048_S512x2048_S512x512_1_1_0_0_n_n none
          (truncf .bf16
            (maximumf (addf up (broadcastTo S512x2048 (shapeCast S1x2048 b1 shapeCasts_S1x2048_S1x2048) broadcasts_S1x2048_S512x2048))
              (broadcast S512x2048 (Scalar.ofBits .f32 0x00000000#32)))
            bitsLt_bf16_f32 : FVec Ideal S512x2048 .bf16)
          (shapeCast S512x2048 w2 shapeCasts_S512x2048_S512x2048 : FVec Ideal S512x2048 .bf16)
          (constant S512x512 .f32 0x00000000#32) (ix2 p d)
        + broadcastTo S512x512 (shapeCast S1x512 b2 shapeCasts_S1x512_S1x512) broadcasts_S1x512_S512x512 (ix2 p d)) = _
  rw [downDot_apply, rowSpread_apply]
  refine congrArg (fun s => v (ix2 p d) + (s + b2 (ix2 (0 : Fin 1) d))) (Finset.sum_congr rfl fun a _ => ?_)
  show max (up (ix2 p a) + broadcastTo S512x2048 (shapeCast S1x2048 b1 shapeCasts_S1x2048_S1x2048) broadcasts_S1x2048_S512x2048 (ix2 p a))
      (Ideal.ofBits .f32 0x00000000#32) * shapeCast S512x2048 w2 shapeCasts_S512x2048_S512x2048 (ix2 d a) = _
  rw [broadcastTo_1b_ab_apply, shapeCast_self, shapeCast_self]

end Cert.KernelIdeal.PostValue
-- ==== Proof.PostKernelRow.lean ====
/-
  The stored value of the output-projection / feed-forward region at entry `(p, d)` of its tile is the block's tail applied
  to row `p` of the attention tile and row `p` of the input tile, at `d`: the one store writes the whole output buffer,
  every load reads a whole buffer, and each of the region's blocks of operations acts on the rows of its tile separately.
-/
import proofs.«159339_j34729105555459_2_alg».proof.Proof.PostKernelOps
import proofs.«159339_j34729105555459_2_alg».proof.Proof.PostBodyIdeal

noncomputable section

open scoped BigOperators

namespace Cert.KernelIdeal.PostValue

open Cert.KernelIdeal Cert.KernelIdeal.Gen
open Idealize.ShloMosaic Idealize.ShloMosaic.ValueIdx

/-- The rank-two zero offset, in the two spellings the rectangles and the lemmas about them use. -/
theorem zeroOff2 : (![0, 0] : Fin 2 → Nat) = fun _ => 0 := funext fun a => by fin_cases a <;> rfl

/-- The output buffer after the body is the third payload of the buffers' contents: the store and the loads are of whole
    buffers. -/
theorem out2_11_eq_payload {F : FTy → Type} [FloatOps F] (x0 x1 : Vec F S512x512 .bf16) (x2 : Vec F S512x512 .f32)
    (x3 x4 : Vec F S1x512 .f32) (x5 : Vec F S2048x512 .bf16) (x6 : Vec F S1x2048 .f32) (x7 : Vec F S512x2048 .bf16)
    (x8 x9 x10 : Vec F S1x512 .f32) :
    Cert.KernelIdeal.Hand.out2_11 x0 x1 x2 x3 x4 x5 x6 x7 x8 x9 x10
      = k2_pay3 (k2_pay1 x0 x1 x2 x3 x4) (k2_pay2 x0 x1 x2 x3 x4 x5) x6 x7 x8 x9 x10 := by
  unfold Cert.KernelIdeal.Hand.out2_11
  rw [View.canon_unit_zero zeroOff2]
  simp only [View.ld_unit_zero (S := S512x512) zeroOff2, View.ld_unit_zero (S := S1x512) zeroOff2,
    View.ld_unit_zero (S := S2048x512) zeroOff2, View.ld_unit_zero (S := S1x2048) zeroOff2,
    View.ld_unit_zero (S := S512x2048) zeroOff2]

/-- The first payload at `(p, k)`: the normalized sum of the input row and the projected attention row, at `k`. -/
theorem pay1_row (x0 x1 : Vec Ideal S512x512 .bf16) (x2 : Vec Ideal S512x512 .f32) (x3 x4 : Vec Ideal S1x512 .f32)
    (p k : Fin 512) :
    k2_pay1 x0 x1 x2 x3 x4 (ix2 p k)
      = attnNormRow (fun e => x0 (ix2 p e)) (fun e => x2 (ix2 p e)) (fun a b => x1 (ix2 a b))
          (fun e => x3 (ix2 (0 : Fin 1) e)) (fun e => x4 (ix2 (0 : Fin 1) e)) k := by
  rw [pay1_eq, lnBlock_apply]
  unfold attnNormRow
  exact congrArg (fun r => layerNorm r (fun e => x3 (ix2 (0 : Fin 1) e)) (fun e => x4 (ix2 (0 : Fin 1) e)) k)
    (funext fun e => projBlock_apply x0 x1 x2 p e)

/-- The region's stored value, row by row. -/
theorem post_kernel_row (x0 x1 : Vec Ideal S512x512 .bf16) (x2 : Vec Ideal S512x512 .f32) (x3 x4 : Vec Ideal S1x512 .f32)
    (x5 : Vec Ideal S2048x512 .bf16) (x6 : Vec Ideal S1x2048 .f32) (x7 : Vec Ideal S512x2048 .bf16)
    (x8 x9 x10 : Vec Ideal S1x512 .f32) (p d : Fin 512) :
    Cert.KernelIdeal.Hand.out2_11 x0 x1 x2 x3 x4 x5 x6 x7 x8 x9 x10 (ix2 p d)
      = postRow (fun e => x0 (ix2 p e)) (fun e => x2 (ix2 p e)) (fun a b => x1 (ix2 a b))
          (fun e => x3 (ix2 (0 : Fin 1) e)) (fun e => x4 (ix2 (0 : Fin 1) e)) (fun a b => x5 (ix2 a b))
          (fun a => x6 (ix2 (0 : Fin 1) a)) (fun a b => x7 (ix2 a b)) (fun e => x8 (ix2 (0 : Fin 1) e))
          (fun e => x9 (ix2 (0 : Fin 1) e)) (fun e => x10 (ix2 (0 : Fin 1) e)) d := by
  rw [out2_11_eq_payload, pay3_eq, lnBlock_apply]
  unfold postRow
  refine congrArg (fun r => layerNorm r (fun e => x9 (ix2 (0 : Fin 1) e)) (fun e => x10 (ix2 (0 : Fin 1) e)) d)
    (funext fun e => ?_)
  rw [ffnBlock_apply, pay1_row]
  unfold ffnRow
  refine congrArg (fun s => attnNormRow (fun e => x0 (ix2 p e)) (fun e => x2 (ix2 p e)) (fun a b => x1 (ix2 a b))
      (fun e => x3 (ix2 (0 : Fin 1) e)) (fun e => x4 (ix2 (0 : Fin 1) e)) e + (s + x8 (ix2 (0 : Fin 1) e)))
    (Finset.sum_congr rfl fun a _ => ?_)
  rw [pay2_eq, upBlock_apply]
  refine congrArg (fun s => max (s + x6 (ix2 (0 : Fin 1) a)) (Ideal.ofBits .f32 0x00000000#32) * x7 (ix2 e a))
    (Finset.sum_congr rfl fun k _ => ?_)
  rw [pay1_row]

end Cert.KernelIdeal.PostValue
-- ==== Proof.PostArrays.lean ====
/-
  The last region's output array after the region, as one function of the arrays the region finds: row r of the output is the
  row function (output projection, residual, normalisation, feed-forward, residual, normalisation) of row r of the attention
  output and of the activations, with the weights, biases and scales whole. A grid point owns the 512 consecutive rows of its
  block; what it writes back is that block of the whole function, because the two row blocks it read are the same rows and every
  other block is the whole array; the sixteen row blocks tile the 8192 rows, so every entry of the array is written.
-/
import proofs.«159339_j34729105555459_2_alg».proof.Proof.PostBodyIdeal
import proofs.«159339_j34729105555459_2_alg».proof.Proof.PostKernelRow

set_option maxRecDepth 16384

noncomputable section

namespace Cert.KernelIdeal.PostArr

open Cert.KernelIdeal Cert.KernelIdeal.Gen Cert.KernelIdeal.Hand Cert.KernelIdeal.PostValue
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Row of an [8192, 512] array at column `e` (`i` gives the row). -/
abbrev rowIx (i : S8192x512.Idx) (e : Fin 512) : S8192x512.Idx := fun a => match a with
  | ⟨0, _⟩ => ⟨(i 0).val, (i 0).isLt⟩
  | ⟨1, _⟩ => ⟨e.val, e.isLt⟩

/-- The whole output: the row function applied row by row. -/
def postG (y0 : S8192x512.Idx → EReal) (y1 : S512x512.Idx → EReal) (y2 : S8192x512.Idx → EReal) (y3 : S1x512.Idx → EReal) (y4 : S1x512.Idx → EReal) (y5 : S2048x512.Idx → EReal) (y6 : S1x2048.Idx → EReal) (y7 : S512x2048.Idx → EReal) (y8 : S1x512.Idx → EReal) (y9 : S1x512.Idx → EReal) (y10 : S1x512.Idx → EReal) : S8192x512.Idx → EReal :=
  fun i => postRow (fun e => y0 (rowIx i e)) (fun e => y2 (rowIx i e)) (fun a b => y1 (ix2 a b)) (fun e => y3 (ix2 (0 : Fin 1) e)) (fun e => y4 (ix2 (0 : Fin 1) e)) (fun a b => y5 (ix2 a b)) (fun e => y6 (ix2 (0 : Fin 1) e)) (fun a b => y7 (ix2 a b)) (fun e => y8 (ix2 (0 : Fin 1) e)) (fun e => y9 (ix2 (0 : Fin 1) e)) (fun e => y10 (ix2 (0 : Fin 1) e)) ⟨(i 1).val, (i 1).isLt⟩

/-- The printed index maps, decided over the grid: the two row blocks move with the output's block, every other block stays. -/
theorem idx_facts : ∀ t : Fin cfg2.N, win2_0.index t (0 : Fin 2) = win2_11.index t (0 : Fin 2)
    ∧ win2_0.index t (1 : Fin 2) = 0
    ∧ win2_2.index t (0 : Fin 2) = win2_11.index t (0 : Fin 2)
    ∧ win2_2.index t (1 : Fin 2) = 0
    ∧ win2_11.index t (1 : Fin 2) = 0
    ∧ win2_11.index t (0 : Fin 2) ≤ 15
    ∧ win2_1.index t (0 : Fin 2) = 0
    ∧ win2_1.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0 :=
  (by decide +kernel : ∀ t : Fin grid2.N, _)

/-- Every row block is some point's. -/
theorem idx_onto : ∀ (q0 : Fin 16), ∃ t : Fin cfg2.N, win2_11.index t = ![q0.val, 0] :=
  (by decide +kernel : ∀ (q0 : Fin 16), ∃ t : Fin grid2.N, win2_11.index t = ![q0.val, 0])

set_option maxHeartbeats 4000000 in
/-- What point `t` writes back is block `t` of the whole output. -/
theorem flushed_eq (c : Dev nD) (t : Fin cfg2.N) :
    (dat2 V c).flushed 11 t = ((cfg2.win 11).blk t).view.read (Elt Ideal) (postG (V c main_v20) (V c main_v4) (V c main_v0) (V c main_v21) (V c main_v22) (V c main_v5) (V c main_v25) (V c main_v6) (V c main_v26) (V c main_v23) (V c main_v24)) := by
  show (cfg2.win 11).cut (grid2.coords t) ((dat2 V c).after 11 t) = _
  rw [after2_11]
  obtain ⟨f0, f1, f2, f3, f4, f5, f6, f7, f8, f9, f10, f11, f12, f13, f14, f15, f16, f17, f18, f19, f20, f21, f22, f23⟩ := idx_facts t
  funext j
  obtain ⟨p, d, rfl⟩ : ∃ (p : Fin 512) (d : Fin 512), j = ix2 p d := ⟨j 0, j 1, eq_ix2 j⟩
  rw [View.read_apply]
  refine (post_kernel_row (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) p d).trans ?_
  generalize hI : ((cfg2.win 11).blk t).view.emb (ix2 p d) = I
  have hI0 : (I 0).val = win2_11.index t (0 : Fin 2) * 512 + 1 * p.val := by rw [← hI]; rfl
  have hI1 : (I 1).val = d.val := by rw [← hI]; show win2_11.index t (1 : Fin 2) * 512 + 1 * d.val = d.val; omega
  have e0 : (fun e => iblk2 V c 0 t (ix2 p e)) = (fun e => (V c main_v20) (rowIx I e)) := by
    funext e
    show (V c main_v20) (((cfg2.win 0).blk t).view.emb (ix2 p e)) = (V c main_v20) (rowIx I e)
    refine congrArg _ (funext fun a => Fin.ext ?_)
    match a with
    | ⟨0, _⟩ => show win2_0.index t (0 : Fin 2) * 512 + 1 * p.val = (I 0).val; rw [hI0]; omega
    | ⟨1, _⟩ => show win2_0.index t (1 : Fin 2) * 512 + 1 * e.val = e.val; omega
  have e1 : (fun a b => iblk2 V c 1 t (ix2 a b)) = (fun a b => (V c main_v4) (ix2 a b)) := by
    funext a b
    show (V c main_v4) (((cfg2.win 1).blk t).view.emb (ix2 a b)) = (V c main_v4) (ix2 a b)
    refine congrArg _ (funext fun x => Fin.ext ?_)
    match x with
    | ⟨0, _⟩ => show win2_1.index t (0 : Fin 2) * 512 + 1 * a.val = a.val; have := f6; omega
    | ⟨1, _⟩ => show win2_1.index t (1 : Fin 2) * 512 + 1 * b.val = b.val; have := f7; omega
  have e2 : (fun e => iblk2 V c 2 t (ix2 p e)) = (fun e => (V c main_v0) (rowIx I e)) := by
    funext e
    show (V c main_v0) (((cfg2.win 2).blk t).view.emb (ix2 p e)) = (V c main_v0) (rowIx I e)
    refine congrArg _ (funext fun a => Fin.ext ?_)
    match a with
    | ⟨0, _⟩ => show win2_2.index t (0 : Fin 2) * 512 + 1 * p.val = (I 0).val; rw [hI0]; omega
    | ⟨1, _⟩ => show win2_2.index t (1 : Fin 2) * 512 + 1 * e.val = e.val; omega
  have e3 : (fun e => iblk2 V c 3 t (ix2 (0 : Fin 1) e)) = (fun e => (V c main_v21) (ix2 (0 : Fin 1) e)) := by
    funext e
    show (V c main_v21) (((cfg2.win 3).blk t).view.emb (ix2 (0 : Fin 1) e)) = (V c main_v21) (ix2 (0 : Fin 1) e)
    refine congrArg _ (funext fun a => Fin.ext ?_)
    match a with
    | ⟨0, _⟩ => show win2_3.index t (0 : Fin 2) * 1 + 1 * 0 = 0; have := f8; omega
    | ⟨1, _⟩ => show win2_3.index t (1 : Fin 2) * 512 + 1 * e.val = e.val; have := f9; omega
  have e4 : (fun e => iblk2 V c 4 t (ix2 (0 : Fin 1) e)) = (fun e => (V c main_v22) (ix2 (0 : Fin 1) e)) := by
    funext e
    show (V c main_v22) (((cfg2.win 4).blk t).view.emb (ix2 (0 : Fin 1) e)) = (V c main_v22) (ix2 (0 : Fin 1) e)
    refine congrArg _ (funext fun a => Fin.ext ?_)
    match a with
    | ⟨0, _⟩ => show win2_4.index t (0 : Fin 2) * 1 + 1 * 0 = 0; have := f10; omega
    | ⟨1, _⟩ => show win2_4.index t (1 : Fin 2) * 512 + 1 * e.val = e.val; have := f11; omega
  have e5 : (fun a b => iblk2 V c 5 t (ix2 a b)) = (fun a b => (V c main_v5) (ix2 a b)) := by
    funext a b
    show (V c main_v5) (((cfg2.win 5).blk t).view.emb (ix2 a b)) = (V c main_v5) (ix2 a b)
    refine congrArg _ (funext fun x => Fin.ext ?_)
    match x with
    | ⟨0, _⟩ => show win2_5.index t (0 : Fin 2) * 2048 + 1 * a.val = a.val; have := f12; omega
    | ⟨1, _⟩ => show win2_5.index t (1 : Fin 2) * 512 + 1 * b.val = b.val; have := f13; omega
  have e6 : (fun e => iblk2 V c 6 t (ix2 (0 : Fin 1) e)) = (fun e => (V c main_v25) (ix2 (0 : Fin 1) e)) := by
    funext e
    show (V c main_v25) (((cfg2.win 6).blk t).view.emb (ix2 (0 : Fin 1) e)) = (V c main_v25) (ix2 (0 : Fin 1) e)
    refine congrArg _ (funext fun a => Fin.ext ?_)
    match a with
    | ⟨0, _⟩ => show win2_6.index t (0 : Fin 2) * 1 + 1 * 0 = 0; have := f14; omega
    | ⟨1, _⟩ => show win2_6.index t (1 : Fin 2) * 2048 + 1 * e.val = e.val; have := f15; omega
  have e7 : (fun a b => iblk2 V c 7 t (ix2 a b)) = (fun a b => (V c main_v6) (ix2 a b)) := by
    funext a b
    show (V c main_v6) (((cfg2.win 7).blk t).view.emb (ix2 a b)) = (V c main_v6) (ix2 a b)
    refine congrArg _ (funext fun x => Fin.ext ?_)
    match x with
    | ⟨0, _⟩ => show win2_7.index t (0 : Fin 2) * 512 + 1 * a.val = a.val; have := f16; omega
    | ⟨1, _⟩ => show win2_7.index t (1 : Fin 2) * 2048 + 1 * b.val = b.val; have := f17; omega
  have e8 : (fun e => iblk2 V c 8 t (ix2 (0 : Fin 1) e)) = (fun e => (V c main_v26) (ix2 (0 : Fin 1) e)) := by
    funext e
    show (V c main_v26) (((cfg2.win 8).blk t).view.emb (ix2 (0 : Fin 1) e)) = (V c main_v26) (ix2 (0 : Fin 1) e)
    refine congrArg _ (funext fun a => Fin.ext ?_)
    match a with
    | ⟨0, _⟩ => show win2_8.index t (0 : Fin 2) * 1 + 1 * 0 = 0; have := f18; omega
    | ⟨1, _⟩ => show win2_8.index t (1 : Fin 2) * 512 + 1 * e.val = e.val; have := f19; omega
  have e9 : (fun e => iblk2 V c 9 t (ix2 (0 : Fin 1) e)) = (fun e => (V c main_v23) (ix2 (0 : Fin 1) e)) := by
    funext e
    show (V c main_v23) (((cfg2.win 9).blk t).view.emb (ix2 (0 : Fin 1) e)) = (V c main_v23) (ix2 (0 : Fin 1) e)
    refine congrArg _ (funext fun a => Fin.ext ?_)
    match a with
    | ⟨0, _⟩ => show win2_9.index t (0 : Fin 2) * 1 + 1 * 0 = 0; have := f20; omega
    | ⟨1, _⟩ => show win2_9.index t (1 : Fin 2) * 512 + 1 * e.val = e.val; have := f21; omega
  have e10 : (fun e => iblk2 V c 10 t (ix2 (0 : Fin 1) e)) = (fun e => (V c main_v24) (ix2 (0 : Fin 1) e)) := by
    funext e
    show (V c main_v24) (((cfg2.win 10).blk t).view.emb (ix2 (0 : Fin 1) e)) = (V c main_v24) (ix2 (0 : Fin 1) e)
    refine congrArg _ (funext fun a => Fin.ext ?_)
    match a with
    | ⟨0, _⟩ => show win2_10.index t (0 : Fin 2) * 1 + 1 * 0 = 0; have := f22; omega
    | ⟨1, _⟩ => show win2_10.index t (1 : Fin 2) * 512 + 1 * e.val = e.val; have := f23; omega
  unfold postG
  beta_reduce
  rw [e0, e2, e1, e3, e4, e5, e6, e7, e8, e9, e10]
  exact congrArg _ (Fin.ext hI1.symm)

/-- An index of the array is in point `t`'s block iff each coordinate is in the block's range on its axis. -/
theorem mem_blk (t : Fin cfg2.N) (i : S8192x512.Idx) :
    i ∈ ((cfg2.win 11).blk t).view.set ↔ ∀ a : Fin 2, win2_11.index t a * S512x512.size a ≤ (i a).val ∧ (i a).val < win2_11.index t a * S512x512.size a + S512x512.size a := by
  show i ∈ ((View.whole main_v27).slice (win2_11.rect t)).set ↔ _
  rw [View.set_slice_whole, Rect.mem_set_unit]
  exact Iff.rfl

/-- Every index of the array is in some point's block: the row blocks tile the rows. -/
theorem cover (i : S8192x512.Idx) : ∃ t : Fin cfg2.N, (cfg2.win 11).flush t = true ∧ i ∈ ((cfg2.win 11).blk t).view.set := by
  have hi0 : (i 0).val < 8192 := (i 0).isLt
  have hi1 : (i 1).val < 512 := (i 1).isLt
  obtain ⟨t, ht⟩ := idx_onto ⟨(i 0).val / 512, by omega⟩
  have q0 : win2_11.index t (0 : Fin 2) = (i 0).val / 512 := congrFun ht 0
  have q1 : win2_11.index t (1 : Fin 2) = 0 := congrFun ht 1
  refine ⟨t, flush2_11 t, ?_⟩
  rw [mem_blk]
  intro a
  match a with
  | ⟨0, _⟩ => show win2_11.index t (0 : Fin 2) * 512 ≤ (i 0).val ∧ (i 0).val < win2_11.index t (0 : Fin 2) * 512 + 512; omega
  | ⟨1, _⟩ => show win2_11.index t (1 : Fin 2) * 512 ≤ (i 1).val ∧ (i 1).val < win2_11.index t (1 : Fin 2) * 512 + 512; omega

/-- THE ARRAY after the region: the row function applied row by row to the arrays the region finds. -/
theorem final11 (c : Dev nD) : (dat2 V c).arrAt 11 cfg2.N = postG (V c main_v20) (V c main_v4) (V c main_v0) (V c main_v21) (V c main_v22) (V c main_v5) (V c main_v25) (V c main_v6) (V c main_v26) (V c main_v23) (V c main_v24) :=
  (dat2 V c).arrAt_eq_of_cover 11 _ (fun t _ => flushed_eq V c t) cover

end Cert.KernelIdeal.PostArr

end
-- ==== Proof.PostRefRow.lean ====
/-
  The reference's tail — output projection, residual, LayerNorm, feed-forward network, residual, LayerNorm — read at one
  entry `(s, b, d)` of its `[2048, 4, 512]` result: it is the block's tail applied to row `(s, b)` of the attention output
  and row `(s, b)` of the block's input, at `d`. Every operation of the tail either acts entry by entry, or spreads a
  vector along the rows, or sums along a row; so an entry of the result depends on its own row only. The host's sums start
  from the constant zero, which adds nothing.
-/
import proofs.«159339_j34729105555459_2_alg».proof.Proof.PostSpec
import proofs.«159339_j34729105555459_2_alg».proof.Proof.RefRead

noncomputable section

open scoped BigOperators

namespace Cert.KernelIdeal.PostValue

open Cert.ReferenceIdeal Cert.ReferenceIdeal.Read
open Idealize.ShloMosaic Idealize.ShloMosaic.ValueIdx

/-- The first normalization of the reference, at an entry: the normalization of the entry's row of its operand. -/
theorem ref_ln1_row (x0 : (⟨S2048x4x512, .f32⟩ : BufTy).Contents (Elt Ideal)) (x1 : (⟨S2048x2048, .f32⟩ : BufTy).Contents (Elt Ideal)) (x2 x3 x4 x5 : (⟨S512x512, .f32⟩ : BufTy).Contents (Elt Ideal)) (x10 x11 : (⟨S512, .f32⟩ : BufTy).Contents (Elt Ideal)) (s : Fin 2048) (b : Fin 4) (d : Fin 512) :
    val_main_v54 (F := Ideal) x0 x1 x2 x3 x4 x5 x10 x11 (ix3 s b d)
      = layerNorm (fun e => val_main_v30 (F := Ideal) x0 x1 x2 x3 x4 x5 (ix3 s b e)) (fun e => x10 (ix1 e)) (fun e => x11 (ix1 e)) d := by
  have hsum : ∀ (u : Fin 1) (k : Fin 512), idx_main_v31 (idx_main_v32 (ix3 s b u)) k = ix3 s b k := fun u k =>
    funext fun a => Fin.ext (by match a with | ⟨0, _⟩ => rfl | ⟨1, _⟩ => rfl | ⟨2, _⟩ => rfl)
  have hsum2 : ∀ (u : Fin 1) (k : Fin 512), idx_main_v38 (idx_main_v39 (ix3 s b u)) k = ix3 s b k := fun u k =>
    funext fun a => Fin.ext (by match a with | ⟨0, _⟩ => rfl | ⟨1, _⟩ => rfl | ⟨2, _⟩ => rfl)
  have hb35 : ∀ e : Fin 512, idx_main_v35 (ix3 s b e) = ix3 s b (0 : Fin 1) := fun e =>
    funext fun a => Fin.ext (by match a with | ⟨0, _⟩ => rfl | ⟨1, _⟩ => rfl | ⟨2, _⟩ => rfl)
  have hb42 : ∀ e : Fin 512, idx_main_v42 (ix3 s b e) = ix3 s b (0 : Fin 1) := fun e =>
    funext fun a => Fin.ext (by match a with | ⟨0, _⟩ => rfl | ⟨1, _⟩ => rfl | ⟨2, _⟩ => rfl)
  have hb47 : ∀ e : Fin 512, idx_main_v47 (ix3 s b e) = ix3 s b (0 : Fin 1) := fun e =>
    funext fun a => Fin.ext (by match a with | ⟨0, _⟩ => rfl | ⟨1, _⟩ => rfl | ⟨2, _⟩ => rfl)
  have hg : idx_main_v49 (idx_main_v50 (ix3 s b d)) = ix1 d := funext fun a => Fin.ext (by match a with | ⟨0, _⟩ => rfl)
  have hβ : idx_main_v52 (idx_main_v53 (ix3 s b d)) = ix1 d := funext fun a => Fin.ext (by match a with | ⟨0, _⟩ => rfl)
  have hmean : ∀ u : Fin 1, val_main_v34 (F := Ideal) x0 x1 x2 x3 x4 x5 (ix3 s b u)
      = rowMean (fun e => val_main_v30 (F := Ideal) x0 x1 x2 x3 x4 x5 (ix3 s b e)) := by
    intro u
    rw [val_main_v34_apply, val_main_v32_apply, val_main_v31_apply, val_main_v33_apply, val_main_cst_3_apply, val_main_cst_4_apply]
    simp only [hsum, Ideal.hostDivf_def, Ideal.ofBits_def, Ideal.ofBits_zero_f32, zero_add]
    rfl
  have hcen : ∀ e : Fin 512, val_main_v36 (F := Ideal) x0 x1 x2 x3 x4 x5 (ix3 s b e)
      = val_main_v30 (F := Ideal) x0 x1 x2 x3 x4 x5 (ix3 s b e) - rowMean (fun e => val_main_v30 (F := Ideal) x0 x1 x2 x3 x4 x5 (ix3 s b e)) := by
    intro e
    simp only [val_main_v36_apply, val_main_v35_apply, hb35 e, hmean, Ideal.subf_def]
  have hvar : ∀ u : Fin 1, val_main_v41 (F := Ideal) x0 x1 x2 x3 x4 x5 (ix3 s b u)
      = rowMean (fun e => (val_main_v30 (F := Ideal) x0 x1 x2 x3 x4 x5 (ix3 s b e) - rowMean (fun e => val_main_v30 (F := Ideal) x0 x1 x2 x3 x4 x5 (ix3 s b e)))
          * (val_main_v30 (F := Ideal) x0 x1 x2 x3 x4 x5 (ix3 s b e) - rowMean (fun e => val_main_v30 (F := Ideal) x0 x1 x2 x3 x4 x5 (ix3 s b e)))) := by
    intro u
    rw [val_main_v41_apply, val_main_v39_apply, val_main_v38_apply, val_main_v40_apply, val_main_cst_5_apply, val_main_cst_6_apply]
    simp only [hsum2, val_main_v37_apply, hcen, Ideal.hostDivf_def, Ideal.mulf_def, Ideal.ofBits_def, Ideal.ofBits_zero_f32, zero_add]
    rfl
  rw [val_main_v54_apply, val_main_v51_apply, val_main_v48_apply, val_main_v43_apply, val_main_v42_apply, val_main_v47_apply, val_main_v46_apply,
    val_main_v45_apply, val_main_v44_apply, val_main_cst_7_apply, val_main_v50_apply, val_main_v49_apply, val_main_v53_apply, val_main_v52_apply,
    hb42 d, hb47 d, hmean, hvar, hg, hβ]
  simp only [Ideal.addf_def, Ideal.mulf_def, Ideal.subf_def, Ideal.hostUnary_rsqrt_def, Ideal.ofBits_def]
  rfl

/-- The second normalization of the reference, at an entry: the normalization of the entry's row of its operand. -/
theorem ref_ln2_row (x0 : (⟨S2048x4x512, .f32⟩ : BufTy).Contents (Elt Ideal)) (x1 : (⟨S2048x2048, .f32⟩ : BufTy).Contents (Elt Ideal)) (x2 x3 x4 x5 : (⟨S512x512, .f32⟩ : BufTy).Contents (Elt Ideal)) (x6 : (⟨S2048x512, .f32⟩ : BufTy).Contents (Elt Ideal)) (x7 : (⟨S2048, .f32⟩ : BufTy).Contents (Elt Ideal)) (x8 : (⟨S512x2048, .f32⟩ : BufTy).Contents (Elt Ideal)) (x9 : (⟨S512, .f32⟩ : BufTy).Contents (Elt Ideal)) (x10 x11 x12 x13 : (⟨S512, .f32⟩ : BufTy).Contents (Elt Ideal)) (s : Fin 2048) (b : Fin 4) (d : Fin 512) :
    val_main_v88 (F := Ideal) x0 x1 x2 x3 x4 x5 x6 x7 x8 x9 x10 x11 x12 x13 (ix3 s b d)
      = layerNorm (fun e => val_main_v64 (F := Ideal) x0 x1 x2 x3 x4 x5 x6 x7 x8 x9 x10 x11 (ix3 s b e)) (fun e => x12 (ix1 e)) (fun e => x13 (ix1 e)) d := by
  have hsum : ∀ (u : Fin 1) (k : Fin 512), idx_main_v65 (idx_main_v66 (ix3 s b u)) k = ix3 s b k := fun u k =>
    funext fun a => Fin.ext (by match a with | ⟨0, _⟩ => rfl | ⟨1, _⟩ => rfl | ⟨2, _⟩ => rfl)
  have hsum2 : ∀ (u : Fin 1) (k : Fin 512), idx_main_v72 (idx_main_v73 (ix3 s b u)) k = ix3 s b k := fun u k =>
    funext fun a => Fin.ext (by match a with | ⟨0, _⟩ => rfl | ⟨1, _⟩ => rfl | ⟨2, _⟩ => rfl)
  have hb35 : ∀ e : Fin 512, idx_main_v69 (ix3 s b e) = ix3 s b (0 : Fin 1) := fun e =>
    funext fun a => Fin.ext (by match a with | ⟨0, _⟩ => rfl | ⟨1, _⟩ => rfl | ⟨2, _⟩ => rfl)
  have hb42 : ∀ e : Fin 512, idx_main_v76 (ix3 s b e) = ix3 s b (0 : Fin 1) := fun e =>
    funext fun a => Fin.ext (by match a with | ⟨0, _⟩ => rfl | ⟨1, _⟩ => rfl | ⟨2, _⟩ => rfl)
  have hb47 : ∀ e : Fin 512, idx_main_v81 (ix3 s b e) = ix3 s b (0 : Fin 1) := fun e =>
    funext fun a => Fin.ext (by match a with | ⟨0, _⟩ => rfl | ⟨1, _⟩ => rfl | ⟨2, _⟩ => rfl)
  have hg : idx_main_v83 (idx_main_v84 (ix3 s b d)) = ix1 d := funext fun a => Fin.ext (by match a with | ⟨0, _⟩ => rfl)
  have hβ : idx_main_v86 (idx_main_v87 (ix3 s b d)) = ix1 d := funext fun a => Fin.ext (by match a with | ⟨0, _⟩ => rfl)
  have hmean : ∀ u : Fin 1, val_main_v68 (F := Ideal) x0 x1 x2 x3 x4 x5 x6 x7 x8 x9 x10 x11 (ix3 s b u)
      = rowMean (fun e => val_main_v64 (F := Ideal) x0 x1 x2 x3 x4 x5 x6 x7 x8 x9 x10 x11 (ix3 s b e)) := by
    intro u
    rw [val_main_v68_apply, val_main_v66_apply, val_main_v65_apply, val_main_v67_apply, val_main_cst_8_apply, val_main_cst_9_apply]
    simp only [hsum, Ideal.hostDivf_def, Ideal.ofBits_def, Ideal.ofBits_zero_f32, zero_add]
    rfl
  have hcen : ∀ e : Fin 512, val_main_v70 (F := Ideal) x0 x1 x2 x3 x4 x5 x6 x7 x8 x9 x10 x11 (ix3 s b e)
      = val_main_v64 (F := Ideal) x0 x1 x2 x3 x4 x5 x6 x7 x8 x9 x10 x11 (ix3 s b e) - rowMean (fun e => val_main_v64 (F := Ideal) x0 x1 x2 x3 x4 x5 x6 x7 x8 x9 x10 x11 (ix3 s b e)) := by
    intro e
    simp only [val_main_v70_apply, val_main_v69_apply, hb35 e, hmean, Ideal.subf_def]
  have hvar : ∀ u : Fin 1, val_main_v75 (F := Ideal) x0 x1 x2 x3 x4 x5 x6 x7 x8 x9 x10 x11 (ix3 s b u)
      = rowMean (fun e => (val_main_v64 (F := Ideal) x0 x1 x2 x3 x4 x5 x6 x7 x8 x9 x10 x11 (ix3 s b e) - rowMean (fun e => val_main_v64 (F := Ideal) x0 x1 x2 x3 x4 x5 x6 x7 x8 x9 x10 x11 (ix3 s b e)))
          * (val_main_v64 (F := Ideal) x0 x1 x2 x3 x4 x5 x6 x7 x8 x9 x10 x11 (ix3 s b e) - rowMean (fun e => val_main_v64 (F := Ideal) x0 x1 x2 x3 x4 x5 x6 x7 x8 x9 x10 x11 (ix3 s b e)))) := by
    intro u
    rw [val_main_v75_apply, val_main_v73_apply, val_main_v72_apply, val_main_v74_apply, val_main_cst_10_apply, val_main_cst_11_apply]
    simp only [hsum2, val_main_v71_apply, hcen, Ideal.hostDivf_def, Ideal.mulf_def, Ideal.ofBits_def, Ideal.ofBits_zero_f32, zero_add]
    rfl
  rw [val_main_v88_apply, val_main_v85_apply, val_main_v82_apply, val_main_v77_apply, val_main_v76_apply, val_main_v81_apply, val_main_v80_apply,
    val_main_v79_apply, val_main_v78_apply, val_main_cst_12_apply, val_main_v84_apply, val_main_v83_apply, val_main_v87_apply, val_main_v86_apply,
    hb42 d, hb47 d, hmean, hvar, hg, hβ]
  simp only [Ideal.addf_def, Ideal.mulf_def, Ideal.subf_def, Ideal.hostUnary_rsqrt_def, Ideal.ofBits_def]
  rfl

/-- The reference's result, row by row. -/
theorem post_ref_row (x0 : (⟨S2048x4x512, .f32⟩ : BufTy).Contents (Elt Ideal)) (x1 : (⟨S2048x2048, .f32⟩ : BufTy).Contents (Elt Ideal)) (x2 x3 x4 x5 : (⟨S512x512, .f32⟩ : BufTy).Contents (Elt Ideal)) (x6 : (⟨S2048x512, .f32⟩ : BufTy).Contents (Elt Ideal)) (x7 : (⟨S2048, .f32⟩ : BufTy).Contents (Elt Ideal)) (x8 : (⟨S512x2048, .f32⟩ : BufTy).Contents (Elt Ideal)) (x9 : (⟨S512, .f32⟩ : BufTy).Contents (Elt Ideal)) (x10 x11 x12 x13 : (⟨S512, .f32⟩ : BufTy).Contents (Elt Ideal)) (s : Fin 2048) (b : Fin 4) (d : Fin 512) :
    val_main_v88 (F := Ideal) x0 x1 x2 x3 x4 x5 x6 x7 x8 x9 x10 x11 x12 x13 (ix3 s b d)
      = postRow (fun e => val_main_v28 (F := Ideal) x0 x1 x2 x3 x4 (ix3 s b e)) (fun e => x0 (ix3 s b e))
          (fun a e => x5 (ix2 a e)) (fun e => x10 (ix1 e)) (fun e => x11 (ix1 e)) (fun a e => x6 (ix2 a e))
          (fun a => x7 (ix1 a)) (fun a e => x8 (ix2 a e)) (fun e => x9 (ix1 e)) (fun e => x12 (ix1 e))
          (fun e => x13 (ix1 e)) d := by
  have hl29 : ∀ e k : Fin 512, lidx_main_v29 (ix3 s b e) k = ix3 s b k := fun e k =>
    funext fun a => Fin.ext (by match a with | ⟨0, _⟩ => rfl | ⟨1, _⟩ => rfl | ⟨2, _⟩ => rfl)
  have hr29 : ∀ e k : Fin 512, ridx_main_v29 (ix3 s b e) k = ix2 e k := fun e k =>
    funext fun a => Fin.ext (by match a with | ⟨0, _⟩ => rfl | ⟨1, _⟩ => rfl)
  have hl55 : ∀ (a : Fin 2048) (k : Fin 512), lidx_main_v55 (ix3 s b a) k = ix3 s b k := fun a k =>
    funext fun ax => Fin.ext (by match ax with | ⟨0, _⟩ => rfl | ⟨1, _⟩ => rfl | ⟨2, _⟩ => rfl)
  have hr55 : ∀ (a : Fin 2048) (k : Fin 512), ridx_main_v55 (ix3 s b a) k = ix2 a k := fun a k =>
    funext fun ax => Fin.ext (by match ax with | ⟨0, _⟩ => rfl | ⟨1, _⟩ => rfl)
  have hb1 : ∀ a : Fin 2048, idx_main_v56 (idx_main_v57 (ix3 s b a)) = ix1 a := fun a =>
    funext fun ax => Fin.ext (by match ax with | ⟨0, _⟩ => rfl)
  have hl60 : ∀ (e : Fin 512) (a : Fin 2048), lidx_main_v60 (ix3 s b e) a = ix3 s b a := fun e a =>
    funext fun ax => Fin.ext (by match ax with | ⟨0, _⟩ => rfl | ⟨1, _⟩ => rfl | ⟨2, _⟩ => rfl)
  have hr60 : ∀ (e : Fin 512) (a : Fin 2048), ridx_main_v60 (ix3 s b e) a = ix2 e a := fun e a =>
    funext fun ax => Fin.ext (by match ax with | ⟨0, _⟩ => rfl | ⟨1, _⟩ => rfl)
  have hb2 : ∀ e : Fin 512, idx_main_v61 (idx_main_v62 (ix3 s b e)) = ix1 e := fun e =>
    funext fun ax => Fin.ext (by match ax with | ⟨0, _⟩ => rfl)
  have h30 : ∀ e : Fin 512, val_main_v30 (F := Ideal) x0 x1 x2 x3 x4 x5 (ix3 s b e)
      = x0 (ix3 s b e) + ∑ k : Fin 512, val_main_v28 (F := Ideal) x0 x1 x2 x3 x4 (ix3 s b k) * x5 (ix2 e k) := by
    intro e
    rw [val_main_v30_apply, val_main_v29_apply]
    simp only [hl29, hr29, Ideal.addf_def]
  have h54 : ∀ e : Fin 512, val_main_v54 (F := Ideal) x0 x1 x2 x3 x4 x5 x10 x11 (ix3 s b e)
      = attnNormRow (fun e => val_main_v28 (F := Ideal) x0 x1 x2 x3 x4 (ix3 s b e)) (fun e => x0 (ix3 s b e))
          (fun a e => x5 (ix2 a e)) (fun e => x10 (ix1 e)) (fun e => x11 (ix1 e)) e := by
    intro e
    rw [ref_ln1_row]
    unfold attnNormRow
    exact congrArg (fun r => layerNorm r (fun e => x10 (ix1 e)) (fun e => x11 (ix1 e)) e) (funext h30)
  have h64 : ∀ e : Fin 512, val_main_v64 (F := Ideal) x0 x1 x2 x3 x4 x5 x6 x7 x8 x9 x10 x11 (ix3 s b e)
      = attnNormRow (fun e => val_main_v28 (F := Ideal) x0 x1 x2 x3 x4 (ix3 s b e)) (fun e => x0 (ix3 s b e))
            (fun a e => x5 (ix2 a e)) (fun e => x10 (ix1 e)) (fun e => x11 (ix1 e)) e
          + ffnRow (attnNormRow (fun e => val_main_v28 (F := Ideal) x0 x1 x2 x3 x4 (ix3 s b e)) (fun e => x0 (ix3 s b e))
              (fun a e => x5 (ix2 a e)) (fun e => x10 (ix1 e)) (fun e => x11 (ix1 e)))
            (fun a e => x6 (ix2 a e)) (fun a => x7 (ix1 a)) (fun a e => x8 (ix2 a e)) (fun e => x9 (ix1 e)) e := by
    intro e
    rw [val_main_v64_apply, val_main_v63_apply, val_main_v60_apply, val_main_v62_apply, val_main_v61_apply, hb2 e, h54 e]
    simp only [hl60, hr60, val_main_v59_apply, val_main_v58_apply, val_main_v55_apply, val_main_v57_apply,
      val_main_v56_apply, val_main_call0_v0_apply, val_main_call0_cst_apply, hl55, hr55, hb1, h54,
      Ideal.addf_def, Ideal.maximumf_def, Ideal.ofBits_def]
    rfl
  rw [ref_ln2_row]
  unfold postRow
  exact congrArg (fun r => layerNorm r (fun e => x12 (ix1 e)) (fun e => x13 (ix1 e)) d) (funext h64)

end Cert.KernelIdeal.PostValue
-- ==== Proof.FinalTail.lean ====
/-
  The end of the chain: entry (s, b, d) of the kernel's result is row 4·s + b of the last region's output, which is the row
  function of that row of the attention output and of the activations with the weights, biases and scales — and the reference's
  result at (s, b, d) is the same row function of the same rows. The weights reach the last region as the first stretch left
  them (the change of float format is the identity), the bias and scale vectors as launched with a leading unit axis, the
  activations as the first stretch flattened them.
-/
import proofs.«159339_j34729105555459_2_alg».proof.Proof.HostReads
import proofs.«159339_j34729105555459_2_alg».proof.Proof.PostArrays
import proofs.«159339_j34729105555459_2_alg».proof.Proof.PostRefRow

set_option maxRecDepth 16384

noncomputable section

namespace Cert.KernelIdeal.Final

open Cert.KernelIdeal Cert.KernelIdeal.Gen Cert.KernelIdeal.Hand Cert.KernelIdeal.HostReads Cert.KernelIdeal.PostArr Cert.KernelIdeal.PostValue
open Idealize.ShloMosaic Idealize.ShloMosaic.TcCoe Idealize.ShloMosaic.ValueIdx
open Idealize.SL.Sem
open Idealize.ShloMosaic.Pipeline (Dat)

variable (A : AttnHalf Ideal)
variable (m : (ℓ : Loc nD τ sig) → Buf (Elt Ideal) ℓ) (ρ : Dev nD → PrngReg)

/-! ## What reaches the last region -/

/-- An array the third stretch does not write enters the last region as the attention region left it. -/
theorem V5_keep (c : Dev nD) (r : Ref sig .tc) (h2 : r ∉ hostOps2_W) : V5 A m ρ c r = W4 A m ρ c (Proc.devRef .tc r) :=
  StableHlo.after_of_writes_sub hostOps2 _ hostOps2_writes h2

/-- The flattened activations reach the last region as the first stretch made them. -/
theorem V5_x (c : Dev nD) : V5 A m ρ c main_v0 = V1 m ρ c main_v0 :=
  calc V5 A m ρ c main_v0
    _ = W4 A m ρ c (Proc.devRef .tc main_v0) := V5_keep A m ρ c main_v0 (by decide)
    _ = W3 m ρ c (Proc.devRef .tc main_v0) := W4_of_ne A m ρ c main_v0 (by decide)
    _ = W2 m ρ c (Proc.devRef .tc main_v0) := StableHlo.after_of_writes_sub hostOps1 _ hostOps1_writes (by decide)
    _ = W1 m ρ c (Proc.devRef .tc main_v0) := (W2_arr m ρ c 0).trans (((dat0 (V1 m ρ) c).arrAt_in 0 rfl _).trans (A_eq0 (V1 m ρ) c 0))

theorem V5_wc (c : Dev nD) : (V5 A m ρ c main_v4 : S512x512.Idx → EReal) = (m ((c : Thread nD τ).loc main_arg5)) :=
  (V5_keep A m ρ c main_v4 (by decide)).trans ((W4_keep1 A m ρ c main_v4 (by decide) (by decide) (by decide)).trans (W1_wc m ρ c))
theorem V5_w1 (c : Dev nD) : (V5 A m ρ c main_v5 : S2048x512.Idx → EReal) = (m ((c : Thread nD τ).loc main_arg6)) :=
  (V5_keep A m ρ c main_v5 (by decide)).trans ((W4_keep1 A m ρ c main_v5 (by decide) (by decide) (by decide)).trans (W1_w1 m ρ c))
theorem V5_w2 (c : Dev nD) : (V5 A m ρ c main_v6 : S512x2048.Idx → EReal) = (m ((c : Thread nD τ).loc main_arg8)) :=
  (V5_keep A m ρ c main_v6 (by decide)).trans ((W4_keep1 A m ρ c main_v6 (by decide) (by decide) (by decide)).trans (W1_w2 m ρ c))

theorem V5_ln1w_apply (c : Dev nD) (e : Fin 512) : (V5 A m ρ c main_v21 : S1x512.Idx → EReal) (ix2 (0 : Fin 1) e) = (m ((c : Thread nD τ).loc main_arg10)) (ix1 e) := by
  rw [V5_ln1w, unit_row_apply, W4_keep A m ρ c main_arg10 (by decide) (by decide) (by decide) (by decide)]
theorem V5_ln1b_apply (c : Dev nD) (e : Fin 512) : (V5 A m ρ c main_v22 : S1x512.Idx → EReal) (ix2 (0 : Fin 1) e) = (m ((c : Thread nD τ).loc main_arg11)) (ix1 e) := by
  rw [V5_ln1b, unit_row_apply, W4_keep A m ρ c main_arg11 (by decide) (by decide) (by decide) (by decide)]
theorem V5_ln2w_apply (c : Dev nD) (e : Fin 512) : (V5 A m ρ c main_v23 : S1x512.Idx → EReal) (ix2 (0 : Fin 1) e) = (m ((c : Thread nD τ).loc main_arg12)) (ix1 e) := by
  rw [V5_ln2w, unit_row_apply, W4_keep A m ρ c main_arg12 (by decide) (by decide) (by decide) (by decide)]
theorem V5_ln2b_apply (c : Dev nD) (e : Fin 512) : (V5 A m ρ c main_v24 : S1x512.Idx → EReal) (ix2 (0 : Fin 1) e) = (m ((c : Thread nD τ).loc main_arg13)) (ix1 e) := by
  rw [V5_ln2b, unit_row_apply, W4_keep A m ρ c main_arg13 (by decide) (by decide) (by decide) (by decide)]
theorem V5_b1_apply (c : Dev nD) (a : Fin 2048) : (V5 A m ρ c main_v25 : S1x2048.Idx → EReal) (ix2 (0 : Fin 1) a) = (m ((c : Thread nD τ).loc main_arg7)) (ix1 a) := by
  rw [V5_b1, unit_row_apply, W4_keep A m ρ c main_arg7 (by decide) (by decide) (by decide) (by decide)]
theorem V5_b2_apply (c : Dev nD) (e : Fin 512) : (V5 A m ρ c main_v26 : S1x512.Idx → EReal) (ix2 (0 : Fin 1) e) = (m ((c : Thread nD τ).loc main_arg9)) (ix1 e) := by
  rw [V5_b2, unit_row_apply, W4_keep A m ρ c main_arg9 (by decide) (by decide) (by decide) (by decide)]

/-! ## The result against the reference's tail -/

open Cert.ReferenceIdeal.Read in
/-- THE TAIL. Given that the attention output the last region finds is the reference's (`hu`), the kernel's result is the reference's. -/
theorem tail_eq (c : Dev nD)
    (hu : ∀ (s : Fin 2048) (b : Fin 4) (e : Fin 512), (V5 A m ρ c main_v20 : S8192x512.Idx → EReal) (ix2 ⟨s.val * 4 + b.val, by have := s.isLt; have := b.isLt; omega⟩ e)
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 s b e)) :
    (W7 A m ρ c (Proc.devRef .tc main_v28) : S2048x4x512.Idx → EReal)
      = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨s, b, d, rfl⟩ : ∃ (s : Fin 2048) (b : Fin 4) (d : Fin 512), i = ix3 s b d := ⟨i 0, i 1, i 2, eq_ix3 i⟩
  have hs := s.isLt; have hb := b.isLt
  rw [W7_out_apply, post_ref_row]
  have h6 : (W6 A m ρ c (Proc.devRef .tc main_v27) : S8192x512.Idx → EReal)
      = postG (V5 A m ρ c main_v20) (V5 A m ρ c main_v4) (V5 A m ρ c main_v0) (V5 A m ρ c main_v21) (V5 A m ρ c main_v22) (V5 A m ρ c main_v5) (V5 A m ρ c main_v25) (V5 A m ρ c main_v6) (V5 A m ρ c main_v26) (V5 A m ρ c main_v23) (V5 A m ρ c main_v24) :=
    (W6_arr A m ρ c 11).trans (final11 (V5 A m ρ) c)
  rw [h6]
  unfold postG
  beta_reduce
  have hrow : ∀ e : Fin 512, PostArr.rowIx (ix2 (⟨s.val * 4 + b.val, by omega⟩ : Fin 8192) d) e = ix2 (⟨s.val * 4 + b.val, by omega⟩ : Fin 8192) e := fun e => funext fun a => by
    match a with
    | ⟨0, _⟩ => rfl
    | ⟨1, _⟩ => rfl
  have e_u : (fun e => (V5 A m ρ c main_v20 : S8192x512.Idx → EReal) (PostArr.rowIx (ix2 (⟨s.val * 4 + b.val, by omega⟩ : Fin 8192) d) e))
      = fun e => val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 s b e) := funext fun e => by rw [hrow, hu]
  have e_x : (fun e => (V5 A m ρ c main_v0 : S8192x512.Idx → EReal) (PostArr.rowIx (ix2 (⟨s.val * 4 + b.val, by omega⟩ : Fin 8192) d) e))
      = fun e => (m ((c : Thread nD τ).loc main_arg0)) (ix3 s b e) := funext fun e => by
    rw [hrow, V5_x, V1_x_apply]
    refine congrArg _ (funext fun a => Fin.ext ?_)
    match a with
    | ⟨0, _⟩ => show (s.val * 4 + b.val) / 4 = s.val; omega
    | ⟨1, _⟩ => show (s.val * 4 + b.val) % 4 = b.val; omega
    | ⟨2, _⟩ => rfl
  have e_wc : (fun a e => (V5 A m ρ c main_v4 : S512x512.Idx → EReal) (ix2 a e)) = fun a e => (m ((c : Thread nD τ).loc main_arg5)) (ix2 a e) := by rw [V5_wc]
  have e_w1 : (fun a e => (V5 A m ρ c main_v5 : S2048x512.Idx → EReal) (ix2 a e)) = fun a e => (m ((c : Thread nD τ).loc main_arg6)) (ix2 a e) := by rw [V5_w1]
  have e_w2 : (fun a e => (V5 A m ρ c main_v6 : S512x2048.Idx → EReal) (ix2 a e)) = fun a e => (m ((c : Thread nD τ).loc main_arg8)) (ix2 a e) := by rw [V5_w2]
  have e_g1 : (fun e => (V5 A m ρ c main_v21 : S1x512.Idx → EReal) (ix2 (0 : Fin 1) e)) = fun e => (m ((c : Thread nD τ).loc main_arg10)) (ix1 e) := funext fun e => V5_ln1w_apply A m ρ c e
  have e_b1 : (fun e => (V5 A m ρ c main_v22 : S1x512.Idx → EReal) (ix2 (0 : Fin 1) e)) = fun e => (m ((c : Thread nD τ).loc main_arg11)) (ix1 e) := funext fun e => V5_ln1b_apply A m ρ c e
  have e_g2 : (fun e => (V5 A m ρ c main_v23 : S1x512.Idx → EReal) (ix2 (0 : Fin 1) e)) = fun e => (m ((c : Thread nD τ).loc main_arg12)) (ix1 e) := funext fun e => V5_ln2w_apply A m ρ c e
  have e_b2 : (fun e => (V5 A m ρ c main_v24 : S1x512.Idx → EReal) (ix2 (0 : Fin 1) e)) = fun e => (m ((c : Thread nD τ).loc main_arg13)) (ix1 e) := funext fun e => V5_ln2b_apply A m ρ c e
  have e_fb1 : (fun a => (V5 A m ρ c main_v25 : S1x2048.Idx → EReal) (ix2 (0 : Fin 1) a)) = fun a => (m ((c : Thread nD τ).loc main_arg7)) (ix1 a) := funext fun a => V5_b1_apply A m ρ c a
  have e_fb2 : (fun e => (V5 A m ρ c main_v26 : S1x512.Idx → EReal) (ix2 (0 : Fin 1) e)) = fun e => (m ((c : Thread nD τ).loc main_arg9)) (ix1 e) := funext fun e => V5_b2_apply A m ρ c e
  rw [e_u, e_x, e_wc, e_g1, e_b1, e_w1, e_fb1, e_w2, e_fb2, e_g2, e_b2]

end Cert.KernelIdeal.Final

end
-- ==== Proof.LibRealEntries.lean ====
/-
  Extended reals that are real numbers, and the exact operations that keep them so.

  A law that holds on the real numbers but fails at an infinity (distributivity, cancelling a common factor, the shift
  invariance of a softmax) is applied to a program read over the extended reals by first showing that every quantity in
  sight is a real number. "Is a real number" is closed under sum, difference, product, negation, maximum and minimum, the
  exponential, the quotient by a nonzero real, finite sums (hence a contraction: a finite sum of products) and the running
  maximum of finitely many reals started from minus infinity (when there is at least one of them) or from a real. A
  family of such entries is the coercion of a real-valued family.
-/
import Mathlib.Data.EReal.Inv
import Mathlib.Algebra.BigOperators.Group.Finset.Basic
import Idealize.ShloMosaic.PureOps.Ideal

namespace LibRealEntries

open Idealize.ShloMosaic

/-- The extended real `x` is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

/-- A real number is neither infinity, and conversely. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The exact exponential of a real is a real. -/
theorem IsReal.exp {x : EReal} (hx : IsReal x) : IsReal (Ideal.exp x) := by
  obtain ⟨a, rfl⟩ := hx; exact ⟨Real.exp a, rfl⟩

/-- The exact quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact (isReal_coe a).mul (isReal_coe _)

/-- A finite sum of reals is a real. -/
theorem isReal_sum {ι : Type*} (P : Finset ι) (f : ι → EReal) (h : ∀ t ∈ P, IsReal (f t)) : IsReal (∑ t ∈ P, f t) := by
  classical
  induction P using Finset.induction_on with
  | empty => rw [Finset.sum_empty]; exact isReal_zero
  | insert a P ha ih =>
    rw [Finset.sum_insert ha]
    exact (h a (Finset.mem_insert_self a P)).add (ih fun t ht => h t (Finset.mem_insert_of_mem ht))

/-- A contraction of real entries — a finite sum of products — is a real. -/
theorem isReal_sum_mul {ι : Type*} (P : Finset ι) (f g : ι → EReal) (hf : ∀ t ∈ P, IsReal (f t)) (hg : ∀ t ∈ P, IsReal (g t)) :
    IsReal (∑ t ∈ P, f t * g t) :=
  isReal_sum P _ fun t ht => (hf t ht).mul (hg t ht)

/-- The running maximum of finitely many reals from a real start is a real. -/
theorem isReal_fold_max {ι : Type*} (P : Finset ι) (f : ι → EReal) (b : EReal) (hb : IsReal b) (h : ∀ t ∈ P, IsReal (f t)) :
    IsReal (P.fold max b f) := by
  classical
  induction P using Finset.induction_on with
  | empty => rw [Finset.fold_empty]; exact hb
  | insert a P ha ih =>
    rw [Finset.fold_insert ha]
    exact (h a (Finset.mem_insert_self a P)).max (ih fun t ht => h t (Finset.mem_insert_of_mem ht))

/-- The running maximum of finitely many reals, at least one, from minus infinity is a real. -/
theorem isReal_fold_max_bot {ι : Type*} (P : Finset ι) (hP : P.Nonempty) (f : ι → EReal) (h : ∀ t ∈ P, IsReal (f t)) :
    IsReal (P.fold max ⊥ f) := by
  classical
  obtain ⟨a, ha⟩ := hP
  rw [← Finset.insert_erase ha, Finset.fold_insert (Finset.notMem_erase a P)]
  have hrest : ∀ t ∈ P.erase a, IsReal (f t) := fun t ht => h t (Finset.mem_of_mem_erase ht)
  have hfa := h a ha
  -- the maximum of a real and the rest's running maximum from minus infinity: the rest's is a real or minus infinity
  have key : ∀ Q : Finset ι, (∀ t ∈ Q, IsReal (f t)) → IsReal (max (f a) (Q.fold max ⊥ f)) := by
    intro Q
    induction Q using Finset.induction_on with
    | empty => intro _; rw [Finset.fold_empty, max_eq_left bot_le]; exact hfa
    | insert c Q hc ih =>
      intro hQ
      rw [Finset.fold_insert hc, ← max_assoc, max_comm (f a) (f c), max_assoc]
      exact (hQ c (Finset.mem_insert_self c Q)).max (ih fun t ht => hQ t (Finset.mem_insert_of_mem ht))
  exact key _ hrest

/-- A family of real entries is the coercion of a real-valued family. -/
theorem exists_real_family {α : Type*} (f : α → EReal) (h : ∀ a, IsReal (f a)) : ∃ g : α → ℝ, ∀ a, f a = (g a : EReal) := by
  choose g hg using h
  exact ⟨g, hg⟩

end LibRealEntries
-- ==== Proof.RefAttnRow.lean ====
/-
  The reference's attention output, read one entry at a time over the exact extended reals.
  With n = 8·b + h the head index: the three projections Q, K, V at (n, s, kk) are rows of x against rows of the weights;
  the score S(n, s, t) is (∑ₖ Q(n, s, k) · K(n, t, k) + mask(s, t)) / 8; the row's probabilities are
  exp(S(n, s, t) − M(n, s)) over their sum in t, M the row's maximum; the output entry (n, s, kk) is the sum over t of
  the probability times V(n, t, kk); and the last two layout steps put head n's 64 columns at columns 64·h … 64·h + 63 of
  row (s, b).
-/
import proofs.«159339_j34729105555459_2_alg».proof.Proof.RefRead
import proofs.«159339_j34729105555459_2_alg».proof.Proof.LibRealEntries
import Idealize.ShloMosaic.Lib.ValueIdx
import Idealize.ShloMosaic.PureOps.Ideal.Laws

noncomputable section

open scoped BigOperators

namespace Cert.KernelIdeal.RefAttn

open Cert.ReferenceIdeal.Read
open Idealize.ShloMosaic Idealize.ShloMosaic.ValueIdx

/-- Entry (n, s, kk) of the query projection, head n = 8·b + h: the sum over d of x(s, b, d) · w(64·h + kk, d). -/
theorem ref_proj_q (x0 : (⟨Cert.ReferenceIdeal.S2048x4x512, .f32⟩ : BufTy).Contents (Elt Ideal)) (x2 : (⟨Cert.ReferenceIdeal.S512x512, .f32⟩ : BufTy).Contents (Elt Ideal)) (n : Fin 32) (s : Fin 2048) (kk : Fin 64) :
    val_main_v2 (F := Ideal) x0 x2 (ix3 n s kk)
      = ∑ d : Fin 512, x0 (ix3 s (⟨n.val / 8, by have := n.isLt; omega⟩ : Fin 4) d)
          * x2 (ix2 (⟨(n.val % 8) * 64 + kk.val, by have := n.isLt; have := kk.isLt; omega⟩ : Fin 512) d) := by
  rw [val_main_v2_apply, val_main_v1_apply, val_main_v0_apply]
  refine Finset.sum_congr rfl fun d _ => ?_
  have e0 : lidx_main_v0 (idx_main_v1 (idx_main_v2 (ix3 n s kk))) d
      = ix3 s (⟨n.val / 8, by have := n.isLt; omega⟩ : Fin 4) d := funext fun a => Fin.ext (by
    have hn := n.isLt; have hs := s.isLt; have hk := kk.isLt
    match a with
    | ⟨0, _⟩ => show ((s.val * 32 + n.val) * 64 + kk.val) / 2048 = s.val; omega
    | ⟨1, _⟩ => show ((s.val * 32 + n.val) * 64 + kk.val) / 512 % 4 = n.val / 8; omega
    | ⟨2, _⟩ => rfl)
  have e1 : ridx_main_v0 (idx_main_v1 (idx_main_v2 (ix3 n s kk))) d
      = ix2 (⟨(n.val % 8) * 64 + kk.val, by have := n.isLt; have := kk.isLt; omega⟩ : Fin 512) d := funext fun a => Fin.ext (by
    have hn := n.isLt; have hs := s.isLt; have hk := kk.isLt
    match a with
    | ⟨0, _⟩ => show ((s.val * 32 + n.val) * 64 + kk.val) % 512 = (n.val % 8) * 64 + kk.val; omega
    | ⟨1, _⟩ => rfl)
  rw [e0, e1]

/-- Entry (n, s, kk) of the key projection, head n = 8·b + h: the sum over d of x(s, b, d) · w(64·h + kk, d). -/
theorem ref_proj_k (x0 : (⟨Cert.ReferenceIdeal.S2048x4x512, .f32⟩ : BufTy).Contents (Elt Ideal)) (x3 : (⟨Cert.ReferenceIdeal.S512x512, .f32⟩ : BufTy).Contents (Elt Ideal)) (n : Fin 32) (s : Fin 2048) (kk : Fin 64) :
    val_main_v5 (F := Ideal) x0 x3 (ix3 n s kk)
      = ∑ d : Fin 512, x0 (ix3 s (⟨n.val / 8, by have := n.isLt; omega⟩ : Fin 4) d)
          * x3 (ix2 (⟨(n.val % 8) * 64 + kk.val, by have := n.isLt; have := kk.isLt; omega⟩ : Fin 512) d) := by
  rw [val_main_v5_apply, val_main_v4_apply, val_main_v3_apply]
  refine Finset.sum_congr rfl fun d _ => ?_
  have e0 : lidx_main_v3 (idx_main_v4 (idx_main_v5 (ix3 n s kk))) d
      = ix3 s (⟨n.val / 8, by have := n.isLt; omega⟩ : Fin 4) d := funext fun a => Fin.ext (by
    have hn := n.isLt; have hs := s.isLt; have hk := kk.isLt
    match a with
    | ⟨0, _⟩ => show ((s.val * 32 + n.val) * 64 + kk.val) / 2048 = s.val; omega
    | ⟨1, _⟩ => show ((s.val * 32 + n.val) * 64 + kk.val) / 512 % 4 = n.val / 8; omega
    | ⟨2, _⟩ => rfl)
  have e1 : ridx_main_v3 (idx_main_v4 (idx_main_v5 (ix3 n s kk))) d
      = ix2 (⟨(n.val % 8) * 64 + kk.val, by have := n.isLt; have := kk.isLt; omega⟩ : Fin 512) d := funext fun a => Fin.ext (by
    have hn := n.isLt; have hs := s.isLt; have hk := kk.isLt
    match a with
    | ⟨0, _⟩ => show ((s.val * 32 + n.val) * 64 + kk.val) % 512 = (n.val % 8) * 64 + kk.val; omega
    | ⟨1, _⟩ => rfl)
  rw [e0, e1]

/-- Entry (n, s, kk) of the value projection, head n = 8·b + h: the sum over d of x(s, b, d) · w(64·h + kk, d). -/
theorem ref_proj_v (x0 : (⟨Cert.ReferenceIdeal.S2048x4x512, .f32⟩ : BufTy).Contents (Elt Ideal)) (x4 : (⟨Cert.ReferenceIdeal.S512x512, .f32⟩ : BufTy).Contents (Elt Ideal)) (n : Fin 32) (s : Fin 2048) (kk : Fin 64) :
    val_main_v8 (F := Ideal) x0 x4 (ix3 n s kk)
      = ∑ d : Fin 512, x0 (ix3 s (⟨n.val / 8, by have := n.isLt; omega⟩ : Fin 4) d)
          * x4 (ix2 (⟨(n.val % 8) * 64 + kk.val, by have := n.isLt; have := kk.isLt; omega⟩ : Fin 512) d) := by
  rw [val_main_v8_apply, val_main_v7_apply, val_main_v6_apply]
  refine Finset.sum_congr rfl fun d _ => ?_
  have e0 : lidx_main_v6 (idx_main_v7 (idx_main_v8 (ix3 n s kk))) d
      = ix3 s (⟨n.val / 8, by have := n.isLt; omega⟩ : Fin 4) d := funext fun a => Fin.ext (by
    have hn := n.isLt; have hs := s.isLt; have hk := kk.isLt
    match a with
    | ⟨0, _⟩ => show ((s.val * 32 + n.val) * 64 + kk.val) / 2048 = s.val; omega
    | ⟨1, _⟩ => show ((s.val * 32 + n.val) * 64 + kk.val) / 512 % 4 = n.val / 8; omega
    | ⟨2, _⟩ => rfl)
  have e1 : ridx_main_v6 (idx_main_v7 (idx_main_v8 (ix3 n s kk))) d
      = ix2 (⟨(n.val % 8) * 64 + kk.val, by have := n.isLt; have := kk.isLt; omega⟩ : Fin 512) d := funext fun a => Fin.ext (by
    have hn := n.isLt; have hs := s.isLt; have hk := kk.isLt
    match a with
    | ⟨0, _⟩ => show ((s.val * 32 + n.val) * 64 + kk.val) % 512 = (n.val % 8) * 64 + kk.val; omega
    | ⟨1, _⟩ => rfl)
  rw [e0, e1]

/-- The score at (n, s, t): query row s against key row t of head n, plus the mask's entry (s, t), over 8. -/
theorem ref_score (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s t : Fin 2048) :
    val_main_v14 (F := Ideal) x0 x1 x2 x3 (ix3 n s t)
      = Ideal.div ((∑ k : Fin 64, val_main_v2 (F := Ideal) x0 x2 (ix3 n s k) * val_main_v5 (F := Ideal) x0 x3 (ix3 n t k)) + x1 (ix2 s t)) (Ideal.ofBits .f32 0x41000000#32) := by
  have el : ∀ k : Fin 64, lidx_main_v9 (ix3 n s t) k = ix3 n s k := fun k => funext fun a => Fin.ext (by
    match a with | ⟨0, _⟩ => rfl | ⟨1, _⟩ => rfl | ⟨2, _⟩ => rfl)
  have er : ∀ k : Fin 64, ridx_main_v9 (ix3 n s t) k = ix3 n t k := fun k => funext fun a => Fin.ext (by
    match a with | ⟨0, _⟩ => rfl | ⟨1, _⟩ => rfl | ⟨2, _⟩ => rfl)
  have em : idx_main_v10 (idx_main_v11 (ix3 n s t)) = ix2 s t := funext fun a => Fin.ext (by
    match a with | ⟨0, _⟩ => rfl | ⟨1, _⟩ => rfl)
  rw [val_main_v14_apply, val_main_v12_apply, val_main_v9_apply, val_main_v11_apply, val_main_v10_apply,
    val_main_v13_apply, val_main_cst_apply, em]
  simp only [el, er, Ideal.hostDivf_def, Ideal.addf_def, Ideal.ofBits_def]

/-- The unnormalised probability at (n, s, t): the exponential of the score less the row's maximum. -/
theorem ref_prob (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s t : Fin 2048) :
    val_main_v21 (F := Ideal) x0 x1 x2 x3 (ix3 n s t)
      = Ideal.exp (val_main_v14 (F := Ideal) x0 x1 x2 x3 (ix3 n s t) - val_main_v17 (F := Ideal) x0 x1 x2 x3 (ix2 n s)) := by
  have e : idx_main_v18 (idx_main_v19 (ix3 n s t)) = ix2 n s := funext fun a => Fin.ext (by
    match a with | ⟨0, _⟩ => rfl | ⟨1, _⟩ => rfl)
  rw [val_main_v21_apply, val_main_v20_apply, val_main_v19_apply, val_main_v18_apply, e]
  simp only [Ideal.hostUnary_exp_def, Ideal.subf_def]

/-- The row's normaliser: the sum over t of the unnormalised probabilities (the sum starts from zero). -/
theorem ref_denom (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s : Fin 2048) :
    val_main_v22 (F := Ideal) x0 x1 x2 x3 (ix2 n s)
      = ∑ u : Fin 2048, val_main_v21 (F := Ideal) x0 x1 x2 x3 (ix3 n s u) := by
  have e : ∀ u : Fin 2048, idx_main_v22 (ix2 n s) u = ix3 n s u := fun u => funext fun a => Fin.ext (by
    match a with | ⟨0, _⟩ => rfl | ⟨1, _⟩ => rfl | ⟨2, _⟩ => rfl)
  rw [val_main_v22_apply, val_main_cst_2_apply]
  simp only [e, Ideal.ofBits_def, Ideal.ofBits_zero_f32, zero_add]

/-- The probability at (n, s, t): the unnormalised one over the row's normaliser. -/
theorem ref_weight (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s t : Fin 2048) :
    val_main_v25 (F := Ideal) x0 x1 x2 x3 (ix3 n s t)
      = Ideal.div (val_main_v21 (F := Ideal) x0 x1 x2 x3 (ix3 n s t)) (val_main_v22 (F := Ideal) x0 x1 x2 x3 (ix2 n s)) := by
  have e : idx_main_v23 (idx_main_v24 (ix3 n s t)) = ix2 n s := funext fun a => Fin.ext (by
    match a with | ⟨0, _⟩ => rfl | ⟨1, _⟩ => rfl)
  rw [val_main_v25_apply, val_main_v24_apply, val_main_v23_apply, e]
  simp only [Ideal.hostDivf_def]

/-- Entry (n, s, kk) of the per-head product, in terms of the scores: the sum over t of the softmax weight of t in
    row (n, s) times V(n, t, kk). -/
theorem ref_attn_row_scores (x0 : (⟨Cert.ReferenceIdeal.S2048x4x512, .f32⟩ : BufTy).Contents (Elt Ideal)) (x1 : (⟨Cert.ReferenceIdeal.S2048x2048, .f32⟩ : BufTy).Contents (Elt Ideal)) (x2 x3 x4 : (⟨Cert.ReferenceIdeal.S512x512, .f32⟩ : BufTy).Contents (Elt Ideal)) (n : Fin 32) (s : Fin 2048) (kk : Fin 64) :
    val_main_v26 (F := Ideal) x0 x1 x2 x3 x4 (ix3 n s kk)
      = ∑ t : Fin 2048,
          Ideal.div (Ideal.exp (val_main_v14 (F := Ideal) x0 x1 x2 x3 (ix3 n s t) - val_main_v17 (F := Ideal) x0 x1 x2 x3 (ix2 n s)))
              (∑ u : Fin 2048, Ideal.exp (val_main_v14 (F := Ideal) x0 x1 x2 x3 (ix3 n s u) - val_main_v17 (F := Ideal) x0 x1 x2 x3 (ix2 n s)))
            * val_main_v8 (F := Ideal) x0 x4 (ix3 n t kk) := by
  have el : ∀ t : Fin 2048, lidx_main_v26 (ix3 n s kk) t = ix3 n s t := fun t => funext fun a => Fin.ext (by
    match a with | ⟨0, _⟩ => rfl | ⟨1, _⟩ => rfl | ⟨2, _⟩ => rfl)
  have er : ∀ t : Fin 2048, ridx_main_v26 (ix3 n s kk) t = ix3 n t kk := fun t => funext fun a => Fin.ext (by
    match a with | ⟨0, _⟩ => rfl | ⟨1, _⟩ => rfl | ⟨2, _⟩ => rfl)
  rw [val_main_v26_apply]
  simp only [el, er, ref_weight, ref_denom, ref_prob]

/-- The same with the scores spelt out: S(t) = (∑ₖ Q(n, s, k) · K(n, t, k) + mask(s, t)) / 8. -/
theorem ref_attn_row (x0 : (⟨Cert.ReferenceIdeal.S2048x4x512, .f32⟩ : BufTy).Contents (Elt Ideal)) (x1 : (⟨Cert.ReferenceIdeal.S2048x2048, .f32⟩ : BufTy).Contents (Elt Ideal)) (x2 x3 x4 : (⟨Cert.ReferenceIdeal.S512x512, .f32⟩ : BufTy).Contents (Elt Ideal)) (n : Fin 32) (s : Fin 2048) (kk : Fin 64) :
    val_main_v26 (F := Ideal) x0 x1 x2 x3 x4 (ix3 n s kk)
      = ∑ t : Fin 2048,
          Ideal.div (Ideal.exp (Ideal.div ((∑ k : Fin 64, val_main_v2 (F := Ideal) x0 x2 (ix3 n s k) * val_main_v5 (F := Ideal) x0 x3 (ix3 n t k)) + x1 (ix2 s t)) (Ideal.ofBits .f32 0x41000000#32) - val_main_v17 (F := Ideal) x0 x1 x2 x3 (ix2 n s)))
              (∑ u : Fin 2048, Ideal.exp (Ideal.div ((∑ k : Fin 64, val_main_v2 (F := Ideal) x0 x2 (ix3 n s k) * val_main_v5 (F := Ideal) x0 x3 (ix3 n u k)) + x1 (ix2 s u)) (Ideal.ofBits .f32 0x41000000#32) - val_main_v17 (F := Ideal) x0 x1 x2 x3 (ix2 n s)))
            * val_main_v8 (F := Ideal) x0 x4 (ix3 n t kk) := by
  rw [ref_attn_row_scores]
  simp only [ref_score]

/-- The two closing layout steps: entry (s, b, e) of the attention output is entry (8·b + e / 64, s, e % 64) of the
    per-head product. -/
theorem ref_attn_out (x0 : (⟨Cert.ReferenceIdeal.S2048x4x512, .f32⟩ : BufTy).Contents (Elt Ideal)) (x1 : (⟨Cert.ReferenceIdeal.S2048x2048, .f32⟩ : BufTy).Contents (Elt Ideal)) (x2 x3 x4 : (⟨Cert.ReferenceIdeal.S512x512, .f32⟩ : BufTy).Contents (Elt Ideal)) (s : Fin 2048) (b : Fin 4) (e : Fin 512) :
    val_main_v28 (F := Ideal) x0 x1 x2 x3 x4 (ix3 s b e)
      = val_main_v26 (F := Ideal) x0 x1 x2 x3 x4
          (ix3 (⟨b.val * 8 + e.val / 64, by have := b.isLt; have := e.isLt; omega⟩ : Fin 32) s
            (⟨e.val % 64, by omega⟩ : Fin 64)) := by
  rw [val_main_v28_apply, val_main_v27_apply]
  refine congrArg _ (funext fun a => Fin.ext (by
    have hs := s.isLt; have hb := b.isLt; have he := e.isLt
    match a with
    | ⟨0, _⟩ => show ((s.val * 4 + b.val) * 512 + e.val) / 64 % 32 = b.val * 8 + e.val / 64; omega
    | ⟨1, _⟩ => show ((s.val * 4 + b.val) * 512 + e.val) / 2048 = s.val; omega
    | ⟨2, _⟩ => show ((s.val * 4 + b.val) * 512 + e.val) % 64 = e.val % 64; omega))

/-! ## The row's maximum -/

/-- The word of minus infinity. -/
private theorem word_neg_inf : Ideal.ofBits .f32 0xFF800000#32 = (⊥ : EReal) := by
  simp [Ideal.ofBits, Ideal.ieee]

/-- The row index (n, s) with the key position t put back is (n, s, t). -/
theorem lift_row (h : Cert.ReferenceIdeal.S32x2048x2048.Reduces [2] Cert.ReferenceIdeal.S32x2048) (n : Fin 32) (s : Fin 2048)
    (t : Fin (Cert.ReferenceIdeal.S32x2048x2048.size 2)) :
    h.lift (ix2 n s) t = ix3 n s (⟨t.val, t.isLt⟩ : Fin 2048) := by
  funext c; apply Fin.ext
  fin_cases c <;> rfl

/-- The row's maximum is the running maximum, from minus infinity, of the row's scores. -/
theorem ref_rowmax (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s : Fin 2048) :
    val_main_v17 (F := Ideal) x0 x1 x2 x3 (ix2 n s)
      = (Finset.univ : Finset (Fin 2048)).fold max (⊥ : EReal)
          (fun t => val_main_v14 (F := Ideal) x0 x1 x2 x3 (ix3 n s t)) := by
  have h : Cert.ReferenceIdeal.S32x2048x2048.Reduces [2] Cert.ReferenceIdeal.S32x2048 := by decide
  have hf : (val_main_v14 (F := Ideal) x0 x1 x2 x3 ∘ h.lift (ix2 n s))
      = fun t : Fin 2048 => val_main_v14 (F := Ideal) x0 x1 x2 x3 (ix3 n s t) :=
    funext fun t => congrArg (val_main_v14 (F := Ideal) x0 x1 x2 x3) (lift_row h n s t)
  have h15 : val_main_v15 (F := Ideal) x0 x1 x2 x3 (ix2 n s)
      = (Finset.univ : Finset (Fin 2048)).fold max (⊥ : EReal)
          (fun t => val_main_v14 (F := Ideal) x0 x1 x2 x3 (ix3 n s t)) := by
    unfold val_main_v15
    rw [Host.reduce_eq_fold_single FloatOps.maximumf _ _ _ h, hf]
    exact congrArg (fun b => (Finset.univ : Finset (Fin 2048)).fold max b
      (fun t => val_main_v14 (F := Ideal) x0 x1 x2 x3 (ix3 n s t))) word_neg_inf
  rw [val_main_v17_apply, h15, val_main_v16_apply, val_main_cst_1_apply]
  show max (Ideal.ofBits .f32 0xFF800000#32) _ = _
  rw [word_neg_inf]
  exact max_eq_right bot_le

/-- Every score of the row is at most the row's maximum. -/
theorem ref_score_le_max (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s t : Fin 2048) :
    val_main_v14 (F := Ideal) x0 x1 x2 x3 (ix3 n s t) ≤ val_main_v17 (F := Ideal) x0 x1 x2 x3 (ix2 n s) := by
  rw [ref_rowmax]
  exact (Finset.le_fold_max _).mpr (Or.inr ⟨t, Finset.mem_univ t, le_rfl⟩)

/-- The row's maximum is a real number when every score of the row is one. -/
theorem ref_max_real (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s : Fin 2048)
    (hS : ∀ t : Fin 2048, LibRealEntries.IsReal (val_main_v14 (F := Ideal) x0 x1 x2 x3 (ix3 n s t))) :
    LibRealEntries.IsReal (val_main_v17 (F := Ideal) x0 x1 x2 x3 (ix2 n s)) := by
  rw [ref_rowmax]
  exact LibRealEntries.isReal_fold_max_bot Finset.univ ⟨s, Finset.mem_univ s⟩ _ (fun t _ => hS t)

/-- The same, the scores spelt out. -/
theorem ref_max_real_of_scores (x0 : (⟨Cert.ReferenceIdeal.S2048x4x512, .f32⟩ : BufTy).Contents (Elt Ideal)) (x1 : (⟨Cert.ReferenceIdeal.S2048x2048, .f32⟩ : BufTy).Contents (Elt Ideal)) (x2 x3 : (⟨Cert.ReferenceIdeal.S512x512, .f32⟩ : BufTy).Contents (Elt Ideal)) (n : Fin 32) (s : Fin 2048)
    (hS : ∀ t : Fin 2048, LibRealEntries.IsReal (Ideal.div ((∑ k : Fin 64, val_main_v2 (F := Ideal) x0 x2 (ix3 n s k) * val_main_v5 (F := Ideal) x0 x3 (ix3 n t k)) + x1 (ix2 s t)) (Ideal.ofBits .f32 0x41000000#32))) :
    LibRealEntries.IsReal (val_main_v17 (F := Ideal) x0 x1 x2 x3 (ix2 n s)) :=
  ref_max_real x0 x1 x2 x3 n s fun t => by rw [ref_score]; exact hS t

end Cert.KernelIdeal.RefAttn
-- ==== Proof.LinkProj.lean ====
/-
  The attention region's inputs are the reference's: head n, position s, feature k of the kernel's query array is the sum over d
  of x(s, n / 8, d) · wq(64·(n % 8) + k, d), which is the reference's projected, split and transposed query at the same index;
  likewise the keys and the values. (The kernel's projection writes rows 4·s + b; the relayout reads row 4·s + n / 8, whose
  activations row is (s, n / 8).)
-/
import proofs.«159339_j34729105555459_2_alg».proof.Proof.HostReads
import proofs.«159339_j34729105555459_2_alg».proof.Proof.RefAttnRow

set_option maxRecDepth 16384

noncomputable section

namespace Cert.KernelIdeal.Link

open Cert.KernelIdeal Cert.KernelIdeal.Gen Cert.KernelIdeal.Hand Cert.KernelIdeal.ProjValue Cert.KernelIdeal.HostReads
open Idealize.ShloMosaic Idealize.ShloMosaic.TcCoe Idealize.ShloMosaic.ValueIdx
open Idealize.SL.Sem

variable (A : AttnHalf Ideal)
variable (m : (ℓ : Loc nD τ sig) → Buf (Elt Ideal) ℓ) (ρ : Dev nD → PrngReg)

/-- A projection, relaid out by heads, at (n, s, k): the sum over d of x(s, n / 8, d) · w(64·(n % 8) + k, d). -/
theorem heads_proj (c : Dev nD) (w : S512x512.Idx → EReal) (n : Fin 32) (s : Fin 2048) (k : Fin 64) :
    shapeCast S32x2048x64 (transpose S4x8x2048x64 [1, 2, 0, 3] (shapeCast S2048x4x8x64 (projG (V1 m ρ c main_v0) w) shapeCasts_S8192x512_S2048x4x8x64)
        transposes_S2048x4x8x64_S4x8x2048x64_1_2_0_3) shapeCasts_S4x8x2048x64_S32x2048x64 (ix3 n s k)
      = ∑ d : Fin 512, HMul.hMul (α := EReal) (β := EReal) (γ := EReal)
          (m ((c : Thread nD τ).loc main_arg0) (ix3 s ⟨n.val / 8, by have := n.isLt; omega⟩ d))
          (w (ix2 ⟨(n.val % 8) * 64 + k.val, by have := k.isLt; omega⟩ d)) := by
  have hn := n.isLt; have hs := s.isLt; have hk := k.isLt
  rw [heads_apply]
  unfold projG
  beta_reduce
  refine Finset.sum_congr (M := EReal) rfl fun d _ => ?_
  refine congr (congrArg HMul.hMul ?_) ?_
  · have hrow : rowIx (ix2 (⟨s.val * 4 + n.val / 8, by omega⟩ : Fin 8192) (⟨(n.val % 8) * 64 + k.val, by omega⟩ : Fin 512)) d
        = ix2 (⟨s.val * 4 + n.val / 8, by omega⟩ : Fin 8192) d := funext fun a => by
      match a with
      | ⟨0, _⟩ => rfl
      | ⟨1, _⟩ => rfl
    rw [hrow, V1_x_apply]
    refine congrArg _ (funext fun a => Fin.ext ?_)
    match a with
    | ⟨0, _⟩ => show (s.val * 4 + n.val / 8) / 4 = s.val; omega
    | ⟨1, _⟩ => show (s.val * 4 + n.val / 8) % 4 = n.val / 8; omega
    | ⟨2, _⟩ => rfl
  · refine congrArg _ (funext fun a => ?_)
    match a with
    | ⟨0, _⟩ => rfl
    | ⟨1, _⟩ => rfl

open Cert.ReferenceIdeal.Read Cert.KernelIdeal.RefAttn in
/-- The kernel's queries are the reference's. -/
theorem q_eq (c : Dev nD) (n : Fin 32) (s : Fin 2048) (k : Fin 64) :
    (V3 m ρ c main_v10 : S32x2048x64.Idx → EReal) (ix3 n s k)
      = val_main_v2 (F := Ideal) (m ((c : Thread nD τ).loc main_arg0)) (m ((c : Thread nD τ).loc main_arg2)) (ix3 n s k) := by
  rw [V3_q, W2_q, heads_proj, V1_wq, ref_proj_q]

open Cert.ReferenceIdeal.Read Cert.KernelIdeal.RefAttn in
/-- The kernel's keys are the reference's. -/
theorem k_eq (c : Dev nD) (n : Fin 32) (s : Fin 2048) (k : Fin 64) :
    (V3 m ρ c main_v13 : S32x2048x64.Idx → EReal) (ix3 n s k)
      = val_main_v5 (F := Ideal) (m ((c : Thread nD τ).loc main_arg0)) (m ((c : Thread nD τ).loc main_arg3)) (ix3 n s k) := by
  rw [V3_k, W2_k, heads_proj, V1_wk, ref_proj_k]

open Cert.ReferenceIdeal.Read Cert.KernelIdeal.RefAttn in
/-- The kernel's values are the reference's. -/
theorem v_eq (c : Dev nD) (n : Fin 32) (s : Fin 2048) (k : Fin 64) :
    (V3 m ρ c main_v16 : S32x2048x64.Idx → EReal) (ix3 n s k)
      = val_main_v8 (F := Ideal) (m ((c : Thread nD τ).loc main_arg0)) (m ((c : Thread nD τ).loc main_arg4)) (ix3 n s k) := by
  rw [V3_v, W2_v, heads_proj, V1_wv, ref_proj_v]

end Cert.KernelIdeal.Link

end
-- ==== Proof.LibOnlineSoftmax.lean ====
/-
  A softmax-weighted sum computed tile by tile under a running shift.

  For scores `s t` and values `v t` over a finite set of keys, the normalised weighted sum
  `∑ t, (exp (s t - M) / ∑ u, exp (s u - M)) * v t` does not depend on the shift `M`: a change of shift multiplies
  numerator and denominator by the same positive factor `exp (M - m)`. A tiled computation keeps, after the tiles
  `T 0, …, T (n-1)`, a shift `m n`, a denominator `l n` and a numerator `acc n`, and passes to the next tile by
  rescaling both with `exp (m n - m (n+1))` and adding the new tile's terms at the new shift. Whatever real shifts are
  chosen (the running maximum is one choice; nothing below uses that it is a maximum), the kept numerator and denominator
  are the sums over the keys seen so far at the current shift, so their quotient after the last tile is the softmax-weighted
  sum over all keys. The first sections are over the real numbers. The last two move finite sums through the coercion into
  the extended reals and restate the result there, for a state kept as extended reals by the exact operations
  (sum, product, difference, the exponential, the quotient) over real scores, values and shifts: every quantity stays
  real, the denominator is positive, and the extended-real expressions are the coercions of the real ones.
-/
import Mathlib.Analysis.SpecialFunctions.Exp
import Mathlib.Algebra.BigOperators.Group.Finset.Basic
import Mathlib.Data.EReal.Inv
import Idealize.ShloMosaic.PureOps.Ideal

namespace LibOnlineSoftmax

open Finset

variable {ι : Type*} [DecidableEq ι]

/-! ## Changing the shift -/

/-- Moving the shift from `M` to `m` multiplies every weight, hence the weighted sum, by `exp (M - m)`. -/
theorem weighted_shift (P : Finset ι) (s v : ι → ℝ) (m M : ℝ) :
    (∑ t ∈ P, Real.exp (s t - m) * v t) = Real.exp (M - m) * ∑ t ∈ P, Real.exp (s t - M) * v t := by
  rw [Finset.mul_sum]
  refine Finset.sum_congr rfl fun t _ => ?_
  rw [← mul_assoc, ← Real.exp_add]
  congr 2; ring

/-- The same for the plain sum of the weights. -/
theorem norm_shift (P : Finset ι) (s : ι → ℝ) (m M : ℝ) :
    (∑ t ∈ P, Real.exp (s t - m)) = Real.exp (M - m) * ∑ t ∈ P, Real.exp (s t - M) := by
  have h := weighted_shift P s (fun _ => 1) m M
  simpa only [mul_one] using h

/-- Over a nonempty set of keys the sum of the weights is positive. -/
theorem norm_pos (P : Finset ι) (hP : P.Nonempty) (s : ι → ℝ) (m : ℝ) : 0 < ∑ t ∈ P, Real.exp (s t - m) :=
  Finset.sum_pos (fun t _ => Real.exp_pos _) hP

/-- SHIFT INVARIANCE. Numerator times the reciprocal of the denominator, both at any shift `m`, is the sum of the values
    weighted by the normalised weights at any other shift `M`. -/
theorem normalised_shift (P : Finset ι) (hP : P.Nonempty) (s v : ι → ℝ) (m M : ℝ) :
    (∑ t ∈ P, Real.exp (s t - m) * v t) * (1 / ∑ t ∈ P, Real.exp (s t - m))
      = ∑ t ∈ P, (Real.exp (s t - M) / ∑ u ∈ P, Real.exp (s u - M)) * v t := by
  have hL : (∑ u ∈ P, Real.exp (s u - M)) ≠ 0 := (norm_pos P hP s M).ne'
  have hE : Real.exp (M - m) ≠ 0 := (Real.exp_pos _).ne'
  rw [weighted_shift P s v m M, norm_shift P s m M]
  have hr : (∑ t ∈ P, (Real.exp (s t - M) / ∑ u ∈ P, Real.exp (s u - M)) * v t)
      = (∑ t ∈ P, Real.exp (s t - M) * v t) / ∑ u ∈ P, Real.exp (s u - M) := by
    rw [div_eq_mul_inv, Finset.sum_mul]
    refine Finset.sum_congr rfl fun t _ => ?_
    rw [div_eq_mul_inv]; ring
  rw [hr]
  field_simp

/-! ## The running sums -/

/-- THE RUNNING NUMERATOR. Started at zero and carried from tile to tile by "rescale to the new shift, add the new tile's
    terms", the numerator after `n` pairwise disjoint tiles is the weighted sum over their union at the shift `m n`. -/
theorem running_weighted (N : ℕ) (T : ℕ → Finset ι) (hT : ∀ i j, i ≠ j → Disjoint (T i) (T j)) (s v : ι → ℝ)
    (m acc : ℕ → ℝ) (h0 : acc 0 = 0)
    (hstep : ∀ j, j < N → acc (j + 1)
      = Real.exp (m j - m (j + 1)) * acc j + ∑ t ∈ T j, Real.exp (s t - m (j + 1)) * v t) :
    ∀ n, n ≤ N → acc n = ∑ t ∈ (Finset.range n).biUnion T, Real.exp (s t - m n) * v t := by
  intro n
  induction n with
  | zero => intro _; simp [h0]
  | succ n ih =>
    intro hn
    have hdisj : Disjoint (T n) ((Finset.range n).biUnion T) := by
      rw [Finset.disjoint_biUnion_right]
      intro i hi
      exact hT n i (by have := Finset.mem_range.mp hi; omega)
    rw [hstep n (by omega), ih (by omega), Finset.range_add_one, Finset.biUnion_insert, Finset.sum_union hdisj,
      weighted_shift ((Finset.range n).biUnion T) s v (m (n + 1)) (m n)]
    ring

/-- THE RUNNING DENOMINATOR: the same with every value one. -/
theorem running_norm (N : ℕ) (T : ℕ → Finset ι) (hT : ∀ i j, i ≠ j → Disjoint (T i) (T j)) (s : ι → ℝ)
    (m l : ℕ → ℝ) (h0 : l 0 = 0)
    (hstep : ∀ j, j < N → l (j + 1) = Real.exp (m j - m (j + 1)) * l j + ∑ t ∈ T j, Real.exp (s t - m (j + 1))) :
    ∀ n, n ≤ N → l n = ∑ t ∈ (Finset.range n).biUnion T, Real.exp (s t - m n) := by
  intro n hn
  have h := running_weighted N T hT s (fun _ => 1) m l h0 (fun j hj => by simpa only [mul_one] using hstep j hj) n hn
  simpa only [mul_one] using h

/-- THE TILED SOFTMAX-WEIGHTED SUM. After `N` tiles that are pairwise disjoint and not all empty, numerator times the
    reciprocal of the denominator is the sum over all their keys of the values weighted by the softmax of the scores (written
    at any shift `M`, for instance the scores' maximum). The shifts `m j` are arbitrary reals. -/
theorem tiled_softmax (N : ℕ) (T : ℕ → Finset ι) (hT : ∀ i j, i ≠ j → Disjoint (T i) (T j)) (s v : ι → ℝ)
    (m l acc : ℕ → ℝ) (hl0 : l 0 = 0) (ha0 : acc 0 = 0)
    (hl : ∀ j, j < N → l (j + 1) = Real.exp (m j - m (j + 1)) * l j + ∑ t ∈ T j, Real.exp (s t - m (j + 1)))
    (ha : ∀ j, j < N → acc (j + 1)
      = Real.exp (m j - m (j + 1)) * acc j + ∑ t ∈ T j, Real.exp (s t - m (j + 1)) * v t)
    (hne : ((Finset.range N).biUnion T).Nonempty) (M : ℝ) :
    acc N * (1 / l N) = ∑ t ∈ (Finset.range N).biUnion T,
      (Real.exp (s t - M) / ∑ u ∈ (Finset.range N).biUnion T, Real.exp (s u - M)) * v t := by
  rw [running_weighted N T hT s v m acc ha0 ha N le_rfl, running_norm N T hT s m l hl0 hl N le_rfl]
  exact normalised_shift _ hne s v (m N) M

/-! ## Finite sums through the coercion into the extended reals -/

/-- A finite sum of reals, coerced, is the sum of the coerced terms. -/
theorem coe_sum (P : Finset ι) (f : ι → ℝ) : ((∑ t ∈ P, f t : ℝ) : EReal) = ∑ t ∈ P, (f t : EReal) := by
  induction P using Finset.induction_on with
  | empty => simp
  | insert a P ha ih => rw [Finset.sum_insert ha, Finset.sum_insert ha, EReal.coe_add, ih]

/-- A finite sum of products of reals, coerced. -/
theorem coe_sum_mul (P : Finset ι) (f g : ι → ℝ) :
    ((∑ t ∈ P, f t * g t : ℝ) : EReal) = ∑ t ∈ P, (f t : EReal) * (g t : EReal) := by
  rw [coe_sum]
  exact Finset.sum_congr rfl fun t _ => EReal.coe_mul _ _

/-! ## The same for a state kept as extended reals -/

section Exact

open Idealize.ShloMosaic

/-- The exact exponential of a difference of two reals is the coerced real exponential. -/
theorem exp_sub_coe (a b : ℝ) : Ideal.exp ((a : EReal) - (b : EReal)) = ((Real.exp (a - b) : ℝ) : EReal) := by
  rw [← EReal.coe_sub]; rfl

/-- The exact quotient of two reals, the divisor nonzero, is the coerced real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The real denominators the recurrence produces. -/
noncomputable def normSeq (T : ℕ → Finset ι) (s : ι → ℝ) (m : ℕ → ℝ) : ℕ → ℝ
  | 0 => 0
  | j + 1 => Real.exp (m j - m (j + 1)) * normSeq T s m j + ∑ t ∈ T j, Real.exp (s t - m (j + 1))

/-- The real numerators the recurrence produces. -/
noncomputable def weightedSeq (T : ℕ → Finset ι) (s v : ι → ℝ) (m : ℕ → ℝ) : ℕ → ℝ
  | 0 => 0
  | j + 1 => Real.exp (m j - m (j + 1)) * weightedSeq T s v m j + ∑ t ∈ T j, Real.exp (s t - m (j + 1)) * v t

/-- An extended-real numerator sequence that starts at zero and follows the recurrence over real scores, values and shifts
    is the coercion of the real one. -/
theorem weighted_eq_coe (N : ℕ) (T : ℕ → Finset ι) (s v : ι → ℝ) (m : ℕ → ℝ) (accE : ℕ → EReal) (h0 : accE 0 = 0)
    (hstep : ∀ j, j < N → accE (j + 1) = Ideal.exp ((m j : EReal) - (m (j + 1) : EReal)) * accE j
      + ∑ t ∈ T j, Ideal.exp ((s t : EReal) - (m (j + 1) : EReal)) * (v t : EReal)) :
    ∀ n, n ≤ N → accE n = ((weightedSeq T s v m n : ℝ) : EReal) := by
  intro n
  induction n with
  | zero => intro _; rw [h0]; rfl
  | succ n ih =>
    intro hn
    rw [hstep n (by omega), ih (by omega), exp_sub_coe]
    have hs : (∑ t ∈ T n, Ideal.exp ((s t : EReal) - (m (n + 1) : EReal)) * (v t : EReal))
        = ((∑ t ∈ T n, Real.exp (s t - m (n + 1)) * v t : ℝ) : EReal) := by
      rw [coe_sum_mul]
      exact Finset.sum_congr rfl fun t _ => by rw [exp_sub_coe]
    rw [hs, ← EReal.coe_mul, ← EReal.coe_add]
    rfl

/-- The same for the denominators. -/
theorem norm_eq_coe (N : ℕ) (T : ℕ → Finset ι) (s : ι → ℝ) (m : ℕ → ℝ) (lE : ℕ → EReal) (h0 : lE 0 = 0)
    (hstep : ∀ j, j < N → lE (j + 1) = Ideal.exp ((m j : EReal) - (m (j + 1) : EReal)) * lE j
      + ∑ t ∈ T j, Ideal.exp ((s t : EReal) - (m (j + 1) : EReal))) :
    ∀ n, n ≤ N → lE n = ((normSeq T s m n : ℝ) : EReal) := by
  intro n
  induction n with
  | zero => intro _; rw [h0]; rfl
  | succ n ih =>
    intro hn
    rw [hstep n (by omega), ih (by omega), exp_sub_coe]
    have hs : (∑ t ∈ T n, Ideal.exp ((s t : EReal) - (m (n + 1) : EReal)))
        = ((∑ t ∈ T n, Real.exp (s t - m (n + 1)) : ℝ) : EReal) := by
      rw [coe_sum]
      exact Finset.sum_congr rfl fun t _ => by rw [exp_sub_coe]
    rw [hs, ← EReal.coe_mul, ← EReal.coe_add]
    rfl

/-- THE TILED SOFTMAX-WEIGHTED SUM ON THE EXTENDED REALS. A numerator and a denominator kept as extended reals, started at zero
    and carried over `N` pairwise disjoint, not all empty tiles by the exact operations, with real scores, values and
    shifts: the last numerator times the exact quotient of one by the last denominator is the sum over all keys of
    "exponential of the shifted score, divided by the sum of those exponentials, times the value" — the reference form of a
    softmax followed by a contraction, at any real shift `M`. -/
theorem tiled_softmax_exact (N : ℕ) (T : ℕ → Finset ι) (hT : ∀ i j, i ≠ j → Disjoint (T i) (T j)) (s v : ι → ℝ)
    (m : ℕ → ℝ) (lE accE : ℕ → EReal) (hl0 : lE 0 = 0) (ha0 : accE 0 = 0)
    (hl : ∀ j, j < N → lE (j + 1) = Ideal.exp ((m j : EReal) - (m (j + 1) : EReal)) * lE j
      + ∑ t ∈ T j, Ideal.exp ((s t : EReal) - (m (j + 1) : EReal)))
    (ha : ∀ j, j < N → accE (j + 1) = Ideal.exp ((m j : EReal) - (m (j + 1) : EReal)) * accE j
      + ∑ t ∈ T j, Ideal.exp ((s t : EReal) - (m (j + 1) : EReal)) * (v t : EReal))
    (hne : ((Finset.range N).biUnion T).Nonempty) (M : ℝ) :
    accE N * Ideal.div 1 (lE N) = ∑ t ∈ (Finset.range N).biUnion T,
      Ideal.div (Ideal.exp ((s t : EReal) - (M : EReal)))
        (∑ u ∈ (Finset.range N).biUnion T, Ideal.exp ((s u : EReal) - (M : EReal))) * (v t : EReal) := by
  have hlN : normSeq T s m N = ∑ t ∈ (Finset.range N).biUnion T, Real.exp (s t - m N) :=
    running_norm N T hT s m (normSeq T s m) rfl (fun _ _ => rfl) N le_rfl
  have hlpos : normSeq T s m N ≠ 0 := by rw [hlN]; exact (norm_pos _ hne s (m N)).ne'
  have hMpos : (∑ u ∈ (Finset.range N).biUnion T, Real.exp (s u - M)) ≠ 0 := (norm_pos _ hne s M).ne'
  have hden : (∑ u ∈ (Finset.range N).biUnion T, Ideal.exp ((s u : EReal) - (M : EReal)))
      = ((∑ u ∈ (Finset.range N).biUnion T, Real.exp (s u - M) : ℝ) : EReal) := by
    rw [coe_sum]
    exact Finset.sum_congr rfl fun t _ => by rw [exp_sub_coe]
  rw [weighted_eq_coe N T s v m accE ha0 ha N le_rfl, norm_eq_coe N T s m lE hl0 hl N le_rfl, hden,
    ← EReal.coe_one, div_coe_coe 1 hlpos, ← EReal.coe_mul]
  have hr : (∑ t ∈ (Finset.range N).biUnion T,
        Ideal.div (Ideal.exp ((s t : EReal) - (M : EReal)))
          ((∑ u ∈ (Finset.range N).biUnion T, Real.exp (s u - M) : ℝ) : EReal) * (v t : EReal))
      = ((∑ t ∈ (Finset.range N).biUnion T,
          (Real.exp (s t - M) / ∑ u ∈ (Finset.range N).biUnion T, Real.exp (s u - M)) * v t : ℝ) : EReal) := by
    rw [coe_sum_mul]
    exact Finset.sum_congr rfl fun t _ => by rw [exp_sub_coe, div_coe_coe _ hMpos]
  rw [hr]
  refine congrArg _ ?_
  exact tiled_softmax N T hT s v m (normSeq T s m) (weightedSeq T s v m) rfl rfl (fun _ _ => rfl) (fun _ _ => rfl) hne M

end Exact

end LibOnlineSoftmax
-- ==== Proof.AttnSpec.lean ====
/-
  One step of the attention kernel's running softmax, for one query row, on plain functions over the extended reals.
  A step sees a tile of 512 keys: their scores are the scaled sum of "query · key" and the mask entry; the shift moves to the
  maximum of the old shift and the tile's scores; the old denominator and numerator are rescaled by the exponential of "old
  shift minus new shift", and the tile's terms are added at the new shift. The result of a row is numerator times the
  reciprocal of the denominator.
-/
import Idealize.ShloMosaic.PureOps.Ideal
import Idealize.ShloMosaic.Lib.ValueIdx

noncomputable section

namespace Cert.KernelIdeal.AttnValue

open Idealize.ShloMosaic

/-- The scale the kernel multiplies scores by (one eighth). -/
def c8 : EReal := Ideal.ofBits .f32 0x3E000000#32

/-- The score of key `u` of the tile against the query row. -/
def score (qr : Fin 64 → EReal) (K : Fin 512 → Fin 64 → EReal) (μ : Fin 512 → EReal) (u : Fin 512) : EReal :=
  ((∑ k : Fin 64, qr k * K u k) + μ u) * c8

/-- The tile's largest score, as the kernel folds it (from minus infinity). -/
def tileMax (sc : Fin 512 → EReal) : EReal :=
  (Finset.univ : Finset (Fin 512)).fold max (Ideal.ofBits .f32 0xFF800000#32) sc

/-- The next shift. -/
def mNext (mOld : EReal) (sc : Fin 512 → EReal) : EReal := max mOld (tileMax sc)

/-- The next denominator. -/
def lNext (mOld lOld : EReal) (sc : Fin 512 → EReal) : EReal :=
  Ideal.exp (mOld - mNext mOld sc) * lOld + ∑ u : Fin 512, Ideal.exp (sc u - mNext mOld sc)

/-- The next numerator, for one output feature whose values over the tile's keys are `vcol`. -/
def accNext (mOld accOld : EReal) (sc : Fin 512 → EReal) (vcol : Fin 512 → EReal) : EReal :=
  Ideal.exp (mOld - mNext mOld sc) * accOld + ∑ u : Fin 512, Ideal.exp (sc u - mNext mOld sc) * vcol u

/-- The row's result for one output feature. -/
def outOf (acc l : EReal) : EReal := acc * Ideal.div (Ideal.ofBits .f32 0x3F800000#32) l

end Cert.KernelIdeal.AttnValue

end
-- ==== Proof.Consts.lean ====
/-
  The float literals the two programs spell, as the extended reals their bit patterns denote: one eighth, eight, one, zero,
  minus infinity, and the kernel's large negative starting value for the running maximum, which is a real number (its exact
  value never matters).
-/
import Idealize.ShloMosaic.PureOps.Ideal

noncomputable section

namespace Cert.KernelIdeal.Consts

open Idealize.ShloMosaic

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_neg_inf : Ideal.ofBits .f32 0xFF800000#32 = ⊥ := by
  simp [Ideal.ofBits, Ideal.ieee]

/-- The starting value of the running maximum is a real number. -/
theorem ofBits_start_real : ∃ r : ℝ, Ideal.ofBits .f32 0xFF333332#32 = (r : EReal) := by
  simp [Ideal.ofBits, Ideal.ieee, -EReal.coe_mul]
  exact ⟨_, rfl⟩

end Cert.KernelIdeal.Consts

end
-- ==== Proof.AttnLaw.lean ====
/-
  Four steps of the running softmax over the four key tiles of one query row equal the reference's softmax-weighted sum over all
  2048 keys, when the query, keys, mask entries and values are real numbers. The scores are then real; every shift is a
  maximum of reals, hence real; so numerator and denominator follow the real recurrence, whose quotient after the last tile
  does not depend on the shifts. The kernel's scale one eighth and the reference's division by eight give the same scores.
-/
import proofs.«159339_j34729105555459_2_alg».proof.Proof.LibOnlineSoftmax
import proofs.«159339_j34729105555459_2_alg».proof.Proof.LibRealEntries
import proofs.«159339_j34729105555459_2_alg».proof.Proof.AttnSpec
import proofs.«159339_j34729105555459_2_alg».proof.Proof.Consts

noncomputable section

namespace Cert.KernelIdeal.AttnValue

open Idealize.ShloMosaic LibOnlineSoftmax LibRealEntries Cert.KernelIdeal.Consts

/-! ## The four tiles of the 2048 keys -/

/-- Key `u` of tile `j` among all keys. -/
def tileIx (j : ℕ) (u : Fin 512) : Fin 2048 := ⟨(j % 4) * 512 + u.val, by have := u.isLt; have := Nat.mod_lt j (by norm_num : 0 < 4); omega⟩

/-- The keys of tile `j`. -/
def tile (j : ℕ) : Finset (Fin 2048) := Finset.univ.filter fun t => t.val / 512 = j

theorem tile_disjoint (i j : ℕ) (h : i ≠ j) : Disjoint (tile i) (tile j) := by
  rw [Finset.disjoint_left]
  intro t hi hj
  rw [tile, Finset.mem_filter] at hi hj
  exact h (hi.2.symm.trans hj.2)

theorem tiles_cover : (Finset.range 4).biUnion tile = Finset.univ := by
  ext t
  simp only [Finset.mem_biUnion, Finset.mem_range, tile, Finset.mem_filter, Finset.mem_univ, true_and, iff_true]
  exact ⟨t.val / 512, by have := t.isLt; omega, rfl⟩

/-- A sum over a tile's keys is the sum over its 512 local indices. -/
theorem sum_tile (j : ℕ) (hj : j < 4) (f : Fin 2048 → EReal) : ∑ t ∈ tile j, f t = ∑ u : Fin 512, f (tileIx j u) := by
  symm
  refine Finset.sum_bij (fun u _ => tileIx j u) (fun u _ => ?_) (fun u _ v _ h => ?_) (fun t ht => ?_) (fun u _ => rfl)
  · rw [tile, Finset.mem_filter]
    refine ⟨Finset.mem_univ _, ?_⟩
    show ((j % 4) * 512 + u.val) / 512 = j
    have := u.isLt; rw [Nat.mod_eq_of_lt hj]; omega
  · have h' : (j % 4) * 512 + u.val = (j % 4) * 512 + v.val := congrArg Fin.val h
    exact Fin.ext (by omega)
  · rw [tile, Finset.mem_filter] at ht
    have ht2 := ht.2
    have := t.isLt
    refine ⟨⟨t.val % 512, Nat.mod_lt _ (by norm_num)⟩, Finset.mem_univ _, Fin.ext ?_⟩
    show (j % 4) * 512 + t.val % 512 = t.val
    rw [Nat.mod_eq_of_lt hj]; omega

/-! ## Real data: the scores and the state -/

variable (qr : Fin 64 → ℝ) (Kf : Fin 2048 → Fin 64 → ℝ) (μ : Fin 2048 → ℝ) (Vf : Fin 2048 → ℝ)

/-- The real score of key `t`. -/
def sR (t : Fin 2048) : ℝ := ((∑ k : Fin 64, qr k * Kf t k) + μ t) * (1 / 8)

/-- Tile `j`'s scores as the kernel computes them. -/
def scE (j : ℕ) (u : Fin 512) : EReal :=
  score (fun k => (qr k : EReal)) (fun u k => (Kf (tileIx j u) k : EReal)) (fun u => (μ (tileIx j u) : EReal)) u

theorem scE_eq (j : ℕ) (u : Fin 512) : scE qr Kf μ j u = ((sR qr Kf μ (tileIx j u) : ℝ) : EReal) := by
  unfold scE score c8 sR
  rw [ofBits_eighth, ← coe_sum_mul, ← EReal.coe_add, ← EReal.coe_mul]

/-- The shifts, denominators and numerators after `j` tiles. -/
def mE : ℕ → EReal
  | 0 => Ideal.ofBits .f32 0xFF333332#32
  | j + 1 => mNext (mE j) (scE qr Kf μ j)
def lE : ℕ → EReal
  | 0 => 0
  | j + 1 => lNext (mE qr Kf μ j) (lE j) (scE qr Kf μ j)
def accE : ℕ → EReal
  | 0 => 0
  | j + 1 => accNext (mE qr Kf μ j) (accE j) (scE qr Kf μ j) (fun u => (Vf (tileIx j u) : EReal))

/-- Every shift is a real number. -/
theorem mE_real : ∀ j, IsReal (mE qr Kf μ j)
  | 0 => ofBits_start_real
  | j + 1 => by
    show IsReal (max (mE qr Kf μ j) (tileMax (scE qr Kf μ j)))
    refine (mE_real j).max ?_
    unfold tileMax
    rw [ofBits_neg_inf]
    exact isReal_fold_max_bot _ Finset.univ_nonempty _ fun u _ => by rw [scE_eq]; exact isReal_coe _

/-! ## The law -/

/-- The reference's score of key `t`: the same sum, divided by eight. -/
def sRef (t : Fin 2048) : EReal :=
  Ideal.div ((∑ k : Fin 64, (qr k : EReal) * (Kf t k : EReal)) + (μ t : EReal)) (Ideal.ofBits .f32 0x41000000#32)

theorem sRef_eq (t : Fin 2048) : sRef qr Kf μ t = ((sR qr Kf μ t : ℝ) : EReal) := by
  unfold sRef sR
  rw [ofBits_eight, ← coe_sum_mul, ← EReal.coe_add, div_coe_coe _ (by norm_num : (8 : ℝ) ≠ 0), div_eq_mul_one_div]

/-- THE LAW. The row's result after the four tiles is the reference's softmax-weighted sum of the values, at any real shift. -/
theorem online_eq_reference (M : ℝ) :
    outOf (accE qr Kf μ Vf 4) (lE qr Kf μ 4)
      = ∑ t : Fin 2048, Ideal.div (Ideal.exp (sRef qr Kf μ t - (M : EReal))) (∑ u : Fin 2048, Ideal.exp (sRef qr Kf μ u - (M : EReal))) * (Vf t : EReal) := by
  obtain ⟨mR, hm⟩ := exists_real_family (mE qr Kf μ) (mE_real qr Kf μ)
  have hl : ∀ j, j < 4 → lE qr Kf μ (j + 1) = Ideal.exp ((mR j : EReal) - (mR (j + 1) : EReal)) * lE qr Kf μ j
      + ∑ t ∈ tile j, Ideal.exp ((sR qr Kf μ t : EReal) - (mR (j + 1) : EReal)) := by
    intro j hj
    rw [sum_tile j hj, ← hm j, ← hm (j + 1)]
    show lNext (mE qr Kf μ j) (lE qr Kf μ j) (scE qr Kf μ j) = _
    unfold lNext
    rw [show mNext (mE qr Kf μ j) (scE qr Kf μ j) = mE qr Kf μ (j + 1) from rfl]
    refine congrArg _ (Finset.sum_congr rfl fun u _ => ?_)
    rw [scE_eq]
  have ha : ∀ j, j < 4 → accE qr Kf μ Vf (j + 1) = Ideal.exp ((mR j : EReal) - (mR (j + 1) : EReal)) * accE qr Kf μ Vf j
      + ∑ t ∈ tile j, Ideal.exp ((sR qr Kf μ t : EReal) - (mR (j + 1) : EReal)) * (Vf t : EReal) := by
    intro j hj
    rw [sum_tile j hj (fun t => Ideal.exp ((sR qr Kf μ t : EReal) - (mR (j + 1) : EReal)) * (Vf t : EReal)), ← hm j, ← hm (j + 1)]
    show accNext (mE qr Kf μ j) (accE qr Kf μ Vf j) (scE qr Kf μ j) (fun u => (Vf (tileIx j u) : EReal)) = _
    unfold accNext
    rw [show mNext (mE qr Kf μ j) (scE qr Kf μ j) = mE qr Kf μ (j + 1) from rfl]
    refine congrArg _ (Finset.sum_congr rfl fun u _ => ?_)
    rw [scE_eq]
  have hne : ((Finset.range 4).biUnion tile).Nonempty := by rw [tiles_cover]; exact Finset.univ_nonempty
  have key := tiled_softmax_exact 4 tile tile_disjoint (sR qr Kf μ) Vf mR (lE qr Kf μ) (accE qr Kf μ Vf) rfl rfl hl ha hne M
  rw [tiles_cover] at key
  unfold outOf
  rw [ofBits_one, EReal.coe_one, key]
  simp only [sRef_eq]

end Cert.KernelIdeal.AttnValue

end
-- ==== Proof.RefAttnReal.lean ====
/-
  The reference's attention output over real inputs, with the real data exposed. When the activations, the mask and the
  three weight matrices hold real numbers, every entry of the three projections is a finite sum of products of reals, hence
  real; so are the scores, and so is each row's maximum. An entry of the output is then the softmax-weighted sum of a real
  value column, the scores those of a real query row against real key rows plus a real mask row, over eight, shifted by a
  real number.
-/
import proofs.«159339_j34729105555459_2_alg».proof.Proof.RefAttnRow
import proofs.«159339_j34729105555459_2_alg».proof.Proof.LibRealEntries
import proofs.«159339_j34729105555459_2_alg».proof.Proof.AttnLaw

noncomputable section

open scoped BigOperators

namespace Cert.KernelIdeal.RefAttn

open Cert.ReferenceIdeal.Read
open Idealize.ShloMosaic Idealize.ShloMosaic.ValueIdx LibRealEntries

/-- An entry of the query projection is a real number when the activations and the weights are. -/
theorem ref_q_real (x0 : (⟨Cert.ReferenceIdeal.S2048x4x512, .f32⟩ : BufTy).Contents (Elt Ideal)) (x2 : (⟨Cert.ReferenceIdeal.S512x512, .f32⟩ : BufTy).Contents (Elt Ideal)) (h0 : ∀ i, IsReal (x0 i)) (h2 : ∀ i, IsReal (x2 i))
    (n : Fin 32) (s : Fin 2048) (kk : Fin 64) : IsReal (val_main_v2 (F := Ideal) x0 x2 (ix3 n s kk)) := by
  rw [ref_proj_q]
  exact isReal_sum_mul Finset.univ _ _ (fun d _ => h0 _) (fun d _ => h2 _)

/-- An entry of the key projection is a real number when the activations and the weights are. -/
theorem ref_k_real (x0 : (⟨Cert.ReferenceIdeal.S2048x4x512, .f32⟩ : BufTy).Contents (Elt Ideal)) (x3 : (⟨Cert.ReferenceIdeal.S512x512, .f32⟩ : BufTy).Contents (Elt Ideal)) (h0 : ∀ i, IsReal (x0 i)) (h3 : ∀ i, IsReal (x3 i))
    (n : Fin 32) (s : Fin 2048) (kk : Fin 64) : IsReal (val_main_v5 (F := Ideal) x0 x3 (ix3 n s kk)) := by
  rw [ref_proj_k]
  exact isReal_sum_mul Finset.univ _ _ (fun d _ => h0 _) (fun d _ => h3 _)

/-- An entry of the value projection is a real number when the activations and the weights are. -/
theorem ref_v_real (x0 : (⟨Cert.ReferenceIdeal.S2048x4x512, .f32⟩ : BufTy).Contents (Elt Ideal)) (x4 : (⟨Cert.ReferenceIdeal.S512x512, .f32⟩ : BufTy).Contents (Elt Ideal)) (h0 : ∀ i, IsReal (x0 i)) (h4 : ∀ i, IsReal (x4 i))
    (n : Fin 32) (s : Fin 2048) (kk : Fin 64) : IsReal (val_main_v8 (F := Ideal) x0 x4 (ix3 n s kk)) := by
  rw [ref_proj_v]
  exact isReal_sum_mul Finset.univ _ _ (fun d _ => h0 _) (fun d _ => h4 _)

/-- Entry (n, s, kk) of the per-head product over real inputs: there are real families — the query row, the key rows, the
    mask row, the value column — and a real shift M (the row's maximum) with the entry the softmax-weighted sum of the
    value column, the scores those of the real families. -/
theorem ref_attn_row_real (x0 : (⟨Cert.ReferenceIdeal.S2048x4x512, .f32⟩ : BufTy).Contents (Elt Ideal)) (x1 : (⟨Cert.ReferenceIdeal.S2048x2048, .f32⟩ : BufTy).Contents (Elt Ideal)) (x2 x3 x4 : (⟨Cert.ReferenceIdeal.S512x512, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i))
    (n : Fin 32) (s : Fin 2048) (kk : Fin 64) :
    ∃ (qr : Fin 64 → ℝ) (Kf : Fin 2048 → Fin 64 → ℝ) (μ : Fin 2048 → ℝ) (Vf : Fin 2048 → ℝ) (M : ℝ),
      (∀ k, val_main_v2 (F := Ideal) x0 x2 (ix3 n s k) = (qr k : EReal))
      ∧ (∀ t k, val_main_v5 (F := Ideal) x0 x3 (ix3 n t k) = (Kf t k : EReal))
      ∧ (∀ t, x1 (ix2 s t) = (μ t : EReal))
      ∧ (∀ t, val_main_v8 (F := Ideal) x0 x4 (ix3 n t kk) = (Vf t : EReal))
      ∧ val_main_v26 (F := Ideal) x0 x1 x2 x3 x4 (ix3 n s kk)
          = ∑ t : Fin 2048, Ideal.div (Ideal.exp (AttnValue.sRef qr Kf μ t - (M : EReal)))
              (∑ u : Fin 2048, Ideal.exp (AttnValue.sRef qr Kf μ u - (M : EReal))) * (Vf t : EReal) := by
  have hQ : ∀ k : Fin 64, ∃ r : ℝ, val_main_v2 (F := Ideal) x0 x2 (ix3 n s k) = (r : EReal) :=
    fun k => ref_q_real x0 x2 h0 h2 n s k
  have hK : ∀ (t : Fin 2048) (k : Fin 64), ∃ r : ℝ, val_main_v5 (F := Ideal) x0 x3 (ix3 n t k) = (r : EReal) :=
    fun t k => ref_k_real x0 x3 h0 h3 n t k
  have hM : ∀ t : Fin 2048, ∃ r : ℝ, x1 (ix2 s t) = (r : EReal) := fun t => h1 _
  have hV : ∀ t : Fin 2048, ∃ r : ℝ, val_main_v8 (F := Ideal) x0 x4 (ix3 n t kk) = (r : EReal) :=
    fun t => ref_v_real x0 x4 h0 h4 n t kk
  choose qr hq using hQ
  choose Kf hk using hK
  choose μ hm using hM
  choose Vf hv using hV
  have hsc : ∀ t : Fin 2048,
      Ideal.div ((∑ k : Fin 64, val_main_v2 (F := Ideal) x0 x2 (ix3 n s k) * val_main_v5 (F := Ideal) x0 x3 (ix3 n t k)) + x1 (ix2 s t)) (Ideal.ofBits .f32 0x41000000#32)
        = AttnValue.sRef qr Kf μ t := by
    intro t
    unfold AttnValue.sRef
    simp only [hq, hk, hm]
  obtain ⟨M, hMx⟩ : IsReal (val_main_v17 (F := Ideal) x0 x1 x2 x3 (ix2 n s)) :=
    ref_max_real_of_scores x0 x1 x2 x3 n s fun t => by rw [hsc t, AttnValue.sRef_eq]; exact isReal_coe _
  refine ⟨qr, Kf, μ, Vf, M, hq, hk, hm, hv, ?_⟩
  rw [ref_attn_row]
  simp only [hsc, hMx, hv]

/-- Entry (s, b, e) of the reference's attention output over real inputs, in the same form: head 8·b + e / 64, column
    e % 64 of that head. -/
theorem ref_attn_real (x0 : (⟨Cert.ReferenceIdeal.S2048x4x512, .f32⟩ : BufTy).Contents (Elt Ideal)) (x1 : (⟨Cert.ReferenceIdeal.S2048x2048, .f32⟩ : BufTy).Contents (Elt Ideal)) (x2 x3 x4 : (⟨Cert.ReferenceIdeal.S512x512, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i))
    (s : Fin 2048) (b : Fin 4) (e : Fin 512) :
    ∃ (qr : Fin 64 → ℝ) (Kf : Fin 2048 → Fin 64 → ℝ) (μ : Fin 2048 → ℝ) (Vf : Fin 2048 → ℝ) (M : ℝ),
      (∀ k, val_main_v2 (F := Ideal) x0 x2 (ix3 (⟨b.val * 8 + e.val / 64, by have := b.isLt; have := e.isLt; omega⟩ : Fin 32) s k) = (qr k : EReal))
      ∧ (∀ t k, val_main_v5 (F := Ideal) x0 x3 (ix3 (⟨b.val * 8 + e.val / 64, by have := b.isLt; have := e.isLt; omega⟩ : Fin 32) t k) = (Kf t k : EReal))
      ∧ (∀ t, x1 (ix2 s t) = (μ t : EReal))
      ∧ (∀ t, val_main_v8 (F := Ideal) x0 x4 (ix3 (⟨b.val * 8 + e.val / 64, by have := b.isLt; have := e.isLt; omega⟩ : Fin 32) t (⟨e.val % 64, by omega⟩ : Fin 64)) = (Vf t : EReal))
      ∧ val_main_v28 (F := Ideal) x0 x1 x2 x3 x4 (ix3 s b e)
          = ∑ t : Fin 2048, Ideal.div (Ideal.exp (AttnValue.sRef qr Kf μ t - (M : EReal)))
              (∑ u : Fin 2048, Ideal.exp (AttnValue.sRef qr Kf μ u - (M : EReal))) * (Vf t : EReal) := by
  obtain ⟨qr, Kf, μ, Vf, M, hq, hk, hm, hv, hrow⟩ :=
    ref_attn_row_real x0 x1 x2 x3 x4 h0 h1 h2 h3 h4 (⟨b.val * 8 + e.val / 64, by have := b.isLt; have := e.isLt; omega⟩ : Fin 32) s (⟨e.val % 64, by omega⟩ : Fin 64)
  exact ⟨qr, Kf, μ, Vf, M, hq, hk, hm, hv, (ref_attn_out x0 x1 x2 x3 x4 s b e).trans hrow⟩

end Cert.KernelIdeal.RefAttn
-- ==== Proof.AttnPieces.lean ====
/-
  The attention region's arithmetic, read off the body's stores. With q, k, v the point's query block and key and value
  tiles, M the mask's 512 columns of the key tile, and (m, l, a) the running row maximum, denominator and numerator
  the previous key tile left, one point leaves
      m' = max(m, rowmax(s)),  l' = exp(m - m') * l + rowsum(exp(s - m')),  a' = exp(m - m') * a + exp(s - m') v,
  where s = (q kᵀ + M) / 8 is the masked, scaled score tile (exp(s - m') is rounded to the value tile's format before
  the product with v); a head's first key tile starts from a large negative finite m (about -2.38e38), l = 0, a = 0;
  its last key tile stores a' * (1 / l'), rounded to the output's format, as the head's output. The lemmas below only
  identify each stored piece with the body's arithmetic applied to these arguments; they do not evaluate it.
-/
import proofs.«159339_j34729105555459_2_alg».proof.Proof.AttnBodyIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One key tile's update of the running statistics -/

/-- The mask's 512 key columns of the point's key tile. -/
def maskTile (i : grid1.Coords) (x3 : Vec F S2048x2048 .f32) : Vec F S2048x512 .f32 :=
  View.ld x3 (Rect.unit (s := S2048x2048) (k1_off1 i) S2048x512.size (k1_off1_inb i))

/-- The new running row maximum. -/
def newMax (q : Vec F S1x2048x64 .bf16) (k : Vec F S1x512x64 .bf16) (M : Vec F S2048x512 .f32) (m : Vec F S1x2048x1 .f32) : Vec F S1x2048x1 .f32 :=
  k1_pay3 (k1_pay10 q k M m)
/-- The new running denominator. -/
def newDen (q : Vec F S1x2048x64 .bf16) (k : Vec F S1x512x64 .bf16) (M : Vec F S2048x512 .f32) (m l : Vec F S1x2048x1 .f32) : Vec F S1x2048x1 .f32 :=
  k1_pay1 (k1_pay13 q k M m m l) (k1_pay14 q k M m)
/-- The new running numerator. -/
def newNum (q : Vec F S1x2048x64 .bf16) (k v : Vec F S1x512x64 .bf16) (M : Vec F S2048x512 .f32) (m : Vec F S1x2048x1 .f32) (a : Vec F S1x2048x64 .f32) : Vec F S1x2048x64 .f32 :=
  k1_pay2 (k1_pay8 v) (k1_pay11 q k M m m) (k1_pay12 q k M m) a
/-- The head's output from the final numerator and denominator. -/
def headOut (a : Vec F S1x2048x64 .f32) (l : Vec F S1x2048x1 .f32) : Vec F S1x2048x64 .bf16 :=
  k1_pay4 a l

/-- The three statistics after one key tile, from the three before it. -/
def scrStep (q : Vec F S1x2048x64 .bf16) (k v : Vec F S1x512x64 .bf16) (M : Vec F S2048x512 .f32) (p : Vec F S1x2048x1 .f32 × Vec F S1x2048x1 .f32 × Vec F S1x2048x64 .f32) : Vec F S1x2048x1 .f32 × Vec F S1x2048x1 .f32 × Vec F S1x2048x64 .f32 :=
  (newMax q k M p.1, newDen q k M p.1 p.2.1, newNum q k v M p.1 p.2.2)
/-- The statistics a head starts from. -/
def scrInit : Vec F S1x2048x1 .f32 × Vec F S1x2048x1 .f32 × Vec F S1x2048x64 .f32 := (k1_pay5, k1_pay6, k1_pay7)

theorem hz3 : (![0, 0, 0] : Fin 3 → ℕ) = fun _ => 0 := by funext a; fin_cases a <;> rfl

/-! ## Each piece read back is its payload -/

theorem sout1_first_0_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) :
    sout1_first_0 c i arg2 harg2 arg3 harg3 arg4 harg4 arg5 harg5 arg6 harg6 arg7 harg7 arg8 harg8 arg9 harg9 hc0 hc1 x0 x1 x2 x3 = newMax x0 x1 (maskTile i x3) k1_pay5 := by
  unfold sout1_first_0
  rw [View.read_writes_eq_canon _ _ _ (scover1_first_0 c i arg2 harg2 arg3 harg3 arg4 harg4 arg5 harg5 arg6 harg6 arg7 harg7 arg8 harg8 arg9 harg9 hc0 hc1 x0 x1 x2 x3)]
  unfold kernelRun1_first; dsimp only; sl_unfold_words
  rw [View.canon_cons_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_first_1_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) :
    sout1_first_1 c i arg2 harg2 arg3 harg3 arg4 harg4 arg5 harg5 arg6 harg6 arg7 harg7 arg8 harg8 arg9 harg9 hc0 hc1 x0 x1 x2 x3 = newDen x0 x1 (maskTile i x3) k1_pay5 k1_pay6 := by
  unfold sout1_first_1
  rw [View.read_writes_eq_canon _ _ _ (scover1_first_1 c i arg2 harg2 arg3 harg3 arg4 harg4 arg5 harg5 arg6 harg6 arg7 harg7 arg8 harg8 arg9 harg9 hc0 hc1 x0 x1 x2 x3)]
  unfold kernelRun1_first; dsimp only; sl_unfold_words
  rw [View.canon_cons_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_first_2_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond1_0 i) (hc1 : ¬cond1_1 i)
    (x0 : Vec F S1x2048x64 .bf16) (x1 x2 : Vec F S1x512x64 .bf16) (x3 : Vec F S2048x2048 .f32) :
    sout1_first_2 c i arg2 harg2 arg3 harg3 arg4 harg4 arg5 harg5 arg6 harg6 arg7 harg7 arg8 harg8 arg9 harg9 hc0 hc1 x0 x1 x2 x3 = newNum x0 x1 x2 (maskTile i x3) k1_pay5 k1_pay7 := by
  unfold sout1_first_2
  rw [View.read_writes_eq_canon _ _ _ (scover1_first_2 c i arg2 harg2 arg3 harg3 arg4 harg4 arg5 harg5 arg6 harg6 arg7 harg7 arg8 harg8 arg9 harg9 hc0 hc1 x0 x1 x2 x3)]
  unfold kernelRun1_first; dsimp only; sl_unfold_words
  rw [View.canon_cons_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_middle_0_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    sout1_middle_0 c i arg2 harg2 arg3 harg3 arg4 harg4 arg5 harg5 arg6 harg6 arg7 harg7 arg8 harg8 arg9 harg9 hc0 hc1 x0 x1 x2 x3 xs0 xs1 xs2 = newMax x0 x1 (maskTile i x3) xs0 := by
  unfold sout1_middle_0
  rw [View.read_writes_eq_canon _ _ _ (scover1_middle_0 c i arg2 harg2 arg3 harg3 arg4 harg4 arg5 harg5 arg6 harg6 arg7 harg7 arg8 harg8 arg9 harg9 hc0 hc1 x0 x1 x2 x3 xs0 xs1 xs2)]
  unfold kernelRun1_middle; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_middle_1_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    sout1_middle_1 c i arg2 harg2 arg3 harg3 arg4 harg4 arg5 harg5 arg6 harg6 arg7 harg7 arg8 harg8 arg9 harg9 hc0 hc1 x0 x1 x2 x3 xs0 xs1 xs2 = newDen x0 x1 (maskTile i x3) xs0 xs1 := by
  unfold sout1_middle_1
  rw [View.read_writes_eq_canon _ _ _ (scover1_middle_1 c i arg2 harg2 arg3 harg3 arg4 harg4 arg5 harg5 arg6 harg6 arg7 harg7 arg8 harg8 arg9 harg9 hc0 hc1 x0 x1 x2 x3 xs0 xs1 xs2)]
  unfold kernelRun1_middle; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_middle_2_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : ¬cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    sout1_middle_2 c i arg2 harg2 arg3 harg3 arg4 harg4 arg5 harg5 arg6 harg6 arg7 harg7 arg8 harg8 arg9 harg9 hc0 hc1 x0 x1 x2 x3 xs0 xs1 xs2 = newNum x0 x1 x2 (maskTile i x3) xs0 xs2 := by
  unfold sout1_middle_2
  rw [View.read_writes_eq_canon _ _ _ (scover1_middle_2 c i arg2 harg2 arg3 harg3 arg4 harg4 arg5 harg5 arg6 harg6 arg7 harg7 arg8 harg8 arg9 harg9 hc0 hc1 x0 x1 x2 x3 xs0 xs1 xs2)]
  unfold kernelRun1_middle; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_last_0_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    sout1_last_0 c i arg2 harg2 arg3 harg3 arg4 harg4 arg5 harg5 arg6 harg6 arg7 harg7 arg8 harg8 arg9 harg9 hc0 hc1 x0 x1 x2 x3 xs0 xs1 xs2 = newMax x0 x1 (maskTile i x3) xs0 := by
  unfold sout1_last_0
  rw [View.read_writes_eq_canon _ _ _ (scover1_last_0 c i arg2 harg2 arg3 harg3 arg4 harg4 arg5 harg5 arg6 harg6 arg7 harg7 arg8 harg8 arg9 harg9 hc0 hc1 x0 x1 x2 x3 xs0 xs1 xs2)]
  unfold kernelRun1_last; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_last_1_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    sout1_last_1 c i arg2 harg2 arg3 harg3 arg4 harg4 arg5 harg5 arg6 harg6 arg7 harg7 arg8 harg8 arg9 harg9 hc0 hc1 x0 x1 x2 x3 xs0 xs1 xs2 = newDen x0 x1 (maskTile i x3) xs0 xs1 := by
  unfold sout1_last_1
  rw [View.read_writes_eq_canon _ _ _ (scover1_last_1 c i arg2 harg2 arg3 harg3 arg4 harg4 arg5 harg5 arg6 harg6 arg7 harg7 arg8 harg8 arg9 harg9 hc0 hc1 x0 x1 x2 x3 xs0 xs1 xs2)]
  unfold kernelRun1_last; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem sout1_last_2_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    sout1_last_2 c i arg2 harg2 arg3 harg3 arg4 harg4 arg5 harg5 arg6 harg6 arg7 harg7 arg8 harg8 arg9 harg9 hc0 hc1 x0 x1 x2 x3 xs0 xs1 xs2 = newNum x0 x1 x2 (maskTile i x3) xs0 xs2 := by
  unfold sout1_last_2
  rw [View.read_writes_eq_canon _ _ _ (scover1_last_2 c i arg2 harg2 arg3 harg3 arg4 harg4 arg5 harg5 arg6 harg6 arg7 harg7 arg8 harg8 arg9 harg9 hc0 hc1 x0 x1 x2 x3 xs0 xs1 xs2)]
  unfold kernelRun1_last; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

theorem out1_last_4_eq (c : Dev nD) (i : grid1.Coords) (arg2 : Memref sig .tc .vmem S1x2048x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S2048x2048 .f32) (harg5 : arg5.IsWhole) (arg6 : Memref sig .tc .vmem S1x2048x64 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond1_0 i) (hc1 : cond1_1 i)
    (x0 : Vec F S1x2048x64 .bf16) (x1 x2 : Vec F S1x512x64 .bf16) (x3 : Vec F S2048x2048 .f32) (xs0 xs1 : Vec F S1x2048x1 .f32) (xs2 : Vec F S1x2048x64 .f32) :
    out1_last_4 c i arg2 harg2 arg3 harg3 arg4 harg4 arg5 harg5 arg6 harg6 arg7 harg7 arg8 harg8 arg9 harg9 hc0 hc1 x0 x1 x2 x3 xs0 xs1 xs2 = headOut (newNum x0 x1 x2 (maskTile i x3) xs0 xs2) (newDen x0 x1 (maskTile i x3) xs0 xs1) := by
  unfold out1_last_4
  rw [View.read_writes_eq_canon _ _ _ (cover1_last_4 c i arg2 harg2 arg3 harg3 arg4 harg4 arg5 harg5 arg6 harg6 arg7 harg7 arg8 harg8 arg9 harg9 hc0 hc1 x0 x1 x2 x3 xs0 xs1 xs2)]
  unfold kernelRun1_last; dsimp only; sl_unfold_words
  rw [View.canon_unit_zero hz3]
  simp only [View.readAt_eq_ld, harg2.read_unread, harg3.read_unread, harg4.read_unread, harg5.read_unread, harg7.read_unread, harg8.read_unread, harg9.read_unread,
    View.ld_unit_zero (S := S1x2048x64) hz3, View.ld_unit_zero (S := S1x512x64) hz3, View.ld_unit_zero (S := S1x2048x1) hz3,
    View.readCov_unit_zero (S := S1x2048x1) _ hz3, View.readCov_unit_zero (S := S1x2048x64) _ hz3]
  rfl

end Cert.KernelIdeal.Hand

end
-- ==== Proof.AttnPoints.lean ====
/-
  The attention region's accumulation over the grid as a recursion: the three running statistics after a point are one
  update step applied to the point's blocks and to the statistics the point before left (to the starting statistics at
  a head's first key tile), and at a head's last key tile the output buffer holds the numerator times the reciprocal
  of the denominator that same point leaves.
-/
import proofs.«159339_j34729105555459_2_alg».proof.Proof.AttnPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## One point -/

theorem atFirst1_scr (c : Dev nD) (t : Fin cfg1.N) (h0 : t.val % 4 = 0) (h1 : ¬t.val % 4 = 3) :
    (atFirst1 V c t h0 h1).2 = scrStep (iblk1 V c 0 t) (iblk1 V c 1 t) (iblk1 V c 2 t) (maskTile (grid1.coords t) (iblk1 V c 3 t)) scrInit :=
  congrArg₂ Prod.mk (sout1_first_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
    (congrArg₂ Prod.mk (sout1_first_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
      (sout1_first_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)))

theorem atMiddle1_scr (c : Dev nD) (t : Fin cfg1.N) (h0 : ¬t.val % 4 = 0) (h1 : ¬t.val % 4 = 3) (p : Vec F S1x2048x1 .f32 × Vec F S1x2048x1 .f32 × Vec F S1x2048x64 .f32) :
    (atMiddle1 V c t h0 h1 p).2 = scrStep (iblk1 V c 0 t) (iblk1 V c 1 t) (iblk1 V c 2 t) (maskTile (grid1.coords t) (iblk1 V c 3 t)) p :=
  congrArg₂ Prod.mk (sout1_middle_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2)
    (congrArg₂ Prod.mk (sout1_middle_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2)
      (sout1_middle_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2))

theorem atLast1_scr (c : Dev nD) (t : Fin cfg1.N) (h0 : ¬t.val % 4 = 0) (h1 : t.val % 4 = 3) (p : Vec F S1x2048x1 .f32 × Vec F S1x2048x1 .f32 × Vec F S1x2048x64 .f32) :
    (atLast1 V c t h0 h1 p).2 = scrStep (iblk1 V c 0 t) (iblk1 V c 1 t) (iblk1 V c 2 t) (maskTile (grid1.coords t) (iblk1 V c 3 t)) p :=
  congrArg₂ Prod.mk (sout1_last_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2)
    (congrArg₂ Prod.mk (sout1_last_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2)
      (sout1_last_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2))

theorem atLast1_out (c : Dev nD) (t : Fin cfg1.N) (h0 : ¬t.val % 4 = 0) (h1 : t.val % 4 = 3) (p : Vec F S1x2048x1 .f32 × Vec F S1x2048x1 .f32 × Vec F S1x2048x64 .f32) :
    (atLast1 V c t h0 h1 p).1 = headOut (scrStep (iblk1 V c 0 t) (iblk1 V c 1 t) (iblk1 V c 2 t) (maskTile (grid1.coords t) (iblk1 V c 3 t)) p).2.2 (scrStep (iblk1 V c 0 t) (iblk1 V c 1 t) (iblk1 V c 2 t) (maskTile (grid1.coords t) (iblk1 V c 3 t)) p).2.1 := by
  unfold atLast1 scrStep; dsimp only
  exact out1_last_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2

/-! ## The recursion over the grid -/

/-- At a head's first key tile the statistics are one step from the starting ones. -/
theorem scr_first (c : Dev nD) (t : Fin cfg1.N) (h0 : t.val % 4 = 0) :
    (outsAt1 V c t.val t.isLt).2 = scrStep (iblk1 V c 0 t) (iblk1 V c 1 t) (iblk1 V c 2 t) (maskTile (grid1.coords t) (iblk1 V c 3 t)) scrInit := by
  have h1 : ¬t.val % 4 = 3 := by omega
  rw [outsAt1_first V c t h0 h1]
  exact atFirst1_scr V c t h0 h1

/-- At any other key tile they are one step from what the point before left. -/
theorem scr_next (c : Dev nD) (t : Fin cfg1.N) (h0 : ¬t.val % 4 = 0) :
    (outsAt1 V c t.val t.isLt).2
      = scrStep (iblk1 V c 0 t) (iblk1 V c 1 t) (iblk1 V c 2 t) (maskTile (grid1.coords t) (iblk1 V c 3 t)) (outsAt1 V c (t.val - 1) (Nat.lt_of_le_of_lt (Nat.sub_le _ _) t.isLt)).2 := by
  by_cases h1 : t.val % 4 = 3
  · rw [outsAt1_last V c t h0 h1]
    exact atLast1_scr V c t h0 h1 _
  · rw [outsAt1_middle V c t h0 h1]
    exact atMiddle1_scr V c t h0 h1 _

/-- At a head's last key tile the output buffer holds the head's output from the numerator and denominator that point leaves. -/
theorem out_last (c : Dev nD) (t : Fin cfg1.N) (h1 : t.val % 4 = 3) :
    (outsAt1 V c t.val t.isLt).1 = headOut (outsAt1 V c t.val t.isLt).2.2.2 (outsAt1 V c t.val t.isLt).2.2.1 := by
  have h0 : ¬t.val % 4 = 0 := by omega
  rw [outsAt1_last V c t h0 h1, atLast1_scr V c t h0 h1]
  exact atLast1_out V c t h0 h1 _

end Cert.KernelIdeal.Hand

end
-- ==== Proof.AttnPayRows.lean ====
/-
  The attention body's arithmetic at an index, over the exact extended reals, one query row at a time. The scores of a row
  against the tile's 512 keys are the scaled sum of "query · key" and the mask entry; the new shift is the maximum of the old
  shift and the scores; the denominator and the numerator are rescaled by the exponential of "old shift minus new shift" and
  receive the tile's terms at the new shift. The changes of float format on the way are the identity there, the accumulators the
  two products start from are zero, and a unit axis put back after a reduction, or spread again, reads the reduced value.
-/
import proofs.«159339_j34729105555459_2_alg».proof.Proof.AttnSpec
import proofs.«159339_j34729105555459_2_alg».proof.Proof.Gen.KernelIdeal.Skeleton
import proofs.«159339_j34729105555459_2_alg».proof.Proof.LibKeepdims
import proofs.«159339_j34729105555459_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnValue

open Cert.KernelIdeal Cert.KernelIdeal.Gen
open Idealize.ShloMosaic Idealize.ShloMosaic.ValueIdx

/-! ## The two products at an index -/

/-- The dimension record of "query · keyᵀ": one batch axis of size one, contraction over the 64 features of both operands. -/
abbrev dQK := dot_S1x2048x64_S1x512x64_S1x2048x512_2_2_1_1_0_0
/-- The dimension record of "weights · values": one batch axis of size one, contraction of the weights' 512 keys against the
    values' key axis. -/
abbrev dPV := dot_S1x2048x512_S1x512x64_S1x2048x64_2_1_1_2_0_0

theorem qk_lhs0 (i : S1x2048x512.Idx) (q : dQK.contr.Idx) : (dQK.lhsIdx i q 0).val = (i 0).val := by
  unfold DotDims.lhsIdx
  rw [dif_pos (show (0 : Fin S1x2048x64.rank) ∈ dQK.lhsBatch by decide)]
  rfl
theorem qk_lhs1 (i : S1x2048x512.Idx) (q : dQK.contr.Idx) : (dQK.lhsIdx i q 1).val = (i 1).val := by
  unfold DotDims.lhsIdx
  rw [dif_neg (show ¬(1 : Fin S1x2048x64.rank) ∈ dQK.lhsBatch by decide), dif_pos (show (1 : Fin S1x2048x64.rank) ∈ dQK.lhsNonContracting by decide)]
  rfl
theorem qk_lhs2 (i : S1x2048x512.Idx) (q : dQK.contr.Idx) : (dQK.lhsIdx i q 2).val = (q ⟨0, by decide⟩).val :=
  dQK.lhsIdx_val_of_single rfl i q
theorem qk_rhs0 (i : S1x2048x512.Idx) (q : dQK.contr.Idx) : (dQK.rhsIdx i q 0).val = (i 0).val := by
  unfold DotDims.rhsIdx
  rw [dif_pos (show (0 : Fin S1x512x64.rank) ∈ dQK.rhsBatch by decide)]
  rfl
theorem qk_rhs1 (i : S1x2048x512.Idx) (q : dQK.contr.Idx) : (dQK.rhsIdx i q 1).val = (i 2).val := by
  unfold DotDims.rhsIdx
  rw [dif_neg (show ¬(1 : Fin S1x512x64.rank) ∈ dQK.rhsBatch by decide), dif_pos (show (1 : Fin S1x512x64.rank) ∈ dQK.rhsNonContracting by decide)]
  rfl
theorem qk_rhs2 (i : S1x2048x512.Idx) (q : dQK.contr.Idx) : (dQK.rhsIdx i q 2).val = (q ⟨0, by decide⟩).val :=
  dQK.rhsIdx_val_of_single rfl i q

/-- "query · keyᵀ" into a zero accumulator, at entry (0, s, u): the sum over the features k of q(0, s, k) · key(0, u, k). -/
theorem qk_apply (x : FVec Ideal S1x2048x64 .bf16) (w : FVec Ideal S1x512x64 .bf16) (s : Fin 2048) (u : Fin 512) :
    matmul dQK none x w (constant S1x2048x512 .f32 0x00000000#32) (ix3 (0 : Fin 1) s u)
      = ∑ k : Fin 64, x (ix3 (0 : Fin 1) s k) * w (ix3 (0 : Fin 1) u k) := by
  simp only [matmul]
  rw [Ideal.matmul_constant_zero_apply, ← Equiv.sum_comp (contrEquiv1 dQK 64 rfl rfl).symm]
  refine Finset.sum_congr rfl fun k _ => ?_
  have hk := contrEquiv1_symm_val dQK 64 rfl rfl k
  have el : dQK.lhsIdx (ix3 (0 : Fin 1) s u) ((contrEquiv1 dQK 64 rfl rfl).symm k) = ix3 (0 : Fin 1) s k := funext fun a => Fin.ext (by
    match a with
    | ⟨0, _⟩ => exact qk_lhs0 _ _
    | ⟨1, _⟩ => exact qk_lhs1 _ _
    | ⟨2, _⟩ => exact (qk_lhs2 _ _).trans hk)
  have er : dQK.rhsIdx (ix3 (0 : Fin 1) s u) ((contrEquiv1 dQK 64 rfl rfl).symm k) = ix3 (0 : Fin 1) u k := funext fun a => Fin.ext (by
    match a with
    | ⟨0, _⟩ => exact qk_rhs0 _ _
    | ⟨1, _⟩ => exact qk_rhs1 _ _
    | ⟨2, _⟩ => exact (qk_rhs2 _ _).trans hk)
  rw [el, er]

theorem pv_lhs0 (i : S1x2048x64.Idx) (q : dPV.contr.Idx) : (dPV.lhsIdx i q 0).val = (i 0).val := by
  unfold DotDims.lhsIdx
  rw [dif_pos (show (0 : Fin S1x2048x512.rank) ∈ dPV.lhsBatch by decide)]
  rfl
theorem pv_lhs1 (i : S1x2048x64.Idx) (q : dPV.contr.Idx) : (dPV.lhsIdx i q 1).val = (i 1).val := by
  unfold DotDims.lhsIdx
  rw [dif_neg (show ¬(1 : Fin S1x2048x512.rank) ∈ dPV.lhsBatch by decide), dif_pos (show (1 : Fin S1x2048x512.rank) ∈ dPV.lhsNonContracting by decide)]
  rfl
theorem pv_lhs2 (i : S1x2048x64.Idx) (q : dPV.contr.Idx) : (dPV.lhsIdx i q 2).val = (q ⟨0, by decide⟩).val :=
  dPV.lhsIdx_val_of_single rfl i q
theorem pv_rhs0 (i : S1x2048x64.Idx) (q : dPV.contr.Idx) : (dPV.rhsIdx i q 0).val = (i 0).val := by
  unfold DotDims.rhsIdx
  rw [dif_pos (show (0 : Fin S1x512x64.rank) ∈ dPV.rhsBatch by decide)]
  rfl
theorem pv_rhs1 (i : S1x2048x64.Idx) (q : dPV.contr.Idx) : (dPV.rhsIdx i q 1).val = (q ⟨0, by decide⟩).val :=
  dPV.rhsIdx_val_of_single rfl i q
theorem pv_rhs2 (i : S1x2048x64.Idx) (q : dPV.contr.Idx) : (dPV.rhsIdx i q 2).val = (i 2).val := by
  unfold DotDims.rhsIdx
  rw [dif_neg (show ¬(2 : Fin S1x512x64.rank) ∈ dPV.rhsBatch by decide), dif_pos (show (2 : Fin S1x512x64.rank) ∈ dPV.rhsNonContracting by decide)]
  rfl

/-- "weights · values" into a zero accumulator, at entry (0, s, e): the sum over the keys u of p(0, s, u) · v(0, u, e). -/
theorem pv_apply (x : FVec Ideal S1x2048x512 .bf16) (w : FVec Ideal S1x512x64 .bf16) (s : Fin 2048) (e : Fin 64) :
    matmul dPV none x w (constant S1x2048x64 .f32 0x00000000#32) (ix3 (0 : Fin 1) s e)
      = ∑ u : Fin 512, x (ix3 (0 : Fin 1) s u) * w (ix3 (0 : Fin 1) u e) := by
  simp only [matmul]
  rw [Ideal.matmul_constant_zero_apply, ← Equiv.sum_comp (contrEquiv1 dPV 512 rfl rfl).symm]
  refine Finset.sum_congr rfl fun k _ => ?_
  have hk := contrEquiv1_symm_val dPV 512 rfl rfl k
  have el : dPV.lhsIdx (ix3 (0 : Fin 1) s e) ((contrEquiv1 dPV 512 rfl rfl).symm k) = ix3 (0 : Fin 1) s k := funext fun a => Fin.ext (by
    match a with
    | ⟨0, _⟩ => exact pv_lhs0 _ _
    | ⟨1, _⟩ => exact pv_lhs1 _ _
    | ⟨2, _⟩ => exact (pv_lhs2 _ _).trans hk)
  have er : dPV.rhsIdx (ix3 (0 : Fin 1) s e) ((contrEquiv1 dPV 512 rfl rfl).symm k) = ix3 (0 : Fin 1) k e := funext fun a => Fin.ext (by
    match a with
    | ⟨0, _⟩ => exact pv_rhs0 _ _
    | ⟨1, _⟩ => exact (pv_rhs1 _ _).trans hk
    | ⟨2, _⟩ => exact pv_rhs2 _ _)
  rw [el, er]

/-! ## The scores -/

/-- The scores of query row s against the tile's keys, as the specification writes them. -/
abbrev scOf (v3 : Vec Ideal S1x2048x64 .bf16) (v5 : Vec Ideal S1x512x64 .bf16) (v12 : Vec Ideal S2048x512 .f32) (s : Fin 2048) : Fin 512 → EReal :=
  score (fun k => v3 (ix3 (0 : Fin 1) s k)) (fun u k => v5 (ix3 (0 : Fin 1) u k)) (fun u => v12 (ix2 s u))

/-- The score block at entry (0, s, u). -/
theorem pay9_apply (v3 : Vec Ideal S1x2048x64 .bf16) (v5 : Vec Ideal S1x512x64 .bf16) (v12 : Vec Ideal S2048x512 .f32) (s : Fin 2048) (u : Fin 512) :
    k1_pay9 (F := Ideal) v3 v5 v12 (ix3 (0 : Fin 1) s u) = scOf v3 v5 v12 s u := by
  unfold k1_pay9
  show (matmul (F := Ideal) dQK none (shapeCast S1x2048x64 v3 shapeCasts_S1x2048x64_S1x2048x64) (shapeCast S1x512x64 v5 shapeCasts_S1x512x64_S1x512x64)
        (constant S1x2048x512 .f32 0x00000000#32) (ix3 (0 : Fin 1) s u)
      + shapeCast S1x2048x512 v12 shapeCasts_S2048x512_S1x2048x512 (ix3 (0 : Fin 1) s u)) * Ideal.ofBits .f32 0x3E000000#32 = _
  rw [qk_apply, shapeCast_self, shapeCast_self, shapeCast_ab_1ab_apply]
  rfl

/-! ## The pointwise operations at an index -/

theorem addf_apply {s : Shape} {φ : FTy} (x y : FVec Ideal s φ) (i : s.Idx) : addf x y i = x i + y i := rfl
theorem subf_apply {s : Shape} {φ : FTy} (x y : FVec Ideal s φ) (i : s.Idx) : subf x y i = x i - y i := rfl
theorem mulf_apply {s : Shape} {φ : FTy} (x y : FVec Ideal s φ) (i : s.Idx) : mulf x y i = x i * y i := rfl
theorem divf_apply {s : Shape} {φ : FTy} (x y : FVec Ideal s φ) (i : s.Idx) : divf x y i = Ideal.div (x i) (y i) := rfl
theorem maximumf_apply {s : Shape} {φ : FTy} (x y : FVec Ideal s φ) (i : s.Idx) : maximumf x y i = max (x i) (y i) := rfl
theorem truncf_apply {s : Shape} {φ ψ : FTy} (x : FVec Ideal s φ) (h : ψ.bits < φ.bits) (i : s.Idx) : truncf ψ x h i = x i := rfl
theorem broadcast_apply {s : Shape} {φ : FTy} (x : Ideal φ) (i : s.Idx) : broadcast s x i = x := rfl

/-! ## The shift -/

/-- The maximum over the last axis of an `[a, b, c]` array, at `(p, q)`: the fold of `max`, from the accumulator's value,
    over the entries `(p, q, k)`. -/
theorem max_last3_apply {φ : FTy} {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (p : Fin a) (q : Fin b) :
    multiReduction .maximumf [2] ⟨2, ![a, b]⟩ src acc h hφ hacc (ix2 p q)
      = (Finset.univ : Finset (Fin c)).fold max (Ideal.ofBits φ acc) (fun k : Fin c => src (ix3 p q k)) := by
  refine (Ideal.multiReduction_maximumf_single src acc h hφ hacc (ix2 p q)).trans ?_
  have hf : (src ∘ h.lift (ix2 p q)) = fun k : Fin c => src (ix3 p q k) := funext fun k => congrArg src (Cert.LibKeepdims.lift_last3 h p q k)
  exact congrArg (fun f => Finset.fold max (Ideal.ofBits φ acc) f (Finset.univ : Finset (Fin c))) hf

theorem k1_pay10_eq (v3 : Vec Ideal S1x2048x64 .bf16) (v5 : Vec Ideal S1x512x64 .bf16) (v12 : Vec Ideal S2048x512 .f32) (v18 : Vec Ideal S1x2048x1 .f32) :
    k1_pay10 (F := Ideal) v3 v5 v12 v18
      = maximumf v18 (shapeCast S1x2048x1
          (multiReduction .maximumf [2] S1x2048 (k1_pay9 v3 v5 v12) 0xFF800000#32 reduces_S1x2048x512_S1x2048 (.inl rfl) rfl)
          shapeCasts_S1x2048_S1x2048x1) := rfl

/-- The new shift of row s: the maximum of the old shift and the row's scores. -/
theorem pay10_apply (v3 : Vec Ideal S1x2048x64 .bf16) (v5 : Vec Ideal S1x512x64 .bf16) (v12 : Vec Ideal S2048x512 .f32) (v18 : Vec Ideal S1x2048x1 .f32) (s : Fin 2048) :
    k1_pay10 (F := Ideal) v3 v5 v12 v18 (ix3 (0 : Fin 1) s (0 : Fin 1)) = mNext (v18 (ix3 (0 : Fin 1) s (0 : Fin 1))) (scOf v3 v5 v12 s) := by
  rw [k1_pay10_eq, maximumf_apply, Cert.LibKeepdims.shapeCast_ab_ab1_apply]
  unfold mNext tileMax
  have h := max_last3_apply (k1_pay9 (F := Ideal) v3 v5 v12) 0xFF800000#32 reduces_S1x2048x512_S1x2048 (.inl rfl) rfl (0 : Fin 1) s
  have h2 : (fun k : Fin 512 => k1_pay9 (F := Ideal) v3 v5 v12 (ix3 (0 : Fin 1) s k)) = scOf v3 v5 v12 s :=
    funext fun u => pay9_apply v3 v5 v12 s u
  rw [h2] at h
  first | rw [h] | exact congrArg (max _) h

/-! ## The rescaling factor and the tile's weights -/

theorem k1_pay11_eq (v3 : Vec Ideal S1x2048x64 .bf16) (v5 : Vec Ideal S1x512x64 .bf16) (v12 : Vec Ideal S2048x512 .f32) (v18 v22 : Vec Ideal S1x2048x1 .f32) :
    k1_pay11 (F := Ideal) v3 v5 v12 v18 v22 = exp (subf v22 (k1_pay10 v3 v5 v12 v18)) := rfl

/-- The factor the old denominator and numerator of row s are rescaled by. -/
theorem pay11_apply (v3 : Vec Ideal S1x2048x64 .bf16) (v5 : Vec Ideal S1x512x64 .bf16) (v12 : Vec Ideal S2048x512 .f32) (v18 v22 : Vec Ideal S1x2048x1 .f32) (s : Fin 2048) :
    k1_pay11 (F := Ideal) v3 v5 v12 v18 v22 (ix3 (0 : Fin 1) s (0 : Fin 1))
      = Ideal.exp (v22 (ix3 (0 : Fin 1) s (0 : Fin 1)) - mNext (v18 (ix3 (0 : Fin 1) s (0 : Fin 1))) (scOf v3 v5 v12 s)) := by
  rw [k1_pay11_eq, Cert.LibKeepdims.exp_apply, subf_apply, pay10_apply]

theorem k1_pay12_eq (v3 : Vec Ideal S1x2048x64 .bf16) (v5 : Vec Ideal S1x512x64 .bf16) (v12 : Vec Ideal S2048x512 .f32) (v18 : Vec Ideal S1x2048x1 .f32) :
    k1_pay12 (F := Ideal) v3 v5 v12 v18
      = exp (subf (k1_pay9 v3 v5 v12) (broadcastTo S1x2048x512 (k1_pay10 v3 v5 v12 v18) broadcasts_S1x2048x1_S1x2048x512)) := rfl

/-- The weight of key u in row s: the exponential of its score minus the new shift. -/
theorem pay12_apply (v3 : Vec Ideal S1x2048x64 .bf16) (v5 : Vec Ideal S1x512x64 .bf16) (v12 : Vec Ideal S2048x512 .f32) (v18 : Vec Ideal S1x2048x1 .f32) (s : Fin 2048) (u : Fin 512) :
    k1_pay12 (F := Ideal) v3 v5 v12 v18 (ix3 (0 : Fin 1) s u)
      = Ideal.exp (scOf v3 v5 v12 s u - mNext (v18 (ix3 (0 : Fin 1) s (0 : Fin 1))) (scOf v3 v5 v12 s)) := by
  rw [k1_pay12_eq, Cert.LibKeepdims.exp_apply, subf_apply, pay9_apply, Cert.LibKeepdims.broadcastTo_ab1_abc_apply, pay10_apply]

theorem k1_pay13_eq (v3 : Vec Ideal S1x2048x64 .bf16) (v5 : Vec Ideal S1x512x64 .bf16) (v12 : Vec Ideal S2048x512 .f32) (v18 v22 v28 : Vec Ideal S1x2048x1 .f32) :
    k1_pay13 (F := Ideal) v3 v5 v12 v18 v22 v28 = mulf (k1_pay11 v3 v5 v12 v18 v22) v28 := rfl

/-- The rescaled old denominator of row s. -/
theorem pay13_apply (v3 : Vec Ideal S1x2048x64 .bf16) (v5 : Vec Ideal S1x512x64 .bf16) (v12 : Vec Ideal S2048x512 .f32) (v18 v22 v28 : Vec Ideal S1x2048x1 .f32) (s : Fin 2048) :
    k1_pay13 (F := Ideal) v3 v5 v12 v18 v22 v28 (ix3 (0 : Fin 1) s (0 : Fin 1))
      = Ideal.exp (v22 (ix3 (0 : Fin 1) s (0 : Fin 1)) - mNext (v18 (ix3 (0 : Fin 1) s (0 : Fin 1))) (scOf v3 v5 v12 s)) * v28 (ix3 (0 : Fin 1) s (0 : Fin 1)) := by
  rw [k1_pay13_eq, mulf_apply, pay11_apply]

/-- The sum of row s's weights over the tile. -/
theorem pay14_apply (v3 : Vec Ideal S1x2048x64 .bf16) (v5 : Vec Ideal S1x512x64 .bf16) (v12 : Vec Ideal S2048x512 .f32) (v18 : Vec Ideal S1x2048x1 .f32) (s : Fin 2048) :
    k1_pay14 (F := Ideal) v3 v5 v12 v18 (ix2 (0 : Fin 1) s)
      = ∑ u : Fin 512, Ideal.exp (scOf v3 v5 v12 s u - mNext (v18 (ix3 (0 : Fin 1) s (0 : Fin 1))) (scOf v3 v5 v12 s)) := by
  unfold k1_pay14
  refine (Cert.LibKeepdims.sum_last3_apply (k1_pay12 (F := Ideal) v3 v5 v12 v18) 0x00000000#32 reduces_S1x2048x512_S1x2048 (.inl rfl) rfl (0 : Fin 1) s).trans ?_
  exact Finset.sum_congr rfl fun u _ => pay12_apply v3 v5 v12 v18 s u

/-! ## The stored denominator and numerator -/

theorem k1_pay1_eq (v29 : FVec Ideal S1x2048x1 .f32) (v30 : FVec Ideal S1x2048 .f32) :
    k1_pay1 (F := Ideal) v29 v30
      = shapeCast S1x2048x1 (addf v29 (shapeCast S1x2048x1 v30 shapeCasts_S1x2048_S1x2048x1)) shapeCasts_S1x2048x1_S1x2048x1 := rfl

/-- The stored denominator from any two operands: the first plus the second with its unit axis put back. -/
theorem pay1_gen (v29 : FVec Ideal S1x2048x1 .f32) (v30 : FVec Ideal S1x2048 .f32) (s : Fin 2048) :
    k1_pay1 (F := Ideal) v29 v30 (ix3 (0 : Fin 1) s (0 : Fin 1)) = v29 (ix3 (0 : Fin 1) s (0 : Fin 1)) + v30 (ix2 (0 : Fin 1) s) := by
  rw [k1_pay1_eq, shapeCast_self, addf_apply, Cert.LibKeepdims.shapeCast_ab_ab1_apply]

/-- The stored denominator of row s. With the two old shifts equal it is `lNext`. -/
theorem pay1_apply (v3 : Vec Ideal S1x2048x64 .bf16) (v5 : Vec Ideal S1x512x64 .bf16) (v12 : Vec Ideal S2048x512 .f32) (v18 v22 v28 : Vec Ideal S1x2048x1 .f32) (s : Fin 2048) :
    k1_pay1 (F := Ideal) (k1_pay13 v3 v5 v12 v18 v22 v28) (k1_pay14 v3 v5 v12 v18) (ix3 (0 : Fin 1) s (0 : Fin 1))
      = Ideal.exp (v22 (ix3 (0 : Fin 1) s (0 : Fin 1)) - mNext (v18 (ix3 (0 : Fin 1) s (0 : Fin 1))) (scOf v3 v5 v12 s)) * v28 (ix3 (0 : Fin 1) s (0 : Fin 1))
        + ∑ u : Fin 512, Ideal.exp (scOf v3 v5 v12 s u - mNext (v18 (ix3 (0 : Fin 1) s (0 : Fin 1))) (scOf v3 v5 v12 s)) := by
  rw [pay1_gen, pay13_apply, pay14_apply]

/-- The value tile on its way into the product: unchanged. -/
theorem pay8_eq (v7 : Vec Ideal S1x512x64 .bf16) : k1_pay8 (F := Ideal) v7 = v7 := by
  unfold k1_pay8
  exact shapeCast_self v7 shapeCasts_S1x512x64_S1x512x64

theorem k1_pay2_eq (v8 : FVec Ideal S1x512x64 .bf16) (v24 : FVec Ideal S1x2048x1 .f32) (v27 : FVec Ideal S1x2048x512 .f32)
    (v36 : Vec Ideal S1x2048x64 .f32) :
    k1_pay2 (F := Ideal) v8 v24 v27 v36
      = shapeCast S1x2048x64
          (addf (mulf (broadcastTo S1x2048x64 v24 broadcasts_S1x2048x1_S1x2048x64) v36)
            (matmul dPV none (truncf .bf16 v27 bitsLt_bf16_f32) v8 (constant S1x2048x64 .f32 0x00000000#32)))
          shapeCasts_S1x2048x64_S1x2048x64 := rfl

/-- The stored numerator from any operands: the old one times the factor plus "weights · values". -/
theorem pay2_gen (v8 : FVec Ideal S1x512x64 .bf16) (v24 : FVec Ideal S1x2048x1 .f32) (v27 : FVec Ideal S1x2048x512 .f32)
    (v36 : Vec Ideal S1x2048x64 .f32) (s : Fin 2048) (kk : Fin 64) :
    k1_pay2 (F := Ideal) v8 v24 v27 v36 (ix3 (0 : Fin 1) s kk)
      = v24 (ix3 (0 : Fin 1) s (0 : Fin 1)) * v36 (ix3 (0 : Fin 1) s kk) + ∑ u : Fin 512, v27 (ix3 (0 : Fin 1) s u) * v8 (ix3 (0 : Fin 1) u kk) := by
  rw [k1_pay2_eq, shapeCast_self, addf_apply, mulf_apply, Cert.LibKeepdims.broadcastTo_ab1_abc_apply, pv_apply]
  rfl

/-- The stored numerator of row s at feature kk. With the two old shifts equal it is `accNext`. -/
theorem pay2_apply (v3 : Vec Ideal S1x2048x64 .bf16) (v5 v7 : Vec Ideal S1x512x64 .bf16) (v12 : Vec Ideal S2048x512 .f32)
    (v18 v22 : Vec Ideal S1x2048x1 .f32) (v36 : Vec Ideal S1x2048x64 .f32) (s : Fin 2048) (kk : Fin 64) :
    k1_pay2 (F := Ideal) (k1_pay8 v7) (k1_pay11 v3 v5 v12 v18 v22) (k1_pay12 v3 v5 v12 v18) v36 (ix3 (0 : Fin 1) s kk)
      = Ideal.exp (v22 (ix3 (0 : Fin 1) s (0 : Fin 1)) - mNext (v18 (ix3 (0 : Fin 1) s (0 : Fin 1))) (scOf v3 v5 v12 s)) * v36 (ix3 (0 : Fin 1) s kk)
        + ∑ u : Fin 512, Ideal.exp (scOf v3 v5 v12 s u - mNext (v18 (ix3 (0 : Fin 1) s (0 : Fin 1))) (scOf v3 v5 v12 s)) * v7 (ix3 (0 : Fin 1) u kk) := by
  rw [pay2_gen, pay11_apply, pay8_eq]
  exact congrArg (_ + ·) (Finset.sum_congr rfl fun u _ => by rw [pay12_apply])

/-! ## The shift written back, the result, and the starting values -/

/-- The shift is written back unchanged. -/
theorem pay3_apply (x : FVec Ideal S1x2048x1 .f32) : k1_pay3 (F := Ideal) x = x := by
  unfold k1_pay3
  exact shapeCast_self x shapeCasts_S1x2048x1_S1x2048x1

theorem k1_pay4_eq (v51 : Vec Ideal S1x2048x64 .f32) (v52 : Vec Ideal S1x2048x1 .f32) :
    k1_pay4 (F := Ideal) v51 v52
      = truncf .bf16 (mulf v51 (broadcastTo S1x2048x64
          (divf (broadcast S1x2048x1 (Scalar.ofBits .f32 0x3F800000#32 : Ideal .f32)) v52) broadcasts_S1x2048x1_S1x2048x64))
          bitsLt_bf16_f32 := rfl

/-- The result of row s at feature kk: numerator times the reciprocal of the denominator. -/
theorem pay4_apply (v51 : Vec Ideal S1x2048x64 .f32) (v52 : Vec Ideal S1x2048x1 .f32) (s : Fin 2048) (kk : Fin 64) :
    k1_pay4 (F := Ideal) v51 v52 (ix3 (0 : Fin 1) s kk) = outOf (v51 (ix3 (0 : Fin 1) s kk)) (v52 (ix3 (0 : Fin 1) s (0 : Fin 1))) := by
  rw [k1_pay4_eq, truncf_apply, mulf_apply, Cert.LibKeepdims.broadcastTo_ab1_abc_apply, divf_apply, broadcast_apply]
  rfl

theorem k1_pay5_eq : k1_pay5 (F := Ideal)
    = shapeCast S1x2048x1 (broadcast S1x2048x1 (Scalar.ofBits .f32 0xFF333332#32 : Ideal .f32)) shapeCasts_S1x2048x1_S1x2048x1 := rfl
theorem k1_pay6_eq : k1_pay6 (F := Ideal)
    = shapeCast S1x2048x1 (broadcast S1x2048x1 (Scalar.ofBits .f32 0x00000000#32 : Ideal .f32)) shapeCasts_S1x2048x1_S1x2048x1 := rfl
theorem k1_pay7_eq : k1_pay7 (F := Ideal)
    = shapeCast S1x2048x64 (broadcast S1x2048x64 (Scalar.ofBits .f32 0x00000000#32 : Ideal .f32)) shapeCasts_S1x2048x64_S1x2048x64 := rfl

/-- The starting shift: a large negative finite number. -/
theorem pay5_apply (s : Fin 2048) : k1_pay5 (F := Ideal) (ix3 (0 : Fin 1) s (0 : Fin 1)) = Ideal.ofBits .f32 0xFF333332#32 := by
  rw [k1_pay5_eq, shapeCast_self]
  rfl

/-- The starting denominator: zero. -/
theorem pay6_apply (s : Fin 2048) : k1_pay6 (F := Ideal) (ix3 (0 : Fin 1) s (0 : Fin 1)) = 0 := by
  rw [k1_pay6_eq, shapeCast_self]
  exact Ideal.ofBits_zero_f32

/-- The starting numerator: zero. -/
theorem pay7_apply (s : Fin 2048) (kk : Fin 64) : k1_pay7 (F := Ideal) (ix3 (0 : Fin 1) s kk) = 0 := by
  rw [k1_pay7_eq, shapeCast_self]
  exact Ideal.ofBits_zero_f32

end Cert.KernelIdeal.AttnValue

end
-- ==== Proof.AttnRowStep.lean ====
/-
  One step of the attention region's running softmax, read at one query row over the exact extended reals. From the three
  running statistics a key tile finds — the shift, the denominator and the numerator — the tile leaves the next shift, the
  maximum of the old one and the row's 512 scores; the old denominator and numerator rescaled by the exponential of "old shift
  minus new shift" plus the tile's terms at the new shift. A head starts from a large negative finite shift and zeros, and its
  result is the numerator times the reciprocal of the denominator.
-/
import proofs.«159339_j34729105555459_2_alg».proof.Proof.AttnPieces
import proofs.«159339_j34729105555459_2_alg».proof.Proof.AttnPayRows
import proofs.«159339_j34729105555459_2_alg».proof.Proof.AttnSpec

set_option maxRecDepth 16384

noncomputable section

namespace Cert.KernelIdeal.AttnValue

open Cert.KernelIdeal Cert.KernelIdeal.Gen Cert.KernelIdeal.Hand
open Idealize.ShloMosaic Idealize.ShloMosaic.ValueIdx

variable (q : Vec Ideal S1x2048x64 .bf16) (k v : Vec Ideal S1x512x64 .bf16) (M : Vec Ideal S2048x512 .f32)
  (p : Vec Ideal S1x2048x1 .f32 × Vec Ideal S1x2048x1 .f32 × Vec Ideal S1x2048x64 .f32) (s : Fin 2048) (kk : Fin 64)

/-- The next shift of row s. -/
theorem step_max :
    (scrStep q k v M p).1 (ix3 (0 : Fin 1) s (0 : Fin 1)) = mNext (p.1 (ix3 (0 : Fin 1) s (0 : Fin 1))) (scOf q k M s) := by
  show k1_pay3 (F := Ideal) (k1_pay10 q k M p.1) (ix3 (0 : Fin 1) s (0 : Fin 1)) = _
  rw [pay3_apply, pay10_apply]

/-- The next denominator of row s. -/
theorem step_den :
    (scrStep q k v M p).2.1 (ix3 (0 : Fin 1) s (0 : Fin 1))
      = lNext (p.1 (ix3 (0 : Fin 1) s (0 : Fin 1))) (p.2.1 (ix3 (0 : Fin 1) s (0 : Fin 1))) (scOf q k M s) := by
  show k1_pay1 (F := Ideal) (k1_pay13 q k M p.1 p.1 p.2.1) (k1_pay14 q k M p.1) (ix3 (0 : Fin 1) s (0 : Fin 1)) = _
  rw [pay1_apply]
  rfl

/-- The next numerator of row s at feature kk. -/
theorem step_num :
    (scrStep q k v M p).2.2 (ix3 (0 : Fin 1) s kk)
      = accNext (p.1 (ix3 (0 : Fin 1) s (0 : Fin 1))) (p.2.2 (ix3 (0 : Fin 1) s kk)) (scOf q k M s) (fun u => v (ix3 (0 : Fin 1) u kk)) := by
  show k1_pay2 (F := Ideal) (k1_pay8 v) (k1_pay11 q k M p.1 p.1) (k1_pay12 q k M p.1) p.2.2 (ix3 (0 : Fin 1) s kk) = _
  rw [pay2_apply]
  rfl

/-- The shift a head starts from. -/
theorem init_max : (scrInit (F := Ideal)).1 (ix3 (0 : Fin 1) s (0 : Fin 1)) = Ideal.ofBits .f32 0xFF333332#32 :=
  pay5_apply s

/-- The denominator a head starts from. -/
theorem init_den : (scrInit (F := Ideal)).2.1 (ix3 (0 : Fin 1) s (0 : Fin 1)) = 0 :=
  pay6_apply s

/-- The numerator a head starts from. -/
theorem init_num : (scrInit (F := Ideal)).2.2 (ix3 (0 : Fin 1) s kk) = 0 :=
  pay7_apply s kk

/-- A head's result at row s, feature kk. -/
theorem head_out (a : Vec Ideal S1x2048x64 .f32) (l : Vec Ideal S1x2048x1 .f32) :
    headOut a l (ix3 (0 : Fin 1) s kk) = outOf (a (ix3 (0 : Fin 1) s kk)) (l (ix3 (0 : Fin 1) s (0 : Fin 1))) :=
  pay4_apply a l s kk

end Cert.KernelIdeal.AttnValue

end
-- ==== Proof.AttnBlocks.lean ====
/-
  The attention region's blocks as entries of the arrays the region finds. Grid point t handles head t / 4 and key tile
  t % 4: its query block is the 2048 rows of that head, its key and value blocks are rows (t % 4) · 512 … + 511 of that
  head, the mask block is the whole mask, of which the body loads the 512 columns of the key tile, and its output block is
  the 2048 rows of that head. The last key tile of each head writes the output block back, and these 32 blocks tile the
  output array.
-/
import proofs.«159339_j34729105555459_2_alg».proof.Proof.AttnPieces
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- A grid point's number is below 128. -/
theorem t_lt (t : Fin cfg1.N) : t.val < 128 := by
  have h : t.val < grid1.N := t.isLt
  rwa [N_1] at h

/-- The printed index maps and the mask's column offset, decided over the grid: the head is t / 4 and the key tile t % 4. -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 3) = t.val / 4 ∧ win1_4.index t (1 : Fin 3) = 0 ∧ win1_4.index t (2 : Fin 3) = 0
    ∧ k1_off1 (grid1.coords t) (0 : Fin 2) = 0 ∧ k1_off1 (grid1.coords t) (1 : Fin 2) = (t.val % 4) * 512 :=
  (by decide +kernel : ∀ t : Fin grid1.N, _)

/-! ## The input blocks -/

/-- The query block of point t: the rows of head t / 4. -/
theorem blk_q (c : Dev nD) (t : Fin cfg1.N) (s : Fin 2048) (k : Fin 64) :
    iblk1 V c 0 t (ix3 (0 : Fin 1) s k)
      = (V c main_v10 : S32x2048x64.Idx → EReal) (ix3 (⟨t.val / 4, by have := t_lt t; omega⟩ : Fin 32) s k) := by
  obtain ⟨e0, e1, e2, -⟩ := idx_facts t
  unfold iblk1
  rw [View.read_apply]
  show (V c main_v10 : S32x2048x64.Idx → EReal) (((cfg1.win 0).blk t).view.emb (ix3 (0 : Fin 1) s k)) = _
  have h : ((cfg1.win 0).blk t).view.emb (ix3 (0 : Fin 1) s k) = ix3 (⟨t.val / 4, by have := t_lt t; omega⟩ : Fin 32) s k := by
    funext a; apply Fin.ext
    match a with
    | ⟨0, _⟩ => show win1_0.index t (0 : Fin 3) * 1 + 1 * 0 = t.val / 4; omega
    | ⟨1, _⟩ => show win1_0.index t (1 : Fin 3) * 2048 + 1 * s.val = s.val; omega
    | ⟨2, _⟩ => show win1_0.index t (2 : Fin 3) * 64 + 1 * k.val = k.val; omega
  rw [h]

/-- The key block of point t: rows (t % 4) · 512 … of head t / 4. -/
theorem blk_k (c : Dev nD) (t : Fin cfg1.N) (u : Fin 512) (k : Fin 64) :
    iblk1 V c 1 t (ix3 (0 : Fin 1) u k)
      = (V c main_v13 : S32x2048x64.Idx → EReal)
          (ix3 (⟨t.val / 4, by have := t_lt t; omega⟩ : Fin 32) (⟨(t.val % 4) * 512 + u.val, by have := u.isLt; omega⟩ : Fin 2048) k) := by
  obtain ⟨_, _, _, a0, a1, a2, b0, b1, b2, -⟩ := idx_facts t
  unfold iblk1
  rw [View.read_apply]
  show (V c main_v13 : S32x2048x64.Idx → EReal) (((cfg1.win 1).blk t).view.emb (ix3 (0 : Fin 1) u k)) = _
  have h : ((cfg1.win 1).blk t).view.emb (ix3 (0 : Fin 1) u k)
      = ix3 (⟨t.val / 4, by have := t_lt t; omega⟩ : Fin 32) (⟨(t.val % 4) * 512 + u.val, by have := u.isLt; omega⟩ : Fin 2048) k := by
    funext a; apply Fin.ext
    match a with
    | ⟨0, _⟩ => show win1_1.index t (0 : Fin 3) * 1 + 1 * 0 = t.val / 4; omega
    | ⟨1, _⟩ => show win1_1.index t (1 : Fin 3) * 512 + 1 * u.val = (t.val % 4) * 512 + u.val; omega
    | ⟨2, _⟩ => show win1_1.index t (2 : Fin 3) * 64 + 1 * k.val = k.val; omega
  rw [h]

/-- The value block of point t: the same rows of the values. -/
theorem blk_v (c : Dev nD) (t : Fin cfg1.N) (u : Fin 512) (k : Fin 64) :
    iblk1 V c 2 t (ix3 (0 : Fin 1) u k)
      = (V c main_v16 : S32x2048x64.Idx → EReal)
          (ix3 (⟨t.val / 4, by have := t_lt t; omega⟩ : Fin 32) (⟨(t.val % 4) * 512 + u.val, by have := u.isLt; omega⟩ : Fin 2048) k) := by
  obtain ⟨_, _, _, a0, a1, a2, b0, b1, b2, -⟩ := idx_facts t
  unfold iblk1
  rw [View.read_apply]
  show (V c main_v16 : S32x2048x64.Idx → EReal) (((cfg1.win 2).blk t).view.emb (ix3 (0 : Fin 1) u k)) = _
  have h : ((cfg1.win 2).blk t).view.emb (ix3 (0 : Fin 1) u k)
      = ix3 (⟨t.val / 4, by have := t_lt t; omega⟩ : Fin 32) (⟨(t.val % 4) * 512 + u.val, by have := u.isLt; omega⟩ : Fin 2048) k := by
    funext a; apply Fin.ext
    match a with
    | ⟨0, _⟩ => show win1_2.index t (0 : Fin 3) * 1 + 1 * 0 = t.val / 4; omega
    | ⟨1, _⟩ => show win1_2.index t (1 : Fin 3) * 512 + 1 * u.val = (t.val % 4) * 512 + u.val; omega
    | ⟨2, _⟩ => show win1_2.index t (2 : Fin 3) * 64 + 1 * k.val = k.val; omega
  rw [h]

/-- The mask tile the body loads at point t: all rows, the 512 columns of key tile t % 4. -/
theorem blk_mask (c : Dev nD) (t : Fin cfg1.N) (s : Fin 2048) (u : Fin 512) :
    maskTile (grid1.coords t) (iblk1 V c 3 t) (ix2 s u)
      = (V c main_arg1 : S2048x2048.Idx → EReal) (ix2 s (⟨(t.val % 4) * 512 + u.val, by have := u.isLt; omega⟩ : Fin 2048)) := by
  obtain ⟨_, _, _, _, _, _, _, _, _, m0, m1, _, _, _, o0, o1⟩ := idx_facts t
  unfold maskTile
  show iblk1 V c 3 t ((Rect.unit (s := S2048x2048) (k1_off1 (grid1.coords t)) S2048x512.size (k1_off1_inb (grid1.coords t))).emb (ix2 s u)) = _
  unfold iblk1
  rw [View.read_apply]
  show (V c main_arg1 : S2048x2048.Idx → EReal) (((cfg1.win 3).blk t).view.emb
      ((Rect.unit (s := S2048x2048) (k1_off1 (grid1.coords t)) S2048x512.size (k1_off1_inb (grid1.coords t))).emb (ix2 s u))) = _
  have h : ((cfg1.win 3).blk t).view.emb
        ((Rect.unit (s := S2048x2048) (k1_off1 (grid1.coords t)) S2048x512.size (k1_off1_inb (grid1.coords t))).emb (ix2 s u))
      = ix2 s (⟨(t.val % 4) * 512 + u.val, by have := u.isLt; omega⟩ : Fin 2048) := by
    funext a; apply Fin.ext
    match a with
    | ⟨0, _⟩ => show win1_3.index t (0 : Fin 2) * 2048 + 1 * (k1_off1 (grid1.coords t) (0 : Fin 2) + 1 * s.val) = s.val; omega
    | ⟨1, _⟩ => show win1_3.index t (1 : Fin 2) * 2048 + 1 * (k1_off1 (grid1.coords t) (1 : Fin 2) + 1 * u.val) = (t.val % 4) * 512 + u.val; omega
  rw [h]

/-! ## The output block -/

/-- Entry (0, s, kk) of point t's output block is entry (t / 4, s, kk) of the output array. -/
theorem blk_out (c : Dev nD) (t : Fin cfg1.N) (n : Fin 32) (hn : t.val / 4 = n.val) (s : Fin 2048) (kk : Fin 64) :
    ((cfg1.win 4).blk t).view.emb (ix3 (0 : Fin 1) s kk) = ix3 n s kk := by
  obtain ⟨_, _, _, _, _, _, _, _, _, _, _, q0, q1, q2, _⟩ := idx_facts t
  funext a; apply Fin.ext
  match a with
  | ⟨0, _⟩ => show win1_4.index t (0 : Fin 3) * 1 + 1 * 0 = n.val; omega
  | ⟨1, _⟩ => show win1_4.index t (1 : Fin 3) * 2048 + 1 * s.val = s.val; omega
  | ⟨2, _⟩ => show win1_4.index t (2 : Fin 3) * 64 + 1 * kk.val = kk.val; omega

/-- An index of the output array is in point t's block iff each coordinate is in the block's range on its axis. -/
theorem mem_blk4 (t : Fin cfg1.N) (i : S32x2048x64.Idx) :
    i ∈ ((cfg1.win 4).blk t).view.set ↔ ∀ a : Fin 3, win1_4.index t a * S1x2048x64.size a ≤ (i a).val ∧ (i a).val < win1_4.index t a * S1x2048x64.size a + S1x2048x64.size a := by
  show i ∈ ((View.whole main_v17).slice (win1_4.rect t)).set ↔ _
  rw [View.set_slice_whole, Rect.mem_set_unit]
  exact Iff.rfl

/-- Every index of the output array is in the block of a point that writes it back: the last key tile of its head. -/
theorem cover4 (i : S32x2048x64.Idx) : ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 64 := (i 2).isLt
  have hN : 4 * (i 0).val + 3 < cfg1.N := by
    show 4 * (i 0).val + 3 < grid1.N
    rw [N_1]; omega
  obtain ⟨t, ht⟩ : ∃ t : Fin cfg1.N, t.val = 4 * (i 0).val + 3 := ⟨⟨_, hN⟩, rfl⟩
  obtain ⟨_, _, _, _, _, _, _, _, _, _, _, q0, q1, q2, _⟩ := idx_facts t
  refine ⟨t, (flush1_4 t).mpr (by omega), ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2048 ≤ (i 1).val ∧ (i 1).val < win1_4.index t (1 : Fin 3) * 2048 + 2048; omega
  | ⟨2, _⟩ => show win1_4.index t (2 : Fin 3) * 64 ≤ (i 2).val ∧ (i 2).val < win1_4.index t (2 : Fin 3) * 64 + 64; omega

end Cert.KernelIdeal.AttnValue

end
-- ==== Proof.AttnGeneral.lean ====
/-
  The four-tile recurrence of one query row over arbitrary extended-real data (query row, all keys, mask row, one value column),
  and the fact that on real data it is the recurrence the law is stated for. The general form is what the kernel's buffers
  satisfy whatever they hold; the law applies once the data are known to be real.
-/
import proofs.«159339_j34729105555459_2_alg».proof.Proof.AttnLaw

noncomputable section

namespace Cert.KernelIdeal.AttnValue

open Idealize.ShloMosaic

variable (qE : Fin 64 → EReal) (KE : Fin 2048 → Fin 64 → EReal) (μE : Fin 2048 → EReal) (VE : Fin 2048 → EReal)

/-- Tile `j`'s scores. -/
def scG (j : ℕ) (u : Fin 512) : EReal := score qE (fun u k => KE (tileIx j u) k) (fun u => μE (tileIx j u)) u

/-- The shifts, denominators and numerators after `j` tiles. -/
def mG : ℕ → EReal
  | 0 => Ideal.ofBits .f32 0xFF333332#32
  | j + 1 => mNext (mG j) (scG qE KE μE j)
def lG : ℕ → EReal
  | 0 => 0
  | j + 1 => lNext (mG qE KE μE j) (lG j) (scG qE KE μE j)
def accG : ℕ → EReal
  | 0 => 0
  | j + 1 => accNext (mG qE KE μE j) (accG j) (scG qE KE μE j) (fun u => VE (tileIx j u))

variable (qr : Fin 64 → ℝ) (Kf : Fin 2048 → Fin 64 → ℝ) (μ : Fin 2048 → ℝ) (Vf : Fin 2048 → ℝ)

theorem scG_coe (j : ℕ) : scG (fun k => (qr k : EReal)) (fun t k => (Kf t k : EReal)) (fun t => (μ t : EReal)) j = scE qr Kf μ j := rfl

theorem mG_coe : ∀ j, mG (fun k => (qr k : EReal)) (fun t k => (Kf t k : EReal)) (fun t => (μ t : EReal)) j = mE qr Kf μ j
  | 0 => rfl
  | j + 1 => by
    show mNext (mG _ _ _ j) (scG _ _ _ j) = mNext (mE qr Kf μ j) (scE qr Kf μ j)
    rw [mG_coe j, scG_coe]

theorem lG_coe : ∀ j, lG (fun k => (qr k : EReal)) (fun t k => (Kf t k : EReal)) (fun t => (μ t : EReal)) j = lE qr Kf μ j
  | 0 => rfl
  | j + 1 => by
    show lNext (mG _ _ _ j) (lG _ _ _ j) (scG _ _ _ j) = lNext (mE qr Kf μ j) (lE qr Kf μ j) (scE qr Kf μ j)
    rw [mG_coe, lG_coe j, scG_coe]

theorem accG_coe : ∀ j, accG (fun k => (qr k : EReal)) (fun t k => (Kf t k : EReal)) (fun t => (μ t : EReal)) (fun t => (Vf t : EReal)) j = accE qr Kf μ Vf j
  | 0 => rfl
  | j + 1 => by
    show accNext (mG _ _ _ j) (accG _ _ _ _ j) (scG _ _ _ j) _ = accNext (mE qr Kf μ j) (accE qr Kf μ Vf j) (scE qr Kf μ j) _
    rw [mG_coe, accG_coe j, scG_coe]

/-- The row's result over general data. -/
def rowOut : EReal := outOf (accG qE KE μE VE 4) (lG qE KE μE 4)

/-- On real data the general row result is the one the law speaks of. -/
theorem rowOut_coe : rowOut (fun k => (qr k : EReal)) (fun t k => (Kf t k : EReal)) (fun t => (μ t : EReal)) (fun t => (Vf t : EReal))
    = outOf (accE qr Kf μ Vf 4) (lE qr Kf μ 4) := by
  unfold rowOut
  rw [accG_coe, lG_coe]

end Cert.KernelIdeal.AttnValue

end
-- ==== Proof.AttnArrays.lean ====
/-
  The attention region's output array after the region, as one function of the arrays the region finds. Head n owns four
  consecutive grid points, one per tile of 512 keys. At the first the scratch buffers start from (large negative, 0, 0) and
  take one step; at each later point they take one step from what the point before left; at the fourth the output buffer
  receives numerator times reciprocal of denominator and is written back to block n of the output array. Read at a query row
  s and a feature kk, the steps are the row recurrence over that head's query row, all its keys, the mask row and the value
  column; the blocks of the 32 heads tile the array.
-/
import proofs.«159339_j34729105555459_2_alg».proof.Proof.AttnPoints
import proofs.«159339_j34729105555459_2_alg».proof.Proof.AttnRowStep
import proofs.«159339_j34729105555459_2_alg».proof.Proof.AttnBlocks
import proofs.«159339_j34729105555459_2_alg».proof.Proof.AttnGeneral

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The data of one row -/

/-- Head `n`'s query row `s`. -/
abbrev qRow (c : Dev nD) (n : Fin 32) (s : Fin 2048) : Fin 64 → EReal := fun k => (V c main_v10 : S32x2048x64.Idx → EReal) (ix3 n s k)
/-- Head `n`'s keys. -/
abbrev kAll (c : Dev nD) (n : Fin 32) : Fin 2048 → Fin 64 → EReal := fun t k => (V c main_v13 : S32x2048x64.Idx → EReal) (ix3 n t k)
/-- The mask's row `s`. -/
abbrev mRow (c : Dev nD) (s : Fin 2048) : Fin 2048 → EReal := fun t => (V c main_arg1 : S2048x2048.Idx → EReal) (ix2 s t)
/-- Head `n`'s value column `kk`. -/
abbrev vCol (c : Dev nD) (n : Fin 32) (kk : Fin 64) : Fin 2048 → EReal := fun t => (V c main_v16 : S32x2048x64.Idx → EReal) (ix3 n t kk)

/-- The whole output: the row recurrence's result, row by row and feature by feature. -/
def attnG (c : Dev nD) : S32x2048x64.Idx → EReal := fun i =>
  rowOut (qRow V c ⟨(i 0).val, (i 0).isLt⟩ ⟨(i 1).val, (i 1).isLt⟩) (kAll V c ⟨(i 0).val, (i 0).isLt⟩) (mRow V c ⟨(i 1).val, (i 1).isLt⟩)
    (vCol V c ⟨(i 0).val, (i 0).isLt⟩ ⟨(i 2).val, (i 2).isLt⟩)

/-! ## One point's scores -/

/-- The point `4·n + j` of head `n`. -/
def pt (n : Fin 32) (j : ℕ) (hj : j < 4) : Fin cfg1.N := ⟨4 * n.val + j, by have := n.isLt; show 4 * n.val + j < grid1.N; rw [N_1]; omega⟩

theorem pt_div (n : Fin 32) (j : ℕ) (hj : j < 4) : (pt n j hj).val / 4 = n.val := by show (4 * n.val + j) / 4 = n.val; omega
theorem pt_mod (n : Fin 32) (j : ℕ) (hj : j < 4) : (pt n j hj).val % 4 = j := by show (4 * n.val + j) % 4 = j; omega

/-- The scores the body computes at head `n`'s point `j`, for query row `s`: the recurrence's tile scores. -/
theorem scores_at (c : Dev nD) (n : Fin 32) (j : ℕ) (hj : j < 4) (s : Fin 2048) :
    scOf (iblk1 V c 0 (pt n j hj)) (iblk1 V c 1 (pt n j hj)) (maskTile (grid1.coords (pt n j hj)) (iblk1 V c 3 (pt n j hj))) s
      = scG (qRow V c n s) (kAll V c n) (mRow V c s) j := by
  funext u
  have hu := u.isLt
  have hd := pt_div n j hj
  have hm := pt_mod n j hj
  have hix : (⟨((pt n j hj).val % 4) * 512 + u.val, by omega⟩ : Fin 2048) = tileIx j u := Fin.ext (by
    show ((pt n j hj).val % 4) * 512 + u.val = (j % 4) * 512 + u.val
    rw [hm, Nat.mod_eq_of_lt hj])
  have hn : (⟨(pt n j hj).val / 4, by omega⟩ : Fin 32) = n := Fin.ext hd
  show score (fun k => iblk1 V c 0 (pt n j hj) (ix3 (0 : Fin 1) s k)) (fun u k => iblk1 V c 1 (pt n j hj) (ix3 (0 : Fin 1) u k))
      (fun u => maskTile (grid1.coords (pt n j hj)) (iblk1 V c 3 (pt n j hj)) (ix2 s u)) u
    = score (qRow V c n s) (fun u k => kAll V c n (tileIx j u) k) (fun u => mRow V c s (tileIx j u)) u
  have e0 : (fun k => iblk1 V c 0 (pt n j hj) (ix3 (0 : Fin 1) s k)) = qRow V c n s := funext fun k => by
    rw [blk_q V c (pt n j hj) s k, hn]
  have e1 : (fun u k => iblk1 V c 1 (pt n j hj) (ix3 (0 : Fin 1) u k)) = fun u k => kAll V c n (tileIx j u) k := funext fun u' => funext fun k => by
    have hix' : (⟨((pt n j hj).val % 4) * 512 + u'.val, by have := u'.isLt; omega⟩ : Fin 2048) = tileIx j u' := Fin.ext (by
      show ((pt n j hj).val % 4) * 512 + u'.val = (j % 4) * 512 + u'.val
      rw [hm, Nat.mod_eq_of_lt hj])
    rw [blk_k V c (pt n j hj) u' k, hn, hix']
  have e3 : (fun u => maskTile (grid1.coords (pt n j hj)) (iblk1 V c 3 (pt n j hj)) (ix2 s u)) = fun u => mRow V c s (tileIx j u) := funext fun u' => by
    have hix' : (⟨((pt n j hj).val % 4) * 512 + u'.val, by have := u'.isLt; omega⟩ : Fin 2048) = tileIx j u' := Fin.ext (by
      show ((pt n j hj).val % 4) * 512 + u'.val = (j % 4) * 512 + u'.val
      rw [hm, Nat.mod_eq_of_lt hj])
    rw [blk_mask V c (pt n j hj) s u', hix']
  rw [e0, e1, e3]

/-! ## The scratch after each of a head's points -/

/-- After head `n`'s point `j`, at query row `s` and feature `kk`, the three scratch buffers hold the recurrence's state after `j + 1` tiles. -/
theorem scratch_at (c : Dev nD) (n : Fin 32) (s : Fin 2048) (kk : Fin 64) : ∀ (j : ℕ) (hj : j < 4),
    (outsAt1 V c (pt n j hj).val (pt n j hj).isLt).2.1 (ix3 (0 : Fin 1) s (0 : Fin 1)) = mG (qRow V c n s) (kAll V c n) (mRow V c s) (j + 1)
    ∧ (outsAt1 V c (pt n j hj).val (pt n j hj).isLt).2.2.1 (ix3 (0 : Fin 1) s (0 : Fin 1)) = lG (qRow V c n s) (kAll V c n) (mRow V c s) (j + 1)
    ∧ (outsAt1 V c (pt n j hj).val (pt n j hj).isLt).2.2.2 (ix3 (0 : Fin 1) s kk) = accG (qRow V c n s) (kAll V c n) (mRow V c s) (vCol V c n kk) (j + 1)
  | 0, hj => by
    have h0 : (pt n 0 hj).val % 4 = 0 := pt_mod n 0 hj
    rw [scr_first V c (pt n 0 hj) h0]
    refine ⟨?_, ?_, ?_⟩
    · rw [step_max, scores_at V c n 0 hj s, init_max]; rfl
    · rw [step_den, scores_at V c n 0 hj s, init_max, init_den]; rfl
    · rw [step_num, scores_at V c n 0 hj s, init_max, init_num]
      have ev : (fun u => iblk1 V c 2 (pt n 0 hj) (ix3 (0 : Fin 1) u kk)) = fun u => vCol V c n kk (tileIx 0 u) := funext fun u => by
        have hix' : (⟨((pt n 0 hj).val % 4) * 512 + u.val, by have := u.isLt; omega⟩ : Fin 2048) = tileIx 0 u := Fin.ext (by
          show ((pt n 0 hj).val % 4) * 512 + u.val = (0 % 4) * 512 + u.val
          rw [h0])
        rw [blk_v V c (pt n 0 hj) u kk, show (⟨(pt n 0 hj).val / 4, by have := pt_div n 0 hj; have := n.isLt; omega⟩ : Fin 32) = n from Fin.ext (pt_div n 0 hj), hix']
      rw [ev]; rfl
  | j + 1, hj => by
    have hj' : j < 4 := by omega
    obtain ⟨ihm, ihl, iha⟩ := scratch_at c n s kk j hj'
    have hne : ¬(pt n (j + 1) hj).val % 4 = 0 := by rw [pt_mod]; omega
    have hprev : (pt n (j + 1) hj).val - 1 = (pt n j hj').val := by show 4 * n.val + (j + 1) - 1 = 4 * n.val + j; omega
    rw [scr_next V c (pt n (j + 1) hj) hne]
    simp only [hprev]
    refine ⟨?_, ?_, ?_⟩
    · rw [step_max, scores_at V c n (j + 1) hj s, ihm]; rfl
    · rw [step_den, scores_at V c n (j + 1) hj s, ihm, ihl]; rfl
    · rw [step_num, scores_at V c n (j + 1) hj s, ihm, iha]
      have ev : (fun u => iblk1 V c 2 (pt n (j + 1) hj) (ix3 (0 : Fin 1) u kk)) = fun u => vCol V c n kk (tileIx (j + 1) u) := funext fun u => by
        have hix' : (⟨((pt n (j + 1) hj).val % 4) * 512 + u.val, by have := u.isLt; omega⟩ : Fin 2048) = tileIx (j + 1) u := Fin.ext (by
          show ((pt n (j + 1) hj).val % 4) * 512 + u.val = ((j + 1) % 4) * 512 + u.val
          rw [pt_mod, Nat.mod_eq_of_lt hj])
        rw [blk_v V c (pt n (j + 1) hj) u kk, show (⟨(pt n (j + 1) hj).val / 4, by have := pt_div n (j + 1) hj; have := n.isLt; omega⟩ : Fin 32) = n from Fin.ext (pt_div n (j + 1) hj), hix']
      rw [ev]; rfl

/-! ## What a head's last point writes back, and the array -/

/-- What a writing point writes back is its block of the whole output. -/
theorem flushed4_eq (c : Dev nD) (t : Fin cfg1.N) (hf : (cfg1.win 4).flush t = true) :
    (dat1 V c).flushed 4 t = ((cfg1.win 4).blk t).view.read (Elt Ideal) (attnG V c) := by
  have h34 : 3 < 4 := by norm_num
  have h3 : t.val % 4 = 3 := (flush1_4 t).mp hf
  have hN : t.val < 128 := lt_of_lt_of_eq t.isLt (show cfg1.N = 128 from N_1)
  obtain ⟨n, rfl⟩ : ∃ n : Fin 32, t = pt n 3 h34 := ⟨⟨t.val / 4, by omega⟩, Fin.ext (by show t.val = 4 * (t.val / 4) + 3; omega)⟩
  show (cfg1.win 4).cut (grid1.coords (pt n 3 h34)) ((dat1 V c).after 4 (pt n 3 h34)) = _
  rw [after1_4, out_last V c (pt n 3 h34) h3]
  funext y
  obtain ⟨z, s, kk, rfl⟩ : ∃ (z : Fin 1) (s : Fin 2048) (kk : Fin 64), y = ix3 z s kk := ⟨y 0, y 1, y 2, eq_ix3 y⟩
  obtain rfl : z = 0 := Subsingleton.elim _ _
  refine (head_out s kk _ _).trans ?_
  obtain ⟨-, hl, ha⟩ := scratch_at V c n s kk 3 h34
  rw [ha, hl, View.read_apply]
  have hemb : ((cfg1.win 4).blk (pt n 3 h34)).view.emb (ix3 (0 : Fin 1) s kk) = ix3 n s kk := blk_out c (pt n 3 h34) n (pt_div n 3 h34) s kk
  rw [hemb]
  rfl

/-- THE ARRAY after the region: the row recurrence's result at every head, row and feature. -/
theorem final1_4 (c : Dev nD) : ((dat1 V c).arrAt 4 cfg1.N : S32x2048x64.Idx → EReal) = attnG V c :=
  (dat1 V c).arrAt_eq_of_cover 4 _ (fun t hf => flushed4_eq V c t hf) cover4

/-- THE ARRAY AT AN INDEX, ON REAL DATA: where the head's query row, keys, mask row and value column are real numbers, the entry is
    the row result the law speaks of. -/
theorem attn_value (V : (c : Dev nD) → (b : Ref sig .tc) → Buf (Elt Ideal) ((c : Thread nD τ).loc b)) (c : Dev nD) (n : Fin 32) (s : Fin 2048) (kk : Fin 64)
    (qr : Fin 64 → ℝ) (Kf : Fin 2048 → Fin 64 → ℝ) (μ : Fin 2048 → ℝ) (Vf : Fin 2048 → ℝ)
    (hq : ∀ k, (V c main_v10 : S32x2048x64.Idx → EReal) (ix3 n s k) = (qr k : EReal))
    (hk : ∀ t k, (V c main_v13 : S32x2048x64.Idx → EReal) (ix3 n t k) = (Kf t k : EReal))
    (hμ : ∀ t, (V c main_arg1 : S2048x2048.Idx → EReal) (ix2 s t) = (μ t : EReal))
    (hv : ∀ t, (V c main_v16 : S32x2048x64.Idx → EReal) (ix3 n t kk) = (Vf t : EReal)) :
    ((Cert.KernelIdeal.Hand.dat1 V c).arrAt 4 cfg1.N : S32x2048x64.Idx → EReal) (ix3 n s kk) = outOf (accE qr Kf μ Vf 4) (lE qr Kf μ 4) := by
  rw [final1_4]
  show rowOut (qRow V c n s) (kAll V c n) (mRow V c s) (vCol V c n kk) = _
  rw [show qRow V c n s = fun k => (qr k : EReal) from funext hq, show kAll V c n = fun t k => (Kf t k : EReal) from funext fun t => funext fun k => hk t k,
    show mRow V c s = fun t => (μ t : EReal) from funext hμ, show vCol V c n kk = fun t => (Vf t : EReal) from funext hv]
  exact rowOut_coe qr Kf μ Vf

end Cert.KernelIdeal.AttnValue

end
-- ==== Proof.LinkAttn.lean ====
/-
  The attention link of the chain. The array the last region reads as the attention output is the attention region's output
  array relaid out by rows; over real inputs its entry at row 4·s + b, column e is the reference's attention output at
  (s, b, e): the region's four running-softmax steps over the key tiles, read at the real query row, key rows, mask row and value
  column that the reference's own entry is made of, equal the reference's softmax-weighted sum at any real shift.
-/
import proofs.«159339_j34729105555459_2_alg».proof.Proof.LinkProj
import proofs.«159339_j34729105555459_2_alg».proof.Proof.RefAttnReal
import proofs.«159339_j34729105555459_2_alg».proof.Proof.AttnLaw
import proofs.«159339_j34729105555459_2_alg».proof.Proof.AttnArrays
import proofs.«159339_j34729105555459_2_alg».proof.Proof.FramesIdeal

set_option maxRecDepth 16384

noncomputable section

namespace Cert.KernelIdeal.Link

open Cert.KernelIdeal Cert.KernelIdeal.Gen Cert.KernelIdeal.Hand Cert.KernelIdeal.HostReads
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- Row 4·s + b, column e of the attention region's output, relaid out by rows, is entry (8·b + e / 64, s, e % 64) of the
    per-head array. -/
theorem rows_at (y : S32x2048x64.Idx → EReal) (s : Fin 2048) (b : Fin 4) (e : Fin 512) :
    shapeCast S8192x512 (transpose S2048x4x8x64 [2, 0, 1, 3] (shapeCast S4x8x2048x64 y shapeCasts_S32x2048x64_S4x8x2048x64)
        transposes_S4x8x2048x64_S2048x4x8x64_2_0_1_3) shapeCasts_S2048x4x8x64_S8192x512
        (ix2 (⟨s.val * 4 + b.val, by have := s.isLt; have := b.isLt; omega⟩ : Fin 8192) e)
      = y (ix3 (⟨b.val * 8 + e.val / 64, by have := b.isLt; have := e.isLt; omega⟩ : Fin 32) s (⟨e.val % 64, by omega⟩ : Fin 64)) := by
  have hs := s.isLt; have hb := b.isLt; have he := e.isLt
  refine (rows_apply y _ e).trans (congrArg y (funext fun a => Fin.ext ?_))
  match a with
  | ⟨0, _⟩ => show ((s.val * 4 + b.val) % 4) * 8 + e.val / 64 = b.val * 8 + e.val / 64; omega
  | ⟨1, _⟩ => show (s.val * 4 + b.val) / 4 = s.val; omega
  | ⟨2, _⟩ => rfl

/-- The attention link: over real inputs, row 4·s + b, column e of the array the last region reads as the attention output is
    the reference's attention output at (s, b, e). The four running-softmax steps over the key tiles equal the reference's
    softmax-weighted sum over all keys, both read at the same real query row, key rows, mask row and value column. -/
theorem u_eq (c : Dev nD)
    (h0 : ∀ i, LibRealEntries.IsReal (m ((c : Thread nD τ).loc main_arg0) i))
    (h1 : ∀ i, LibRealEntries.IsReal (m ((c : Thread nD τ).loc main_arg1) i))
    (h2 : ∀ i, LibRealEntries.IsReal (m ((c : Thread nD τ).loc main_arg2) i))
    (h3 : ∀ i, LibRealEntries.IsReal (m ((c : Thread nD τ).loc main_arg3) i))
    (h4 : ∀ i, LibRealEntries.IsReal (m ((c : Thread nD τ).loc main_arg4) i))
    (s : Fin 2048) (b : Fin 4) (e : Fin 512) :
    (V5 (attnHalf (F := Ideal)) m ρ c main_v20 : S8192x512.Idx → EReal)
        (ix2 (⟨s.val * 4 + b.val, by have := s.isLt; have := b.isLt; omega⟩ : Fin 8192) e)
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix3 s b e) := by
  rw [V5_u, rows_at]
  have hW : (W4 (attnHalf (F := Ideal)) m ρ c (Proc.devRef .tc main_v17) : S32x2048x64.Idx → EReal)
      = ((dat1 (V3 m ρ) c).arrAt 4 cfg1.N : S32x2048x64.Idx → EReal) := W4_arr (attnHalf (F := Ideal)) m ρ c 4
  obtain ⟨qr, Kf, μ, Vf, M, hq, hk, hμ, hv, hval⟩ := RefAttn.ref_attn_real (m ((c : Thread nD τ).loc main_arg0))
    (m ((c : Thread nD τ).loc main_arg1)) (m ((c : Thread nD τ).loc main_arg2)) (m ((c : Thread nD τ).loc main_arg3))
    (m ((c : Thread nD τ).loc main_arg4)) h0 h1 h2 h3 h4 s b e
  refine Eq.trans ?_ ((AttnValue.online_eq_reference qr Kf μ Vf M).trans hval.symm)
  refine (congrFun hW _).trans ?_
  exact AttnValue.attn_value (V3 m ρ) c _ s _ qr Kf μ Vf
    (fun k => (q_eq m ρ c _ s k).trans (hq k))
    (fun t k => (k_eq m ρ c _ t k).trans (hk t k))
    (fun t => (congrFun (V3_mask m ρ c) _).trans (hμ t))
    (fun t => (v_eq m ρ c _ t _).trans (hv t))

end Cert.KernelIdeal.Link

end
-- ==== Proof.FiniteInputs.lean ====
/-
  From the precondition to real numbers. The precondition is the conjunction, over the fourteen argument arrays, of "every
  entry's absolute value is below plus infinity". An extended real whose absolute value max(x, -x) is below plus infinity is
  neither infinity, hence a real number; a conjunction of one-bit words is one exactly when each is; and an "all" over an
  array is one exactly when every entry's word is.
-/
import proofs.«159339_j34729105555459_2_alg».proof.Pre_finite_inputs
import proofs.«159339_j34729105555459_2_alg».proof.Proof.Gen.Pre_finite_inputs
import proofs.«159339_j34729105555459_2_alg».proof.Proof.LibRealEntries
import Idealize.ShloMosaic.Lib.ReduceAll
import Idealize.ShloMosaic.Lib.ValueIdx
import Idealize.ShloMosaic.Lib.Affine
import Idealize.ShloMosaic.PureOps.Ideal.Laws

noncomputable section

namespace Cert.FiniteInputs

open Idealize.ShloMosaic Idealize.ShloMosaic.ValueIdx LibRealEntries Cert.Pre_finite_inputs

/-- An extended real whose absolute value is below plus infinity is a real number. -/
theorem real_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => exfalso; revert h; simp [Ideal.cmp]
  | coe r => exact ⟨r, rfl⟩
  | top => exfalso; revert h; simp [Ideal.cmp]

instance : Subsingleton S_.Idx := ⟨fun a b => funext fun d => d.elim0⟩

/-- One conjunct: an "all" of the element test that is one makes every entry a real. -/
theorem reals_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant S_ .f32 0x7F800000#32))) (constantI S_ 1 1#1) hr hu ix0 = 1#1)
    (i : s.Idx) : IsReal (a i) :=
  real_of_abs_lt (a i) (Host.reduce_andi_all _ _ hr hu ix0 e i)

/-- THE PRECONDITION GIVES REALS: under it every entry of every argument array is a real number. -/
theorem reals_of_pre [hF : Cert.Pre_finite_inputs.Facts] (a0 : FVec Ideal S2048x4x512 .f32) (a1 : FVec Ideal S2048x2048 .f32) (a2 : FVec Ideal S512x512 .f32) (a3 : FVec Ideal S512x512 .f32) (a4 : FVec Ideal S512x512 .f32) (a5 : FVec Ideal S512x512 .f32) (a6 : FVec Ideal S2048x512 .f32) (a7 : FVec Ideal S2048 .f32) (a8 : FVec Ideal S512x2048 .f32) (a9 : FVec Ideal S512 .f32) (a10 : FVec Ideal S512 .f32) (a11 : FVec Ideal S512 .f32) (a12 : FVec Ideal S512 .f32) (a13 : FVec Ideal S512 .f32)
    (h : Cert.Pre_finite_inputs.fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) := by
  have h0 := congrFun h ix0
  dsimp only [fn, fn_part1, fn_part2, fn_part3, fn_part4] at h0
  obtain ⟨h0, e13⟩ := IntOp.andi_eq_one.mp h0
  obtain ⟨h0, e12⟩ := IntOp.andi_eq_one.mp h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => reals_of_all a0 _ _ _ e0 i, fun i => reals_of_all a1 _ _ _ e1 i, fun i => reals_of_all a2 _ _ _ e2 i, fun i => reals_of_all a3 _ _ _ e3 i, fun i => reals_of_all a4 _ _ _ e4 i, fun i => reals_of_all a5 _ _ _ e5 i, fun i => reals_of_all a6 _ _ _ e6 i, fun i => reals_of_all a7 _ _ _ e7 i, fun i => reals_of_all a8 _ _ _ e8 i, fun i => reals_of_all a9 _ _ _ e9 i, fun i => reals_of_all a10 _ _ _ e10 i, fun i => reals_of_all a11 _ _ _ e11 i, fun i => reals_of_all a12 _ _ _ e12 i, fun i => reals_of_all a13 _ _ _ e13 i⟩

end Cert.FiniteInputs

end
-- ==== Proof.FinalValue.lean ====
/-
  The value claim, assembled: under the precondition every argument entry is a real number; then the attention output the
  last region finds is the reference's, and so the kernel's result is the reference's, entry by entry.
-/
import proofs.«159339_j34729105555459_2_alg».proof.Proof.FinalTail
import proofs.«159339_j34729105555459_2_alg».proof.Proof.LinkAttn
import proofs.«159339_j34729105555459_2_alg».proof.Proof.FiniteInputs
import proofs.«159339_j34729105555459_2_alg».proof.Proof.FramesIdeal

noncomputable section

namespace Cert.KernelIdeal.Final

open Cert.KernelIdeal Cert.KernelIdeal.Gen Cert.KernelIdeal.Hand Cert.KernelIdeal.Link
open Idealize.ShloMosaic Idealize.ShloMosaic.TcCoe Idealize.ShloMosaic.ValueIdx
open Idealize.SL.Sem

/-- THE KERNEL'S RESULT IS THE REFERENCE'S, on every core, for any launch memory whose arguments the precondition admits. -/
theorem kernel_eq_reference [Cert.Pre_finite_inputs.Facts] (m : (ℓ : Loc nD τ sig) → Buf (Elt Ideal) ℓ) (ρ : Dev nD → PrngReg) (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) :
    (W7 (attnHalf (F := Ideal)) m ρ c (Proc.devRef .tc main_v28) : S2048x4x512.Idx → EReal)
      = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨h0, h1, h2, h3, h4, -⟩ := Cert.FiniteInputs.reals_of_pre _ _ _ _ _ _ _ _ _ _ _ _ _ _ hpre
  exact tail_eq (attnHalf (F := Ideal)) m ρ c (fun s b e => u_eq m ρ c h0 h1 h2 h3 h4 s b e)

end Cert.KernelIdeal.Final

end
-- ==== Proof.Claims.lean ====
/-
  The five claims. Both kernel programs run to the end and return their fourteen arguments untouched; so does the
  reference, which is host operations only. Over the exact reals, on finite arguments, the kernel's three regions compute
  the reference's transformer block: the projections, the attention with its softmax accumulated tile by tile, and the
  output projection with the two normalizations and the feed-forward network between them.
-/
import proofs.«159339_j34729105555459_2_alg».proof.Defs
import proofs.«159339_j34729105555459_2_alg».proof.Proof.Gen.Pre_finite_inputs
import proofs.«159339_j34729105555459_2_alg».proof.Proof.FramesBits
import proofs.«159339_j34729105555459_2_alg».proof.Proof.FramesIdeal
import proofs.«159339_j34729105555459_2_alg».proof.Proof.RefRun
import proofs.«159339_j34729105555459_2_alg».proof.Proof.RefReadEq
import proofs.«159339_j34729105555459_2_alg».proof.Proof.FinalValue

noncomputable section

open Idealize.ShloMosaic Idealize.ShloMosaic.TcCoe Idealize.SL.Sem

namespace Cert.Proof.Claims

open Cert.KernelIdeal Cert.KernelIdeal.Gen Cert.KernelIdeal.Hand

/-- The word-level program runs to the end and leaves its arguments as launched. -/
theorem frame_k : Cert.frame_Kernel := fun m ρ _ => Cert.Kernel.Hand.frame (Cert.Kernel.Hand.attnHalf (F := Bits)) m ρ

/-- So does the program over the exact reals. -/
theorem frame_ki : Cert.frame_KernelIdeal := fun m ρ _ => Cert.KernelIdeal.Hand.frame (Cert.KernelIdeal.Hand.attnHalf (F := Ideal)) m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the exact reals. -/
theorem preserves : Cert.preserves_Kernel_KernelIdeal := trivial

/-- Over the exact reals, from finite arguments that agree, both programs run, leave their arguments as launched, and end
    with the same result: the kernel's last array, which its run names, is the reference's last stage of the arguments. -/
theorem algebraic : Cert.algebraic_KernelIdeal_ReferenceIdeal := by
  intro m ρ m' ρ' hpre hagree
  refine ⟨fun c => W7 (attnHalf (F := Ideal)) m ρ c (Proc.devRef .tc main_v28), ?_, ?_⟩
  · exact (θ_run _ _ _).mono (fun r h c =>
      ⟨h c _ (mem_uc main_v28 (by decide)),
     (h c _ (mem_uc main_arg0 (by decide))).trans (W7_main_arg0 attnHalf m ρ c),
     (h c _ (mem_uc main_arg1 (by decide))).trans (W7_main_arg1 attnHalf m ρ c),
     (h c _ (mem_uc main_arg2 (by decide))).trans (W7_main_arg2 attnHalf m ρ c),
     (h c _ (mem_uc main_arg3 (by decide))).trans (W7_main_arg3 attnHalf m ρ c),
     (h c _ (mem_uc main_arg4 (by decide))).trans (W7_main_arg4 attnHalf m ρ c),
     (h c _ (mem_uc main_arg5 (by decide))).trans (W7_main_arg5 attnHalf m ρ c),
     (h c _ (mem_uc main_arg6 (by decide))).trans (W7_main_arg6 attnHalf m ρ c),
     (h c _ (mem_uc main_arg7 (by decide))).trans (W7_main_arg7 attnHalf m ρ c),
     (h c _ (mem_uc main_arg8 (by decide))).trans (W7_main_arg8 attnHalf m ρ c),
     (h c _ (mem_uc main_arg9 (by decide))).trans (W7_main_arg9 attnHalf m ρ c),
     (h c _ (mem_uc main_arg10 (by decide))).trans (W7_main_arg10 attnHalf m ρ c),
     (h c _ (mem_uc main_arg11 (by decide))).trans (W7_main_arg11 attnHalf m ρ c),
     (h c _ (mem_uc main_arg12 (by decide))).trans (W7_main_arg12 attnHalf m ρ c),
     (h c _ (mem_uc main_arg13 (by decide))).trans (W7_main_arg13 attnHalf m ρ c)⟩) (run_all (attnHalf (F := Ideal)) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.KernelIdeal.Final.kernel_eq_reference m ρ c (hpre c)).symm

end Cert.Proof.Claims

end
-- ==== Proof.lean ====
/-
  A transformer block computed by three tiled kernels — the query, key and value projections; attention, its softmax
  accumulated over the key tiles; the output projection, two row normalizations and the feed-forward network between them —
  against the same block written with whole-array operations. Both kernel programs and the reference run to the end and
  return their arguments as launched, and over the exact reals, on finite arguments, the kernel's result is the reference's.
-/
import proofs.«159339_j34729105555459_2_alg».proof.Defs
import proofs.«159339_j34729105555459_2_alg».proof.Proof.Gen.Kernel
import proofs.«159339_j34729105555459_2_alg».proof.Proof.Gen.Kernel.Skeleton
import proofs.«159339_j34729105555459_2_alg».proof.Proof.Gen.Kernel.Launch
import proofs.«159339_j34729105555459_2_alg».proof.Proof.Gen.Kernel.Regions
import proofs.«159339_j34729105555459_2_alg».proof.Proof.Gen.Kernel.Points
import proofs.«159339_j34729105555459_2_alg».proof.Proof.Gen.KernelIdeal
import proofs.«159339_j34729105555459_2_alg».proof.Proof.Gen.KernelIdeal.Skeleton
import proofs.«159339_j34729105555459_2_alg».proof.Proof.Gen.KernelIdeal.Launch
import proofs.«159339_j34729105555459_2_alg».proof.Proof.Gen.KernelIdeal.Regions
import proofs.«159339_j34729105555459_2_alg».proof.Proof.Gen.KernelIdeal.Points
import proofs.«159339_j34729105555459_2_alg».proof.Proof.Gen.ReferenceIdeal
import proofs.«159339_j34729105555459_2_alg».proof.Proof.Gen.Pre_finite_inputs
import proofs.«159339_j34729105555459_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
